-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x1600000 : Shape := ⟨2, ![2, 1600000]⟩
abbrev S1600000 : Shape := ⟨1, ![1600000]⟩
abbrev S100x80 : Shape := ⟨2, ![100, 80]⟩
abbrev S80 : Shape := ⟨1, ![80]⟩
abbrev S80x64 : Shape := ⟨2, ![80, 64]⟩
abbrev S64 : Shape := ⟨1, ![64]⟩
abbrev S64x64 : Shape := ⟨2, ![64, 64]⟩
abbrev S64x18 : Shape := ⟨2, ![64, 18]⟩
abbrev S18 : Shape := ⟨1, ![18]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100x80 : S_.BroadcastsInDim S100x80 (![] : Fin 0 → Fin S100x80.rank)
  reducesTo_S100x80_S_d0_1 : S100x80.ReducesTo [0, 1] S_
  bcast_S_S80 : S_.BroadcastsInDim S80 (![] : Fin 0 → Fin S80.rank)
  reducesTo_S80_S_d0 : S80.ReducesTo [0] S_
  bcast_S_S80x64 : S_.BroadcastsInDim S80x64 (![] : Fin 0 → Fin S80x64.rank)
  reducesTo_S80x64_S_d0_1 : S80x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x18 : S_.BroadcastsInDim S64x18 (![] : Fin 0 → Fin S64x18.rank)
  reducesTo_S64x18_S_d0_1 : S64x18.ReducesTo [0, 1] S_
  bcast_S_S18 : S_.BroadcastsInDim S18 (![] : Fin 0 → Fin S18.rank)
  reducesTo_S18_S_d0 : S18.ReducesTo [0] S_

variable [Facts]

def fn_part5 {F : FTy → Type} [FloatOps F] (main_arg19 : FVec F S18 .f32) (main_v83 : IVec S_ 1) (main_v84 : FVec F S64x18 .f32) (main_cst_32 : FVec F S_ .f32) : IVec S_ 1 :=
  let main_v85 : FVec F S64x18 .f32 := broadcastInDim S64x18 ![] bcast_S_S64x18 main_cst_32
  let main_v86 : IVec S64x18 1 := cmpf .olt main_v84 main_v85
  let main_c_33 : IVec S_ 1 := constantI S_ 1 1#1
  let main_v87 : IVec S_ 1 := (fun x v => Host.reduce IntOp.andi x v reducesTo_S64x18_S_d0_1 h_S_) main_v86 main_c_33
  let main_v88 : IVec S_ 1 := andi main_v83 main_v87
  let main_v89 : FVec F S18 .f32 := Host.absf main_arg19
  let main_cst_34 : FVec F S_ .f32 := constant S_ .f32 0x7F800000#32
  let main_v90 : FVec F S18 .f32 := broadcastInDim S18 ![] bcast_S_S18 main_cst_34
  let main_v91 : IVec S18 1 := cmpf .olt main_v89 main_v90
  let main_c_35 : IVec S_ 1 := constantI S_ 1 1#1
  let main_v92 : IVec S_ 1 := (fun x v => Host.reduce IntOp.andi x v reducesTo_S18_S_d0 h_S_) main_v91 main_c_35
  let main_v93 : IVec S_ 1 := andi main_v88 main_v92
  main_v93

def fn_part4 {F : FTy → Type} [FloatOps F] (main_arg15 : FVec F S64x64 .f32) (main_arg16 : FVec F S64 .f32) (main_arg17 : FVec F S64x18 .f32) (main_arg18 : FVec F S64x18 .f32) (main_arg19 : FVec F S18 .f32) (main_v63 : IVec S_ 1) (main_v67 : IVec S_ 1) : IVec S_ 1 :=
  let main_v68 : IVec S_ 1 := andi main_v63 main_v67
  let main_v69 : FVec F S64x64 .f32 := Host.absf main_arg15
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x18 .f32 := Host.absf main_arg17
  let main_cst_30 : FVec F S_ .f32 := constant S_ .f32 0x7F800000#32
  let main_v80 : FVec F S64x18 .f32 := broadcastInDim S64x18 ![] bcast_S_S64x18 main_cst_30
  let main_v81 : IVec S64x18 1 := cmpf .olt main_v79 main_v80
  let main_c_31 : IVec S_ 1 := constantI S_ 1 1#1
  let main_v82 : IVec S_ 1 := (fun x v => Host.reduce IntOp.andi x v reducesTo_S64x18_S_d0_1 h_S_) main_v81 main_c_31
  let main_v83 : IVec S_ 1 := andi main_v78 main_v82
  let main_v84 : FVec F S64x18 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S64x64 .f32) (main_arg13 : FVec F S64 .f32) (main_arg14 : FVec F S64x64 .f32) (main_arg15 : FVec F S64x64 .f32) (main_arg16 : FVec F S64 .f32) (main_arg17 : FVec F S64x18 .f32) (main_arg18 : FVec F S64x18 .f32) (main_arg19 : FVec F S18 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg15 main_arg16 main_arg17 main_arg18 main_arg19 main_v63 main_v67

def fn_part2 {F : FTy → Type} [FloatOps F] (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x18 .f32) (main_arg18 : FVec F S64x18 .f32) (main_arg19 : FVec F S18 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_arg17 main_arg18 main_arg19 main_v48 main_v49 main_v50

def fn_part1 {F : FTy → Type} [FloatOps F] (main_arg5 : FVec F S80x64 .f32) (main_arg6 : FVec F S80x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x18 .f32) (main_arg18 : FVec F S64x18 .f32) (main_arg19 : FVec F S18 .f32) (main_v13 : IVec S_ 1) (main_v16 : IVec S80 1) : IVec S_ 1 :=
  let main_c_5 : IVec S_ 1 := constantI S_ 1 1#1
  let main_v17 : IVec S_ 1 := (fun x v => Host.reduce IntOp.andi x v reducesTo_S80_S_d0 h_S_) main_v16 main_c_5
  let main_v18 : IVec S_ 1 := andi main_v13 main_v17
  let main_v19 : FVec F S80x64 .f32 := Host.absf main_arg5
  let main_cst_6 : FVec F S_ .f32 := constant S_ .f32 0x7F800000#32
  let main_v20 : FVec F S80x64 .f32 := broadcastInDim S80x64 ![] bcast_S_S80x64 main_cst_6
  let main_v21 : IVec S80x64 1 := cmpf .olt main_v19 main_v20
  let main_c_7 : IVec S_ 1 := constantI S_ 1 1#1
  let main_v22 : IVec S_ 1 := (fun x v => Host.reduce IntOp.andi x v reducesTo_S80x64_S_d0_1 h_S_) main_v21 main_c_7
  let main_v23 : IVec S_ 1 := andi main_v18 main_v22
  let main_v24 : FVec F S80x64 .f32 := Host.absf main_arg6
  let main_cst_8 : FVec F S_ .f32 := constant S_ .f32 0x7F800000#32
  let main_v25 : FVec F S80x64 .f32 := broadcastInDim S80x64 ![] bcast_S_S80x64 main_cst_8
  let main_v26 : IVec S80x64 1 := cmpf .olt main_v24 main_v25
  let main_c_9 : IVec S_ 1 := constantI S_ 1 1#1
  let main_v27 : IVec S_ 1 := (fun x v => Host.reduce IntOp.andi x v reducesTo_S80x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x100 .f32) (main_arg1 : IVec S2x1600000 32) (main_arg2 : FVec F S1600000 .f32) (main_arg3 : FVec F S100x80 .f32) (main_arg4 : FVec F S80 .f32) (main_arg5 : FVec F S80x64 .f32) (main_arg6 : FVec F S80x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x18 .f32) (main_arg18 : FVec F S64x18 .f32) (main_arg19 : FVec F S18 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100x80 .f32 := Host.absf main_arg3
  let main_cst_2 : FVec F S_ .f32 := constant S_ .f32 0x7F800000#32
  let main_v10 : FVec F S100x80 .f32 := broadcastInDim S100x80 ![] bcast_S_S100x80 main_cst_2
  let main_v11 : IVec S100x80 1 := cmpf .olt main_v9 main_v10
  let main_c_3 : IVec S_ 1 := constantI S_ 1 1#1
  let main_v12 : IVec S_ 1 := (fun x v => Host.reduce IntOp.andi x v reducesTo_S100x80_S_d0_1 h_S_) main_v11 main_c_3
  let main_v13 : IVec S_ 1 := andi main_v8 main_v12
  let main_v14 : FVec F S80 .f32 := Host.absf main_arg4
  let main_cst_4 : FVec F S_ .f32 := constant S_ .f32 0x7F800000#32
  let main_v15 : FVec F S80 .f32 := broadcastInDim S80 ![] bcast_S_S80 main_cst_4
  let main_v16 : IVec S80 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x100 : Shape := ⟨2, ![100000, 100]⟩
abbrev S2x1600000 : Shape := ⟨2, ![2, 1600000]⟩
abbrev S1600000 : Shape := ⟨1, ![1600000]⟩
abbrev S100x80 : Shape := ⟨2, ![100, 80]⟩
abbrev S80 : Shape := ⟨1, ![80]⟩
abbrev S80x64 : Shape := ⟨2, ![80, 64]⟩
abbrev S64 : Shape := ⟨1, ![64]⟩
abbrev S64x64 : Shape := ⟨2, ![64, 64]⟩
abbrev S64x18 : Shape := ⟨2, ![64, 18]⟩
abbrev S18 : Shape := ⟨1, ![18]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1x80 : Shape := ⟨2, ![1, 80]⟩
abbrev S100000x80 : Shape := ⟨2, ![100000, 80]⟩
abbrev S5000x100 : Shape := ⟨2, ![5000, 100]⟩
abbrev S5000x80 : Shape := ⟨2, ![5000, 80]⟩
abbrev S1600000x80 : Shape := ⟨2, ![1600000, 80]⟩
abbrev S100000x1 : Shape := ⟨2, ![100000, 1]⟩
abbrev S1x64 : Shape := ⟨2, ![1, 64]⟩
abbrev S100000x64 : Shape := ⟨2, ![100000, 64]⟩
abbrev S5000x64 : Shape := ⟨2, ![5000, 64]⟩
abbrev S5000 : Shape := ⟨1, ![5000]⟩
abbrev S5000x1 : Shape := ⟨2, ![5000, 1]⟩
abbrev S1600000x64 : Shape := ⟨2, ![1600000, 64]⟩
abbrev S1x18 : Shape := ⟨2, ![1, 18]⟩
abbrev S100000x18 : Shape := ⟨2, ![100000, 18]⟩
abbrev S5000x18 : Shape := ⟨2, ![5000, 18]⟩

abbrev nBuf : Space → Nat
  | .hbm => 145
  | .vmem => 51
  | .smem => 0
  | _ => 0

abbrev hbmTy0_0 (i : Nat) : BufTy := match i % 128 with
  | 0 => ⟨S100000x100, .f32⟩
  | 1 => ⟨S2x1600000, .i32⟩
  | 2 => ⟨S1600000, .f32⟩
  | 3 => ⟨S100x80, .f32⟩
  | 4 => ⟨S80, .f32⟩
  | 5 => ⟨S80x64, .f32⟩
  | 6 => ⟨S80x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S64x64, .f32⟩
  | 15 => ⟨S64x64, .f32⟩
  | 16 => ⟨S64, .f32⟩
  | 17 => ⟨S64x18, .f32⟩
  | 18 => ⟨S64x18, .f32⟩
  | 19 => ⟨S18, .f32⟩
  | 20 => ⟨S1x1600000, .i32⟩
  | 21 => ⟨S1600000, .i32⟩
  | 22 => ⟨S1x1600000, .i32⟩
  | 23 => ⟨S1600000, .i32⟩
  | 24 => ⟨S_, .f32⟩
  | 25 => ⟨S1600000, .f32⟩
  | 26 => ⟨S_, .f32⟩
  | 27 => ⟨S100000, .f32⟩
  | 28 => ⟨S1600000x1, .i32⟩
  | 29 => ⟨S100000, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S1x80, .f32⟩
  | 37 => ⟨S100000x80, .f32⟩
  | 38 => ⟨S_, .f32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x80, .f32⟩
  | 49 => ⟨S1600000x1, .f32⟩
  | 50 => ⟨S1600000x80, .f32⟩
  | 51 => ⟨S1600000x80, .f32⟩
  | 52 => ⟨S_, .f32⟩
  | 53 => ⟨S100000x80, .f32⟩
  | 54 => ⟨S1600000x1, .i32⟩
  | 55 => ⟨S100000x80, .f32⟩
  | 56 => ⟨S100000x1, .f32⟩
  | 57 => ⟨S100000x80, .f32⟩
  | 58 => ⟨S100000x80, .f32⟩
  | 59 => ⟨S1x64, .f32⟩
  | 60 => ⟨S100000x64, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S1600000x1, .f32⟩
  | 71 => ⟨S1600000x64, .f32⟩
  | 72 => ⟨S1600000x64, .f32⟩
  | 73 => ⟨S_, .f32⟩
  | 74 => ⟨S100000x64, .f32⟩
  | 75 => ⟨S1600000x1, .i32⟩
  | 76 => ⟨S100000x64, .f32⟩
  | 77 => ⟨S100000x1, .f32⟩
  | 78 => ⟨S100000x64, .f32⟩
  | 79 => ⟨S100000x64, .f32⟩
  | 80 => ⟨S1x64, .f32⟩
  | 81 => ⟨S100000x64, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x64, .f32⟩
  | 91 => ⟨S1600000x1, .f32⟩
  | 92 => ⟨S1600000x64, .f32⟩
  | 93 => ⟨S1600000x64, .f32⟩
  | 94 => ⟨S_, .f32⟩
  | 95 => ⟨S100000x64, .f32⟩
  | 96 => ⟨S1600000x1, .i32⟩
  | 97 => ⟨S100000x64, .f32⟩
  | 98 => ⟨S100000x1, .f32⟩
  | 99 => ⟨S100000x64, .f32⟩
  | 100 => ⟨S100000x64, .f32⟩
  | 101 => ⟨S1x64, .f32⟩
  | 102 => ⟨S100000x64, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S1600000x1, .f32⟩
  | 113 => ⟨S1600000x64, .f32⟩
  | 114 => ⟨S1600000x64, .f32⟩
  | 115 => ⟨S_, .f32⟩
  | 116 => ⟨S100000x64, .f32⟩
  | 117 => ⟨S1600000x1, .i32⟩
  | 118 => ⟨S100000x64, .f32⟩
  | 119 => ⟨S100000x1, .f32⟩
  | 120 => ⟨S100000x64, .f32⟩
  | 121 => ⟨S100000x64, .f32⟩
  | 122 => ⟨S1x64, .f32⟩
  | 123 => ⟨S100000x64, .f32⟩
  | 124 => ⟨S_, .i32⟩
  | 125 => ⟨S1600000, .i32⟩
  | 126 => ⟨S1600000, .i1⟩
  | 127 => ⟨S_, .i32⟩
  | _ => ⟨S100000x100, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x64, .f32⟩
  | 5 => ⟨S1600000x1, .f32⟩
  | 6 => ⟨S1600000x64, .f32⟩
  | 7 => ⟨S1600000x64, .f32⟩
  | 8 => ⟨S_, .f32⟩
  | 9 => ⟨S100000x64, .f32⟩
  | 10 => ⟨S1600000x1, .i32⟩
  | 11 => ⟨S100000x64, .f32⟩
  | 12 => ⟨S100000x1, .f32⟩
  | 13 => ⟨S100000x64, .f32⟩
  | 14 => ⟨S100000x64, .f32⟩
  | 15 => ⟨S1x18, .f32⟩
  | 16 => ⟨S100000x18, .f32⟩
  | _ => ⟨S100000x100, .f32⟩

abbrev hbmTy (i : Nat) : BufTy := match i / 128 with
  | 0 => hbmTy0_0 i
  | 1 => hbmTy0_1 i
  | _ => ⟨S100000x100, .f32⟩

abbrev bufTy : (tb : Table) → Fin (tcTables nBuf tb) → BufTy
  | .hbm, ⟨i, _⟩ => hbmTy i
  | .local _ .vmem, ⟨0, _⟩ => ⟨S5000x100, .f32⟩
  | .local _ .vmem, ⟨1, _⟩ => ⟨S5000x100, .f32⟩
  | .local _ .vmem, ⟨2, _⟩ => ⟨S100x80, .f32⟩
  | .local _ .vmem, ⟨3, _⟩ => ⟨S1x80, .f32⟩
  | .local _ .vmem, ⟨4, _⟩ => ⟨S5000x80, .f32⟩
  | .local _ .vmem, ⟨5, _⟩ => ⟨S5000x80, .f32⟩
  | .local _ .vmem, ⟨6, _⟩ => ⟨S5000x80, .f32⟩
  | .local _ .vmem, ⟨7, _⟩ => ⟨S5000x80, .f32⟩
  | .local _ .vmem, ⟨8, _⟩ => ⟨S5000x80, .f32⟩
  | .local _ .vmem, ⟨9, _⟩ => ⟨S5000x80, .f32⟩
  | .local _ .vmem, ⟨10, _⟩ => ⟨S80x64, .f32⟩
  | .local _ .vmem, ⟨11, _⟩ => ⟨S80x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S64x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S64x64, .f32⟩
  | .local _ .vmem, ⟨38, _⟩ => ⟨S64x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S64x18, .f32⟩
  | .local _ .vmem, ⟨47, _⟩ => ⟨S64x18, .f32⟩
  | .local _ .vmem, ⟨48, _⟩ => ⟨S1x18, .f32⟩
  | .local _ .vmem, ⟨49, _⟩ => ⟨S5000x18, .f32⟩
  | .local _ .vmem, ⟨50, _⟩ => ⟨S5000x18, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_c : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_6 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_9 : Ref sig .tc := ⟨.hbm, 82, rfl⟩
abbrev main_v51 : Ref sig .tc := ⟨.hbm, 83, rfl⟩
abbrev main_v52 : Ref sig .tc := ⟨.hbm, 84, rfl⟩
abbrev main_c_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_11 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_12 : Ref sig .tc := ⟨.hbm, 103, rfl⟩
abbrev main_v69 : Ref sig .tc := ⟨.hbm, 104, rfl⟩
abbrev main_v70 : Ref sig .tc := ⟨.hbm, 105, rfl⟩
abbrev main_c_13 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_14 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_15 : Ref sig .tc := ⟨.hbm, 124, rfl⟩
abbrev main_v87 : Ref sig .tc := ⟨.hbm, 125, rfl⟩
abbrev main_v88 : Ref sig .tc := ⟨.hbm, 126, rfl⟩
abbrev main_c_16 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_17 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S80x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S80x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x18 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x18 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x18 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x18 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S80_S1x80 : S80.ShapeCasts S1x80
  inb_S5000x100_S5000x100_0_0 : ∀ a, (![0, 0] : Fin 2 → Nat) a + S5000x100.size a ≤ S5000x100.size a
  h_S5000x100 : 0 < S5000x100.numel
  bitsLt_bf16_f32 : FTy.bits .bf16 < FTy.bits .f32
  inb_S100x80_S100x80_0_0 : ∀ a, (![0, 0] : Fin 2 → Nat) a + S100x80.size a ≤ S100x80.size a
  h_S100x80 : 0 < S100x80.numel
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S5000x80 : S1x80.Broadcasts S5000x80
  inb_S5000x80_S5000x80_0_0 : ∀ a, (![0, 0] : Fin 2 → Nat) a + S5000x80.size a ≤ S5000x80.size a
  h_S5000x80 : 0 < S5000x80.numel
  bcast_S1600000x1_S1600000x80_0_1 : S1600000x1.BroadcastsInDim S1600000x80 (![0, 1] : Fin 2 → Fin S1600000x80.rank)
  bcast_S_S100000x80 : S_.BroadcastsInDim S100000x80 (![] : Fin 0 → Fin S100000x80.rank)
  bcast_S100000_S100000x1_0 : S100000.BroadcastsInDim S100000x1 (![0] : Fin 1 → Fin S100000x1.rank)
  bcast_S100000x1_S100000x80_0_1 : S100000x1.BroadcastsInDim S100000x80 (![0, 1] : Fin 2 → Fin S100000x80.rank)
  shapeCasts_S64_S1x64 : S64.ShapeCasts S1x64
  shapeCasts_S5000x80_S5000x80 : S5000x80.ShapeCasts S5000x80
  inb_S80x64_S80x64_0_0 : ∀ a, (![0, 0] : Fin 2 → Nat) a + S80x64.size a ≤ S80x64.size a
  h_S80x64 : 0 < S80x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S18_S1x18 : S18.ShapeCasts S1x18
  inb_S64x18_S64x18_0_0 : ∀ a, (![0, 0] : Fin 2 → Nat) a + S64x18.size a ≤ S64x18.size a
  h_S64x18 : 0 < S64x18.numel
  inb_S1x18_S1x18_0_0 : ∀ a, (![0, 0] : Fin 2 → Nat) a + S1x18.size a ≤ S1x18.size a
  h_S1x18 : 0 < S1x18.numel
  shapeCasts_S1x18_S1x18 : S1x18.ShapeCasts S1x18
  broadcasts_S1x18_S5000x18 : S1x18.Broadcasts S5000x18
  reduces_S5000x18_S5000 : S5000x18.Reduces [1] S5000
  broadcasts_S5000x1_S5000x18 : S5000x1.Broadcasts S5000x18
  inb_S5000x18_S5000x18_0_0 : ∀ a, (![0, 0] : Fin 2 → Nat) a + S5000x18.size a ≤ S5000x18.size a
  h_S5000x18 : 0 < S5000x18.numel
  scatter_S100000_S1600000x1_S1600000_n_0_0_1_wf : ScatterDims.WF S100000 S1600000x1 S1600000 [] [0] [0] 1
  dot_S5000x100_S100x80_S5000x80_1_0_0_1_n_n_wf : DotDims.WF S5000x100 S100x80 S5000x80 [1] [0] [0] [1] [] []
  gather_S100000x80_S1600000x1_S1600000x80_1_0_n_n_0_1_180_wf : GatherDims.WF S100000x80 S1600000x1 S1600000x80 [1] [0] [] [0] [] 1 ![1, 80]
  scatter_S100000x80_S1600000x1_S1600000x80_1_0_0_1_wf : ScatterDims.WF S100000x80 S1600000x1 S1600000x80 [1] [0] [0] 1
  dot_S5000x80_S80x64_S5000x64_1_0_0_1_n_n_wf : DotDims.WF S5000x80 S80x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x18_S5000x18_1_0_0_1_n_n_wf : DotDims.WF S5000x64 S64x18 S5000x18 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S100000x100.size a
  hwx0_0 : ∀ i : grid0.Coords, EltTy.bits .f32 = 32 ∨ (Rect.block (s := S100000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x80.size a ≤ S100x80.size a
  hwx0_1 : ∀ i : grid0.Coords, EltTy.bits .f32 = 32 ∨ (Rect.block (s := S100x80) S100x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x80.size a ≤ S1x80.size a
  hwx0_2 : ∀ i : grid0.Coords, EltTy.bits .f32 = 32 ∨ (Rect.block (s := S1x80) S1x80.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x80.size a ≤ S100000x80.size a
  hwx0_3 : ∀ i : grid0.Coords, EltTy.bits .f32 = 32 ∨ (Rect.block (s := S100000x80) S5000x80.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x80.size a ≤ S100000x80.size a
  hwx1_0 : ∀ i : grid1.Coords, EltTy.bits .f32 = 32 ∨ (Rect.block (s := S100000x80) S5000x80.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x80.size a ≤ S100000x80.size a
  hwx1_1 : ∀ i : grid1.Coords, EltTy.bits .f32 = 32 ∨ (Rect.block (s := S100000x80) S5000x80.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S80x64.size a ≤ S80x64.size a
  hwx1_2 : ∀ i : grid1.Coords, EltTy.bits .f32 = 32 ∨ (Rect.block (s := S80x64) S80x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S80x64.size a ≤ S80x64.size a
  hwx1_3 : ∀ i : grid1.Coords, EltTy.bits .f32 = 32 ∨ (Rect.block (s := S80x64) S80x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x18.size a ≤ S64x18.size a
  hwx5_2 : ∀ i : grid5.Coords, EltTy.bits .f32 = 32 ∨ (Rect.block (s := S64x18) S64x18.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x18.size a ≤ S64x18.size a
  hwx5_3 : ∀ i : grid5.Coords, EltTy.bits .f32 = 32 ∨ (Rect.block (s := S64x18) S64x18.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x18.size a ≤ S1x18.size a
  hwx5_4 : ∀ i : grid5.Coords, EltTy.bits .f32 = 32 ∨ (Rect.block (s := S1x18) S1x18.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x18.size a ≤ S100000x18.size a
  hwx5_5 : ∀ i : grid5.Coords, EltTy.bits .f32 = 32 ∨ (Rect.block (s := S100000x18) S5000x18.size (cc5_transform_5 i) (hinb5_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x100_S100x80_S5000x80_1_0_0_1_n_n : DotDims S5000x100 S100x80 S5000x80 where
  lhsContracting := [1]
  rhsContracting := [0]
  lhsNonContracting := [0]
  rhsNonContracting := [1]
  lhsBatch := []
  rhsBatch := []
  wf := dot_S5000x100_S100x80_S5000x80_1_0_0_1_n_n_wf
def gather_S100000x80_S1600000x1_S1600000x80_1_0_n_n_0_1_180 : GatherDims S100000x80 S1600000x1 S1600000x80 where
  offsetDims := [1]
  collapsedSliceDims := [0]
  operandBatchingDims := []
  startIndicesBatchingDims := []
  startIndexMap := [0]
  indexVectorDim := 1
  sliceSizes := ![1, 80]
  wf := gather_S100000x80_S1600000x1_S1600000x80_1_0_n_n_0_1_180_wf
def scatter_S100000x80_S1600000x1_S1600000x80_1_0_0_1 : ScatterDims S100000x80 S1600000x1 S1600000x80 where
  updateWindowDims := [1]
  insertedWindowDims := [0]
  scatterDimsToOperandDims := [0]
  indexVectorDim := 1
  wf := scatter_S100000x80_S1600000x1_S1600000x80_1_0_0_1_wf
def dot_S5000x80_S80x64_S5000x64_1_0_0_1_n_n : DotDims S5000x80 S80x64 S5000x64 where
  lhsContracting := [1]
  rhsContracting := [0]
  lhsNonContracting := [0]
  rhsNonContracting := [1]
  lhsBatch := []
  rhsBatch := []
  wf := dot_S5000x80_S80x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x18_S5000x18_1_0_0_1_n_n : DotDims S5000x64 S64x18 S5000x18 where
  lhsContracting := [1]
  rhsContracting := [0]
  lhsNonContracting := [0]
  rhsNonContracting := [1]
  lhsBatch := []
  rhsBatch := []
  wf := dot_S5000x64_S64x18_S5000x18_1_0_0_1_n_n_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S100x80.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x80.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x80.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x80.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S80x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S80x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v84) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v86) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v102) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg17) S64x18.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg18) S64x18.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v103) S1x18.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v104) S5000x18.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x100 : Shape := ⟨2, ![100000, 100]⟩
abbrev S2x1600000 : Shape := ⟨2, ![2, 1600000]⟩
abbrev S1600000 : Shape := ⟨1, ![1600000]⟩
abbrev S100x80 : Shape := ⟨2, ![100, 80]⟩
abbrev S80 : Shape := ⟨1, ![80]⟩
abbrev S80x64 : Shape := ⟨2, ![80, 64]⟩
abbrev S64 : Shape := ⟨1, ![64]⟩
abbrev S64x64 : Shape := ⟨2, ![64, 64]⟩
abbrev S64x18 : Shape := ⟨2, ![64, 18]⟩
abbrev S18 : Shape := ⟨1, ![18]⟩
abbrev S1x1600000 : Shape := ⟨2, ![1, 1600000]⟩
abbrev S100000x80 : Shape := ⟨2, ![100000, 80]⟩
abbrev S1x80 : Shape := ⟨2, ![1, 80]⟩
abbrev S_ : Shape := ⟨0, ![]⟩
abbrev S1600000x1 : Shape := ⟨2, ![1600000, 1]⟩
abbrev S1600000x80 : Shape := ⟨2, ![1600000, 80]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x18 : Shape := ⟨2, ![100000, 18]⟩
abbrev S1x18 : Shape := ⟨2, ![1, 18]⟩

abbrev nBuf : Space → Nat
  | .hbm => 265
  | .vmem => 0
  | .smem => 0
  | _ => 0

abbrev hbmTy0_0 (i : Nat) : BufTy := match i % 128 with
  | 0 => ⟨S100000x100, .f32⟩
  | 1 => ⟨S2x1600000, .i32⟩
  | 2 => ⟨S1600000, .f32⟩
  | 3 => ⟨S100x80, .f32⟩
  | 4 => ⟨S80, .f32⟩
  | 5 => ⟨S80x64, .f32⟩
  | 6 => ⟨S80x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S64x64, .f32⟩
  | 15 => ⟨S64x64, .f32⟩
  | 16 => ⟨S64, .f32⟩
  | 17 => ⟨S64x18, .f32⟩
  | 18 => ⟨S64x18, .f32⟩
  | 19 => ⟨S18, .f32⟩
  | 20 => ⟨S1x1600000, .i32⟩
  | 21 => ⟨S1600000, .i32⟩
  | 22 => ⟨S1x1600000, .i32⟩
  | 23 => ⟨S1600000, .i32⟩
  | 24 => ⟨S100000x80, .f32⟩
  | 25 => ⟨S1x80, .f32⟩
  | 26 => ⟨S100000x80, .f32⟩
  | 27 => ⟨S100000x80, .f32⟩
  | 28 => ⟨S_, .f32⟩
  | 29 => ⟨S100000x80, .f32⟩
  | 30 => ⟨S100000x80, .f32⟩
  | 31 => ⟨S_, .f32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x80, .f32⟩
  | 42 => ⟨S1600000x1, .f32⟩
  | 43 => ⟨S1600000x80, .f32⟩
  | 44 => ⟨S1600000x80, .f32⟩
  | 45 => ⟨S_, .f32⟩
  | 46 => ⟨S100000x80, .f32⟩
  | 47 => ⟨S1600000x1, .i32⟩
  | 48 => ⟨S100000x80, .f32⟩
  | 49 => ⟨S_, .f32⟩
  | 50 => ⟨S1600000, .f32⟩
  | 51 => ⟨S_, .f32⟩
  | 52 => ⟨S100000, .f32⟩
  | 53 => ⟨S1600000x1, .i32⟩
  | 54 => ⟨S100000, .f32⟩
  | 55 => ⟨S_, .f32⟩
  | 56 => ⟨S100000, .f32⟩
  | 57 => ⟨S100000, .f32⟩
  | 58 => ⟨S100000x1, .f32⟩
  | 59 => ⟨S100000x80, .f32⟩
  | 60 => ⟨S100000x80, .f32⟩
  | 61 => ⟨S100000x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S100000x64, .f32⟩
  | 68 => ⟨S_, .f32⟩
  | 69 => ⟨S100000, .f32⟩
  | 70 => ⟨S100000x1, .f32⟩
  | 71 => ⟨S100000x1, .f32⟩
  | 72 => ⟨S_, .f32⟩
  | 73 => ⟨S100000x1, .f32⟩
  | 74 => ⟨S100000x1, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S1600000x1, .f32⟩
  | 90 => ⟨S1600000x64, .f32⟩
  | 91 => ⟨S1600000x64, .f32⟩
  | 92 => ⟨S_, .f32⟩
  | 93 => ⟨S100000x64, .f32⟩
  | 94 => ⟨S1600000x1, .i32⟩
  | 95 => ⟨S100000x64, .f32⟩
  | 96 => ⟨S_, .f32⟩
  | 97 => ⟨S1600000, .f32⟩
  | 98 => ⟨S_, .f32⟩
  | 99 => ⟨S100000, .f32⟩
  | 100 => ⟨S1600000x1, .i32⟩
  | 101 => ⟨S100000, .f32⟩
  | 102 => ⟨S_, .f32⟩
  | 103 => ⟨S100000, .f32⟩
  | 104 => ⟨S100000, .f32⟩
  | 105 => ⟨S100000x1, .f32⟩
  | 106 => ⟨S100000x64, .f32⟩
  | 107 => ⟨S100000x64, .f32⟩
  | 108 => ⟨S100000x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S100000x64, .f32⟩
  | 115 => ⟨S_, .f32⟩
  | 116 => ⟨S100000, .f32⟩
  | 117 => ⟨S100000x1, .f32⟩
  | 118 => ⟨S100000x1, .f32⟩
  | 119 => ⟨S_, .f32⟩
  | 120 => ⟨S100000x1, .f32⟩
  | 121 => ⟨S100000x1, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S_, .i32⟩
  | _ => ⟨S100000x100, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x64, .f32⟩
  | 8 => ⟨S1600000x1, .f32⟩
  | 9 => ⟨S1600000x64, .f32⟩
  | 10 => ⟨S1600000x64, .f32⟩
  | 11 => ⟨S_, .f32⟩
  | 12 => ⟨S100000x64, .f32⟩
  | 13 => ⟨S1600000x1, .i32⟩
  | 14 => ⟨S100000x64, .f32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000x1, .f32⟩
  | 25 => ⟨S100000x64, .f32⟩
  | 26 => ⟨S100000x64, .f32⟩
  | 27 => ⟨S100000x64, .f32⟩
  | 28 => ⟨S100000x64, .f32⟩
  | 29 => ⟨S100000x64, .f32⟩
  | 30 => ⟨S1x64, .f32⟩
  | 31 => ⟨S100000x64, .f32⟩
  | 32 => ⟨S100000x64, .f32⟩
  | 33 => ⟨S100000x64, .f32⟩
  | 34 => ⟨S_, .f32⟩
  | 35 => ⟨S100000, .f32⟩
  | 36 => ⟨S100000x1, .f32⟩
  | 37 => ⟨S100000x1, .f32⟩
  | 38 => ⟨S_, .f32⟩
  | 39 => ⟨S100000x1, .f32⟩
  | 40 => ⟨S100000x1, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S1600000x1, .f32⟩
  | 56 => ⟨S1600000x64, .f32⟩
  | 57 => ⟨S1600000x64, .f32⟩
  | 58 => ⟨S_, .f32⟩
  | 59 => ⟨S100000x64, .f32⟩
  | 60 => ⟨S1600000x1, .i32⟩
  | 61 => ⟨S100000x64, .f32⟩
  | 62 => ⟨S_, .f32⟩
  | 63 => ⟨S1600000, .f32⟩
  | 64 => ⟨S_, .f32⟩
  | 65 => ⟨S100000, .f32⟩
  | 66 => ⟨S1600000x1, .i32⟩
  | 67 => ⟨S100000, .f32⟩
  | 68 => ⟨S_, .f32⟩
  | 69 => ⟨S100000, .f32⟩
  | 70 => ⟨S100000, .f32⟩
  | 71 => ⟨S100000x1, .f32⟩
  | 72 => ⟨S100000x64, .f32⟩
  | 73 => ⟨S100000x64, .f32⟩
  | 74 => ⟨S100000x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S100000x64, .f32⟩
  | 81 => ⟨S_, .f32⟩
  | 82 => ⟨S100000, .f32⟩
  | 83 => ⟨S100000x1, .f32⟩
  | 84 => ⟨S100000x1, .f32⟩
  | 85 => ⟨S_, .f32⟩
  | 86 => ⟨S100000x1, .f32⟩
  | 87 => ⟨S100000x1, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S1600000x1, .f32⟩
  | 103 => ⟨S1600000x64, .f32⟩
  | 104 => ⟨S1600000x64, .f32⟩
  | 105 => ⟨S_, .f32⟩
  | 106 => ⟨S100000x64, .f32⟩
  | 107 => ⟨S1600000x1, .i32⟩
  | 108 => ⟨S100000x64, .f32⟩
  | 109 => ⟨S_, .f32⟩
  | 110 => ⟨S1600000, .f32⟩
  | 111 => ⟨S_, .f32⟩
  | 112 => ⟨S100000, .f32⟩
  | 113 => ⟨S1600000x1, .i32⟩
  | 114 => ⟨S100000, .f32⟩
  | 115 => ⟨S_, .f32⟩
  | 116 => ⟨S100000, .f32⟩
  | 117 => ⟨S100000, .f32⟩
  | 118 => ⟨S100000x1, .f32⟩
  | 119 => ⟨S100000x64, .f32⟩
  | 120 => ⟨S100000x64, .f32⟩
  | 121 => ⟨S100000x18, .f32⟩
  | 122 => ⟨S100000x18, .f32⟩
  | 123 => ⟨S100000x18, .f32⟩
  | 124 => ⟨S1x18, .f32⟩
  | 125 => ⟨S100000x18, .f32⟩
  | 126 => ⟨S100000x18, .f32⟩
  | 127 => ⟨S100000x18, .f32⟩
  | _ => ⟨S100000x100, .f32⟩

abbrev hbmTy0_2 (i : Nat) : BufTy := match i % 128 with
  | 0 => ⟨S_, .f32⟩
  | 1 => ⟨S100000, .f32⟩
  | 2 => ⟨S100000x1, .f32⟩
  | 3 => ⟨S100000x1, .f32⟩
  | 4 => ⟨S_, .f32⟩
  | 5 => ⟨S100000x1, .f32⟩
  | 6 => ⟨S100000x1, .f32⟩
  | 7 => ⟨S100000x18, .f32⟩
  | 8 => ⟨S100000x18, .f32⟩
  | _ => ⟨S100000x100, .f32⟩

abbrev hbmTy (i : Nat) : BufTy := match i / 128 with
  | 0 => hbmTy0_0 i
  | 1 => hbmTy0_1 i
  | 2 => hbmTy0_2 i
  | _ => ⟨S100000x100, .f32⟩

abbrev bufTy : (tb : Table) → Fin (tcTables nBuf tb) → BufTy
  | .hbm, ⟨i, _⟩ => hbmTy i
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_call0_cst : Ref sig .tc := ⟨.hbm, 28, rfl⟩
abbrev main_call0_v0 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_c : Ref sig .tc := ⟨.hbm, 33, rfl⟩
abbrev main_v10 : Ref sig .tc := ⟨.hbm, 34, rfl⟩
abbrev main_v11 : Ref sig .tc := ⟨.hbm, 35, rfl⟩
abbrev main_c_0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_2 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_call1_v0 : Ref sig .tc := ⟨.hbm, 67, rfl⟩
abbrev main_call1_cst : Ref sig .tc := ⟨.hbm, 68, rfl⟩
abbrev main_call1_v1 : Ref sig .tc := ⟨.hbm, 69, rfl⟩
abbrev main_call1_v2 : Ref sig .tc := ⟨.hbm, 70, rfl⟩
abbrev main_v38 : Ref sig .tc := ⟨.hbm, 71, rfl⟩
abbrev main_cst_5 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_call2_cst : Ref sig .tc := ⟨.hbm, 77, rfl⟩
abbrev main_call2_v0 : Ref sig .tc := ⟨.hbm, 78, rfl⟩
abbrev main_v43 : Ref sig .tc := ⟨.hbm, 79, rfl⟩
abbrev main_c_6 : Ref sig .tc := ⟨.hbm, 80, rfl⟩
abbrev main_v44 : Ref sig .tc := ⟨.hbm, 81, rfl⟩
abbrev main_v45 : Ref sig .tc := ⟨.hbm, 82, rfl⟩
abbrev main_c_7 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_8 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_9 : Ref sig .tc := ⟨.hbm, 96, rfl⟩
abbrev main_v57 : Ref sig .tc := ⟨.hbm, 97, rfl⟩
abbrev main_cst_10 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_11 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_call3_v0 : Ref sig .tc := ⟨.hbm, 114, rfl⟩
abbrev main_call3_cst : Ref sig .tc := ⟨.hbm, 115, rfl⟩
abbrev main_call3_v1 : Ref sig .tc := ⟨.hbm, 116, rfl⟩
abbrev main_call3_v2 : Ref sig .tc := ⟨.hbm, 117, rfl⟩
abbrev main_v72 : Ref sig .tc := ⟨.hbm, 118, rfl⟩
abbrev main_cst_12 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_call4_cst : Ref sig .tc := ⟨.hbm, 124, rfl⟩
abbrev main_call4_v0 : Ref sig .tc := ⟨.hbm, 125, rfl⟩
abbrev main_v77 : Ref sig .tc := ⟨.hbm, 126, rfl⟩
abbrev main_c_13 : Ref sig .tc := ⟨.hbm, 127, rfl⟩
abbrev main_v78 : Ref sig .tc := ⟨.hbm, 128, rfl⟩
abbrev main_v79 : Ref sig .tc := ⟨.hbm, 129, rfl⟩
abbrev main_c_14 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_cst_15 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_cst_16 : Ref sig .tc := ⟨.hbm, 143, rfl⟩
abbrev main_v91 : Ref sig .tc := ⟨.hbm, 144, rfl⟩
abbrev main_cst_17 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_18 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_call5_v0 : Ref sig .tc := ⟨.hbm, 161, rfl⟩
abbrev main_call5_cst : Ref sig .tc := ⟨.hbm, 162, rfl⟩
abbrev main_call5_v1 : Ref sig .tc := ⟨.hbm, 163, rfl⟩
abbrev main_call5_v2 : Ref sig .tc := ⟨.hbm, 164, rfl⟩
abbrev main_v106 : Ref sig .tc := ⟨.hbm, 165, rfl⟩
abbrev main_cst_19 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_call6_cst : Ref sig .tc := ⟨.hbm, 171, rfl⟩
abbrev main_call6_v0 : Ref sig .tc := ⟨.hbm, 172, rfl⟩
abbrev main_v111 : Ref sig .tc := ⟨.hbm, 173, rfl⟩
abbrev main_c_20 : Ref sig .tc := ⟨.hbm, 174, rfl⟩
abbrev main_v112 : Ref sig .tc := ⟨.hbm, 175, rfl⟩
abbrev main_v113 : Ref sig .tc := ⟨.hbm, 176, rfl⟩
abbrev main_c_21 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_cst_22 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_cst_23 : Ref sig .tc := ⟨.hbm, 190, rfl⟩
abbrev main_v125 : Ref sig .tc := ⟨.hbm, 191, rfl⟩
abbrev main_cst_24 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_cst_25 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_call7_v0 : Ref sig .tc := ⟨.hbm, 208, rfl⟩
abbrev main_call7_cst : Ref sig .tc := ⟨.hbm, 209, rfl⟩
abbrev main_call7_v1 : Ref sig .tc := ⟨.hbm, 210, rfl⟩
abbrev main_call7_v2 : Ref sig .tc := ⟨.hbm, 211, rfl⟩
abbrev main_v140 : Ref sig .tc := ⟨.hbm, 212, rfl⟩
abbrev main_cst_26 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_call8_cst : Ref sig .tc := ⟨.hbm, 218, rfl⟩
abbrev main_call8_v0 : Ref sig .tc := ⟨.hbm, 219, rfl⟩
abbrev main_v145 : Ref sig .tc := ⟨.hbm, 220, rfl⟩
abbrev main_c_27 : Ref sig .tc := ⟨.hbm, 221, rfl⟩
abbrev main_v146 : Ref sig .tc := ⟨.hbm, 222, rfl⟩
abbrev main_v147 : Ref sig .tc := ⟨.hbm, 223, rfl⟩
abbrev main_c_28 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_cst_29 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_cst_30 : Ref sig .tc := ⟨.hbm, 237, rfl⟩
abbrev main_v159 : Ref sig .tc := ⟨.hbm, 238, rfl⟩
abbrev main_cst_31 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_cst_32 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_call9_v0 : Ref sig .tc := ⟨.hbm, 255, rfl⟩
abbrev main_call9_cst : Ref sig .tc := ⟨.hbm, 256, rfl⟩
abbrev main_call9_v1 : Ref sig .tc := ⟨.hbm, 257, rfl⟩
abbrev main_call9_v2 : Ref sig .tc := ⟨.hbm, 258, rfl⟩
abbrev main_v174 : Ref sig .tc := ⟨.hbm, 259, rfl⟩
abbrev main_cst_33 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S80_S1x80_1 : S80.BroadcastsInDim S1x80 (![1] : Fin 1 → Fin S1x80.rank)
  bcast_S1x80_S100000x80_0_1 : S1x80.BroadcastsInDim S100000x80 (![0, 1] : Fin 2 → Fin S100000x80.rank)
  bcast_S_S100000x80 : S_.BroadcastsInDim S100000x80 (![] : Fin 0 → Fin S100000x80.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x80_0_1 : S1600000x1.BroadcastsInDim S1600000x80 (![0, 1] : Fin 2 → Fin S1600000x80.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x80_0_1 : S100000x1.BroadcastsInDim S100000x80 (![0, 1] : Fin 2 → Fin S100000x80.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  bcast_S18_S1x18_1 : S18.BroadcastsInDim S1x18 (![1] : Fin 1 → Fin S1x18.rank)
  bcast_S1x18_S100000x18_0_1 : S1x18.BroadcastsInDim S100000x18 (![0, 1] : Fin 2 → Fin S100000x18.rank)
  reducesTo_S100000x18_S100000_d1 : S100000x18.ReducesTo [1] S100000
  bcast_S100000x1_S100000x18_0_1 : S100000x1.BroadcastsInDim S100000x18 (![0, 1] : Fin 2 → Fin S100000x18.rank)
  dot_S100000x100_S100x80_S100000x80_1_0_0_1_n_n_wf : DotDims.WF S100000x100 S100x80 S100000x80 [1] [0] [0] [1] [] []
  gather_S100000x80_S1600000x1_S1600000x80_1_0_n_n_0_1_180_wf : GatherDims.WF S100000x80 S1600000x1 S1600000x80 [1] [0] [] [0] [] 1 ![1, 80]
  scatter_S100000x80_S1600000x1_S1600000x80_1_0_0_1_wf : ScatterDims.WF S100000x80 S1600000x1 S1600000x80 [1] [0] [0] 1
  scatter_S100000_S1600000x1_S1600000_n_0_0_1_wf : ScatterDims.WF S100000 S1600000x1 S1600000 [] [0] [0] 1
  dot_S100000x80_S80x64_S100000x64_1_0_0_1_n_n_wf : DotDims.WF S100000x80 S80x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x18_S100000x18_1_0_0_1_n_n_wf : DotDims.WF S100000x64 S64x18 S100000x18 [1] [0] [0] [1] [] []

variable [Facts₀]

def dot_S100000x100_S100x80_S100000x80_1_0_0_1_n_n : DotDims S100000x100 S100x80 S100000x80 where
  lhsContracting := [1]
  rhsContracting := [0]
  lhsNonContracting := [0]
  rhsNonContracting := [1]
  lhsBatch := []
  rhsBatch := []
  wf := dot_S100000x100_S100x80_S100000x80_1_0_0_1_n_n_wf
def gather_S100000x80_S1600000x1_S1600000x80_1_0_n_n_0_1_180 : GatherDims S100000x80 S1600000x1 S1600000x80 where
  offsetDims := [1]
  collapsedSliceDims := [0]
  operandBatchingDims := []
  startIndicesBatchingDims := []
  startIndexMap := [0]
  indexVectorDim := 1
  sliceSizes := ![1, 80]
  wf := gather_S100000x80_S1600000x1_S1600000x80_1_0_n_n_0_1_180_wf
def scatter_S100000x80_S1600000x1_S1600000x80_1_0_0_1 : ScatterDims S100000x80 S1600000x1 S1600000x80 where
  updateWindowDims := [1]
  insertedWindowDims := [0]
  scatterDimsToOperandDims := [0]
  indexVectorDim := 1
  wf := scatter_S100000x80_S1600000x1_S1600000x80_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x80_S80x64_S100000x64_1_0_0_1_n_n : DotDims S100000x80 S80x64 S100000x64 where
  lhsContracting := [1]
  rhsContracting := [0]
  lhsNonContracting := [0]
  rhsNonContracting := [1]
  lhsBatch := []
  rhsBatch := []
  wf := dot_S100000x80_S80x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x18_S100000x18_1_0_0_1_n_n : DotDims S100000x64 S64x18 S100000x18 where
  lhsContracting := [1]
  rhsContracting := [0]
  lhsNonContracting := [0]
  rhsNonContracting := [1]
  lhsBatch := []
  rhsBatch := []
  wf := dot_S100000x64_S64x18_S100000x18_1_0_0_1_n_n_wf

class Facts : Prop extends Facts₀ where

variable [Facts]
-- ==== Proof.KernelRun.lean ====
/-
  The idealized kernel's run with its result named.

  @main is twelve segments: six stretches of host operations, each followed by a tiled region.  At every segment
  boundary the contents of every buffer are a known function of the launch memory: a stretch applies its operations
  in order, a region leaves each of its arrays at what its blocks' write-backs fold to and every other buffer alone.
  Every weakly fair execution terminates with every buffer at the last boundary's contents; in particular the result
  buffer holds the last boundary's contents of the sixth region's output array, and each argument its launch contents.
-/
import proofs.«105689_j90512140795978_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the final boundary's
    contents and the argument arrays as launched. -/
theorem run : θ_run defs (onTc (τ := τ) (main (F := F))) ⟨m, fun _ => 0, ρ⟩ (fun r => ∀ c : Dev nD,
      r.2.mem ((c.tc : Thread nD τ).loc main_v104) = W12 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v104 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c)⟩)

end Cert.KernelIdeal.RunValue

end
-- ==== Proof.KernelKeep.lean ====
/-
  Which buffers each segment of the idealized kernel's @main leaves alone.

  A stretch of host operations writes exactly the result buffers of its operations, so any other buffer holds after
  the stretch what it held before (`keep_hostK`, for any contents before).  A tiled region writes only its output
  array; its input arrays are read, and every other buffer is untouched.  From these: the buffers that later
  segments still read — the arguments, the two index vectors cut from the edge list, the reciprocal degrees and the
  vector of ones — hold at every later boundary what they held when they were produced.
-/
import proofs.«105689_j90512140795978_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

/-! ## The buffers each stretch writes -/

/-- The result buffers of stretch 0's operations. -/
abbrev written0 : List (Ref sig .tc) := [main_v0, main_v1, main_v2, main_v3, main_cst, main_v4, main_cst_0, main_v5, main_v6, main_v7, main_cst_1, main_v8, main_v9, main_cst_2, main_v10, main_v11, main_v12]

/-- A buffer stretch 0 does not write holds after it what it held before. -/
theorem keep_host0 (W : Valuation τ sig (Elt F)) (b : Ref sig .tc) (hb : ∀ r ∈ written0, b ≠ r) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The result buffers of stretch 1's operations. -/
abbrev written1 : List (Ref sig .tc) := [main_cst_3, main_v14, main_c, main_v15, main_v16, main_c_4, main_v17, main_v18, main_v19, main_v20, main_v21, main_v22, main_v23, main_v24, main_cst_5, main_v25, main_v26, main_v27, main_v28, main_v29, main_v30, main_v31]

/-- A buffer stretch 1 does not write holds after it what it held before. -/
theorem keep_host1 (W : Valuation τ sig (Elt F)) (b : Ref sig .tc) (hb : ∀ r ∈ written1, b ≠ r) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The result buffers of stretch 2's operations. -/
abbrev written2 : List (Ref sig .tc) := [main_c_6, main_v33, main_v34, main_c_7, main_v35, main_v36, main_v37, main_v38, main_v39, main_v40, main_v41, main_v42, main_cst_8, main_v43, main_v44, main_v45, main_v46, main_v47, main_v48, main_v49]

/-- A buffer stretch 2 does not write holds after it what it held before. -/
theorem keep_host2 (W : Valuation τ sig (Elt F)) (b : Ref sig .tc) (hb : ∀ r ∈ written2, b ≠ r) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The result buffers of stretch 3's operations. -/
abbrev written3 : List (Ref sig .tc) := [main_c_9, main_v51, main_v52, main_c_10, main_v53, main_v54, main_v55, main_v56, main_v57, main_v58, main_v59, main_v60, main_cst_11, main_v61, main_v62, main_v63, main_v64, main_v65, main_v66, main_v67]

/-- A buffer stretch 3 does not write holds after it what it held before. -/
theorem keep_host3 (W : Valuation τ sig (Elt F)) (b : Ref sig .tc) (hb : ∀ r ∈ written3, b ≠ r) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The result buffers of stretch 4's operations. -/
abbrev written4 : List (Ref sig .tc) := [main_c_12, main_v69, main_v70, main_c_13, main_v71, main_v72, main_v73, main_v74, main_v75, main_v76, main_v77, main_v78, main_cst_14, main_v79, main_v80, main_v81, main_v82, main_v83, main_v84, main_v85]

/-- A buffer stretch 4 does not write holds after it what it held before. -/
theorem keep_host4 (W : Valuation τ sig (Elt F)) (b : Ref sig .tc) (hb : ∀ r ∈ written4, b ≠ r) :
    StableHlo.after (hostOps4 (F := F)) W (Proc.devRef .tc b) = W (Proc.devRef .tc b) :=
  StableHlo.after_of_forall_not_mem (b := Proc.devRef .tc b) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The result buffers of stretch 5's operations. -/
abbrev written5 : List (Ref sig .tc) := [main_c_15, main_v87, main_v88, main_c_16, main_v89, main_v90, main_v91, main_v92, main_v93, main_v94, main_v95, main_v96, main_cst_17, main_v97, main_v98, main_v99, main_v100, main_v101, main_v102, main_v103]

/-- A buffer stretch 5 does not write holds after it what it held before. -/
theorem keep_host5 (W : Valuation τ sig (Elt F)) (b : Ref sig .tc) (hb : ∀ r ∈ written5, b ≠ r) :
    StableHlo.after (hostOps5 (F := F)) W (Proc.devRef .tc b) = W (Proc.devRef .tc b) :=
  StableHlo.after_of_forall_not_mem (b := Proc.devRef .tc b) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-! ## The arguments: unwritten, so at every boundary as launched -/

variable (m : (ℓ : Loc nD τ sig) → Buf (Elt F) ℓ) (ρ : Dev nD → PrngReg) (c : Dev nD)

/-- The arguments still read at or after boundary 1. -/
abbrev args1 : List (Ref sig .tc) := [main_arg0, main_arg2, main_arg3, main_arg5, main_arg6, main_arg7, main_arg8, main_arg9, main_arg10, main_arg11, main_arg12, main_arg13, main_arg14, main_arg15, main_arg16, main_arg17, main_arg18, main_arg19]
theorem args_1 : ∀ b ∈ args1, W1 m ρ c (Proc.devRef .tc b) = m ((c : Thread nD τ).loc b) :=
  fun b hb => (keep_host0 (W0 m ρ c) b ((by decide : ∀ b ∈ args1, ∀ r ∈ written0, b ≠ r) b hb)).trans rfl

/-- The arguments still read at or after boundary 2. -/
abbrev args2 : List (Ref sig .tc) := [main_arg2, main_arg5, main_arg6, main_arg7, main_arg8, main_arg9, main_arg10, main_arg11, main_arg12, main_arg13, main_arg14, main_arg15, main_arg16, main_arg17, main_arg18, main_arg19]
theorem args_2 : ∀ b ∈ args2, W2 m ρ c (Proc.devRef .tc b) = m ((c : Thread nD τ).loc b) :=
  fun b hb => (W2_of_ne m ρ c b ((by decide : ∀ b ∈ args2, ∀ w, Pipeline.arrRef spec0 w ≠ b) b hb)).trans (args_1 m ρ c b ((by decide : ∀ b ∈ args2, b ∈ args1) b hb))

/-- The arguments still read at or after boundary 3. -/
abbrev args3 : List (Ref sig .tc) := [main_arg2, main_arg5, main_arg6, main_arg8, main_arg9, main_arg10, main_arg11, main_arg12, main_arg13, main_arg14, main_arg15, main_arg16, main_arg17, main_arg18, main_arg19]
theorem args_3 : ∀ b ∈ args3, W3 m ρ c (Proc.devRef .tc b) = m ((c : Thread nD τ).loc b) :=
  fun b hb => (keep_host1 (W2 m ρ c) b ((by decide : ∀ b ∈ args3, ∀ r ∈ written1, b ≠ r) b hb)).trans (args_2 m ρ c b ((by decide : ∀ b ∈ args3, b ∈ args2) b hb))

/-- The arguments still read at or after boundary 4. -/
abbrev args4 : List (Ref sig .tc) := [main_arg2, main_arg8, main_arg9, main_arg10, main_arg11, main_arg12, main_arg13, main_arg14, main_arg15, main_arg16, main_arg17, main_arg18, main_arg19]
theorem args_4 : ∀ b ∈ args4, W4 m ρ c (Proc.devRef .tc b) = m ((c : Thread nD τ).loc b) :=
  fun b hb => (W4_of_ne m ρ c b ((by decide : ∀ b ∈ args4, ∀ w, Pipeline.arrRef spec1 w ≠ b) b hb)).trans (args_3 m ρ c b ((by decide : ∀ b ∈ args4, b ∈ args3) b hb))

/-- The arguments still read at or after boundary 5. -/
abbrev args5 : List (Ref sig .tc) := [main_arg2, main_arg8, main_arg9, main_arg11, main_arg12, main_arg13, main_arg14, main_arg15, main_arg16, main_arg17, main_arg18, main_arg19]
theorem args_5 : ∀ b ∈ args5, W5 m ρ c (Proc.devRef .tc b) = m ((c : Thread nD τ).loc b) :=
  fun b hb => (keep_host2 (W4 m ρ c) b ((by decide : ∀ b ∈ args5, ∀ r ∈ written2, b ≠ r) b hb)).trans (args_4 m ρ c b ((by decide : ∀ b ∈ args5, b ∈ args4) b hb))

/-- The arguments still read at or after boundary 6. -/
abbrev args6 : List (Ref sig .tc) := [main_arg2, main_arg11, main_arg12, main_arg13, main_arg14, main_arg15, main_arg16, main_arg17, main_arg18, main_arg19]
theorem args_6 : ∀ b ∈ args6, W6 m ρ c (Proc.devRef .tc b) = m ((c : Thread nD τ).loc b) :=
  fun b hb => (W6_of_ne m ρ c b ((by decide : ∀ b ∈ args6, ∀ w, Pipeline.arrRef spec2 w ≠ b) b hb)).trans (args_5 m ρ c b ((by decide : ∀ b ∈ args6, b ∈ args5) b hb))

/-- The arguments still read at or after boundary 7. -/
abbrev args7 : List (Ref sig .tc) := [main_arg2, main_arg11, main_arg12, main_arg14, main_arg15, main_arg16, main_arg17, main_arg18, main_arg19]
theorem args_7 : ∀ b ∈ args7, W7 m ρ c (Proc.devRef .tc b) = m ((c : Thread nD τ).loc b) :=
  fun b hb => (keep_host3 (W6 m ρ c) b ((by decide : ∀ b ∈ args7, ∀ r ∈ written3, b ≠ r) b hb)).trans (args_6 m ρ c b ((by decide : ∀ b ∈ args7, b ∈ args6) b hb))

/-- The arguments still read at or after boundary 8. -/
abbrev args8 : List (Ref sig .tc) := [main_arg2, main_arg14, main_arg15, main_arg16, main_arg17, main_arg18, main_arg19]
theorem args_8 : ∀ b ∈ args8, W8 m ρ c (Proc.devRef .tc b) = m ((c : Thread nD τ).loc b) :=
  fun b hb => (W8_of_ne m ρ c b ((by decide : ∀ b ∈ args8, ∀ w, Pipeline.arrRef spec3 w ≠ b) b hb)).trans (args_7 m ρ c b ((by decide : ∀ b ∈ args8, b ∈ args7) b hb))

/-- The arguments still read at or after boundary 9. -/
abbrev args9 : List (Ref sig .tc) := [main_arg14, main_arg15, main_arg17, main_arg18, main_arg19]
theorem args_9 : ∀ b ∈ args9, W9 m ρ c (Proc.devRef .tc b) = m ((c : Thread nD τ).loc b) :=
  fun b hb => (keep_host4 (W8 m ρ c) b ((by decide : ∀ b ∈ args9, ∀ r ∈ written4, b ≠ r) b hb)).trans (args_8 m ρ c b ((by decide : ∀ b ∈ args9, b ∈ args8) b hb))

/-- The arguments still read at or after boundary 10. -/
abbrev args10 : List (Ref sig .tc) := [main_arg17, main_arg18, main_arg19]
theorem args_10 : ∀ b ∈ args10, W10 m ρ c (Proc.devRef .tc b) = m ((c : Thread nD τ).loc b) :=
  fun b hb => (W10_of_ne m ρ c b ((by decide : ∀ b ∈ args10, ∀ w, Pipeline.arrRef spec4 w ≠ b) b hb)).trans (args_9 m ρ c b ((by decide : ∀ b ∈ args10, b ∈ args9) b hb))

/-- The arguments still read at or after boundary 11. -/
abbrev args11 : List (Ref sig .tc) := [main_arg17, main_arg18]
theorem args_11 : ∀ b ∈ args11, W11 m ρ c (Proc.devRef .tc b) = m ((c : Thread nD τ).loc b) :=
  fun b hb => (keep_host5 (W10 m ρ c) b ((by decide : ∀ b ∈ args11, ∀ r ∈ written5, b ≠ r) b hb)).trans (args_10 m ρ c b ((by decide : ∀ b ∈ args11, b ∈ args10) b hb))

/-! ## The index vectors and the reciprocal degrees: written by stretch 0 only -/

/-- The two rows of the edge list and the reciprocal degrees. -/
abbrev idxRefs : List (Ref sig .tc) := [main_v1, main_v3, main_v11]

theorem idx_2 : ∀ b ∈ idxRefs, W2 m ρ c (Proc.devRef .tc b) = W1 m ρ c (Proc.devRef .tc b) :=
  fun b hb => (W2_of_ne m ρ c b ((by decide : ∀ b ∈ idxRefs, ∀ w, Pipeline.arrRef spec0 w ≠ b) b hb)).trans rfl
theorem idx_3 : ∀ b ∈ idxRefs, W3 m ρ c (Proc.devRef .tc b) = W1 m ρ c (Proc.devRef .tc b) :=
  fun b hb => (keep_host1 (W2 m ρ c) b ((by decide : ∀ b ∈ idxRefs, ∀ r ∈ written1, b ≠ r) b hb)).trans (idx_2 m ρ c b hb)
theorem idx_4 : ∀ b ∈ idxRefs, W4 m ρ c (Proc.devRef .tc b) = W1 m ρ c (Proc.devRef .tc b) :=
  fun b hb => (W4_of_ne m ρ c b ((by decide : ∀ b ∈ idxRefs, ∀ w, Pipeline.arrRef spec1 w ≠ b) b hb)).trans (idx_3 m ρ c b hb)
theorem idx_5 : ∀ b ∈ idxRefs, W5 m ρ c (Proc.devRef .tc b) = W1 m ρ c (Proc.devRef .tc b) :=
  fun b hb => (keep_host2 (W4 m ρ c) b ((by decide : ∀ b ∈ idxRefs, ∀ r ∈ written2, b ≠ r) b hb)).trans (idx_4 m ρ c b hb)
theorem idx_6 : ∀ b ∈ idxRefs, W6 m ρ c (Proc.devRef .tc b) = W1 m ρ c (Proc.devRef .tc b) :=
  fun b hb => (W6_of_ne m ρ c b ((by decide : ∀ b ∈ idxRefs, ∀ w, Pipeline.arrRef spec2 w ≠ b) b hb)).trans (idx_5 m ρ c b hb)
theorem idx_7 : ∀ b ∈ idxRefs, W7 m ρ c (Proc.devRef .tc b) = W1 m ρ c (Proc.devRef .tc b) :=
  fun b hb => (keep_host3 (W6 m ρ c) b ((by decide : ∀ b ∈ idxRefs, ∀ r ∈ written3, b ≠ r) b hb)).trans (idx_6 m ρ c b hb)
theorem idx_8 : ∀ b ∈ idxRefs, W8 m ρ c (Proc.devRef .tc b) = W1 m ρ c (Proc.devRef .tc b) :=
  fun b hb => (W8_of_ne m ρ c b ((by decide : ∀ b ∈ idxRefs, ∀ w, Pipeline.arrRef spec3 w ≠ b) b hb)).trans (idx_7 m ρ c b hb)
theorem idx_9 : ∀ b ∈ idxRefs, W9 m ρ c (Proc.devRef .tc b) = W1 m ρ c (Proc.devRef .tc b) :=
  fun b hb => (keep_host4 (W8 m ρ c) b ((by decide : ∀ b ∈ idxRefs, ∀ r ∈ written4, b ≠ r) b hb)).trans (idx_8 m ρ c b hb)
theorem idx_10 : ∀ b ∈ idxRefs, W10 m ρ c (Proc.devRef .tc b) = W1 m ρ c (Proc.devRef .tc b) :=
  fun b hb => (W10_of_ne m ρ c b ((by decide : ∀ b ∈ idxRefs, ∀ w, Pipeline.arrRef spec4 w ≠ b) b hb)).trans (idx_9 m ρ c b hb)

/-! ## The vector of ones: written by stretch 1 only -/

theorem ones_4 : W4 m ρ c (Proc.devRef .tc main_v14) = W3 m ρ c (Proc.devRef .tc main_v14) :=
  (W4_of_ne m ρ c main_v14 (by decide)).trans rfl
theorem ones_5 : W5 m ρ c (Proc.devRef .tc main_v14) = W3 m ρ c (Proc.devRef .tc main_v14) :=
  (keep_host2 (W4 m ρ c) main_v14 (by decide)).trans (ones_4 m ρ c)
theorem ones_6 : W6 m ρ c (Proc.devRef .tc main_v14) = W3 m ρ c (Proc.devRef .tc main_v14) :=
  (W6_of_ne m ρ c main_v14 (by decide)).trans (ones_5 m ρ c)
theorem ones_7 : W7 m ρ c (Proc.devRef .tc main_v14) = W3 m ρ c (Proc.devRef .tc main_v14) :=
  (keep_host3 (W6 m ρ c) main_v14 (by decide)).trans (ones_6 m ρ c)
theorem ones_8 : W8 m ρ c (Proc.devRef .tc main_v14) = W3 m ρ c (Proc.devRef .tc main_v14) :=
  (W8_of_ne m ρ c main_v14 (by decide)).trans (ones_7 m ρ c)
theorem ones_9 : W9 m ρ c (Proc.devRef .tc main_v14) = W3 m ρ c (Proc.devRef .tc main_v14) :=
  (keep_host4 (W8 m ρ c) main_v14 (by decide)).trans (ones_8 m ρ c)
theorem ones_10 : W10 m ρ c (Proc.devRef .tc main_v14) = W3 m ρ c (Proc.devRef .tc main_v14) :=
  (W10_of_ne m ρ c main_v14 (by decide)).trans (ones_9 m ρ c)

end Cert.KernelIdeal.Keep

end
-- ==== Proof.KernelStretch.lean ====
/-
  What each stretch of host operations of the idealized kernel's @main computes, as functions of the buffers it reads.

  * Stretch 0 cuts the edge list into its two rows (source and destination node of every edge), counts for every node
    the edges arriving at it, and takes the reciprocal of that count clamped below by one; it also lays the
    embedding's bias out as a one-row array.
  * Each later stretch forms a layer's aggregated input: for every edge the source node's row of the previous layer's
    output (row numbers below zero counted from the end), times the edge's weight; these rows summed into the
    destination node's row; every row of the sum times the node's reciprocal degree.  It also lays the layer's bias
    out as a one-row array.
  The statements hold for ANY contents `W` before the stretch.
-/
import proofs.«105689_j90512140795978_1_alg».proof.Proof.Gen.KernelIdeal.Launch
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.ShloMosaic.StableHlo Idealize.SL.Sem

variable {F : FTy → Type} [FloatOps F]

/-! ## The pieces -/

/-- Row `r` of the edge list as a vector. -/
def edgeRow0 (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000
def edgeRow1 (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The number of edges arriving at each node, as a float. -/
def degree (dst : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- One over the degree clamped below by one. -/
def recipDegree (dst : (⟨S1600000, .i32⟩ : BufTy).Contents (Elt F)) : (⟨S100000, .f32⟩ : BufTy).Contents (Elt F) :=
  Host.divf (broadcastInDim S100000 ![] bcast_S_S100000 (constant S_ .f32 0x3F800000#32))
    (maximumf (degree dst) (broadcastInDim S100000 ![] bcast_S_S100000 (constant S_ .f32 0x3F800000#32)))

/-- Row numbers with the negative ones counted from the end. -/
def wrapRows (src : (⟨S1600000, .i32⟩ : BufTy).Contents (Elt F)) : (⟨S1600000, .i32⟩ : BufTy).Contents (Elt F) :=
  select (cmpi .slt src (broadcastInDim S1600000 ![] bcast_S_S1600000 (constantI S_ 32 0#32)))
    (addi src (broadcastInDim S1600000 ![] bcast_S_S1600000 (constantI S_ 32 100000#32))) src

/-- The vector of ones, one per edge. -/
def onesE : (⟨S1600000, .f32⟩ : BufTy).Contents (Elt F) := broadcastInDim S1600000 ![] bcast_S_S1600000 (constant S_ .f32 0x3F800000#32)

/-- Weighted rows of the sources summed into the destinations; 80 features. -/
def nbrSum80 (h : (⟨S100000x80, .f32⟩ : BufTy).Contents (Elt F)) (src dst : (⟨S1600000, .i32⟩ : BufTy).Contents (Elt F)) (w : (⟨S1600000, .f32⟩ : BufTy).Contents (Elt F)) : (⟨S100000x80, .f32⟩ : BufTy).Contents (Elt F) :=
  Host.scatterAdd scatter_S100000x80_S1600000x1_S1600000x80_1_0_0_1
    (broadcastInDim S100000x80 ![] bcast_S_S100000x80 (constant S_ .f32 0x00000000#32))
    (broadcastInDim S1600000x1 ![0] bcast_S1600000_S1600000x1_0 dst)
    (mulf (Host.gather gather_S100000x80_S1600000x1_S1600000x80_1_0_n_n_0_1_180 h
        (broadcastInDim S1600000x1 ![0] bcast_S1600000_S1600000x1_0 (wrapRows src)))
      (broadcastInDim S1600000x80 ![0, 1] bcast_S1600000x1_S1600000x80_0_1 (broadcastInDim S1600000x1 ![0] bcast_S1600000_S1600000x1_0 w)))

/-- The same; 64 features. -/
def nbrSum64 (h : (⟨S100000x64, .f32⟩ : BufTy).Contents (Elt F)) (src dst : (⟨S1600000, .i32⟩ : BufTy).Contents (Elt F)) (w : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf (Host.gather gather_S100000x64_S1600000x1_S1600000x64_1_0_n_n_0_1_164 h
        (broadcastInDim S1600000x1 ![0] bcast_S1600000_S1600000x1_0 (wrapRows src)))
      (broadcastInDim S1600000x64 ![0, 1] bcast_S1600000x1_S1600000x64_0_1 (broadcastInDim S1600000x1 ![0] bcast_S1600000_S1600000x1_0 w)))

/-- Every row times the node's factor; 80 features. -/
def scaleRows80 (s : (⟨S100000x80, .f32⟩ : BufTy).Contents (Elt F)) (r : (⟨S100000, .f32⟩ : BufTy).Contents (Elt F)) : (⟨S100000x80, .f32⟩ : BufTy).Contents (Elt F) :=
  mulf s (broadcastInDim S100000x80 ![0, 1] bcast_S100000x1_S100000x80_0_1 (broadcastInDim S100000x1 ![0] bcast_S100000_S100000x1_0 r))
/-- The same; 64 features. -/
def scaleRows64 (s : (⟨S100000x64, .f32⟩ : BufTy).Contents (Elt F)) (r : (⟨S100000, .f32⟩ : BufTy).Contents (Elt F)) : (⟨S100000x64, .f32⟩ : BufTy).Contents (Elt F) :=
  mulf s (broadcastInDim S100000x64 ![0, 1] bcast_S100000x1_S100000x64_0_1 (broadcastInDim S100000x1 ![0] bcast_S100000_S100000x1_0 r))

variable (W : Valuation τ sig (Elt F))

/-! ## Stretch 0 -/

theorem host0_src : after (hostOps0 (F := F)) W (Proc.devRef .tc main_v1) = edgeRow0 (W (Proc.devRef .tc main_arg1)) := by
  after_results_simp; rfl
theorem host0_dst : after (hostOps0 (F := F)) W (Proc.devRef .tc main_v3) = edgeRow1 (W (Proc.devRef .tc main_arg1)) := by
  after_results_simp; rfl
theorem host0_recip : after (hostOps0 (F := F)) W (Proc.devRef .tc main_v11) = recipDegree (edgeRow1 (W (Proc.devRef .tc main_arg1))) := by
  after_results_simp; rfl
theorem host0_bias : after (hostOps0 (F := F)) W (Proc.devRef .tc main_v12)
    = shapeCast S1x80 (W (Proc.devRef .tc main_arg4)) shapeCasts_S80_S1x80 := by
  after_results_simp; rfl

/-! ## Stretches 1 to 5 -/

theorem host1_ones : after (hostOps1 (F := F)) W (Proc.devRef .tc main_v14) = onesE := by
  after_results_simp; rfl

theorem host1_agg : after (hostOps1 (F := F)) W (Proc.devRef .tc main_v30)
    = scaleRows80 (nbrSum80 (W (Proc.devRef .tc main_v13)) (W (Proc.devRef .tc main_v1)) (W (Proc.devRef .tc main_v3)) (W (Proc.devRef .tc main_arg2)))
        (W (Proc.devRef .tc main_v11)) := by
  after_results_simp; rfl
theorem host1_bias : after (hostOps1 (F := F)) W (Proc.devRef .tc main_v31)
    = shapeCast S1x64 (W (Proc.devRef .tc main_arg7)) shapeCasts_S64_S1x64 := by
  after_results_simp; rfl

theorem host2_agg : after (hostOps2 (F := F)) W (Proc.devRef .tc main_v48)
    = scaleRows64 (nbrSum64 (W (Proc.devRef .tc main_v32)) (W (Proc.devRef .tc main_v1)) (W (Proc.devRef .tc main_v3)) (W (Proc.devRef .tc main_arg2)))
        (W (Proc.devRef .tc main_v11)) := by
  after_results_simp; rfl
theorem host2_bias : after (hostOps2 (F := F)) W (Proc.devRef .tc main_v49)
    = shapeCast S1x64 (W (Proc.devRef .tc main_arg10)) shapeCasts_S64_S1x64 := by
  after_results_simp; rfl

theorem host3_agg : after (hostOps3 (F := F)) W (Proc.devRef .tc main_v66)
    = scaleRows64 (nbrSum64 (W (Proc.devRef .tc main_v50)) (W (Proc.devRef .tc main_v1)) (W (Proc.devRef .tc main_v3)) (W (Proc.devRef .tc main_arg2)))
        (W (Proc.devRef .tc main_v11)) := by
  after_results_simp; rfl
theorem host3_bias : after (hostOps3 (F := F)) W (Proc.devRef .tc main_v67)
    = shapeCast S1x64 (W (Proc.devRef .tc main_arg13)) shapeCasts_S64_S1x64 := by
  after_results_simp; rfl

theorem host4_agg : after (hostOps4 (F := F)) W (Proc.devRef .tc main_v84)
    = scaleRows64 (nbrSum64 (W (Proc.devRef .tc main_v68)) (W (Proc.devRef .tc main_v1)) (W (Proc.devRef .tc main_v3)) (W (Proc.devRef .tc main_arg2)))
        (W (Proc.devRef .tc main_v11)) := by
  after_results_simp; rfl
theorem host4_bias : after (hostOps4 (F := F)) W (Proc.devRef .tc main_v85)
    = shapeCast S1x64 (W (Proc.devRef .tc main_arg16)) shapeCasts_S64_S1x64 := by
  after_results_simp; rfl

theorem host5_agg : after (hostOps5 (F := F)) W (Proc.devRef .tc main_v102)
    = scaleRows64 (nbrSum64 (W (Proc.devRef .tc main_v86)) (W (Proc.devRef .tc main_v1)) (W (Proc.devRef .tc main_v3)) (W (Proc.devRef .tc main_v14)))
        (W (Proc.devRef .tc main_v11)) := by
  after_results_simp; rfl
theorem host5_bias : after (hostOps5 (F := F)) W (Proc.devRef .tc main_v103)
    = shapeCast S1x18 (W (Proc.devRef .tc main_arg19)) shapeCasts_S18_S1x18 := by
  after_results_simp; rfl

end Cert.KernelIdeal.Stretch

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«105689_j90512140795978_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.LibDenseLayer.lean ====
/-
  One dense layer (two matrix products sharing an output, plus a bias row), entry by entry; generic in the extents.

  A layer takes the neighbourhood means `a` and the nodes' own features `x` (both N × K), two K × D weight matrices
  and a bias row, and gives the N × D array whose entry (n, j) is

      Σ_k a(n,k) · wl(k,j)  +  Σ_k x(n,k) · wr(k,j)  +  b(j).

  The two programs group this sum differently: one adds the bias after both products, the other between them.
  Addition of extended reals is commutative and associative without any finiteness assumption, so the two groupings
  agree everywhere.
-/
import Idealize.ShloMosaic.PureOps.Ideal.Laws
import Idealize.ShloMosaic.Lib.ValueIdx
import Idealize.ShloMosaic.Lib.Pipeline.Value
import proofs.«105689_j90512140795978_1_alg».proof.Proof.LibPlainDotFormats
import proofs.«105689_j90512140795978_1_alg».proof.Proof.LibRowLayout

noncomputable section

namespace Cert.LibDenseLayer

open Idealize.ShloMosaic Idealize.ShloMosaic.ValueIdx Cert.LibPlainDot

variable {N K D : ℕ}

/-- Entry (n, j) of a dense layer: both products, then the bias of column j. -/
def dense (a x : (⟨2, ![N, K]⟩ : Shape).Idx → EReal) (wl wr : (⟨2, ![K, D]⟩ : Shape).Idx → EReal)
    (b : (⟨2, ![1, D]⟩ : Shape).Idx → EReal) : (⟨2, ![N, D]⟩ : Shape).Idx → EReal :=
  fun i => (∑ k : Fin K, a (ix2 (i 0) k) * wl (ix2 k (i 1)) + ∑ k : Fin K, x (ix2 (i 0) k) * wr (ix2 k (i 1)))
    + b (ix2 (0 : Fin 1) (i 1))

/-- The same layer followed by the rectifier: the larger of the entry and zero (zero kept as the f32 zero word). -/
def denseRelu (a x : (⟨2, ![N, K]⟩ : Shape).Idx → EReal) (wl wr : (⟨2, ![K, D]⟩ : Shape).Idx → EReal)
    (b : (⟨2, ![1, D]⟩ : Shape).Idx → EReal) : (⟨2, ![N, D]⟩ : Shape).Idx → EReal :=
  fun i => max (dense a x wl wr b i) (Ideal.ofBits .f32 0x00000000#32)

theorem dense_ix2 (a x : (⟨2, ![N, K]⟩ : Shape).Idx → EReal) (wl wr : (⟨2, ![K, D]⟩ : Shape).Idx → EReal)
    (b : (⟨2, ![1, D]⟩ : Shape).Idx → EReal) (n : Fin N) (j : Fin D) :
    dense a x wl wr b (ix2 n j)
      = (∑ k : Fin K, a (ix2 n k) * wl (ix2 k j) + ∑ k : Fin K, x (ix2 n k) * wr (ix2 k j)) + b (ix2 (0 : Fin 1) j) := rfl

/-- A vector [D] laid out as a row [1, D] by a broadcast along a new leading axis reads, at (u, j), entry j. -/
theorem bcast_vec_row_apply {α : Type} (h : (⟨1, ![D]⟩ : Shape).BroadcastsInDim ⟨2, ![1, D]⟩ (![1] : Fin 1 → Fin 2))
    (v : (⟨1, ![D]⟩ : Shape).Idx → α) (u : Fin 1) (j : Fin D) :
    broadcastInDim ⟨2, ![1, D]⟩ ![1] h v (ix2 u j) = v (ix1 j) := by
  refine broadcastInDim_apply _ h v _ (ix1 j) fun ax => ?_
  match ax with
  | ⟨0, _⟩ =>
    show j.val = if D = 1 then 0 else j.val
    split
    · have := j.isLt; omega
    · rfl

/-- A row [1, D] repeated over N rows reads, at (n, j), the row's entry j. -/
theorem bcast_row_rows_apply {α : Type} (h : (⟨2, ![1, D]⟩ : Shape).BroadcastsInDim ⟨2, ![N, D]⟩ (![0, 1] : Fin 2 → Fin 2))
    (r : (⟨2, ![1, D]⟩ : Shape).Idx → α) (n : Fin N) (j : Fin D) :
    broadcastInDim ⟨2, ![N, D]⟩ ![0, 1] h r (ix2 n j) = r (ix2 (0 : Fin 1) j) := by
  refine broadcastInDim_apply _ h r _ (ix2 (0 : Fin 1) j) fun ax => ?_
  match ax with
  | ⟨0, _⟩ => rfl
  | ⟨1, _⟩ =>
    show j.val = if D = 1 then 0 else j.val
    split
    · have := j.isLt; omega
    · rfl

/-- The host form of the layer — product, bias added, second product added — is `dense`: at an entry both
    contractions are plain sums over k, the doubly broadcast bias reads its entry j, and the three summands are
    regrouped by commutativity and associativity of addition on the extended reals. -/
theorem host_dense {Dd : DotDims ⟨2, ![N, K]⟩ ⟨2, ![K, D]⟩ ⟨2, ![N, D]⟩} (hD : Plain Dd)
    (a x : FVec Ideal ⟨2, ![N, K]⟩ .f32) (wl wr : FVec Ideal ⟨2, ![K, D]⟩ .f32) (b : FVec Ideal ⟨1, ![D]⟩ .f32)
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (hc : (⟨1, ![D]⟩ : Shape).ShapeCasts ⟨2, ![1, D]⟩) :
    addf (addf (FloatOps.dotGeneral Dd none .single a wl)
        (broadcastInDim ⟨2, ![N, D]⟩ ![0, 1] h2 (broadcastInDim ⟨2, ![1, D]⟩ ![1] h1 b)))
      (FloatOps.dotGeneral Dd none .single x wr)
      = dense a x wl wr (shapeCast ⟨2, ![1, D]⟩ b hc) := by
  funext i
  obtain ⟨n, j, rfl⟩ : ∃ (n : Fin N) (j : Fin D), i = ix2 n j := ⟨i 0, i 1, eq_ix2 i⟩
  rw [addf_apply, addf_apply, hD.dotGeneral_apply, hD.dotGeneral_apply, bcast_row_rows_apply, bcast_vec_row_apply,
    dense_ix2, Cert.LibRowLayout.shapeCast_b_1b_apply]
  exact add_right_comm _ _ _

end Cert.LibDenseLayer

end
-- ==== Proof.Spec.lean ====
/-
  The layers of a GraphSAGE network with L2-normalised outputs, entry by entry over the extended reals; generic in the
  number of rows N and the feature widths K (in) and D (out).

  * `embed x w b`: entry (n, j) is max(Σ_k x(n,k)·w(k,j) + b(j), 0).
  * `sage a x wl wr b`: with o(n, j) = Σ_k a(n,k)·wl(k,j) + Σ_k x(n,k)·wr(k,j) + b(j) (the dense layer), entry (n, j) is
        o(n, j) / max( sqrt( Σ_j' o(n, j')² ), ε ),
    each row of o divided by its Euclidean length, the length clamped below by ε = the f32 word 0x2B8CBCCC (about 1e-12).
  * `sageRelu`: the same followed by the maximum with zero.

  Every entry of a layer's output depends on ONE row of a and of x (and on all of wl, wr, b).  So the layer computed
  on a block of consecutive rows is the block of the layer computed on all rows: `sage_row`, `embed_row`.
-/
import Idealize.ShloMosaic.PureOps.Ideal.Laws
import Idealize.ShloMosaic.Lib.ValueIdx
import proofs.«105689_j90512140795978_1_alg».proof.Proof.LibDenseLayer

noncomputable section

open scoped BigOperators

namespace Cert.SageSpec

open Idealize.ShloMosaic Idealize.ShloMosaic.ValueIdx Cert.LibDenseLayer

variable {N K D : ℕ}

/-- The clamp ε under the row length: the value of the f32 word both programs carry. -/
abbrev epsv : EReal := Ideal.ofBits .f32 0x2B8CBCCC#32
/-- Zero, kept as the value of the f32 zero word. -/
abbrev zerov : EReal := Ideal.ofBits .f32 0x00000000#32

/-- The squared Euclidean length of row n. -/
def rowSq (o : (⟨2, ![N, D]⟩ : Shape).Idx → EReal) (n : Fin N) : EReal := ∑ j : Fin D, o (ix2 n j) * o (ix2 n j)

/-- Each row divided by its Euclidean length clamped below by ε. -/
def normalize (o : (⟨2, ![N, D]⟩ : Shape).Idx → EReal) : (⟨2, ![N, D]⟩ : Shape).Idx → EReal :=
  fun i => Ideal.div (o i) (max (Ideal.sqrt (rowSq o (i 0))) epsv)

/-- One SAGE layer without rectifier: the dense layer, rows normalised. -/
def sage (a x : (⟨2, ![N, K]⟩ : Shape).Idx → EReal) (wl wr : (⟨2, ![K, D]⟩ : Shape).Idx → EReal)
    (b : (⟨2, ![1, D]⟩ : Shape).Idx → EReal) : (⟨2, ![N, D]⟩ : Shape).Idx → EReal :=
  normalize (dense a x wl wr b)

/-- One SAGE layer followed by the rectifier. -/
def sageRelu (a x : (⟨2, ![N, K]⟩ : Shape).Idx → EReal) (wl wr : (⟨2, ![K, D]⟩ : Shape).Idx → EReal)
    (b : (⟨2, ![1, D]⟩ : Shape).Idx → EReal) : (⟨2, ![N, D]⟩ : Shape).Idx → EReal :=
  fun i => max (sage a x wl wr b i) zerov

/-- The embedding: a product, a bias row, the rectifier. -/
def embed (x : (⟨2, ![N, K]⟩ : Shape).Idx → EReal) (w : (⟨2, ![K, D]⟩ : Shape).Idx → EReal)
    (b : (⟨2, ![1, D]⟩ : Shape).Idx → EReal) : (⟨2, ![N, D]⟩ : Shape).Idx → EReal :=
  fun i => max ((∑ k : Fin K, x (ix2 (i 0) k) * w (ix2 k (i 1))) + b (ix2 (0 : Fin 1) (i 1))) zerov

theorem normalize_ix2 (o : (⟨2, ![N, D]⟩ : Shape).Idx → EReal) (n : Fin N) (j : Fin D) :
    normalize o (ix2 n j) = Ideal.div (o (ix2 n j)) (max (Ideal.sqrt (rowSq o n)) epsv) := rfl

theorem sage_ix2 (a x : (⟨2, ![N, K]⟩ : Shape).Idx → EReal) (wl wr : (⟨2, ![K, D]⟩ : Shape).Idx → EReal)
    (b : (⟨2, ![1, D]⟩ : Shape).Idx → EReal) (n : Fin N) (j : Fin D) :
    sage a x wl wr b (ix2 n j)
      = Ideal.div (dense a x wl wr b (ix2 n j)) (max (Ideal.sqrt (rowSq (dense a x wl wr b) n)) epsv) := rfl

theorem sageRelu_ix2 (a x : (⟨2, ![N, K]⟩ : Shape).Idx → EReal) (wl wr : (⟨2, ![K, D]⟩ : Shape).Idx → EReal)
    (b : (⟨2, ![1, D]⟩ : Shape).Idx → EReal) (n : Fin N) (j : Fin D) :
    sageRelu a x wl wr b (ix2 n j) = max (sage a x wl wr b (ix2 n j)) zerov := rfl

theorem embed_ix2 (x : (⟨2, ![N, K]⟩ : Shape).Idx → EReal) (w : (⟨2, ![K, D]⟩ : Shape).Idx → EReal)
    (b : (⟨2, ![1, D]⟩ : Shape).Idx → EReal) (n : Fin N) (j : Fin D) :
    embed x w b (ix2 n j) = max ((∑ k : Fin K, x (ix2 n k) * w (ix2 k j)) + b (ix2 (0 : Fin 1) j)) zerov := rfl

/-! ## A layer's row depends on one row of its row-indexed operands -/

variable {N' : ℕ}

/-- The dense layer at row n of (a, x) is the dense layer at row n' of (a', x') when those rows agree. -/
theorem dense_row (a x : (⟨2, ![N, K]⟩ : Shape).Idx → EReal) (a' x' : (⟨2, ![N', K]⟩ : Shape).Idx → EReal)
    (wl wr : (⟨2, ![K, D]⟩ : Shape).Idx → EReal) (b : (⟨2, ![1, D]⟩ : Shape).Idx → EReal) (n : Fin N) (n' : Fin N')
    (ha : ∀ k, a (ix2 n k) = a' (ix2 n' k)) (hx : ∀ k, x (ix2 n k) = x' (ix2 n' k)) (j : Fin D) :
    dense a x wl wr b (ix2 n j) = dense a' x' wl wr b (ix2 n' j) := by
  rw [dense_ix2, dense_ix2]
  simp only [ha, hx]

/-- A SAGE layer's entry (n, j) is the entry (n', j) of the layer over other arrays whose row n' is row n of these. -/
theorem sage_row (a x : (⟨2, ![N, K]⟩ : Shape).Idx → EReal) (a' x' : (⟨2, ![N', K]⟩ : Shape).Idx → EReal)
    (wl wr : (⟨2, ![K, D]⟩ : Shape).Idx → EReal) (b : (⟨2, ![1, D]⟩ : Shape).Idx → EReal) (n : Fin N) (n' : Fin N')
    (ha : ∀ k, a (ix2 n k) = a' (ix2 n' k)) (hx : ∀ k, x (ix2 n k) = x' (ix2 n' k)) (j : Fin D) :
    sage a x wl wr b (ix2 n j) = sage a' x' wl wr b (ix2 n' j) := by
  rw [sage_ix2, sage_ix2, dense_row a x a' x' wl wr b n n' ha hx j]
  unfold rowSq
  simp only [dense_row a x a' x' wl wr b n n' ha hx]

theorem sageRelu_row (a x : (⟨2, ![N, K]⟩ : Shape).Idx → EReal) (a' x' : (⟨2, ![N', K]⟩ : Shape).Idx → EReal)
    (wl wr : (⟨2, ![K, D]⟩ : Shape).Idx → EReal) (b : (⟨2, ![1, D]⟩ : Shape).Idx → EReal) (n : Fin N) (n' : Fin N')
    (ha : ∀ k, a (ix2 n k) = a' (ix2 n' k)) (hx : ∀ k, x (ix2 n k) = x' (ix2 n' k)) (j : Fin D) :
    sageRelu a x wl wr b (ix2 n j) = sageRelu a' x' wl wr b (ix2 n' j) := by
  rw [sageRelu_ix2, sageRelu_ix2, sage_row a x a' x' wl wr b n n' ha hx j]

theorem embed_row (x : (⟨2, ![N, K]⟩ : Shape).Idx → EReal) (x' : (⟨2, ![N', K]⟩ : Shape).Idx → EReal)
    (w : (⟨2, ![K, D]⟩ : Shape).Idx → EReal) (b : (⟨2, ![1, D]⟩ : Shape).Idx → EReal) (n : Fin N) (n' : Fin N')
    (hx : ∀ k, x (ix2 n k) = x' (ix2 n' k)) (j : Fin D) :
    embed x w b (ix2 n j) = embed x' w b (ix2 n' j) := by
  rw [embed_ix2, embed_ix2]
  simp only [hx]

end Cert.SageSpec

end
-- ==== Proof.KernelNet.lean ====
/-
  The network the idealized kernel computes, as functions of its argument arrays x0 … x19 (features, edge list, edge
  weights, then the weights and biases of the embedding and of the five layers).

  With src, dst the two rows of the edge list and r the reciprocal clamped degrees:
    layer0 = embed(x0; x3, x4),
    layer(k+1) = sageRelu( rows of Σ_{edges into a node} layer k[src]·weight, each times r ;  layer k ;  Wl, Wr, b ),
  the last layer with all edge weights one and without the rectifier.  Each layer is its own small definition over
  the previous one.
-/
import proofs.«105689_j90512140795978_1_alg».proof.Proof.KernelStretch
import proofs.«105689_j90512140795978_1_alg».proof.Proof.Spec

noncomputable section

namespace Cert.KernelIdeal.Net

open Cert.KernelIdeal Cert.KernelIdeal.Gen Cert.KernelIdeal.Stretch Cert.SageSpec
open Idealize.ShloMosaic Idealize.ShloMosaic.TcCoe Idealize.SL.Sem

variable (x0 : (⟨S100000x100, .f32⟩ : BufTy).Contents (Elt Ideal)) (x1 : (⟨S2x1600000, .i32⟩ : BufTy).Contents (Elt Ideal)) (x2 : (⟨S1600000, .f32⟩ : BufTy).Contents (Elt Ideal))
  (x3 : (⟨S100x80, .f32⟩ : BufTy).Contents (Elt Ideal)) (x4 : (⟨S80, .f32⟩ : BufTy).Contents (Elt Ideal)) (x5 x6 : (⟨S80x64, .f32⟩ : BufTy).Contents (Elt Ideal)) (x7 : (⟨S64, .f32⟩ : BufTy).Contents (Elt Ideal))
  (x8 x9 : (⟨S64x64, .f32⟩ : BufTy).Contents (Elt Ideal)) (x10 : (⟨S64, .f32⟩ : BufTy).Contents (Elt Ideal)) (x11 x12 : (⟨S64x64, .f32⟩ : BufTy).Contents (Elt Ideal)) (x13 : (⟨S64, .f32⟩ : BufTy).Contents (Elt Ideal))
  (x14 x15 : (⟨S64x64, .f32⟩ : BufTy).Contents (Elt Ideal)) (x16 : (⟨S64, .f32⟩ : BufTy).Contents (Elt Ideal)) (x17 x18 : (⟨S64x18, .f32⟩ : BufTy).Contents (Elt Ideal)) (x19 : (⟨S18, .f32⟩ : BufTy).Contents (Elt Ideal))

/-- The embedding. -/
def layer0 : (⟨S100000x80, .f32⟩ : BufTy).Contents (Elt Ideal) :=
  embed (N := 100000) (K := 100) (D := 80) x0 x3 (shapeCast S1x80 x4 shapeCasts_S80_S1x80)

/-- The first layer's aggregated input: neighbour sums of the embedding, rows scaled by the reciprocal degrees. -/
def mean1 : (⟨S100000x80, .f32⟩ : BufTy).Contents (Elt Ideal) :=
  scaleRows80 (nbrSum80 (layer0 x0 x3 x4) (edgeRow0 x1) (edgeRow1 x1) x2) (recipDegree (edgeRow1 x1))

def layer1 : (⟨S100000x64, .f32⟩ : BufTy).Contents (Elt Ideal) :=
  sageRelu (N := 100000) (K := 80) (D := 64) (mean1 x0 x1 x2 x3 x4) (layer0 x0 x3 x4) x5 x6 (shapeCast S1x64 x7 shapeCasts_S64_S1x64)

def mean2 : (⟨S100000x64, .f32⟩ : BufTy).Contents (Elt Ideal) :=
  scaleRows64 (nbrSum64 (layer1 x0 x1 x2 x3 x4 x5 x6 x7) (edgeRow0 x1) (edgeRow1 x1) x2) (recipDegree (edgeRow1 x1))

def layer2 : (⟨S100000x64, .f32⟩ : BufTy).Contents (Elt Ideal) :=
  sageRelu (N := 100000) (K := 64) (D := 64) (mean2 x0 x1 x2 x3 x4 x5 x6 x7) (layer1 x0 x1 x2 x3 x4 x5 x6 x7) x8 x9
    (shapeCast S1x64 x10 shapeCasts_S64_S1x64)

def mean3 : (⟨S100000x64, .f32⟩ : BufTy).Contents (Elt Ideal) :=
  scaleRows64 (nbrSum64 (layer2 x0 x1 x2 x3 x4 x5 x6 x7 x8 x9 x10) (edgeRow0 x1) (edgeRow1 x1) x2) (recipDegree (edgeRow1 x1))

def layer3 : (⟨S100000x64, .f32⟩ : BufTy).Contents (Elt Ideal) :=
  sageRelu (N := 100000) (K := 64) (D := 64) (mean3 x0 x1 x2 x3 x4 x5 x6 x7 x8 x9 x10) (layer2 x0 x1 x2 x3 x4 x5 x6 x7 x8 x9 x10) x11 x12
    (shapeCast S1x64 x13 shapeCasts_S64_S1x64)

def mean4 : (⟨S100000x64, .f32⟩ : BufTy).Contents (Elt Ideal) :=
  scaleRows64 (nbrSum64 (layer3 x0 x1 x2 x3 x4 x5 x6 x7 x8 x9 x10 x11 x12 x13) (edgeRow0 x1) (edgeRow1 x1) x2) (recipDegree (edgeRow1 x1))

def layer4 : (⟨S100000x64, .f32⟩ : BufTy).Contents (Elt Ideal) :=
  sageRelu (N := 100000) (K := 64) (D := 64) (mean4 x0 x1 x2 x3 x4 x5 x6 x7 x8 x9 x10 x11 x12 x13)
    (layer3 x0 x1 x2 x3 x4 x5 x6 x7 x8 x9 x10 x11 x12 x13) x14 x15 (shapeCast S1x64 x16 shapeCasts_S64_S1x64)

/-- The last layer's aggregated input: every edge weighs one. -/
def mean5 : (⟨S100000x64, .f32⟩ : BufTy).Contents (Elt Ideal) :=
  scaleRows64 (nbrSum64 (layer4 x0 x1 x2 x3 x4 x5 x6 x7 x8 x9 x10 x11 x12 x13 x14 x15 x16) (edgeRow0 x1) (edgeRow1 x1) onesE)
    (recipDegree (edgeRow1 x1))

/-- The network's output. -/
def layer5 : (⟨S100000x18, .f32⟩ : BufTy).Contents (Elt Ideal) :=
  sage (N := 100000) (K := 64) (D := 18) (mean5 x0 x1 x2 x3 x4 x5 x6 x7 x8 x9 x10 x11 x12 x13 x14 x15 x16)
    (layer4 x0 x1 x2 x3 x4 x5 x6 x7 x8 x9 x10 x11 x12 x13 x14 x15 x16) x17 x18 (shapeCast S1x18 x19 shapeCasts_S18_S1x18)

/-! ## The argument arrays of a launch memory -/

section Args
variable (m : (ℓ : Loc nD τ sig) → Buf (Elt Ideal) ℓ) (c : Dev nD)
/-- Core `c`'s argument 0 at launch. -/
def arr0 : (⟨S100000x100, .f32⟩ : BufTy).Contents (Elt Ideal) := m ((c : Thread nD τ).loc main_arg0)
/-- Core `c`'s argument 1 at launch. -/
def arr1 : (⟨S2x1600000, .i32⟩ : BufTy).Contents (Elt Ideal) := m ((c : Thread nD τ).loc main_arg1)
/-- Core `c`'s argument 2 at launch. -/
def arr2 : (⟨S1600000, .f32⟩ : BufTy).Contents (Elt Ideal) := m ((c : Thread nD τ).loc main_arg2)
/-- Core `c`'s argument 3 at launch. -/
def arr3 : (⟨S100x80, .f32⟩ : BufTy).Contents (Elt Ideal) := m ((c : Thread nD τ).loc main_arg3)
/-- Core `c`'s argument 4 at launch. -/
def arr4 : (⟨S80, .f32⟩ : BufTy).Contents (Elt Ideal) := m ((c : Thread nD τ).loc main_arg4)
/-- Core `c`'s argument 5 at launch. -/
def arr5 : (⟨S80x64, .f32⟩ : BufTy).Contents (Elt Ideal) := m ((c : Thread nD τ).loc main_arg5)
/-- Core `c`'s argument 6 at launch. -/
def arr6 : (⟨S80x64, .f32⟩ : BufTy).Contents (Elt Ideal) := m ((c : Thread nD τ).loc main_arg6)
/-- Core `c`'s argument 7 at launch. -/
def arr7 : (⟨S64, .f32⟩ : BufTy).Contents (Elt Ideal) := m ((c : Thread nD τ).loc main_arg7)
/-- Core `c`'s argument 8 at launch. -/
def arr8 : (⟨S64x64, .f32⟩ : BufTy).Contents (Elt Ideal) := m ((c : Thread nD τ).loc main_arg8)
/-- Core `c`'s argument 9 at launch. -/
def arr9 : (⟨S64x64, .f32⟩ : BufTy).Contents (Elt Ideal) := m ((c : Thread nD τ).loc main_arg9)
/-- Core `c`'s argument 10 at launch. -/
def arr10 : (⟨S64, .f32⟩ : BufTy).Contents (Elt Ideal) := m ((c : Thread nD τ).loc main_arg10)
/-- Core `c`'s argument 11 at launch. -/
def arr11 : (⟨S64x64, .f32⟩ : BufTy).Contents (Elt Ideal) := m ((c : Thread nD τ).loc main_arg11)
/-- Core `c`'s argument 12 at launch. -/
def arr12 : (⟨S64x64, .f32⟩ : BufTy).Contents (Elt Ideal) := m ((c : Thread nD τ).loc main_arg12)
/-- Core `c`'s argument 13 at launch. -/
def arr13 : (⟨S64, .f32⟩ : BufTy).Contents (Elt Ideal) := m ((c : Thread nD τ).loc main_arg13)
/-- Core `c`'s argument 14 at launch. -/
def arr14 : (⟨S64x64, .f32⟩ : BufTy).Contents (Elt Ideal) := m ((c : Thread nD τ).loc main_arg14)
/-- Core `c`'s argument 15 at launch. -/
def arr15 : (⟨S64x64, .f32⟩ : BufTy).Contents (Elt Ideal) := m ((c : Thread nD τ).loc main_arg15)
/-- Core `c`'s argument 16 at launch. -/
def arr16 : (⟨S64, .f32⟩ : BufTy).Contents (Elt Ideal) := m ((c : Thread nD τ).loc main_arg16)
/-- Core `c`'s argument 17 at launch. -/
def arr17 : (⟨S64x18, .f32⟩ : BufTy).Contents (Elt Ideal) := m ((c : Thread nD τ).loc main_arg17)
/-- Core `c`'s argument 18 at launch. -/
def arr18 : (⟨S64x18, .f32⟩ : BufTy).Contents (Elt Ideal) := m ((c : Thread nD τ).loc main_arg18)
/-- Core `c`'s argument 19 at launch. -/
def arr19 : (⟨S18, .f32⟩ : BufTy).Contents (Elt Ideal) := m ((c : Thread nD τ).loc main_arg19)
end Args

end Cert.KernelIdeal.Net

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibSageTile.lean ====
/-
  One tile of a GraphSAGE layer, as a composition of whole-array operations, is the layer itself on the tile's rows.

  A tile holds R consecutive rows of the neighbourhood sums a and of the previous features x (both R × K), the two
  K × D weight matrices and the bias as a one-row array.  The tile's arithmetic is: both operands narrowed to a
  shorter float format (the identity over the extended reals), two matrix products into the zero array, their sum,
  the bias row spread over the R rows and added; then the entrywise square, the sum along each row, the square root
  of that column, its maximum with the clamp ε, the column spread across the D columns, and the entrywise quotient;
  optionally the maximum with zero.  Read at entry (p, q) this is

      o(p, q) / max( sqrt( Σ_j o(p, j)² ), ε )        with  o(p, q) = Σ_k a(p,k)·wl(k,q) + Σ_k x(p,k)·wr(k,q) + b(q),

  which is the specification's layer on these R rows.  The embedding tile is one product, the bias row, the maximum
  with zero.  Generic in R, K, D and in the records of the operations (their side conditions are hypotheses).

  The second half says what a tile of rows means inside the whole array: if the tile's row p is row off + p of the
  N-row operands, then the layer of the tile at (p, q) is the layer of the whole arrays at (off + p, q), because an
  entry of the layer depends on one row of a and x only.
-/
import Idealize.ShloMosaic.PureOps.Ideal.Laws
import Idealize.ShloMosaic.Lib.ValueIdx
import Idealize.ShloMosaic.Lib.Pipeline.Value
import proofs.«105689_j90512140795978_1_alg».proof.Proof.LibPlainDotFormats
import proofs.«105689_j90512140795978_1_alg».proof.Proof.LibKeepdims
import proofs.«105689_j90512140795978_1_alg».proof.Proof.LibRowLayout
import proofs.«105689_j90512140795978_1_alg».proof.Proof.Spec

noncomputable section

open scoped BigOperators

namespace Cert.LibSageTile

open Idealize.ShloMosaic Idealize.ShloMosaic.ValueIdx Cert.LibPlainDot Cert.LibDenseLayer Cert.SageSpec

variable {R K D : ℕ}

/-- The square root of an array of extended reals, at an entry. -/
theorem sqrt_apply {s : Shape} {φ : FTy} (a : FVec Ideal s φ) (i : s.Idx) : sqrt a i = Ideal.sqrt (a i) := rfl

/-! ## The dense part of a tile -/

/-- Two products into the zero array, added, plus the bias row spread over the rows. -/
def tileDense (Dd : DotDims ⟨2, ![R, K]⟩ ⟨2, ![K, D]⟩ ⟨2, ![R, D]⟩) (hlt : FTy.bits .bf16 < FTy.bits .f32)
    (hcA : (⟨2, ![R, K]⟩ : Shape).ShapeCasts ⟨2, ![R, K]⟩) (hcB : (⟨2, ![1, D]⟩ : Shape).ShapeCasts ⟨2, ![1, D]⟩)
    (hbB : (⟨2, ![1, D]⟩ : Shape).Broadcasts ⟨2, ![R, D]⟩)
    (x0 x1 : FVec Ideal ⟨2, ![R, K]⟩ .f32) (x2 x3 : FVec Ideal ⟨2, ![K, D]⟩ .f32) (x4 : FVec Ideal ⟨2, ![1, D]⟩ .f32) :
    FVec Ideal ⟨2, ![R, D]⟩ .f32 :=
  addf
    (addf
      (FloatOps.matmul Dd none (truncf .bf16 (shapeCast ⟨2, ![R, K]⟩ x0 hcA) hlt) (truncf .bf16 x2 hlt)
        (constant ⟨2, ![R, D]⟩ .f32 0x00000000#32))
      (FloatOps.matmul Dd none (truncf .bf16 (shapeCast ⟨2, ![R, K]⟩ x1 hcA) hlt) (truncf .bf16 x3 hlt)
        (constant ⟨2, ![R, D]⟩ .f32 0x00000000#32)))
    (broadcastTo ⟨2, ![R, D]⟩ (shapeCast ⟨2, ![1, D]⟩ x4 hcB) hbB)

/-- At (p, q) it is the dense layer's entry: the narrowing is the identity, each product into zero is the plain sum
    over k, the spread bias row reads its entry q. -/
theorem tileDense_apply {Dd : DotDims ⟨2, ![R, K]⟩ ⟨2, ![K, D]⟩ ⟨2, ![R, D]⟩} (hD : Plain Dd)
    (hlt : FTy.bits .bf16 < FTy.bits .f32)
    (hcA : (⟨2, ![R, K]⟩ : Shape).ShapeCasts ⟨2, ![R, K]⟩) (hcB : (⟨2, ![1, D]⟩ : Shape).ShapeCasts ⟨2, ![1, D]⟩)
    (hbB : (⟨2, ![1, D]⟩ : Shape).Broadcasts ⟨2, ![R, D]⟩)
    (x0 x1 : FVec Ideal ⟨2, ![R, K]⟩ .f32) (x2 x3 : FVec Ideal ⟨2, ![K, D]⟩ .f32) (x4 : FVec Ideal ⟨2, ![1, D]⟩ .f32)
    (p : Fin R) (q : Fin D) :
    tileDense Dd hlt hcA hcB hbB x0 x1 x2 x3 x4 (ix2 p q) = dense x0 x1 x2 x3 x4 (ix2 p q) := by
  unfold tileDense
  rw [addf_apply, addf_apply, hD.matmul_zero_apply_formats, hD.matmul_zero_apply_formats,
    Cert.LibRowLayout.broadcastTo_1b_ab_apply, shapeCast_self, shapeCast_self, shapeCast_self, dense_ix2]
  rfl

/-- As whole arrays. -/
theorem tileDense_eq {Dd : DotDims ⟨2, ![R, K]⟩ ⟨2, ![K, D]⟩ ⟨2, ![R, D]⟩} (hD : Plain Dd)
    (hlt : FTy.bits .bf16 < FTy.bits .f32)
    (hcA : (⟨2, ![R, K]⟩ : Shape).ShapeCasts ⟨2, ![R, K]⟩) (hcB : (⟨2, ![1, D]⟩ : Shape).ShapeCasts ⟨2, ![1, D]⟩)
    (hbB : (⟨2, ![1, D]⟩ : Shape).Broadcasts ⟨2, ![R, D]⟩)
    (x0 x1 : FVec Ideal ⟨2, ![R, K]⟩ .f32) (x2 x3 : FVec Ideal ⟨2, ![K, D]⟩ .f32) (x4 : FVec Ideal ⟨2, ![1, D]⟩ .f32) :
    tileDense Dd hlt hcA hcB hbB x0 x1 x2 x3 x4 = dense x0 x1 x2 x3 x4 := by
  funext i
  obtain ⟨p, q, rfl⟩ : ∃ (p : Fin R) (q : Fin D), i = ix2 p q := ⟨i 0, i 1, eq_ix2 i⟩
  exact tileDense_apply hD hlt hcA hcB hbB x0 x1 x2 x3 x4 p q

/-! ## The row normalisation of a tile -/

/-- Each entry divided by the clamped Euclidean length of its row, as the tile computes it: squares, row sums from
    the zero word, a one-column array, its square root, the maximum with ε, spread across the columns, the quotient. -/
def tileNormalize (hred : (⟨2, ![R, D]⟩ : Shape).Reduces [1] ⟨1, ![R]⟩) (hφ : FKind.Formats .f32)
    (hacc : (0x00000000#32 : BitVec 32) = FKind.add.neutral .f32 hφ)
    (hcR : (⟨1, ![R]⟩ : Shape).ShapeCasts ⟨2, ![R, 1]⟩) (hbR : (⟨2, ![R, 1]⟩ : Shape).Broadcasts ⟨2, ![R, D]⟩)
    (o : FVec Ideal ⟨2, ![R, D]⟩ .f32) : FVec Ideal ⟨2, ![R, D]⟩ .f32 :=
  divf o
    (broadcastTo ⟨2, ![R, D]⟩
      (maximumf
        (sqrt (shapeCast ⟨2, ![R, 1]⟩ (multiReduction .add [1] ⟨1, ![R]⟩ (mulf o o) 0x00000000#32 hred hφ hacc) hcR))
        (broadcast ⟨2, ![R, 1]⟩ (Scalar.ofBits (F := Ideal) .f32 0x2B8CBCCC#32)))
      hbR)

/-- At (p, q): the entry over the larger of ε and the root of the sum of the squares of row p. -/
theorem tileNormalize_apply (hred : (⟨2, ![R, D]⟩ : Shape).Reduces [1] ⟨1, ![R]⟩) (hφ : FKind.Formats .f32)
    (hacc : (0x00000000#32 : BitVec 32) = FKind.add.neutral .f32 hφ)
    (hcR : (⟨1, ![R]⟩ : Shape).ShapeCasts ⟨2, ![R, 1]⟩) (hbR : (⟨2, ![R, 1]⟩ : Shape).Broadcasts ⟨2, ![R, D]⟩)
    (o : FVec Ideal ⟨2, ![R, D]⟩ .f32) (p : Fin R) (q : Fin D) :
    tileNormalize hred hφ hacc hcR hbR o (ix2 p q) = normalize o (ix2 p q) := by
  unfold tileNormalize
  rw [divf_apply, Cert.LibKeepdims.broadcastTo_a1_ab_apply, maximumf_apply, sqrt_apply,
    Cert.LibKeepdims.shapeCast_a_a1_apply, Cert.LibKeepdims.multiReduction_add_rows_apply, normalize_ix2]
  rfl

/-! ## A whole tile -/

/-- A layer's tile without rectifier. -/
def tileSage (Dd : DotDims ⟨2, ![R, K]⟩ ⟨2, ![K, D]⟩ ⟨2, ![R, D]⟩) (hlt : FTy.bits .bf16 < FTy.bits .f32)
    (hcA : (⟨2, ![R, K]⟩ : Shape).ShapeCasts ⟨2, ![R, K]⟩) (hcB : (⟨2, ![1, D]⟩ : Shape).ShapeCasts ⟨2, ![1, D]⟩)
    (hbB : (⟨2, ![1, D]⟩ : Shape).Broadcasts ⟨2, ![R, D]⟩)
    (hred : (⟨2, ![R, D]⟩ : Shape).Reduces [1] ⟨1, ![R]⟩) (hφ : FKind.Formats .f32)
    (hacc : (0x00000000#32 : BitVec 32) = FKind.add.neutral .f32 hφ)
    (hcR : (⟨1, ![R]⟩ : Shape).ShapeCasts ⟨2, ![R, 1]⟩) (hbR : (⟨2, ![R, 1]⟩ : Shape).Broadcasts ⟨2, ![R, D]⟩)
    (x0 x1 : FVec Ideal ⟨2, ![R, K]⟩ .f32) (x2 x3 : FVec Ideal ⟨2, ![K, D]⟩ .f32) (x4 : FVec Ideal ⟨2, ![1, D]⟩ .f32) :
    FVec Ideal ⟨2, ![R, D]⟩ .f32 :=
  tileNormalize hred hφ hacc hcR hbR (tileDense Dd hlt hcA hcB hbB x0 x1 x2 x3 x4)

/-- A layer's tile followed by the maximum with the zero word's value. -/
def tileSageRelu (Dd : DotDims ⟨2, ![R, K]⟩ ⟨2, ![K, D]⟩ ⟨2, ![R, D]⟩) (hlt : FTy.bits .bf16 < FTy.bits .f32)
    (hcA : (⟨2, ![R, K]⟩ : Shape).ShapeCasts ⟨2, ![R, K]⟩) (hcB : (⟨2, ![1, D]⟩ : Shape).ShapeCasts ⟨2, ![1, D]⟩)
    (hbB : (⟨2, ![1, D]⟩ : Shape).Broadcasts ⟨2, ![R, D]⟩)
    (hred : (⟨2, ![R, D]⟩ : Shape).Reduces [1] ⟨1, ![R]⟩) (hφ : FKind.Formats .f32)
    (hacc : (0x00000000#32 : BitVec 32) = FKind.add.neutral .f32 hφ)
    (hcR : (⟨1, ![R]⟩ : Shape).ShapeCasts ⟨2, ![R, 1]⟩) (hbR : (⟨2, ![R, 1]⟩ : Shape).Broadcasts ⟨2, ![R, D]⟩)
    (x0 x1 : FVec Ideal ⟨2, ![R, K]⟩ .f32) (x2 x3 : FVec Ideal ⟨2, ![K, D]⟩ .f32) (x4 : FVec Ideal ⟨2, ![1, D]⟩ .f32) :
    FVec Ideal ⟨2, ![R, D]⟩ .f32 :=
  maximumf (tileSage Dd hlt hcA hcB hbB hred hφ hacc hcR hbR x0 x1 x2 x3 x4)
    (broadcast ⟨2, ![R, D]⟩ (Scalar.ofBits (F := Ideal) .f32 0x00000000#32))

/-- The tile is the specification's layer on the tile's R rows. -/
theorem tileSage_eq {Dd : DotDims ⟨2, ![R, K]⟩ ⟨2, ![K, D]⟩ ⟨2, ![R, D]⟩} (hD : Plain Dd)
    (hlt : FTy.bits .bf16 < FTy.bits .f32)
    (hcA : (⟨2, ![R, K]⟩ : Shape).ShapeCasts ⟨2, ![R, K]⟩) (hcB : (⟨2, ![1, D]⟩ : Shape).ShapeCasts ⟨2, ![1, D]⟩)
    (hbB : (⟨2, ![1, D]⟩ : Shape).Broadcasts ⟨2, ![R, D]⟩)
    (hred : (⟨2, ![R, D]⟩ : Shape).Reduces [1] ⟨1, ![R]⟩) (hφ : FKind.Formats .f32)
    (hacc : (0x00000000#32 : BitVec 32) = FKind.add.neutral .f32 hφ)
    (hcR : (⟨1, ![R]⟩ : Shape).ShapeCasts ⟨2, ![R, 1]⟩) (hbR : (⟨2, ![R, 1]⟩ : Shape).Broadcasts ⟨2, ![R, D]⟩)
    (x0 x1 : FVec Ideal ⟨2, ![R, K]⟩ .f32) (x2 x3 : FVec Ideal ⟨2, ![K, D]⟩ .f32) (x4 : FVec Ideal ⟨2, ![1, D]⟩ .f32) :
    tileSage Dd hlt hcA hcB hbB hred hφ hacc hcR hbR x0 x1 x2 x3 x4 = sage x0 x1 x2 x3 x4 := by
  funext i
  obtain ⟨p, q, rfl⟩ : ∃ (p : Fin R) (q : Fin D), i = ix2 p q := ⟨i 0, i 1, eq_ix2 i⟩
  unfold tileSage
  rw [tileNormalize_apply, tileDense_eq hD]
  rfl

/-- The rectified tile is the specification's rectified layer on the tile's R rows. -/
theorem tileSageRelu_eq {Dd : DotDims ⟨2, ![R, K]⟩ ⟨2, ![K, D]⟩ ⟨2, ![R, D]⟩} (hD : Plain Dd)
    (hlt : FTy.bits .bf16 < FTy.bits .f32)
    (hcA : (⟨2, ![R, K]⟩ : Shape).ShapeCasts ⟨2, ![R, K]⟩) (hcB : (⟨2, ![1, D]⟩ : Shape).ShapeCasts ⟨2, ![1, D]⟩)
    (hbB : (⟨2, ![1, D]⟩ : Shape).Broadcasts ⟨2, ![R, D]⟩)
    (hred : (⟨2, ![R, D]⟩ : Shape).Reduces [1] ⟨1, ![R]⟩) (hφ : FKind.Formats .f32)
    (hacc : (0x00000000#32 : BitVec 32) = FKind.add.neutral .f32 hφ)
    (hcR : (⟨1, ![R]⟩ : Shape).ShapeCasts ⟨2, ![R, 1]⟩) (hbR : (⟨2, ![R, 1]⟩ : Shape).Broadcasts ⟨2, ![R, D]⟩)
    (x0 x1 : FVec Ideal ⟨2, ![R, K]⟩ .f32) (x2 x3 : FVec Ideal ⟨2, ![K, D]⟩ .f32) (x4 : FVec Ideal ⟨2, ![1, D]⟩ .f32) :
    tileSageRelu Dd hlt hcA hcB hbB hred hφ hacc hcR hbR x0 x1 x2 x3 x4 = sageRelu x0 x1 x2 x3 x4 := by
  funext i
  unfold tileSageRelu
  rw [maximumf_apply, broadcast_apply, tileSage_eq hD]
  rfl

/-! ## The embedding tile -/

/-- One product into the zero array, the bias row spread over the rows and added, the maximum with zero. -/
def tileEmbed (Dd : DotDims ⟨2, ![R, K]⟩ ⟨2, ![K, D]⟩ ⟨2, ![R, D]⟩) (hlt : FTy.bits .bf16 < FTy.bits .f32)
    (hcB : (⟨2, ![1, D]⟩ : Shape).ShapeCasts ⟨2, ![1, D]⟩) (hbB : (⟨2, ![1, D]⟩ : Shape).Broadcasts ⟨2, ![R, D]⟩)
    (x0 : FVec Ideal ⟨2, ![R, K]⟩ .f32) (x1 : FVec Ideal ⟨2, ![K, D]⟩ .f32) (x2 : FVec Ideal ⟨2, ![1, D]⟩ .f32) :
    FVec Ideal ⟨2, ![R, D]⟩ .f32 :=
  maximumf
    (addf
      (FloatOps.matmul Dd none (truncf .bf16 x0 hlt) (truncf .bf16 x1 hlt) (constant ⟨2, ![R, D]⟩ .f32 0x00000000#32))
      (broadcastTo ⟨2, ![R, D]⟩ (shapeCast ⟨2, ![1, D]⟩ x2 hcB) hbB))
    (broadcast ⟨2, ![R, D]⟩ (Scalar.ofBits (F := Ideal) .f32 0x00000000#32))

/-- The embedding tile is the specification's embedding on the tile's R rows. -/
theorem tileEmbed_eq {Dd : DotDims ⟨2, ![R, K]⟩ ⟨2, ![K, D]⟩ ⟨2, ![R, D]⟩} (hD : Plain Dd)
    (hlt : FTy.bits .bf16 < FTy.bits .f32)
    (hcB : (⟨2, ![1, D]⟩ : Shape).ShapeCasts ⟨2, ![1, D]⟩) (hbB : (⟨2, ![1, D]⟩ : Shape).Broadcasts ⟨2, ![R, D]⟩)
    (x0 : FVec Ideal ⟨2, ![R, K]⟩ .f32) (x1 : FVec Ideal ⟨2, ![K, D]⟩ .f32) (x2 : FVec Ideal ⟨2, ![1, D]⟩ .f32) :
    tileEmbed Dd hlt hcB hbB x0 x1 x2 = embed x0 x1 x2 := by
  funext i
  obtain ⟨p, q, rfl⟩ : ∃ (p : Fin R) (q : Fin D), i = ix2 p q := ⟨i 0, i 1, eq_ix2 i⟩
  unfold tileEmbed
  rw [maximumf_apply, broadcast_apply, addf_apply, hD.matmul_zero_apply_formats,
    Cert.LibRowLayout.broadcastTo_1b_ab_apply, shapeCast_self, embed_ix2]
  rfl

/-! ## A tile of rows inside the whole arrays -/

variable {N : ℕ}

/-- If row p of the tile's row-indexed operands is row off + p of the N-row arrays, the rectified layer of the
    tile at j is the rectified layer of the arrays at the entry off rows further down, same column. -/
theorem sageRelu_block (A0 A1 : (⟨2, ![N, K]⟩ : Shape).Idx → EReal) (x0 x1 : (⟨2, ![R, K]⟩ : Shape).Idx → EReal)
    (wl wr : (⟨2, ![K, D]⟩ : Shape).Idx → EReal) (b : (⟨2, ![1, D]⟩ : Shape).Idx → EReal) (off : ℕ)
    (h0 : ∀ (y : (⟨2, ![R, K]⟩ : Shape).Idx) (k : (⟨2, ![N, K]⟩ : Shape).Idx),
      (k 0).val = off + (y 0).val → (k 1).val = (y 1).val → x0 y = A0 k)
    (h1 : ∀ (y : (⟨2, ![R, K]⟩ : Shape).Idx) (k : (⟨2, ![N, K]⟩ : Shape).Idx),
      (k 0).val = off + (y 0).val → (k 1).val = (y 1).val → x1 y = A1 k)
    (j : (⟨2, ![R, D]⟩ : Shape).Idx) (i : (⟨2, ![N, D]⟩ : Shape).Idx)
    (hi0 : (i 0).val = off + (j 0).val) (hi1 : (i 1).val = (j 1).val) :
    sageRelu x0 x1 wl wr b j = sageRelu A0 A1 wl wr b i := by
  obtain ⟨p, q, rfl⟩ : ∃ (p : Fin R) (q : Fin D), j = ix2 p q := ⟨j 0, j 1, eq_ix2 j⟩
  obtain ⟨n, q', rfl⟩ : ∃ (n : Fin N) (q' : Fin D), i = ix2 n q' := ⟨i 0, i 1, eq_ix2 i⟩
  obtain rfl : q' = q := Fin.ext hi1
  exact sageRelu_row x0 x1 A0 A1 wl wr b p n (fun k => h0 (ix2 p k) (ix2 n k) hi0 rfl)
    (fun k => h1 (ix2 p k) (ix2 n k) hi0 rfl) q'

/-- The same without rectifier. -/
theorem sage_block (A0 A1 : (⟨2, ![N, K]⟩ : Shape).Idx → EReal) (x0 x1 : (⟨2, ![R, K]⟩ : Shape).Idx → EReal)
    (wl wr : (⟨2, ![K, D]⟩ : Shape).Idx → EReal) (b : (⟨2, ![1, D]⟩ : Shape).Idx → EReal) (off : ℕ)
    (h0 : ∀ (y : (⟨2, ![R, K]⟩ : Shape).Idx) (k : (⟨2, ![N, K]⟩ : Shape).Idx),
      (k 0).val = off + (y 0).val → (k 1).val = (y 1).val → x0 y = A0 k)
    (h1 : ∀ (y : (⟨2, ![R, K]⟩ : Shape).Idx) (k : (⟨2, ![N, K]⟩ : Shape).Idx),
      (k 0).val = off + (y 0).val → (k 1).val = (y 1).val → x1 y = A1 k)
    (j : (⟨2, ![R, D]⟩ : Shape).Idx) (i : (⟨2, ![N, D]⟩ : Shape).Idx)
    (hi0 : (i 0).val = off + (j 0).val) (hi1 : (i 1).val = (j 1).val) :
    sage x0 x1 wl wr b j = sage A0 A1 wl wr b i := by
  obtain ⟨p, q, rfl⟩ : ∃ (p : Fin R) (q : Fin D), j = ix2 p q := ⟨j 0, j 1, eq_ix2 j⟩
  obtain ⟨n, q', rfl⟩ : ∃ (n : Fin N) (q' : Fin D), i = ix2 n q' := ⟨i 0, i 1, eq_ix2 i⟩
  obtain rfl : q' = q := Fin.ext hi1
  exact sage_row x0 x1 A0 A1 wl wr b p n (fun k => h0 (ix2 p k) (ix2 n k) hi0 rfl)
    (fun k => h1 (ix2 p k) (ix2 n k) hi0 rfl) q'

/-- The embedding of a tile of rows is the embedding of the whole array at the rows the tile holds. -/
theorem embed_block (A0 : (⟨2, ![N, K]⟩ : Shape).Idx → EReal) (x0 : (⟨2, ![R, K]⟩ : Shape).Idx → EReal)
    (w : (⟨2, ![K, D]⟩ : Shape).Idx → EReal) (b : (⟨2, ![1, D]⟩ : Shape).Idx → EReal) (off : ℕ)
    (h0 : ∀ (y : (⟨2, ![R, K]⟩ : Shape).Idx) (k : (⟨2, ![N, K]⟩ : Shape).Idx),
      (k 0).val = off + (y 0).val → (k 1).val = (y 1).val → x0 y = A0 k)
    (j : (⟨2, ![R, D]⟩ : Shape).Idx) (i : (⟨2, ![N, D]⟩ : Shape).Idx)
    (hi0 : (i 0).val = off + (j 0).val) (hi1 : (i 1).val = (j 1).val) :
    embed x0 w b j = embed A0 w b i := by
  obtain ⟨p, q, rfl⟩ : ∃ (p : Fin R) (q : Fin D), j = ix2 p q := ⟨j 0, j 1, eq_ix2 j⟩
  obtain ⟨n, q', rfl⟩ : ∃ (n : Fin N) (q' : Fin D), i = ix2 n q' := ⟨i 0, i 1, eq_ix2 i⟩
  obtain rfl : q' = q := Fin.ext hi1
  exact embed_row x0 A0 w b p n (fun k => h0 (ix2 p k) (ix2 n k) hi0 rfl) q'

end Cert.LibSageTile

end
-- ==== Proof.Region0.lean ====
/-
  Region 0 of the kernel computes the embedding on all 100000 rows.

  The region runs 20 grid points; point t holds rows 5000·t … 5000·t + 4999 of the node features (100000 × 100) and
  the whole of the weight matrix (100 × 80) and of the bias row, and writes rows 5000·t … 5000·t + 4999 of the
  100000 × 80 result.  What a point writes is the embedding of its tile (one product into zero, the bias row, the
  maximum with zero), and an entry of the embedding depends on one row of the features only, so the tile's
  embedding at row p is the whole array's embedding at row 5000·t + p.  Row n of the result lies in the block of
  point n / 5000, so the 20 blocks cover the result and it ends holding the embedding of the arrays the region found.
-/
import proofs.«105689_j90512140795978_1_alg».proof.Proof.Gen.KernelIdeal.Frame
import proofs.«105689_j90512140795978_1_alg».proof.Proof.Spec
import proofs.«105689_j90512140795978_1_alg».proof.Proof.LibSageTile

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer rectangle, as the constant function. -/
theorem zero_offsets0 : (![0, 0] : Fin 2 → Nat) = fun _ => 0 := funext fun a => by fin_cases a <;> rfl

/-! ## What the body stores, from the blocks it loads -/

/-- The body's arithmetic is the tile form of the embedding, hence the embedding on the tile's 5000 rows. -/
theorem payload0_eq (x0 : Vec Ideal S5000x100 .f32) (x1 : Vec Ideal S100x80 .f32) (x2 : Vec Ideal S1x80 .f32) :
    k0_pay1 (F := Ideal) x0 x1 x2 = Cert.SageSpec.embed (N := 5000) (K := 100) (D := 80) x0 x1 x2 :=
  (show k0_pay1 (F := Ideal) x0 x1 x2
      = Cert.LibSageTile.tileEmbed (R := 5000) (K := 100) (D := 80) dot_S5000x100_S100x80_S5000x80_1_0_0_1_n_n bitsLt_bf16_f32
          shapeCasts_S1x80_S1x80 broadcasts_S1x80_S5000x80 x0 x1 x2 from rfl).trans
    (Cert.LibSageTile.tileEmbed_eq (R := 5000) (K := 100) (D := 80) ⟨rfl, rfl, rfl, rfl, rfl, rfl⟩ _ _ _ x0 x1 x2)

/-- The output buffer after the body: one store through the whole buffer of the payload of the whole loaded blocks. -/
theorem out0_eq (x0 : Vec Ideal S5000x100 .f32) (x1 : Vec Ideal S100x80 .f32) (x2 : Vec Ideal S1x80 .f32) :
    out0_3 (F := Ideal) x0 x1 x2 = Cert.SageSpec.embed (N := 5000) (K := 100) (D := 80) x0 x1 x2 := by
  unfold out0_3
  rw [View.canon_unit_zero zero_offsets0]
  simp only [View.ld_unit_zero (S := S5000x100) zero_offsets0, View.ld_unit_zero (S := S100x80) zero_offsets0,
    View.ld_unit_zero (S := S1x80) zero_offsets0]
  exact payload0_eq x0 x1 x2

/-- One point, over variables: if the row block is rows off … off + 4999 of the array A0 and the other two blocks
    are the arrays A1, A2 themselves, then the buffer's entry j is the embedding of the arrays at the entry off rows
    below j. -/
theorem point0 (A0 : S100000x100.Idx → EReal) (A1 : S100x80.Idx → EReal) (A2 : S1x80.Idx → EReal)
    (x0 : Vec Ideal S5000x100 .f32) (x1 : Vec Ideal S100x80 .f32) (x2 : Vec Ideal S1x80 .f32) (off : ℕ)
    (h0 : ∀ (y : S5000x100.Idx) (k : S100000x100.Idx), (k 0).val = off + (y 0).val → (k 1).val = (y 1).val → x0 y = A0 k)
    (h1 : x1 = A1) (h2 : x2 = A2)
    (j : S5000x80.Idx) (i : S100000x80.Idx) (hi0 : (i 0).val = off + (j 0).val) (hi1 : (i 1).val = (j 1).val) :
    out0_3 (F := Ideal) x0 x1 x2 j = Cert.SageSpec.embed (N := 100000) (K := 100) (D := 80) A0 A1 A2 i := by
  subst h1 h2
  rw [out0_eq]
  exact Cert.LibSageTile.embed_block (N := 100000) (R := 5000) (K := 100) (D := 80) A0 x0 x1 x2 off h0 j i hi0 hi1

/-! ## The blocks of the windows at a point -/

/-- The printed index maps over the 20 points: the row windows sit at block row t, column block 0; the weight and
    bias windows at block (0, 0). -/
theorem idx_facts0 : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Window 0's block at point t is rows 5000·t … of its array. -/
theorem iblk0_0_apply (c : Dev nD) (t : Fin cfg0.N) (y : S5000x100.Idx) (k : S100000x100.Idx)
    (hk0 : (k 0).val = t.val * 5000 + (y 0).val) (hk1 : (k 1).val = (y 1).val) :
    (iblk0 V c 0 t : Vec Ideal S5000x100 .f32) y = (V c (Pipeline.arrRef spec0 0) : S100000x100.Idx → EReal) k := by
  obtain ⟨-, -, e0, e1, -, -, -, -⟩ := idx_facts0 t
  unfold iblk0
  rw [View.read_apply]
  show (V c (Pipeline.arrRef spec0 0) : S100000x100.Idx → EReal) (((cfg0.win 0).blk t).view.emb y) = _
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 100 + 1 * (y 1).val = (k 1).val; rw [e1, hk1]; omega

/-- Window 1's block at every point is its whole array. -/
theorem iblk0_1_eq (c : Dev nD) (t : Fin cfg0.N) :
    (iblk0 V c 1 t : Vec Ideal S100x80 .f32) = (V c (Pipeline.arrRef spec0 1) : S100x80.Idx → EReal) := by
  obtain ⟨-, -, -, -, e0, e1, -, -⟩ := idx_facts0 t
  funext y
  unfold iblk0
  rw [View.read_apply]
  show (V c (Pipeline.arrRef spec0 1) : S100x80.Idx → EReal) (((cfg0.win 1).blk t).view.emb y) = _
  congr 1
  funext a
  apply Fin.ext
  match a with
  | ⟨0, _⟩ => show win0_1.index t (0 : Fin 2) * 100 + 1 * (y 0).val = (y 0).val; rw [e0]; omega
  | ⟨1, _⟩ => show win0_1.index t (1 : Fin 2) * 80 + 1 * (y 1).val = (y 1).val; rw [e1]; omega

/-- Window 2's block at every point is its whole array. -/
theorem iblk0_2_eq (c : Dev nD) (t : Fin cfg0.N) :
    (iblk0 V c 2 t : Vec Ideal S1x80 .f32) = (V c (Pipeline.arrRef spec0 2) : S1x80.Idx → EReal) := by
  obtain ⟨-, -, -, -, -, -, e0, e1⟩ := idx_facts0 t
  funext y
  unfold iblk0
  rw [View.read_apply]
  show (V c (Pipeline.arrRef spec0 2) : S1x80.Idx → EReal) (((cfg0.win 2).blk t).view.emb y) = _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 80 + 1 * (y 1).val = (y 1).val; rw [e1]; omega

/-! ## What a point writes back, and the whole array -/

/-- The array the region leaves: the embedding of the three arrays it found. -/
abbrev G0 (c : Dev nD) : S100000x80.Idx → EReal :=
  Cert.SageSpec.embed (N := 100000) (K := 100) (D := 80)
    (V c (Pipeline.arrRef spec0 0) : S100000x100.Idx → EReal) (V c (Pipeline.arrRef spec0 1) : S100x80.Idx → EReal)
    (V c (Pipeline.arrRef spec0 2) : S1x80.Idx → EReal)

/-- Point t writes back block t of that array. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  obtain ⟨e0, e1, -, -, -, -, -, -⟩ := idx_facts0 t
  funext j
  show out0_3 (F := Ideal) (iblk0 V c 0 t) (iblk0 V c 1 t) (iblk0 V c 2 t) j
    = G0 V c (((cfg0.win 3).blk t).view.emb j)
  refine point0 (V c (Pipeline.arrRef spec0 0) : S100000x100.Idx → EReal) (V c (Pipeline.arrRef spec0 1) : S100x80.Idx → EReal)
    (V c (Pipeline.arrRef spec0 2) : S1x80.Idx → EReal)
    (iblk0 V c 0 t) (iblk0 V c 1 t) (iblk0 V c 2 t)
    (t.val * 5000) (fun y k hk0 hk1 => iblk0_0_apply V c t y k hk0 hk1)
    (iblk0_1_eq V c t) (iblk0_2_eq V c t) j (((cfg0.win 3).blk t).view.emb j) ?_ ?_
  · show win0_3.index t (0 : Fin 2) * 5000 + 1 * (j 0).val = t.val * 5000 + (j 0).val
    rw [e0]; omega
  · show win0_3.index t (1 : Fin 2) * 80 + 1 * (j 1).val = (j 1).val
    rw [e1]; omega

/-- An index of the result is in point t's block iff each coordinate is in the block's range on its axis. -/
theorem mem_blk0 (t : Fin cfg0.N) (i : S100000x80.Idx) :
    i ∈ ((cfg0.win 3).blk t).view.set ↔ ∀ a : Fin 2, win0_3.index t a * S5000x80.size a ≤ (i a).val ∧ (i a).val < win0_3.index t a * S5000x80.size a + S5000x80.size a := by
  show i ∈ ((View.whole main_v13).slice (win0_3.rect t)).set ↔ _
  rw [View.set_slice_whole, Rect.mem_set_unit]
  exact Iff.rfl

/-- Row n of the result is in the block of point n / 5000. -/
theorem cover0 (i : S100000x80.Idx) :
    ∃ t : Fin cfg0.N, (cfg0.win 3).flush t = true ∧ i ∈ ((cfg0.win 3).blk t).view.set := by
  have hi0 : (i 0).val < 100000 := (i 0).isLt
  have hi1 : (i 1).val < 80 := (i 1).isLt
  obtain ⟨t, ht⟩ : ∃ t : Fin cfg0.N, t.val = (i 0).val / 5000 :=
    ⟨⟨(i 0).val / 5000, Nat.lt_of_lt_of_eq (by omega : (i 0).val / 5000 < 20) N_0.symm⟩, rfl⟩
  obtain ⟨e0, e1, -, -, -, -, -, -⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 80 ≤ (i 1).val ∧ (i 1).val < win0_3.index t (1 : Fin 2) * 80 + 80
    rw [e1]; omega

/-- THE REGION: its result array ends holding the embedding of the arrays it found in windows 0, 1, 2. -/
theorem region0 (c : Dev nD) :
    (dat0 (F := Ideal) V c).arrAt 3 cfg0.N
      = Cert.SageSpec.embed (N := 100000) (K := 100) (D := 80)
          (V c (Pipeline.arrRef spec0 0) : S100000x100.Idx → EReal) (V c (Pipeline.arrRef spec0 1) : S100x80.Idx → EReal)
          (V c (Pipeline.arrRef spec0 2) : S1x80.Idx → EReal) :=
  (dat0 V c).arrAt_eq_of_cover 3 (G0 V c) (fun t _ => flushed0_eq V c t) (cover0)

end Cert.KernelIdeal.Regions

end
-- ==== Proof.Region1.lean ====
/-
  Region 1 of the kernel computes the rectified layer on all 100000 rows.

  The region runs 20 grid points; point t holds rows 5000·t … 5000·t + 4999 of the two row-indexed operands (the
  scaled neighbour sums and the previous features, 100000 × 80) and the whole of both weight matrices (80 × 64)
  and of the bias row, and writes rows 5000·t … 5000·t + 4999 of the 100000 × 64 result.  What a point writes is
  the rectified layer of its tile (the tile arithmetic is the layer on the tile's rows), and an entry of the layer depends on
  one row of the row-indexed operands only, so the tile's layer at row p is the whole arrays' layer at row 5000·t + p.
  Row n of the result lies in the block of point n / 5000, so the 20 blocks cover the result and it ends holding
  the rectified layer of the arrays the region found.
-/
import proofs.«105689_j90512140795978_1_alg».proof.Proof.Gen.KernelIdeal.Frame
import proofs.«105689_j90512140795978_1_alg».proof.Proof.Spec
import proofs.«105689_j90512140795978_1_alg».proof.Proof.LibSageTile

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer rectangle, as the constant function. -/
theorem zero_offsets1 : (![0, 0] : Fin 2 → Nat) = fun _ => 0 := funext fun a => by fin_cases a <;> rfl

/-! ## What the body stores, from the blocks it loads -/

/-- The body's arithmetic is the tile form of the rectified layer, hence the rectified layer on the tile's 5000 rows. -/
theorem payload1_eq (x0 x1 : Vec Ideal S5000x80 .f32) (x2 x3 : Vec Ideal S80x64 .f32) (x4 : Vec Ideal S1x64 .f32) :
    k1_pay1 (F := Ideal) x0 x1 x2 x3 x4 = Cert.SageSpec.sageRelu (N := 5000) (K := 80) (D := 64) x0 x1 x2 x3 x4 :=
  (show k1_pay1 (F := Ideal) x0 x1 x2 x3 x4
      = Cert.LibSageTile.tileSageRelu (R := 5000) (K := 80) (D := 64) dot_S5000x80_S80x64_S5000x64_1_0_0_1_n_n bitsLt_bf16_f32
          shapeCasts_S5000x80_S5000x80 shapeCasts_S1x64_S1x64 broadcasts_S1x64_S5000x64 reduces_S5000x64_S5000 (.inl rfl) rfl
          shapeCasts_S5000_S5000x1 broadcasts_S5000x1_S5000x64 x0 x1 x2 x3 x4 from rfl).trans
    (Cert.LibSageTile.tileSageRelu_eq (R := 5000) (K := 80) (D := 64) ⟨rfl, rfl, rfl, rfl, rfl, rfl⟩ _ _ _ _ _ _ _ _ _
      x0 x1 x2 x3 x4)

/-- The output buffer after the body: one store through the whole buffer of the payload of the whole loaded blocks. -/
theorem out1_eq (x0 x1 : Vec Ideal S5000x80 .f32) (x2 x3 : Vec Ideal S80x64 .f32) (x4 : Vec Ideal S1x64 .f32) :
    out1_5 (F := Ideal) x0 x1 x2 x3 x4 = Cert.SageSpec.sageRelu (N := 5000) (K := 80) (D := 64) x0 x1 x2 x3 x4 := by
  unfold out1_5
  rw [View.canon_unit_zero zero_offsets1]
  simp only [View.ld_unit_zero (S := S5000x80) zero_offsets1, View.ld_unit_zero (S := S80x64) zero_offsets1,
    View.ld_unit_zero (S := S1x64) zero_offsets1]
  exact payload1_eq x0 x1 x2 x3 x4

/-- One point, over variables: if the two row blocks are rows off … off + 4999 of the arrays A0, A1 and the other
    three blocks are the arrays A2, A3, A4 themselves, then the buffer's entry j is the rectified layer of the arrays at
    the entry off rows below j. -/
theorem point1 (A0 A1 : S100000x80.Idx → EReal) (A2 A3 : S80x64.Idx → EReal) (A4 : S1x64.Idx → EReal)
    (x0 x1 : Vec Ideal S5000x80 .f32) (x2 x3 : Vec Ideal S80x64 .f32) (x4 : Vec Ideal S1x64 .f32) (off : ℕ)
    (h0 : ∀ (y : S5000x80.Idx) (k : S100000x80.Idx), (k 0).val = off + (y 0).val → (k 1).val = (y 1).val → x0 y = A0 k)
    (h1 : ∀ (y : S5000x80.Idx) (k : S100000x80.Idx), (k 0).val = off + (y 0).val → (k 1).val = (y 1).val → x1 y = A1 k)
    (h2 : x2 = A2) (h3 : x3 = A3) (h4 : x4 = A4)
    (j : S5000x64.Idx) (i : S100000x64.Idx) (hi0 : (i 0).val = off + (j 0).val) (hi1 : (i 1).val = (j 1).val) :
    out1_5 (F := Ideal) x0 x1 x2 x3 x4 j
      = Cert.SageSpec.sageRelu (N := 100000) (K := 80) (D := 64) A0 A1 A2 A3 A4 i := by
  subst h2 h3 h4
  rw [out1_eq]
  exact Cert.LibSageTile.sageRelu_block (N := 100000) (R := 5000) (K := 80) (D := 64) A0 A1 x0 x1 x2 x3 x4 off h0 h1 j i hi0 hi1

/-! ## The blocks of the windows at a point -/

/-- The printed index maps over the 20 points: the row windows sit at block row t, column block 0; the weight and
    bias windows at block (0, 0). -/
theorem idx_facts1 : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Window 0's block at point t is rows 5000·t … of its array. -/
theorem iblk1_0_apply (c : Dev nD) (t : Fin cfg1.N) (y : S5000x80.Idx) (k : S100000x80.Idx)
    (hk0 : (k 0).val = t.val * 5000 + (y 0).val) (hk1 : (k 1).val = (y 1).val) :
    (iblk1 V c 0 t : Vec Ideal S5000x80 .f32) y = (V c (Pipeline.arrRef spec1 0) : S100000x80.Idx → EReal) k := by
  obtain ⟨-, -, e0, e1, -, -, -, -, -, -, -, -⟩ := idx_facts1 t
  unfold iblk1
  rw [View.read_apply]
  show (V c (Pipeline.arrRef spec1 0) : S100000x80.Idx → EReal) (((cfg1.win 0).blk t).view.emb y) = _
  congr 1
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 80 + 1 * (y 1).val = (k 1).val; rw [e1, hk1]; omega

/-- Window 1's block at point t is rows 5000·t … of its array. -/
theorem iblk1_1_apply (c : Dev nD) (t : Fin cfg1.N) (y : S5000x80.Idx) (k : S100000x80.Idx)
    (hk0 : (k 0).val = t.val * 5000 + (y 0).val) (hk1 : (k 1).val = (y 1).val) :
    (iblk1 V c 1 t : Vec Ideal S5000x80 .f32) y = (V c (Pipeline.arrRef spec1 1) : S100000x80.Idx → EReal) k := by
  obtain ⟨-, -, -, -, e0, e1, -, -, -, -, -, -⟩ := idx_facts1 t
  unfold iblk1
  rw [View.read_apply]
  show (V c (Pipeline.arrRef spec1 1) : S100000x80.Idx → EReal) (((cfg1.win 1).blk t).view.emb y) = _
  congr 1
  funext a
  apply Fin.ext
  match a with
  | ⟨0, _⟩ => show win1_1.index t (0 : Fin 2) * 5000 + 1 * (y 0).val = (k 0).val; rw [e0, hk0]; omega
  | ⟨1, _⟩ => show win1_1.index t (1 : Fin 2) * 80 + 1 * (y 1).val = (k 1).val; rw [e1, hk1]; omega

/-- Window 2's block at every point is its whole array. -/
theorem iblk1_2_eq (c : Dev nD) (t : Fin cfg1.N) :
    (iblk1 V c 2 t : Vec Ideal S80x64 .f32) = (V c (Pipeline.arrRef spec1 2) : S80x64.Idx → EReal) := by
  obtain ⟨-, -, -, -, -, -, e0, e1, -, -, -, -⟩ := idx_facts1 t
  funext y
  unfold iblk1
  rw [View.read_apply]
  show (V c (Pipeline.arrRef spec1 2) : S80x64.Idx → EReal) (((cfg1.win 2).blk t).view.emb y) = _
  congr 1
  funext a
  apply Fin.ext
  match a with
  | ⟨0, _⟩ => show win1_2.index t (0 : Fin 2) * 80 + 1 * (y 0).val = (y 0).val; rw [e0]; omega
  | ⟨1, _⟩ => show win1_2.index t (1 : Fin 2) * 64 + 1 * (y 1).val = (y 1).val; rw [e1]; omega

/-- Window 3's block at every point is its whole array. -/
theorem iblk1_3_eq (c : Dev nD) (t : Fin cfg1.N) :
    (iblk1 V c 3 t : Vec Ideal S80x64 .f32) = (V c (Pipeline.arrRef spec1 3) : S80x64.Idx → EReal) := by
  obtain ⟨-, -, -, -, -, -, -, -, e0, e1, -, -⟩ := idx_facts1 t
  funext y
  unfold iblk1
  rw [View.read_apply]
  show (V c (Pipeline.arrRef spec1 3) : S80x64.Idx → EReal) (((cfg1.win 3).blk t).view.emb y) = _
  congr 1
  funext a
  apply Fin.ext
  match a with
  | ⟨0, _⟩ => show win1_3.index t (0 : Fin 2) * 80 + 1 * (y 0).val = (y 0).val; rw [e0]; omega
  | ⟨1, _⟩ => show win1_3.index t (1 : Fin 2) * 64 + 1 * (y 1).val = (y 1).val; rw [e1]; omega

/-- Window 4's block at every point is its whole array. -/
theorem iblk1_4_eq (c : Dev nD) (t : Fin cfg1.N) :
    (iblk1 V c 4 t : Vec Ideal S1x64 .f32) = (V c (Pipeline.arrRef spec1 4) : S1x64.Idx → EReal) := by
  obtain ⟨-, -, -, -, -, -, -, -, -, -, e0, e1⟩ := idx_facts1 t
  funext y
  unfold iblk1
  rw [View.read_apply]
  show (V c (Pipeline.arrRef spec1 4) : S1x64.Idx → EReal) (((cfg1.win 4).blk t).view.emb y) = _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-! ## What a point writes back, and the whole array -/

/-- The array the region leaves: the rectified layer of the five arrays it found. -/
abbrev G1 (c : Dev nD) : S100000x64.Idx → EReal :=
  Cert.SageSpec.sageRelu (N := 100000) (K := 80) (D := 64)
    (V c (Pipeline.arrRef spec1 0) : S100000x80.Idx → EReal) (V c (Pipeline.arrRef spec1 1) : S100000x80.Idx → EReal)
    (V c (Pipeline.arrRef spec1 2) : S80x64.Idx → EReal) (V c (Pipeline.arrRef spec1 3) : S80x64.Idx → EReal)
    (V c (Pipeline.arrRef spec1 4) : S1x64.Idx → EReal)

/-- Point t writes back block t of that array. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  obtain ⟨e0, e1, -, -, -, -, -, -, -, -, -, -⟩ := idx_facts1 t
  funext j
  show out1_5 (F := Ideal) (iblk1 V c 0 t) (iblk1 V c 1 t) (iblk1 V c 2 t) (iblk1 V c 3 t) (iblk1 V c 4 t) j
    = G1 V c (((cfg1.win 5).blk t).view.emb j)
  refine point1 (V c (Pipeline.arrRef spec1 0) : S100000x80.Idx → EReal) (V c (Pipeline.arrRef spec1 1) : S100000x80.Idx → EReal)
    (V c (Pipeline.arrRef spec1 2) : S80x64.Idx → EReal) (V c (Pipeline.arrRef spec1 3) : S80x64.Idx → EReal)
    (V c (Pipeline.arrRef spec1 4) : S1x64.Idx → EReal)
    (iblk1 V c 0 t) (iblk1 V c 1 t) (iblk1 V c 2 t) (iblk1 V c 3 t) (iblk1 V c 4 t)
    (t.val * 5000) (fun y k hk0 hk1 => iblk1_0_apply V c t y k hk0 hk1) (fun y k hk0 hk1 => iblk1_1_apply V c t y k hk0 hk1)
    (iblk1_2_eq V c t) (iblk1_3_eq V c t) (iblk1_4_eq V c t) j (((cfg1.win 5).blk t).view.emb j) ?_ ?_
  · show win1_5.index t (0 : Fin 2) * 5000 + 1 * (j 0).val = t.val * 5000 + (j 0).val
    rw [e0]; omega
  · show win1_5.index t (1 : Fin 2) * 64 + 1 * (j 1).val = (j 1).val
    rw [e1]; omega

/-- An index of the result is in point t's block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v32).slice (win1_5.rect t)).set ↔ _
  rw [View.set_slice_whole, Rect.mem_set_unit]
  exact Iff.rfl

/-- Row n of the result is in the block of point n / 5000. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, Nat.lt_of_lt_of_eq (by omega : (i 0).val / 5000 < 20) N_1.symm⟩, rfl⟩
  obtain ⟨e0, e1, -, -, -, -, -, -, -, -, -, -⟩ := idx_facts1 t
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 64 ≤ (i 1).val ∧ (i 1).val < win1_5.index t (1 : Fin 2) * 64 + 64
    rw [e1]; omega

/-- THE REGION: its result array ends holding the rectified layer of the arrays it found in windows 0 … 4. -/
theorem region1 (c : Dev nD) :
    (dat1 (F := Ideal) V c).arrAt 5 cfg1.N
      = Cert.SageSpec.sageRelu (N := 100000) (K := 80) (D := 64)
          (V c (Pipeline.arrRef spec1 0) : S100000x80.Idx → EReal) (V c (Pipeline.arrRef spec1 1) : S100000x80.Idx → EReal)
          (V c (Pipeline.arrRef spec1 2) : S80x64.Idx → EReal) (V c (Pipeline.arrRef spec1 3) : S80x64.Idx → EReal)
          (V c (Pipeline.arrRef spec1 4) : S1x64.Idx → EReal) :=
  (dat1 V c).arrAt_eq_of_cover 5 (G1 V c) (fun t _ => flushed1_eq V c t) (cover1)

end Cert.KernelIdeal.Regions

end
-- ==== Proof.Region2.lean ====
/-
  Region 2 of the kernel computes the rectified layer on all 100000 rows.

  The region runs 20 grid points; point t holds rows 5000·t … 5000·t + 4999 of the two row-indexed operands (the
  scaled neighbour sums and the previous features, 100000 × 64) and the whole of both weight matrices (64 × 64)
  and of the bias row, and writes rows 5000·t … 5000·t + 4999 of the 100000 × 64 result.  What a point writes is
  the rectified layer of its tile (the tile arithmetic is the layer on the tile's rows), and an entry of the layer depends on
  one row of the row-indexed operands only, so the tile's layer at row p is the whole arrays' layer at row 5000·t + p.
  Row n of the result lies in the block of point n / 5000, so the 20 blocks cover the result and it ends holding
  the rectified layer of the arrays the region found.
-/
import proofs.«105689_j90512140795978_1_alg».proof.Proof.Gen.KernelIdeal.Frame
import proofs.«105689_j90512140795978_1_alg».proof.Proof.Spec
import proofs.«105689_j90512140795978_1_alg».proof.Proof.LibSageTile

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer rectangle, as the constant function. -/
theorem zero_offsets2 : (![0, 0] : Fin 2 → Nat) = fun _ => 0 := funext fun a => by fin_cases a <;> rfl

/-! ## What the body stores, from the blocks it loads -/

/-- The body's arithmetic is the tile form of the rectified layer, hence the rectified layer on the tile's 5000 rows. -/
theorem payload2_eq (x0 x1 : Vec Ideal S5000x64 .f32) (x2 x3 : Vec Ideal S64x64 .f32) (x4 : Vec Ideal S1x64 .f32) :
    k2_pay1 (F := Ideal) x0 x1 x2 x3 x4 = Cert.SageSpec.sageRelu (N := 5000) (K := 64) (D := 64) x0 x1 x2 x3 x4 :=
  (show k2_pay1 (F := Ideal) x0 x1 x2 x3 x4
      = Cert.LibSageTile.tileSageRelu (R := 5000) (K := 64) (D := 64) dot_S5000x64_S64x64_S5000x64_1_0_0_1_n_n bitsLt_bf16_f32
          shapeCasts_S5000x64_S5000x64 shapeCasts_S1x64_S1x64 broadcasts_S1x64_S5000x64 reduces_S5000x64_S5000 (.inl rfl) rfl
          shapeCasts_S5000_S5000x1 broadcasts_S5000x1_S5000x64 x0 x1 x2 x3 x4 from rfl).trans
    (Cert.LibSageTile.tileSageRelu_eq (R := 5000) (K := 64) (D := 64) ⟨rfl, rfl, rfl, rfl, rfl, rfl⟩ _ _ _ _ _ _ _ _ _
      x0 x1 x2 x3 x4)

/-- The output buffer after the body: one store through the whole buffer of the payload of the whole loaded blocks. -/
theorem out2_eq (x0 x1 : Vec Ideal S5000x64 .f32) (x2 x3 : Vec Ideal S64x64 .f32) (x4 : Vec Ideal S1x64 .f32) :
    out2_5 (F := Ideal) x0 x1 x2 x3 x4 = Cert.SageSpec.sageRelu (N := 5000) (K := 64) (D := 64) x0 x1 x2 x3 x4 := by
  unfold out2_5
  rw [View.canon_unit_zero zero_offsets2]
  simp only [View.ld_unit_zero (S := S5000x64) zero_offsets2, View.ld_unit_zero (S := S64x64) zero_offsets2,
    View.ld_unit_zero (S := S1x64) zero_offsets2]
  exact payload2_eq x0 x1 x2 x3 x4

/-- One point, over variables: if the two row blocks are rows off … off + 4999 of the arrays A0, A1 and the other
    three blocks are the arrays A2, A3, A4 themselves, then the buffer's entry j is the rectified layer of the arrays at
    the entry off rows below j. -/
theorem point2 (A0 A1 : S100000x64.Idx → EReal) (A2 A3 : S64x64.Idx → EReal) (A4 : S1x64.Idx → EReal)
    (x0 x1 : Vec Ideal S5000x64 .f32) (x2 x3 : Vec Ideal S64x64 .f32) (x4 : Vec Ideal S1x64 .f32) (off : ℕ)
    (h0 : ∀ (y : S5000x64.Idx) (k : S100000x64.Idx), (k 0).val = off + (y 0).val → (k 1).val = (y 1).val → x0 y = A0 k)
    (h1 : ∀ (y : S5000x64.Idx) (k : S100000x64.Idx), (k 0).val = off + (y 0).val → (k 1).val = (y 1).val → x1 y = A1 k)
    (h2 : x2 = A2) (h3 : x3 = A3) (h4 : x4 = A4)
    (j : S5000x64.Idx) (i : S100000x64.Idx) (hi0 : (i 0).val = off + (j 0).val) (hi1 : (i 1).val = (j 1).val) :
    out2_5 (F := Ideal) x0 x1 x2 x3 x4 j
      = Cert.SageSpec.sageRelu (N := 100000) (K := 64) (D := 64) A0 A1 A2 A3 A4 i := by
  subst h2 h3 h4
  rw [out2_eq]
  exact Cert.LibSageTile.sageRelu_block (N := 100000) (R := 5000) (K := 64) (D := 64) A0 A1 x0 x1 x2 x3 x4 off h0 h1 j i hi0 hi1

/-! ## The blocks of the windows at a point -/

/-- The printed index maps over the 20 points: the row windows sit at block row t, column block 0; the weight and
    bias windows at block (0, 0). -/
theorem idx_facts2 : ∀ t : Fin cfg2.N, win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Window 0's block at point t is rows 5000·t … of its array. -/
theorem iblk2_0_apply (c : Dev nD) (t : Fin cfg2.N) (y : S5000x64.Idx) (k : S100000x64.Idx)
    (hk0 : (k 0).val = t.val * 5000 + (y 0).val) (hk1 : (k 1).val = (y 1).val) :
    (iblk2 V c 0 t : Vec Ideal S5000x64 .f32) y = (V c (Pipeline.arrRef spec2 0) : S100000x64.Idx → EReal) k := by
  obtain ⟨-, -, e0, e1, -, -, -, -, -, -, -, -⟩ := idx_facts2 t
  unfold iblk2
  rw [View.read_apply]
  show (V c (Pipeline.arrRef spec2 0) : S100000x64.Idx → EReal) (((cfg2.win 0).blk t).view.emb y) = _
  congr 1
  funext a
  apply Fin.ext
  match a with
  | ⟨0, _⟩ => show win2_0.index t (0 : Fin 2) * 5000 + 1 * (y 0).val = (k 0).val; rw [e0, hk0]; omega
  | ⟨1, _⟩ => show win2_0.index t (1 : Fin 2) * 64 + 1 * (y 1).val = (k 1).val; rw [e1, hk1]; omega

/-- Window 1's block at point t is rows 5000·t … of its array. -/
theorem iblk2_1_apply (c : Dev nD) (t : Fin cfg2.N) (y : S5000x64.Idx) (k : S100000x64.Idx)
    (hk0 : (k 0).val = t.val * 5000 + (y 0).val) (hk1 : (k 1).val = (y 1).val) :
    (iblk2 V c 1 t : Vec Ideal S5000x64 .f32) y = (V c (Pipeline.arrRef spec2 1) : S100000x64.Idx → EReal) k := by
  obtain ⟨-, -, -, -, e0, e1, -, -, -, -, -, -⟩ := idx_facts2 t
  unfold iblk2
  rw [View.read_apply]
  show (V c (Pipeline.arrRef spec2 1) : S100000x64.Idx → EReal) (((cfg2.win 1).blk t).view.emb y) = _
  congr 1
  funext a
  apply Fin.ext
  match a with
  | ⟨0, _⟩ => show win2_1.index t (0 : Fin 2) * 5000 + 1 * (y 0).val = (k 0).val; rw [e0, hk0]; omega
  | ⟨1, _⟩ => show win2_1.index t (1 : Fin 2) * 64 + 1 * (y 1).val = (k 1).val; rw [e1, hk1]; omega

/-- Window 2's block at every point is its whole array. -/
theorem iblk2_2_eq (c : Dev nD) (t : Fin cfg2.N) :
    (iblk2 V c 2 t : Vec Ideal S64x64 .f32) = (V c (Pipeline.arrRef spec2 2) : S64x64.Idx → EReal) := by
  obtain ⟨-, -, -, -, -, -, e0, e1, -, -, -, -⟩ := idx_facts2 t
  funext y
  unfold iblk2
  rw [View.read_apply]
  show (V c (Pipeline.arrRef spec2 2) : S64x64.Idx → EReal) (((cfg2.win 2).blk t).view.emb y) = _
  congr 1
  funext a
  apply Fin.ext
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

/-- Window 3's block at every point is its whole array. -/
theorem iblk2_3_eq (c : Dev nD) (t : Fin cfg2.N) :
    (iblk2 V c 3 t : Vec Ideal S64x64 .f32) = (V c (Pipeline.arrRef spec2 3) : S64x64.Idx → EReal) := by
  obtain ⟨-, -, -, -, -, -, -, -, e0, e1, -, -⟩ := idx_facts2 t
  funext y
  unfold iblk2
  rw [View.read_apply]
  show (V c (Pipeline.arrRef spec2 3) : S64x64.Idx → EReal) (((cfg2.win 3).blk t).view.emb y) = _
  congr 1
  funext a
  apply Fin.ext
  match a with
  | ⟨0, _⟩ => show win2_3.index t (0 : Fin 2) * 64 + 1 * (y 0).val = (y 0).val; rw [e0]; omega
  | ⟨1, _⟩ => show win2_3.index t (1 : Fin 2) * 64 + 1 * (y 1).val = (y 1).val; rw [e1]; omega

/-- Window 4's block at every point is its whole array. -/
theorem iblk2_4_eq (c : Dev nD) (t : Fin cfg2.N) :
    (iblk2 V c 4 t : Vec Ideal S1x64 .f32) = (V c (Pipeline.arrRef spec2 4) : S1x64.Idx → EReal) := by
  obtain ⟨-, -, -, -, -, -, -, -, -, -, e0, e1⟩ := idx_facts2 t
  funext y
  unfold iblk2
  rw [View.read_apply]
  show (V c (Pipeline.arrRef spec2 4) : S1x64.Idx → EReal) (((cfg2.win 4).blk t).view.emb y) = _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

/-! ## What a point writes back, and the whole array -/

/-- The array the region leaves: the rectified layer of the five arrays it found. -/
abbrev G2 (c : Dev nD) : S100000x64.Idx → EReal :=
  Cert.SageSpec.sageRelu (N := 100000) (K := 64) (D := 64)
    (V c (Pipeline.arrRef spec2 0) : S100000x64.Idx → EReal) (V c (Pipeline.arrRef spec2 1) : S100000x64.Idx → EReal)
    (V c (Pipeline.arrRef spec2 2) : S64x64.Idx → EReal) (V c (Pipeline.arrRef spec2 3) : S64x64.Idx → EReal)
    (V c (Pipeline.arrRef spec2 4) : S1x64.Idx → EReal)

/-- Point t writes back block t of that array. -/
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  obtain ⟨e0, e1, -, -, -, -, -, -, -, -, -, -⟩ := idx_facts2 t
  funext j
  show out2_5 (F := Ideal) (iblk2 V c 0 t) (iblk2 V c 1 t) (iblk2 V c 2 t) (iblk2 V c 3 t) (iblk2 V c 4 t) j
    = G2 V c (((cfg2.win 5).blk t).view.emb j)
  refine point2 (V c (Pipeline.arrRef spec2 0) : S100000x64.Idx → EReal) (V c (Pipeline.arrRef spec2 1) : S100000x64.Idx → EReal)
    (V c (Pipeline.arrRef spec2 2) : S64x64.Idx → EReal) (V c (Pipeline.arrRef spec2 3) : S64x64.Idx → EReal)
    (V c (Pipeline.arrRef spec2 4) : S1x64.Idx → EReal)
    (iblk2 V c 0 t) (iblk2 V c 1 t) (iblk2 V c 2 t) (iblk2 V c 3 t) (iblk2 V c 4 t)
    (t.val * 5000) (fun y k hk0 hk1 => iblk2_0_apply V c t y k hk0 hk1) (fun y k hk0 hk1 => iblk2_1_apply V c t y k hk0 hk1)
    (iblk2_2_eq V c t) (iblk2_3_eq V c t) (iblk2_4_eq V c t) j (((cfg2.win 5).blk t).view.emb j) ?_ ?_
  · show win2_5.index t (0 : Fin 2) * 5000 + 1 * (j 0).val = t.val * 5000 + (j 0).val
    rw [e0]; omega
  · show win2_5.index t (1 : Fin 2) * 64 + 1 * (j 1).val = (j 1).val
    rw [e1]; omega

/-- An index of the result is in point t's block iff each coordinate is in the block's range on its axis. -/
theorem mem_blk2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v50).slice (win2_5.rect t)).set ↔ _
  rw [View.set_slice_whole, Rect.mem_set_unit]
  exact Iff.rfl

/-- Row n of the result is in the block of point n / 5000. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, Nat.lt_of_lt_of_eq (by omega : (i 0).val / 5000 < 20) N_2.symm⟩, rfl⟩
  obtain ⟨e0, e1, -, -, -, -, -, -, -, -, -, -⟩ := idx_facts2 t
  refine ⟨t, flush2_5 t, ?_⟩
  rw [mem_blk2]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 64 ≤ (i 1).val ∧ (i 1).val < win2_5.index t (1 : Fin 2) * 64 + 64
    rw [e1]; omega

/-- THE REGION: its result array ends holding the rectified layer of the arrays it found in windows 0 … 4. -/
theorem region2 (c : Dev nD) :
    (dat2 (F := Ideal) V c).arrAt 5 cfg2.N
      = Cert.SageSpec.sageRelu (N := 100000) (K := 64) (D := 64)
          (V c (Pipeline.arrRef spec2 0) : S100000x64.Idx → EReal) (V c (Pipeline.arrRef spec2 1) : S100000x64.Idx → EReal)
          (V c (Pipeline.arrRef spec2 2) : S64x64.Idx → EReal) (V c (Pipeline.arrRef spec2 3) : S64x64.Idx → EReal)
          (V c (Pipeline.arrRef spec2 4) : S1x64.Idx → EReal) :=
  (dat2 V c).arrAt_eq_of_cover 5 (G2 V c) (fun t _ => flushed2_eq V c t) (cover2)

end Cert.KernelIdeal.Regions

end
-- ==== Proof.Region3.lean ====
/-
  Region 3 of the kernel computes the rectified layer on all 100000 rows.

  The region runs 20 grid points; point t holds rows 5000·t … 5000·t + 4999 of the two row-indexed operands (the
  scaled neighbour sums and the previous features, 100000 × 64) and the whole of both weight matrices (64 × 64)
  and of the bias row, and writes rows 5000·t … 5000·t + 4999 of the 100000 × 64 result.  What a point writes is
  the rectified layer of its tile (the tile arithmetic is the layer on the tile's rows), and an entry of the layer depends on
  one row of the row-indexed operands only, so the tile's layer at row p is the whole arrays' layer at row 5000·t + p.
  Row n of the result lies in the block of point n / 5000, so the 20 blocks cover the result and it ends holding
  the rectified layer of the arrays the region found.
-/
import proofs.«105689_j90512140795978_1_alg».proof.Proof.Gen.KernelIdeal.Frame
import proofs.«105689_j90512140795978_1_alg».proof.Proof.Spec
import proofs.«105689_j90512140795978_1_alg».proof.Proof.LibSageTile

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer rectangle, as the constant function. -/
theorem zero_offsets3 : (![0, 0] : Fin 2 → Nat) = fun _ => 0 := funext fun a => by fin_cases a <;> rfl

/-! ## What the body stores, from the blocks it loads -/

/-- The body's arithmetic is the tile form of the rectified layer, hence the rectified layer on the tile's 5000 rows. -/
theorem payload3_eq (x0 x1 : Vec Ideal S5000x64 .f32) (x2 x3 : Vec Ideal S64x64 .f32) (x4 : Vec Ideal S1x64 .f32) :
    k3_pay1 (F := Ideal) x0 x1 x2 x3 x4 = Cert.SageSpec.sageRelu (N := 5000) (K := 64) (D := 64) x0 x1 x2 x3 x4 :=
  (show k3_pay1 (F := Ideal) x0 x1 x2 x3 x4
      = Cert.LibSageTile.tileSageRelu (R := 5000) (K := 64) (D := 64) dot_S5000x64_S64x64_S5000x64_1_0_0_1_n_n bitsLt_bf16_f32
          shapeCasts_S5000x64_S5000x64 shapeCasts_S1x64_S1x64 broadcasts_S1x64_S5000x64 reduces_S5000x64_S5000 (.inl rfl) rfl
          shapeCasts_S5000_S5000x1 broadcasts_S5000x1_S5000x64 x0 x1 x2 x3 x4 from rfl).trans
    (Cert.LibSageTile.tileSageRelu_eq (R := 5000) (K := 64) (D := 64) ⟨rfl, rfl, rfl, rfl, rfl, rfl⟩ _ _ _ _ _ _ _ _ _
      x0 x1 x2 x3 x4)

/-- The output buffer after the body: one store through the whole buffer of the payload of the whole loaded blocks. -/
theorem out3_eq (x0 x1 : Vec Ideal S5000x64 .f32) (x2 x3 : Vec Ideal S64x64 .f32) (x4 : Vec Ideal S1x64 .f32) :
    out3_5 (F := Ideal) x0 x1 x2 x3 x4 = Cert.SageSpec.sageRelu (N := 5000) (K := 64) (D := 64) x0 x1 x2 x3 x4 := by
  unfold out3_5
  rw [View.canon_unit_zero zero_offsets3]
  simp only [View.ld_unit_zero (S := S5000x64) zero_offsets3, View.ld_unit_zero (S := S64x64) zero_offsets3,
    View.ld_unit_zero (S := S1x64) zero_offsets3]
  exact payload3_eq x0 x1 x2 x3 x4

/-- One point, over variables: if the two row blocks are rows off … off + 4999 of the arrays A0, A1 and the other
    three blocks are the arrays A2, A3, A4 themselves, then the buffer's entry j is the rectified layer of the arrays at
    the entry off rows below j. -/
theorem point3 (A0 A1 : S100000x64.Idx → EReal) (A2 A3 : S64x64.Idx → EReal) (A4 : S1x64.Idx → EReal)
    (x0 x1 : Vec Ideal S5000x64 .f32) (x2 x3 : Vec Ideal S64x64 .f32) (x4 : Vec Ideal S1x64 .f32) (off : ℕ)
    (h0 : ∀ (y : S5000x64.Idx) (k : S100000x64.Idx), (k 0).val = off + (y 0).val → (k 1).val = (y 1).val → x0 y = A0 k)
    (h1 : ∀ (y : S5000x64.Idx) (k : S100000x64.Idx), (k 0).val = off + (y 0).val → (k 1).val = (y 1).val → x1 y = A1 k)
    (h2 : x2 = A2) (h3 : x3 = A3) (h4 : x4 = A4)
    (j : S5000x64.Idx) (i : S100000x64.Idx) (hi0 : (i 0).val = off + (j 0).val) (hi1 : (i 1).val = (j 1).val) :
    out3_5 (F := Ideal) x0 x1 x2 x3 x4 j
      = Cert.SageSpec.sageRelu (N := 100000) (K := 64) (D := 64) A0 A1 A2 A3 A4 i := by
  subst h2 h3 h4
  rw [out3_eq]
  exact Cert.LibSageTile.sageRelu_block (N := 100000) (R := 5000) (K := 64) (D := 64) A0 A1 x0 x1 x2 x3 x4 off h0 h1 j i hi0 hi1

/-! ## The blocks of the windows at a point -/

/-- The printed index maps over the 20 points: the row windows sit at block row t, column block 0; the weight and
    bias windows at block (0, 0). -/
theorem idx_facts3 : ∀ t : Fin cfg3.N, win3_5.index t (0 : Fin 2) = t.val ∧ win3_5.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Window 0's block at point t is rows 5000·t … of its array. -/
theorem iblk3_0_apply (c : Dev nD) (t : Fin cfg3.N) (y : S5000x64.Idx) (k : S100000x64.Idx)
    (hk0 : (k 0).val = t.val * 5000 + (y 0).val) (hk1 : (k 1).val = (y 1).val) :
    (iblk3 V c 0 t : Vec Ideal S5000x64 .f32) y = (V c (Pipeline.arrRef spec3 0) : S100000x64.Idx → EReal) k := by
  obtain ⟨-, -, e0, e1, -, -, -, -, -, -, -, -⟩ := idx_facts3 t
  unfold iblk3
  rw [View.read_apply]
  show (V c (Pipeline.arrRef spec3 0) : S100000x64.Idx → EReal) (((cfg3.win 0).blk t).view.emb y) = _
  congr 1
  funext a
  apply Fin.ext
  match a with
  | ⟨0, _⟩ => show win3_0.index t (0 : Fin 2) * 5000 + 1 * (y 0).val = (k 0).val; rw [e0, hk0]; omega
  | ⟨1, _⟩ => show win3_0.index t (1 : Fin 2) * 64 + 1 * (y 1).val = (k 1).val; rw [e1, hk1]; omega

/-- Window 1's block at point t is rows 5000·t … of its array. -/
theorem iblk3_1_apply (c : Dev nD) (t : Fin cfg3.N) (y : S5000x64.Idx) (k : S100000x64.Idx)
    (hk0 : (k 0).val = t.val * 5000 + (y 0).val) (hk1 : (k 1).val = (y 1).val) :
    (iblk3 V c 1 t : Vec Ideal S5000x64 .f32) y = (V c (Pipeline.arrRef spec3 1) : S100000x64.Idx → EReal) k := by
  obtain ⟨-, -, -, -, e0, e1, -, -, -, -, -, -⟩ := idx_facts3 t
  unfold iblk3
  rw [View.read_apply]
  show (V c (Pipeline.arrRef spec3 1) : S100000x64.Idx → EReal) (((cfg3.win 1).blk t).view.emb y) = _
  congr 1
  funext a
  apply Fin.ext
  match a with
  | ⟨0, _⟩ => show win3_1.index t (0 : Fin 2) * 5000 + 1 * (y 0).val = (k 0).val; rw [e0, hk0]; omega
  | ⟨1, _⟩ => show win3_1.index t (1 : Fin 2) * 64 + 1 * (y 1).val = (k 1).val; rw [e1, hk1]; omega

/-- Window 2's block at every point is its whole array. -/
theorem iblk3_2_eq (c : Dev nD) (t : Fin cfg3.N) :
    (iblk3 V c 2 t : Vec Ideal S64x64 .f32) = (V c (Pipeline.arrRef spec3 2) : S64x64.Idx → EReal) := by
  obtain ⟨-, -, -, -, -, -, e0, e1, -, -, -, -⟩ := idx_facts3 t
  funext y
  unfold iblk3
  rw [View.read_apply]
  show (V c (Pipeline.arrRef spec3 2) : S64x64.Idx → EReal) (((cfg3.win 2).blk t).view.emb y) = _
  congr 1
  funext a
  apply Fin.ext
  match a with
  | ⟨0, _⟩ => show win3_2.index t (0 : Fin 2) * 64 + 1 * (y 0).val = (y 0).val; rw [e0]; omega
  | ⟨1, _⟩ => show win3_2.index t (1 : Fin 2) * 64 + 1 * (y 1).val = (y 1).val; rw [e1]; omega

/-- Window 3's block at every point is its whole array. -/
theorem iblk3_3_eq (c : Dev nD) (t : Fin cfg3.N) :
    (iblk3 V c 3 t : Vec Ideal S64x64 .f32) = (V c (Pipeline.arrRef spec3 3) : S64x64.Idx → EReal) := by
  obtain ⟨-, -, -, -, -, -, -, -, e0, e1, -, -⟩ := idx_facts3 t
  funext y
  unfold iblk3
  rw [View.read_apply]
  show (V c (Pipeline.arrRef spec3 3) : S64x64.Idx → EReal) (((cfg3.win 3).blk t).view.emb y) = _
  congr 1
  funext a
  apply Fin.ext
  match a with
  | ⟨0, _⟩ => show win3_3.index t (0 : Fin 2) * 64 + 1 * (y 0).val = (y 0).val; rw [e0]; omega
  | ⟨1, _⟩ => show win3_3.index t (1 : Fin 2) * 64 + 1 * (y 1).val = (y 1).val; rw [e1]; omega

/-- Window 4's block at every point is its whole array. -/
theorem iblk3_4_eq (c : Dev nD) (t : Fin cfg3.N) :
    (iblk3 V c 4 t : Vec Ideal S1x64 .f32) = (V c (Pipeline.arrRef spec3 4) : S1x64.Idx → EReal) := by
  obtain ⟨-, -, -, -, -, -, -, -, -, -, e0, e1⟩ := idx_facts3 t
  funext y
  unfold iblk3
  rw [View.read_apply]
  show (V c (Pipeline.arrRef spec3 4) : S1x64.Idx → EReal) (((cfg3.win 4).blk t).view.emb y) = _
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 64 + 1 * (y 1).val = (y 1).val; rw [e1]; omega

/-! ## What a point writes back, and the whole array -/

/-- The array the region leaves: the rectified layer of the five arrays it found. -/
abbrev G3 (c : Dev nD) : S100000x64.Idx → EReal :=
  Cert.SageSpec.sageRelu (N := 100000) (K := 64) (D := 64)
    (V c (Pipeline.arrRef spec3 0) : S100000x64.Idx → EReal) (V c (Pipeline.arrRef spec3 1) : S100000x64.Idx → EReal)
    (V c (Pipeline.arrRef spec3 2) : S64x64.Idx → EReal) (V c (Pipeline.arrRef spec3 3) : S64x64.Idx → EReal)
    (V c (Pipeline.arrRef spec3 4) : S1x64.Idx → EReal)

/-- Point t writes back block t of that array. -/
theorem flushed3_eq (c : Dev nD) (t : Fin cfg3.N) :
    (dat3 (F := Ideal) V c).flushed 5 t = ((cfg3.win 5).blk t).view.read (Elt Ideal) (G3 V c) := by
  show (cfg3.win 5).cut (grid3.coords t) ((dat3 V c).after 5 t) = _
  rw [after3_5]
  obtain ⟨e0, e1, -, -, -, -, -, -, -, -, -, -⟩ := idx_facts3 t
  funext j
  show out3_5 (F := Ideal) (iblk3 V c 0 t) (iblk3 V c 1 t) (iblk3 V c 2 t) (iblk3 V c 3 t) (iblk3 V c 4 t) j
    = G3 V c (((cfg3.win 5).blk t).view.emb j)
  refine point3 (V c (Pipeline.arrRef spec3 0) : S100000x64.Idx → EReal) (V c (Pipeline.arrRef spec3 1) : S100000x64.Idx → EReal)
    (V c (Pipeline.arrRef spec3 2) : S64x64.Idx → EReal) (V c (Pipeline.arrRef spec3 3) : S64x64.Idx → EReal)
    (V c (Pipeline.arrRef spec3 4) : S1x64.Idx → EReal)
    (iblk3 V c 0 t) (iblk3 V c 1 t) (iblk3 V c 2 t) (iblk3 V c 3 t) (iblk3 V c 4 t)
    (t.val * 5000) (fun y k hk0 hk1 => iblk3_0_apply V c t y k hk0 hk1) (fun y k hk0 hk1 => iblk3_1_apply V c t y k hk0 hk1)
    (iblk3_2_eq V c t) (iblk3_3_eq V c t) (iblk3_4_eq V c t) j (((cfg3.win 5).blk t).view.emb j) ?_ ?_
  · show win3_5.index t (0 : Fin 2) * 5000 + 1 * (j 0).val = t.val * 5000 + (j 0).val
    rw [e0]; omega
  · show win3_5.index t (1 : Fin 2) * 64 + 1 * (j 1).val = (j 1).val
    rw [e1]; omega

/-- An index of the result is in point t's block iff each coordinate is in the block's range on its axis. -/
theorem mem_blk3 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v68).slice (win3_5.rect t)).set ↔ _
  rw [View.set_slice_whole, Rect.mem_set_unit]
  exact Iff.rfl

/-- Row n of the result is in the block of point n / 5000. -/
theorem cover3 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, Nat.lt_of_lt_of_eq (by omega : (i 0).val / 5000 < 20) N_3.symm⟩, rfl⟩
  obtain ⟨e0, e1, -, -, -, -, -, -, -, -, -, -⟩ := idx_facts3 t
  refine ⟨t, flush3_5 t, ?_⟩
  rw [mem_blk3]
  intro a
  match a with
  | ⟨0, _⟩ =>
    show win3_5.index t (0 : Fin 2) * 5000 ≤ (i 0).val ∧ (i 0).val < win3_5.index t (0 : Fin 2) * 5000 + 5000
    rw [e0, ht]; omega
  | ⟨1, _⟩ =>
    show win3_5.index t (1 : Fin 2) * 64 ≤ (i 1).val ∧ (i 1).val < win3_5.index t (1 : Fin 2) * 64 + 64
    rw [e1]; omega

/-- THE REGION: its result array ends holding the rectified layer of the arrays it found in windows 0 … 4. -/
theorem region3 (c : Dev nD) :
    (dat3 (F := Ideal) V c).arrAt 5 cfg3.N
      = Cert.SageSpec.sageRelu (N := 100000) (K := 64) (D := 64)
          (V c (Pipeline.arrRef spec3 0) : S100000x64.Idx → EReal) (V c (Pipeline.arrRef spec3 1) : S100000x64.Idx → EReal)
          (V c (Pipeline.arrRef spec3 2) : S64x64.Idx → EReal) (V c (Pipeline.arrRef spec3 3) : S64x64.Idx → EReal)
          (V c (Pipeline.arrRef spec3 4) : S1x64.Idx → EReal) :=
  (dat3 V c).arrAt_eq_of_cover 5 (G3 V c) (fun t _ => flushed3_eq V c t) (cover3)

end Cert.KernelIdeal.Regions

end
-- ==== Proof.Region4.lean ====
/-
  Region 4 of the kernel computes the rectified layer on all 100000 rows.

  The region runs 20 grid points; point t holds rows 5000·t … 5000·t + 4999 of the two row-indexed operands (the
  scaled neighbour sums and the previous features, 100000 × 64) and the whole of both weight matrices (64 × 64)
  and of the bias row, and writes rows 5000·t … 5000·t + 4999 of the 100000 × 64 result.  What a point writes is
  the rectified layer of its tile (the tile arithmetic is the layer on the tile's rows), and an entry of the layer depends on
  one row of the row-indexed operands only, so the tile's layer at row p is the whole arrays' layer at row 5000·t + p.
  Row n of the result lies in the block of point n / 5000, so the 20 blocks cover the result and it ends holding
  the rectified layer of the arrays the region found.
-/
import proofs.«105689_j90512140795978_1_alg».proof.Proof.Gen.KernelIdeal.Frame
import proofs.«105689_j90512140795978_1_alg».proof.Proof.Spec
import proofs.«105689_j90512140795978_1_alg».proof.Proof.LibSageTile

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer rectangle, as the constant function. -/
theorem zero_offsets4 : (![0, 0] : Fin 2 → Nat) = fun _ => 0 := funext fun a => by fin_cases a <;> rfl

/-! ## What the body stores, from the blocks it loads -/

/-- The body's arithmetic is the tile form of the rectified layer, hence the rectified layer on the tile's 5000 rows. -/
theorem payload4_eq (x0 x1 : Vec Ideal S5000x64 .f32) (x2 x3 : Vec Ideal S64x64 .f32) (x4 : Vec Ideal S1x64 .f32) :
    k4_pay1 (F := Ideal) x0 x1 x2 x3 x4 = Cert.SageSpec.sageRelu (N := 5000) (K := 64) (D := 64) x0 x1 x2 x3 x4 :=
  (show k4_pay1 (F := Ideal) x0 x1 x2 x3 x4
      = Cert.LibSageTile.tileSageRelu (R := 5000) (K := 64) (D := 64) dot_S5000x64_S64x64_S5000x64_1_0_0_1_n_n bitsLt_bf16_f32
          shapeCasts_S5000x64_S5000x64 shapeCasts_S1x64_S1x64 broadcasts_S1x64_S5000x64 reduces_S5000x64_S5000 (.inl rfl) rfl
          shapeCasts_S5000_S5000x1 broadcasts_S5000x1_S5000x64 x0 x1 x2 x3 x4 from rfl).trans
    (Cert.LibSageTile.tileSageRelu_eq (R := 5000) (K := 64) (D := 64) ⟨rfl, rfl, rfl, rfl, rfl, rfl⟩ _ _ _ _ _ _ _ _ _
      x0 x1 x2 x3 x4)

/-- The output buffer after the body: one store through the whole buffer of the payload of the whole loaded blocks. -/
theorem out4_eq (x0 x1 : Vec Ideal S5000x64 .f32) (x2 x3 : Vec Ideal S64x64 .f32) (x4 : Vec Ideal S1x64 .f32) :
    out4_5 (F := Ideal) x0 x1 x2 x3 x4 = Cert.SageSpec.sageRelu (N := 5000) (K := 64) (D := 64) x0 x1 x2 x3 x4 := by
  unfold out4_5
  rw [View.canon_unit_zero zero_offsets4]
  simp only [View.ld_unit_zero (S := S5000x64) zero_offsets4, View.ld_unit_zero (S := S64x64) zero_offsets4,
    View.ld_unit_zero (S := S1x64) zero_offsets4]
  exact payload4_eq x0 x1 x2 x3 x4

/-- One point, over variables: if the two row blocks are rows off … off + 4999 of the arrays A0, A1 and the other
    three blocks are the arrays A2, A3, A4 themselves, then the buffer's entry j is the rectified layer of the arrays at
    the entry off rows below j. -/
theorem point4 (A0 A1 : S100000x64.Idx → EReal) (A2 A3 : S64x64.Idx → EReal) (A4 : S1x64.Idx → EReal)
    (x0 x1 : Vec Ideal S5000x64 .f32) (x2 x3 : Vec Ideal S64x64 .f32) (x4 : Vec Ideal S1x64 .f32) (off : ℕ)
    (h0 : ∀ (y : S5000x64.Idx) (k : S100000x64.Idx), (k 0).val = off + (y 0).val → (k 1).val = (y 1).val → x0 y = A0 k)
    (h1 : ∀ (y : S5000x64.Idx) (k : S100000x64.Idx), (k 0).val = off + (y 0).val → (k 1).val = (y 1).val → x1 y = A1 k)
    (h2 : x2 = A2) (h3 : x3 = A3) (h4 : x4 = A4)
    (j : S5000x64.Idx) (i : S100000x64.Idx) (hi0 : (i 0).val = off + (j 0).val) (hi1 : (i 1).val = (j 1).val) :
    out4_5 (F := Ideal) x0 x1 x2 x3 x4 j
      = Cert.SageSpec.sageRelu (N := 100000) (K := 64) (D := 64) A0 A1 A2 A3 A4 i := by
  subst h2 h3 h4
  rw [out4_eq]
  exact Cert.LibSageTile.sageRelu_block (N := 100000) (R := 5000) (K := 64) (D := 64) A0 A1 x0 x1 x2 x3 x4 off h0 h1 j i hi0 hi1

/-! ## The blocks of the windows at a point -/

/-- The printed index maps over the 20 points: the row windows sit at block row t, column block 0; the weight and
    bias windows at block (0, 0). -/
theorem idx_facts4 : ∀ t : Fin cfg4.N, win4_5.index t (0 : Fin 2) = t.val ∧ win4_5.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Window 0's block at point t is rows 5000·t … of its array. -/
theorem iblk4_0_apply (c : Dev nD) (t : Fin cfg4.N) (y : S5000x64.Idx) (k : S100000x64.Idx)
    (hk0 : (k 0).val = t.val * 5000 + (y 0).val) (hk1 : (k 1).val = (y 1).val) :
    (iblk4 V c 0 t : Vec Ideal S5000x64 .f32) y = (V c (Pipeline.arrRef spec4 0) : S100000x64.Idx → EReal) k := by
  obtain ⟨-, -, e0, e1, -, -, -, -, -, -, -, -⟩ := idx_facts4 t
  unfold iblk4
  rw [View.read_apply]
  show (V c (Pipeline.arrRef spec4 0) : S100000x64.Idx → EReal) (((cfg4.win 0).blk t).view.emb y) = _
  congr 1
  funext a
  apply Fin.ext
  match a with
  | ⟨0, _⟩ => show win4_0.index t (0 : Fin 2) * 5000 + 1 * (y 0).val = (k 0).val; rw [e0, hk0]; omega
  | ⟨1, _⟩ => show win4_0.index t (1 : Fin 2) * 64 + 1 * (y 1).val = (k 1).val; rw [e1, hk1]; omega

/-- Window 1's block at point t is rows 5000·t … of its array. -/
theorem iblk4_1_apply (c : Dev nD) (t : Fin cfg4.N) (y : S5000x64.Idx) (k : S100000x64.Idx)
    (hk0 : (k 0).val = t.val * 5000 + (y 0).val) (hk1 : (k 1).val = (y 1).val) :
    (iblk4 V c 1 t : Vec Ideal S5000x64 .f32) y = (V c (Pipeline.arrRef spec4 1) : S100000x64.Idx → EReal) k := by
  obtain ⟨-, -, -, -, e0, e1, -, -, -, -, -, -⟩ := idx_facts4 t
  unfold iblk4
  rw [View.read_apply]
  show (V c (Pipeline.arrRef spec4 1) : S100000x64.Idx → EReal) (((cfg4.win 1).blk t).view.emb y) = _
  congr 1
  funext a
  apply Fin.ext
  match a with
  | ⟨0, _⟩ => show win4_1.index t (0 : Fin 2) * 5000 + 1 * (y 0).val = (k 0).val; rw [e0, hk0]; omega
  | ⟨1, _⟩ => show win4_1.index t (1 : Fin 2) * 64 + 1 * (y 1).val = (k 1).val; rw [e1, hk1]; omega

/-- Window 2's block at every point is its whole array. -/
theorem iblk4_2_eq (c : Dev nD) (t : Fin cfg4.N) :
    (iblk4 V c 2 t : Vec Ideal S64x64 .f32) = (V c (Pipeline.arrRef spec4 2) : S64x64.Idx → EReal) := by
  obtain ⟨-, -, -, -, -, -, e0, e1, -, -, -, -⟩ := idx_facts4 t
  funext y
  unfold iblk4
  rw [View.read_apply]
  show (V c (Pipeline.arrRef spec4 2) : S64x64.Idx → EReal) (((cfg4.win 2).blk t).view.emb y) = _
  congr 1
  funext a
  apply Fin.ext
  match a with
  | ⟨0, _⟩ => show win4_2.index t (0 : Fin 2) * 64 + 1 * (y 0).val = (y 0).val; rw [e0]; omega
  | ⟨1, _⟩ => show win4_2.index t (1 : Fin 2) * 64 + 1 * (y 1).val = (y 1).val; rw [e1]; omega

/-- Window 3's block at every point is its whole array. -/
theorem iblk4_3_eq (c : Dev nD) (t : Fin cfg4.N) :
    (iblk4 V c 3 t : Vec Ideal S64x64 .f32) = (V c (Pipeline.arrRef spec4 3) : S64x64.Idx → EReal) := by
  obtain ⟨-, -, -, -, -, -, -, -, e0, e1, -, -⟩ := idx_facts4 t
  funext y
  unfold iblk4
  rw [View.read_apply]
  show (V c (Pipeline.arrRef spec4 3) : S64x64.Idx → EReal) (((cfg4.win 3).blk t).view.emb y) = _
  congr 1
  funext a
  apply Fin.ext
  match a with
  | ⟨0, _⟩ => show win4_3.index t (0 : Fin 2) * 64 + 1 * (y 0).val = (y 0).val; rw [e0]; omega
  | ⟨1, _⟩ => show win4_3.index t (1 : Fin 2) * 64 + 1 * (y 1).val = (y 1).val; rw [e1]; omega

/-- Window 4's block at every point is its whole array. -/
theorem iblk4_4_eq (c : Dev nD) (t : Fin cfg4.N) :
    (iblk4 V c 4 t : Vec Ideal S1x64 .f32) = (V c (Pipeline.arrRef spec4 4) : S1x64.Idx → EReal) := by
  obtain ⟨-, -, -, -, -, -, -, -, -, -, e0, e1⟩ := idx_facts4 t
  funext y
  unfold iblk4
  rw [View.read_apply]
  show (V c (Pipeline.arrRef spec4 4) : S1x64.Idx → EReal) (((cfg4.win 4).blk t).view.emb y) = _
  congr 1
  funext a
  apply Fin.ext
  match a with
  | ⟨0, _⟩ => show win4_4.index t (0 : Fin 2) * 1 + 1 * (y 0).val = (y 0).val; rw [e0]; omega
  | ⟨1, _⟩ => show win4_4.index t (1 : Fin 2) * 64 + 1 * (y 1).val = (y 1).val; rw [e1]; omega

/-! ## What a point writes back, and the whole array -/

/-- The array the region leaves: the rectified layer of the five arrays it found. -/
abbrev G4 (c : Dev nD) : S100000x64.Idx → EReal :=
  Cert.SageSpec.sageRelu (N := 100000) (K := 64) (D := 64)
    (V c (Pipeline.arrRef spec4 0) : S100000x64.Idx → EReal) (V c (Pipeline.arrRef spec4 1) : S100000x64.Idx → EReal)
    (V c (Pipeline.arrRef spec4 2) : S64x64.Idx → EReal) (V c (Pipeline.arrRef spec4 3) : S64x64.Idx → EReal)
    (V c (Pipeline.arrRef spec4 4) : S1x64.Idx → EReal)

/-- Point t writes back block t of that array. -/
theorem flushed4_eq (c : Dev nD) (t : Fin cfg4.N) :
    (dat4 (F := Ideal) V c).flushed 5 t = ((cfg4.win 5).blk t).view.read (Elt Ideal) (G4 V c) := by
  show (cfg4.win 5).cut (grid4.coords t) ((dat4 V c).after 5 t) = _
  rw [after4_5]
  obtain ⟨e0, e1, -, -, -, -, -, -, -, -, -, -⟩ := idx_facts4 t
  funext j
  show out4_5 (F := Ideal) (iblk4 V c 0 t) (iblk4 V c 1 t) (iblk4 V c 2 t) (iblk4 V c 3 t) (iblk4 V c 4 t) j
    = G4 V c (((cfg4.win 5).blk t).view.emb j)
  refine point4 (V c (Pipeline.arrRef spec4 0) : S100000x64.Idx → EReal) (V c (Pipeline.arrRef spec4 1) : S100000x64.Idx → EReal)
    (V c (Pipeline.arrRef spec4 2) : S64x64.Idx → EReal) (V c (Pipeline.arrRef spec4 3) : S64x64.Idx → EReal)
    (V c (Pipeline.arrRef spec4 4) : S1x64.Idx → EReal)
    (iblk4 V c 0 t) (iblk4 V c 1 t) (iblk4 V c 2 t) (iblk4 V c 3 t) (iblk4 V c 4 t)
    (t.val * 5000) (fun y k hk0 hk1 => iblk4_0_apply V c t y k hk0 hk1) (fun y k hk0 hk1 => iblk4_1_apply V c t y k hk0 hk1)
    (iblk4_2_eq V c t) (iblk4_3_eq V c t) (iblk4_4_eq V c t) j (((cfg4.win 5).blk t).view.emb j) ?_ ?_
  · show win4_5.index t (0 : Fin 2) * 5000 + 1 * (j 0).val = t.val * 5000 + (j 0).val
    rw [e0]; omega
  · show win4_5.index t (1 : Fin 2) * 64 + 1 * (j 1).val = (j 1).val
    rw [e1]; omega

/-- An index of the result is in point t's block iff each coordinate is in the block's range on its axis. -/
theorem mem_blk4 (t : Fin cfg4.N) (i : S100000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v86).slice (win4_5.rect t)).set ↔ _
  rw [View.set_slice_whole, Rect.mem_set_unit]
  exact Iff.rfl

/-- Row n of the result is in the block of point n / 5000. -/
theorem cover4 (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  obtain ⟨t, ht⟩ : ∃ t : Fin cfg4.N, t.val = (i 0).val / 5000 :=
    ⟨⟨(i 0).val / 5000, Nat.lt_of_lt_of_eq (by omega : (i 0).val / 5000 < 20) N_4.symm⟩, rfl⟩
  obtain ⟨e0, e1, -, -, -, -, -, -, -, -, -, -⟩ := idx_facts4 t
  refine ⟨t, flush4_5 t, ?_⟩
  rw [mem_blk4]
  intro a
  match a with
  | ⟨0, _⟩ =>
    show win4_5.index t (0 : Fin 2) * 5000 ≤ (i 0).val ∧ (i 0).val < win4_5.index t (0 : Fin 2) * 5000 + 5000
    rw [e0, ht]; omega
  | ⟨1, _⟩ =>
    show win4_5.index t (1 : Fin 2) * 64 ≤ (i 1).val ∧ (i 1).val < win4_5.index t (1 : Fin 2) * 64 + 64
    rw [e1]; omega

/-- THE REGION: its result array ends holding the rectified layer of the arrays it found in windows 0 … 4. -/
theorem region4 (c : Dev nD) :
    (dat4 (F := Ideal) V c).arrAt 5 cfg4.N
      = Cert.SageSpec.sageRelu (N := 100000) (K := 64) (D := 64)
          (V c (Pipeline.arrRef spec4 0) : S100000x64.Idx → EReal) (V c (Pipeline.arrRef spec4 1) : S100000x64.Idx → EReal)
          (V c (Pipeline.arrRef spec4 2) : S64x64.Idx → EReal) (V c (Pipeline.arrRef spec4 3) : S64x64.Idx → EReal)
          (V c (Pipeline.arrRef spec4 4) : S1x64.Idx → EReal) :=
  (dat4 V c).arrAt_eq_of_cover 5 (G4 V c) (fun t _ => flushed4_eq V c t) (cover4)

end Cert.KernelIdeal.Regions

end
-- ==== Proof.Region5.lean ====
/-
  Region 5 of the kernel computes the layer on all 100000 rows.

  The region runs 20 grid points; point t holds rows 5000·t … 5000·t + 4999 of the two row-indexed operands (the
  scaled neighbour sums and the previous features, 100000 × 64) and the whole of both weight matrices (64 × 18)
  and of the bias row, and writes rows 5000·t … 5000·t + 4999 of the 100000 × 18 result.  What a point writes is
  the layer of its tile (the tile arithmetic is the layer on the tile's rows), and an entry of the layer depends on
  one row of the row-indexed operands only, so the tile's layer at row p is the whole arrays' layer at row 5000·t + p.
  Row n of the result lies in the block of point n / 5000, so the 20 blocks cover the result and it ends holding
  the layer of the arrays the region found.
-/
import proofs.«105689_j90512140795978_1_alg».proof.Proof.Gen.KernelIdeal.Frame
import proofs.«105689_j90512140795978_1_alg».proof.Proof.Spec
import proofs.«105689_j90512140795978_1_alg».proof.Proof.LibSageTile

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer rectangle, as the constant function. -/
theorem zero_offsets5 : (![0, 0] : Fin 2 → Nat) = fun _ => 0 := funext fun a => by fin_cases a <;> rfl

/-! ## What the body stores, from the blocks it loads -/

/-- The body's arithmetic is the tile form of the layer, hence the layer on the tile's 5000 rows. -/
theorem payload5_eq (x0 x1 : Vec Ideal S5000x64 .f32) (x2 x3 : Vec Ideal S64x18 .f32) (x4 : Vec Ideal S1x18 .f32) :
    k5_pay1 (F := Ideal) x0 x1 x2 x3 x4 = Cert.SageSpec.sage (N := 5000) (K := 64) (D := 18) x0 x1 x2 x3 x4 :=
  (show k5_pay1 (F := Ideal) x0 x1 x2 x3 x4
      = Cert.LibSageTile.tileSage (R := 5000) (K := 64) (D := 18) dot_S5000x64_S64x18_S5000x18_1_0_0_1_n_n bitsLt_bf16_f32
          shapeCasts_S5000x64_S5000x64 shapeCasts_S1x18_S1x18 broadcasts_S1x18_S5000x18 reduces_S5000x18_S5000 (.inl rfl) rfl
          shapeCasts_S5000_S5000x1 broadcasts_S5000x1_S5000x18 x0 x1 x2 x3 x4 from rfl).trans
    (Cert.LibSageTile.tileSage_eq (R := 5000) (K := 64) (D := 18) ⟨rfl, rfl, rfl, rfl, rfl, rfl⟩ _ _ _ _ _ _ _ _ _
      x0 x1 x2 x3 x4)

/-- The output buffer after the body: one store through the whole buffer of the payload of the whole loaded blocks. -/
theorem out5_eq (x0 x1 : Vec Ideal S5000x64 .f32) (x2 x3 : Vec Ideal S64x18 .f32) (x4 : Vec Ideal S1x18 .f32) :
    out5_5 (F := Ideal) x0 x1 x2 x3 x4 = Cert.SageSpec.sage (N := 5000) (K := 64) (D := 18) x0 x1 x2 x3 x4 := by
  unfold out5_5
  rw [View.canon_unit_zero zero_offsets5]
  simp only [View.ld_unit_zero (S := S5000x64) zero_offsets5, View.ld_unit_zero (S := S64x18) zero_offsets5,
    View.ld_unit_zero (S := S1x18) zero_offsets5]
  exact payload5_eq x0 x1 x2 x3 x4

/-- One point, over variables: if the two row blocks are rows off … off + 4999 of the arrays A0, A1 and the other
    three blocks are the arrays A2, A3, A4 themselves, then the buffer's entry j is the layer of the arrays at
    the entry off rows below j. -/
theorem point5 (A0 A1 : S100000x64.Idx → EReal) (A2 A3 : S64x18.Idx → EReal) (A4 : S1x18.Idx → EReal)
    (x0 x1 : Vec Ideal S5000x64 .f32) (x2 x3 : Vec Ideal S64x18 .f32) (x4 : Vec Ideal S1x18 .f32) (off : ℕ)
    (h0 : ∀ (y : S5000x64.Idx) (k : S100000x64.Idx), (k 0).val = off + (y 0).val → (k 1).val = (y 1).val → x0 y = A0 k)
    (h1 : ∀ (y : S5000x64.Idx) (k : S100000x64.Idx), (k 0).val = off + (y 0).val → (k 1).val = (y 1).val → x1 y = A1 k)
    (h2 : x2 = A2) (h3 : x3 = A3) (h4 : x4 = A4)
    (j : S5000x18.Idx) (i : S100000x18.Idx) (hi0 : (i 0).val = off + (j 0).val) (hi1 : (i 1).val = (j 1).val) :
    out5_5 (F := Ideal) x0 x1 x2 x3 x4 j
      = Cert.SageSpec.sage (N := 100000) (K := 64) (D := 18) A0 A1 A2 A3 A4 i := by
  subst h2 h3 h4
  rw [out5_eq]
  exact Cert.LibSageTile.sage_block (N := 100000) (R := 5000) (K := 64) (D := 18) A0 A1 x0 x1 x2 x3 x4 off h0 h1 j i hi0 hi1

/-! ## The blocks of the windows at a point -/

/-- The printed index maps over the 20 points: the row windows sit at block row t, column block 0; the weight and
    bias windows at block (0, 0). -/
theorem idx_facts5 : ∀ t : Fin cfg5.N, win5_5.index t (0 : Fin 2) = t.val ∧ win5_5.index t (1 : Fin 2) = 0
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Window 0's block at point t is rows 5000·t … of its array. -/
theorem iblk5_0_apply (c : Dev nD) (t : Fin cfg5.N) (y : S5000x64.Idx) (k : S100000x64.Idx)
    (hk0 : (k 0).val = t.val * 5000 + (y 0).val) (hk1 : (k 1).val = (y 1).val) :
    (iblk5 V c 0 t : Vec Ideal S5000x64 .f32) y = (V c (Pipeline.arrRef spec5 0) : S100000x64.Idx → EReal) k := by
  obtain ⟨-, -, e0, e1, -, -, -, -, -, -, -, -⟩ := idx_facts5 t
  unfold iblk5
  rw [View.read_apply]
  show (V c (Pipeline.arrRef spec5 0) : S100000x64.Idx → EReal) (((cfg5.win 0).blk t).view.emb y) = _
  congr 1
  funext a
  apply Fin.ext
  match a with
  | ⟨0, _⟩ => show win5_0.index t (0 : Fin 2) * 5000 + 1 * (y 0).val = (k 0).val; rw [e0, hk0]; omega
  | ⟨1, _⟩ => show win5_0.index t (1 : Fin 2) * 64 + 1 * (y 1).val = (k 1).val; rw [e1, hk1]; omega

/-- Window 1's block at point t is rows 5000·t … of its array. -/
theorem iblk5_1_apply (c : Dev nD) (t : Fin cfg5.N) (y : S5000x64.Idx) (k : S100000x64.Idx)
    (hk0 : (k 0).val = t.val * 5000 + (y 0).val) (hk1 : (k 1).val = (y 1).val) :
    (iblk5 V c 1 t : Vec Ideal S5000x64 .f32) y = (V c (Pipeline.arrRef spec5 1) : S100000x64.Idx → EReal) k := by
  obtain ⟨-, -, -, -, e0, e1, -, -, -, -, -, -⟩ := idx_facts5 t
  unfold iblk5
  rw [View.read_apply]
  show (V c (Pipeline.arrRef spec5 1) : S100000x64.Idx → EReal) (((cfg5.win 1).blk t).view.emb y) = _
  congr 1
  funext a
  apply Fin.ext
  match a with
  | ⟨0, _⟩ => show win5_1.index t (0 : Fin 2) * 5000 + 1 * (y 0).val = (k 0).val; rw [e0, hk0]; omega
  | ⟨1, _⟩ => show win5_1.index t (1 : Fin 2) * 64 + 1 * (y 1).val = (k 1).val; rw [e1, hk1]; omega

/-- Window 2's block at every point is its whole array. -/
theorem iblk5_2_eq (c : Dev nD) (t : Fin cfg5.N) :
    (iblk5 V c 2 t : Vec Ideal S64x18 .f32) = (V c (Pipeline.arrRef spec5 2) : S64x18.Idx → EReal) := by
  obtain ⟨-, -, -, -, -, -, e0, e1, -, -, -, -⟩ := idx_facts5 t
  funext y
  unfold iblk5
  rw [View.read_apply]
  show (V c (Pipeline.arrRef spec5 2) : S64x18.Idx → EReal) (((cfg5.win 2).blk t).view.emb y) = _
  congr 1
  funext a
  apply Fin.ext
  match a with
  | ⟨0, _⟩ => show win5_2.index t (0 : Fin 2) * 64 + 1 * (y 0).val = (y 0).val; rw [e0]; omega
  | ⟨1, _⟩ => show win5_2.index t (1 : Fin 2) * 18 + 1 * (y 1).val = (y 1).val; rw [e1]; omega

/-- Window 3's block at every point is its whole array. -/
theorem iblk5_3_eq (c : Dev nD) (t : Fin cfg5.N) :
    (iblk5 V c 3 t : Vec Ideal S64x18 .f32) = (V c (Pipeline.arrRef spec5 3) : S64x18.Idx → EReal) := by
  obtain ⟨-, -, -, -, -, -, -, -, e0, e1, -, -⟩ := idx_facts5 t
  funext y
  unfold iblk5
  rw [View.read_apply]
  show (V c (Pipeline.arrRef spec5 3) : S64x18.Idx → EReal) (((cfg5.win 3).blk t).view.emb y) = _
  congr 1
  funext a
  apply Fin.ext
  match a with
  | ⟨0, _⟩ => show win5_3.index t (0 : Fin 2) * 64 + 1 * (y 0).val = (y 0).val; rw [e0]; omega
  | ⟨1, _⟩ => show win5_3.index t (1 : Fin 2) * 18 + 1 * (y 1).val = (y 1).val; rw [e1]; omega

/-- Window 4's block at every point is its whole array. -/
theorem iblk5_4_eq (c : Dev nD) (t : Fin cfg5.N) :
    (iblk5 V c 4 t : Vec Ideal S1x18 .f32) = (V c (Pipeline.arrRef spec5 4) : S1x18.Idx → EReal) := by
  obtain ⟨-, -, -, -, -, -, -, -, -, -, e0, e1⟩ := idx_facts5 t
  funext y
  unfold iblk5
  rw [View.read_apply]
  show (V c (Pipeline.arrRef spec5 4) : S1x18.Idx → EReal) (((cfg5.win 4).blk t).view.emb y) = _
  congr 1
  funext a
  apply Fin.ext
  match a with
  | ⟨0, _⟩ => show win5_4.index t (0 : Fin 2) * 1 + 1 * (y 0).val = (y 0).val; rw [e0]; omega
  | ⟨1, _⟩ => show win5_4.index t (1 : Fin 2) * 18 + 1 * (y 1).val = (y 1).val; rw [e1]; omega

/-! ## What a point writes back, and the whole array -/

/-- The array the region leaves: the layer of the five arrays it found. -/
abbrev G5 (c : Dev nD) : S100000x18.Idx → EReal :=
  Cert.SageSpec.sage (N := 100000) (K := 64) (D := 18)
    (V c (Pipeline.arrRef spec5 0) : S100000x64.Idx → EReal) (V c (Pipeline.arrRef spec5 1) : S100000x64.Idx → EReal)
    (V c (Pipeline.arrRef spec5 2) : S64x18.Idx → EReal) (V c (Pipeline.arrRef spec5 3) : S64x18.Idx → EReal)
    (V c (Pipeline.arrRef spec5 4) : S1x18.Idx → EReal)

/-- Point t writes back block t of that array. -/
theorem flushed5_eq (c : Dev nD) (t : Fin cfg5.N) :
    (dat5 (F := Ideal) V c).flushed 5 t = ((cfg5.win 5).blk t).view.read (Elt Ideal) (G5 V c) := by
  show (cfg5.win 5).cut (grid5.coords t) ((dat5 V c).after 5 t) = _
  rw [after5_5]
  obtain ⟨e0, e1, -, -, -, -, -, -, -, -, -, -⟩ := idx_facts5 t
  funext j
  show out5_5 (F := Ideal) (iblk5 V c 0 t) (iblk5 V c 1 t) (iblk5 V c 2 t) (iblk5 V c 3 t) (iblk5 V c 4 t) j
    = G5 V c (((cfg5.win 5).blk t).view.emb j)
  refine point5 (V c (Pipeline.arrRef spec5 0) : S100000x64.Idx → EReal) (V c (Pipeline.arrRef spec5 1) : S100000x64.Idx → EReal)
    (V c (Pipeline.arrRef spec5 2) : S64x18.Idx → EReal) (V c (Pipeline.arrRef spec5 3) : S64x18.Idx → EReal)
    (V c (Pipeline.arrRef spec5 4) : S1x18.Idx → EReal)
    (iblk5 V c 0 t) (iblk5 V c 1 t) (iblk5 V c 2 t) (iblk5 V c 3 t) (iblk5 V c 4 t)
    (t.val * 5000) (fun y k hk0 hk1 => iblk5_0_apply V c t y k hk0 hk1) (fun y k hk0 hk1 => iblk5_1_apply V c t y k hk0 hk1)
    (iblk5_2_eq V c t) (iblk5_3_eq V c t) (iblk5_4_eq V c t) j (((cfg5.win 5).blk t).view.emb j) ?_ ?_
  · show win5_5.index t (0 : Fin 2) * 5000 + 1 * (j 0).val = t.val * 5000 + (j 0).val
    rw [e0]; omega
  · show win5_5.index t (1 : Fin 2) * 18 + 1 * (j 1).val = (j 1).val
    rw [e1]; omega

/-- An index of the result is in point t's block iff each coordinate is in the block's range on its axis. -/
theorem mem_blk5 (t : Fin cfg5.N) (i : S100000x18.Idx) :
    i ∈ ((cfg5.win 5).blk t).view.set ↔ ∀ a : Fin 2, win5_5.index t a * S5000x18.size a ≤ (i a).val ∧ (i a).val < win5_5.index t a * S5000x18.size a + S5000x18.size a := by
  show i ∈ ((View.whole main_v104).slice (win5_5.rect t)).set ↔ _
  rw [View.set_slice_whole, Rect.mem_set_unit]
  exact Iff.rfl

/-- Row n of the result is in the block of point n / 5000. -/
theorem cover5 (i : S100000x18.Idx) :
    ∃ t : Fin cfg5.N, (cfg5.win 5).flush t = true ∧ i ∈ ((cfg5.win 5).blk t).view.set := by
  have hi0 : (i 0).val < 100000 := (i 0).isLt
  have hi1 : (i 1).val < 18 := (i 1).isLt
  obtain ⟨t, ht⟩ : ∃ t : Fin cfg5.N, t.val = (i 0).val / 5000 :=
    ⟨⟨(i 0).val / 5000, Nat.lt_of_lt_of_eq (by omega : (i 0).val / 5000 < 20) N_5.symm⟩, rfl⟩
  obtain ⟨e0, e1, -, -, -, -, -, -, -, -, -, -⟩ := idx_facts5 t
  refine ⟨t, flush5_5 t, ?_⟩
  rw [mem_blk5]
  intro a
  match a with
  | ⟨0, _⟩ =>
    show win5_5.index t (0 : Fin 2) * 5000 ≤ (i 0).val ∧ (i 0).val < win5_5.index t (0 : Fin 2) * 5000 + 5000
    rw [e0, ht]; omega
  | ⟨1, _⟩ =>
    show win5_5.index t (1 : Fin 2) * 18 ≤ (i 1).val ∧ (i 1).val < win5_5.index t (1 : Fin 2) * 18 + 18
    rw [e1]; omega

/-- THE REGION: its result array ends holding the layer of the arrays it found in windows 0 … 4. -/
theorem region5 (c : Dev nD) :
    (dat5 (F := Ideal) V c).arrAt 5 cfg5.N
      = Cert.SageSpec.sage (N := 100000) (K := 64) (D := 18)
          (V c (Pipeline.arrRef spec5 0) : S100000x64.Idx → EReal) (V c (Pipeline.arrRef spec5 1) : S100000x64.Idx → EReal)
          (V c (Pipeline.arrRef spec5 2) : S64x18.Idx → EReal) (V c (Pipeline.arrRef spec5 3) : S64x18.Idx → EReal)
          (V c (Pipeline.arrRef spec5 4) : S1x18.Idx → EReal) :=
  (dat5 V c).arrAt_eq_of_cover 5 (G5 V c) (fun t _ => flushed5_eq V c t) (cover5)

end Cert.KernelIdeal.Regions

end
-- ==== Proof.KernelChain.lean ====
/-
  The idealized kernel's result as a function of its arguments.

  The contents of the buffers at the twelve segment boundaries are followed from the launch to the return.  A stretch
  of host operations computes a layer's aggregated input and bias row from buffers that earlier segments wrote and
  nothing since has touched; a region replaces its output array by the layer of its input arrays.  So the output
  array of region k holds layer k of the network, and the result buffer holds the last layer.
  The six regions' whole-array forms (Region0 … Region5) hold for any contents on entry; here they are used at the
  contents the run really has there.
-/
import proofs.«105689_j90512140795978_1_alg».proof.Proof.KernelKeep
import proofs.«105689_j90512140795978_1_alg».proof.Proof.KernelNet
import proofs.«105689_j90512140795978_1_alg».proof.Proof.Region0
import proofs.«105689_j90512140795978_1_alg».proof.Proof.Region1
import proofs.«105689_j90512140795978_1_alg».proof.Proof.Region2
import proofs.«105689_j90512140795978_1_alg».proof.Proof.Region3
import proofs.«105689_j90512140795978_1_alg».proof.Proof.Region4
import proofs.«105689_j90512140795978_1_alg».proof.Proof.Region5

set_option maxRecDepth 16384

noncomputable section

namespace Cert.KernelIdeal.Chain

open Cert.KernelIdeal Cert.KernelIdeal.Gen Cert.KernelIdeal.Keep Cert.KernelIdeal.Stretch Cert.KernelIdeal.Net Cert.SageSpec
open Idealize.ShloMosaic Idealize.ShloMosaic.TcCoe Idealize.SL.Sem

/-! ## Equal operands give equal layers -/

theorem embed_congr {N K D : ℕ} {x x' : (⟨2, ![N, K]⟩ : Shape).Idx → EReal} {w w' : (⟨2, ![K, D]⟩ : Shape).Idx → EReal}
    {b b' : (⟨2, ![1, D]⟩ : Shape).Idx → EReal} (hx : x = x') (hw : w = w') (hb : b = b') : embed x w b = embed x' w' b' := by
  subst hx hw hb; rfl

theorem sageRelu_congr {N K D : ℕ} {a a' x x' : (⟨2, ![N, K]⟩ : Shape).Idx → EReal} {wl wl' wr wr' : (⟨2, ![K, D]⟩ : Shape).Idx → EReal}
    {b b' : (⟨2, ![1, D]⟩ : Shape).Idx → EReal} (ha : a = a') (hx : x = x') (hwl : wl = wl') (hwr : wr = wr') (hb : b = b') :
    sageRelu a x wl wr b = sageRelu a' x' wl' wr' b' := by
  subst ha hx hwl hwr hb; rfl

theorem sage_congr {N K D : ℕ} {a a' x x' : (⟨2, ![N, K]⟩ : Shape).Idx → EReal} {wl wl' wr wr' : (⟨2, ![K, D]⟩ : Shape).Idx → EReal}
    {b b' : (⟨2, ![1, D]⟩ : Shape).Idx → EReal} (ha : a = a') (hx : x = x') (hwl : wl = wl') (hwr : wr = wr') (hb : b = b') :
    sage a x wl wr b = sage a' x' wl' wr' b' := by
  subst ha hx hwl hwr hb; rfl

theorem mean80_congr {h h' : (⟨S100000x80, .f32⟩ : BufTy).Contents (Elt Ideal)} {s s' d d' : (⟨S1600000, .i32⟩ : BufTy).Contents (Elt Ideal)} {w w' : (⟨S1600000, .f32⟩ : BufTy).Contents (Elt Ideal)}
    {r r' : (⟨S100000, .f32⟩ : BufTy).Contents (Elt Ideal)} (hh : h = h') (hs : s = s') (hd : d = d') (hw : w = w') (hr : r = r') :
    scaleRows80 (nbrSum80 h s d w) r = scaleRows80 (nbrSum80 h' s' d' w') r' := by
  subst hh hs hd hw hr; rfl

theorem mean64_congr {h h' : (⟨S100000x64, .f32⟩ : BufTy).Contents (Elt Ideal)} {s s' d d' : (⟨S1600000, .i32⟩ : BufTy).Contents (Elt Ideal)} {w w' : (⟨S1600000, .f32⟩ : BufTy).Contents (Elt Ideal)}
    {r r' : (⟨S100000, .f32⟩ : BufTy).Contents (Elt Ideal)} (hh : h = h') (hs : s = s') (hd : d = d') (hw : w = w') (hr : r = r') :
    scaleRows64 (nbrSum64 h s d w) r = scaleRows64 (nbrSum64 h' s' d' w') r' := by
  subst hh hs hd hw hr; rfl

variable (m : (ℓ : Loc nD τ sig) → Buf (Elt Ideal) ℓ) (ρ : Dev nD → PrngReg) (c : Dev nD)

/-! ## After stretch 0 -/

theorem src1 : W1 m ρ c (Proc.devRef .tc main_v1) = edgeRow0 (arr1 m c) := host0_src (W0 m ρ c)
theorem dst1 : W1 m ρ c (Proc.devRef .tc main_v3) = edgeRow1 (arr1 m c) := host0_dst (W0 m ρ c)
theorem recip1 : W1 m ρ c (Proc.devRef .tc main_v11) = recipDegree (edgeRow1 (arr1 m c)) := host0_recip (W0 m ρ c)
theorem bias1 : W1 m ρ c (Proc.devRef .tc main_v12) = shapeCast S1x80 (arr4 m c) shapeCasts_S80_S1x80 := host0_bias (W0 m ρ c)

/-- At every boundary from 2 to 10 the index vectors and the reciprocal degrees are those of stretch 0. -/
theorem src2 : W2 m ρ c (Proc.devRef .tc main_v1) = edgeRow0 (arr1 m c) := (idx_2 m ρ c main_v1 (List.Mem.head _)).trans (src1 m ρ c)
theorem dst2 : W2 m ρ c (Proc.devRef .tc main_v3) = edgeRow1 (arr1 m c) := (idx_2 m ρ c main_v3 (List.Mem.tail _ (List.Mem.head _))).trans (dst1 m ρ c)
theorem recip2 : W2 m ρ c (Proc.devRef .tc main_v11) = recipDegree (edgeRow1 (arr1 m c)) := (idx_2 m ρ c main_v11 (List.Mem.tail _ (List.Mem.tail _ (List.Mem.head _)))).trans (recip1 m ρ c)
theorem src4 : W4 m ρ c (Proc.devRef .tc main_v1) = edgeRow0 (arr1 m c) := (idx_4 m ρ c main_v1 (List.Mem.head _)).trans (src1 m ρ c)
theorem dst4 : W4 m ρ c (Proc.devRef .tc main_v3) = edgeRow1 (arr1 m c) := (idx_4 m ρ c main_v3 (List.Mem.tail _ (List.Mem.head _))).trans (dst1 m ρ c)
theorem recip4 : W4 m ρ c (Proc.devRef .tc main_v11) = recipDegree (edgeRow1 (arr1 m c)) := (idx_4 m ρ c main_v11 (List.Mem.tail _ (List.Mem.tail _ (List.Mem.head _)))).trans (recip1 m ρ c)
theorem src6 : W6 m ρ c (Proc.devRef .tc main_v1) = edgeRow0 (arr1 m c) := (idx_6 m ρ c main_v1 (List.Mem.head _)).trans (src1 m ρ c)
theorem dst6 : W6 m ρ c (Proc.devRef .tc main_v3) = edgeRow1 (arr1 m c) := (idx_6 m ρ c main_v3 (List.Mem.tail _ (List.Mem.head _))).trans (dst1 m ρ c)
theorem recip6 : W6 m ρ c (Proc.devRef .tc main_v11) = recipDegree (edgeRow1 (arr1 m c)) := (idx_6 m ρ c main_v11 (List.Mem.tail _ (List.Mem.tail _ (List.Mem.head _)))).trans (recip1 m ρ c)
theorem src8 : W8 m ρ c (Proc.devRef .tc main_v1) = edgeRow0 (arr1 m c) := (idx_8 m ρ c main_v1 (List.Mem.head _)).trans (src1 m ρ c)
theorem dst8 : W8 m ρ c (Proc.devRef .tc main_v3) = edgeRow1 (arr1 m c) := (idx_8 m ρ c main_v3 (List.Mem.tail _ (List.Mem.head _))).trans (dst1 m ρ c)
theorem recip8 : W8 m ρ c (Proc.devRef .tc main_v11) = recipDegree (edgeRow1 (arr1 m c)) := (idx_8 m ρ c main_v11 (List.Mem.tail _ (List.Mem.tail _ (List.Mem.head _)))).trans (recip1 m ρ c)
theorem src10 : W10 m ρ c (Proc.devRef .tc main_v1) = edgeRow0 (arr1 m c) := (idx_10 m ρ c main_v1 (List.Mem.head _)).trans (src1 m ρ c)
theorem dst10 : W10 m ρ c (Proc.devRef .tc main_v3) = edgeRow1 (arr1 m c) := (idx_10 m ρ c main_v3 (List.Mem.tail _ (List.Mem.head _))).trans (dst1 m ρ c)
theorem recip10 : W10 m ρ c (Proc.devRef .tc main_v11) = recipDegree (edgeRow1 (arr1 m c)) := (idx_10 m ρ c main_v11 (List.Mem.tail _ (List.Mem.tail _ (List.Mem.head _)))).trans (recip1 m ρ c)
theorem ones10 : W10 m ρ c (Proc.devRef .tc main_v14) = onesE := (ones_10 m ρ c).trans (host1_ones (W2 m ρ c))

/-! ## Region 0: the embedding -/

theorem out0 : W2 m ρ c (Proc.devRef .tc main_v13) = layer0 (arr0 m c) (arr3 m c) (arr4 m c) :=
  (W2_arr m ρ c 3).trans ((Cert.KernelIdeal.Regions.region0 (V1 m ρ) c).trans (embed_congr
    (args_1 m ρ c main_arg0 (List.Mem.head _)) (args_1 m ρ c main_arg3 (List.Mem.tail _ (List.Mem.tail _ (List.Mem.head _)))) (bias1 m ρ c)))

/-! ## Stretch 1 and region 1 -/

/-- Stretch 1 leaves layer 1's aggregated input. -/
theorem mean1_at : W3 m ρ c (Proc.devRef .tc main_v30) = mean1 (arr0 m c) (arr1 m c) (arr2 m c) (arr3 m c) (arr4 m c) :=
  (host1_agg (W2 m ρ c)).trans (mean80_congr (out0 m ρ c) (src2 m ρ c) (dst2 m ρ c) (args_2 m ρ c main_arg2 (List.Mem.head _)) (recip2 m ρ c))

/-- Stretch 1 does not touch layer 0's output. -/
theorem prev1_at : W3 m ρ c (Proc.devRef .tc main_v13) = layer0 (arr0 m c) (arr3 m c) (arr4 m c) :=
  (keep_host1 (W2 m ρ c) main_v13 (by decide)).trans (out0 m ρ c)

theorem biasrow1_at : W3 m ρ c (Proc.devRef .tc main_v31) = shapeCast S1x64 (arr7 m c) shapeCasts_S64_S1x64 :=
  (host1_bias (W2 m ρ c)).trans (congrArg (fun v => shapeCast S1x64 v shapeCasts_S64_S1x64) (args_2 m ρ c main_arg7 (List.Mem.tail _ (List.Mem.tail _ (List.Mem.tail _ (List.Mem.head _))))))

set_option maxHeartbeats 1000000 in
/-- Region 1's output array holds layer 1. -/
theorem out1 : W4 m ρ c (Proc.devRef .tc main_v32) = layer1 (arr0 m c) (arr1 m c) (arr2 m c) (arr3 m c) (arr4 m c) (arr5 m c) (arr6 m c) (arr7 m c) :=
  (W4_arr m ρ c 5).trans ((Cert.KernelIdeal.Regions.region1 (V3 m ρ) c).trans (sageRelu_congr
    (mean1_at m ρ c) (prev1_at m ρ c) (args_3 m ρ c main_arg5 (List.Mem.tail _ (List.Mem.head _))) (args_3 m ρ c main_arg6 (List.Mem.tail _ (List.Mem.tail _ (List.Mem.head _)))) (biasrow1_at m ρ c)))

/-! ## Stretch 2 and region 2 -/

/-- Stretch 2 leaves layer 2's aggregated input. -/
theorem mean2_at : W5 m ρ c (Proc.devRef .tc main_v48) = mean2 (arr0 m c) (arr1 m c) (arr2 m c) (arr3 m c) (arr4 m c) (arr5 m c) (arr6 m c) (arr7 m c) :=
  (host2_agg (W4 m ρ c)).trans (mean64_congr (out1 m ρ c) (src4 m ρ c) (dst4 m ρ c) (args_4 m ρ c main_arg2 (List.Mem.head _)) (recip4 m ρ c))

/-- Stretch 2 does not touch layer 1's output. -/
theorem prev2_at : W5 m ρ c (Proc.devRef .tc main_v32) = layer1 (arr0 m c) (arr1 m c) (arr2 m c) (arr3 m c) (arr4 m c) (arr5 m c) (arr6 m c) (arr7 m c) :=
  (keep_host2 (W4 m ρ c) main_v32 (by decide)).trans (out1 m ρ c)

theorem biasrow2_at : W5 m ρ c (Proc.devRef .tc main_v49) = shapeCast S1x64 (arr10 m c) shapeCasts_S64_S1x64 :=
  (host2_bias (W4 m ρ c)).trans (congrArg (fun v => shapeCast S1x64 v shapeCasts_S64_S1x64) (args_4 m ρ c main_arg10 (List.Mem.tail _ (List.Mem.tail _ (List.Mem.tail _ (List.Mem.head _))))))

set_option maxHeartbeats 1000000 in
/-- Region 2's output array holds layer 2. -/
theorem out2 : W6 m ρ c (Proc.devRef .tc main_v50) = layer2 (arr0 m c) (arr1 m c) (arr2 m c) (arr3 m c) (arr4 m c) (arr5 m c) (arr6 m c) (arr7 m c) (arr8 m c) (arr9 m c) (arr10 m c) :=
  (W6_arr m ρ c 5).trans ((Cert.KernelIdeal.Regions.region2 (V5 m ρ) c).trans (sageRelu_congr
    (mean2_at m ρ c) (prev2_at m ρ c) (args_5 m ρ c main_arg8 (List.Mem.tail _ (List.Mem.head _))) (args_5 m ρ c main_arg9 (List.Mem.tail _ (List.Mem.tail _ (List.Mem.head _)))) (biasrow2_at m ρ c)))

/-! ## Stretch 3 and region 3 -/

/-- Stretch 3 leaves layer 3's aggregated input. -/
theorem mean3_at : W7 m ρ c (Proc.devRef .tc main_v66) = mean3 (arr0 m c) (arr1 m c) (arr2 m c) (arr3 m c) (arr4 m c) (arr5 m c) (arr6 m c) (arr7 m c) (arr8 m c) (arr9 m c) (arr10 m c) :=
  (host3_agg (W6 m ρ c)).trans (mean64_congr (out2 m ρ c) (src6 m ρ c) (dst6 m ρ c) (args_6 m ρ c main_arg2 (List.Mem.head _)) (recip6 m ρ c))

/-- Stretch 3 does not touch layer 2's output. -/
theorem prev3_at : W7 m ρ c (Proc.devRef .tc main_v50) = layer2 (arr0 m c) (arr1 m c) (arr2 m c) (arr3 m c) (arr4 m c) (arr5 m c) (arr6 m c) (arr7 m c) (arr8 m c) (arr9 m c) (arr10 m c) :=
  (keep_host3 (W6 m ρ c) main_v50 (by decide)).trans (out2 m ρ c)

theorem biasrow3_at : W7 m ρ c (Proc.devRef .tc main_v67) = shapeCast S1x64 (arr13 m c) shapeCasts_S64_S1x64 :=
  (host3_bias (W6 m ρ c)).trans (congrArg (fun v => shapeCast S1x64 v shapeCasts_S64_S1x64) (args_6 m ρ c main_arg13 (List.Mem.tail _ (List.Mem.tail _ (List.Mem.tail _ (List.Mem.head _))))))

set_option maxHeartbeats 1000000 in
/-- Region 3's output array holds layer 3. -/
theorem out3 : W8 m ρ c (Proc.devRef .tc main_v68) = layer3 (arr0 m c) (arr1 m c) (arr2 m c) (arr3 m c) (arr4 m c) (arr5 m c) (arr6 m c) (arr7 m c) (arr8 m c) (arr9 m c) (arr10 m c) (arr11 m c) (arr12 m c) (arr13 m c) :=
  (W8_arr m ρ c 5).trans ((Cert.KernelIdeal.Regions.region3 (V7 m ρ) c).trans (sageRelu_congr
    (mean3_at m ρ c) (prev3_at m ρ c) (args_7 m ρ c main_arg11 (List.Mem.tail _ (List.Mem.head _))) (args_7 m ρ c main_arg12 (List.Mem.tail _ (List.Mem.tail _ (List.Mem.head _)))) (biasrow3_at m ρ c)))

/-! ## Stretch 4 and region 4 -/

/-- Stretch 4 leaves layer 4's aggregated input. -/
theorem mean4_at : W9 m ρ c (Proc.devRef .tc main_v84) = mean4 (arr0 m c) (arr1 m c) (arr2 m c) (arr3 m c) (arr4 m c) (arr5 m c) (arr6 m c) (arr7 m c) (arr8 m c) (arr9 m c) (arr10 m c) (arr11 m c) (arr12 m c) (arr13 m c) :=
  (host4_agg (W8 m ρ c)).trans (mean64_congr (out3 m ρ c) (src8 m ρ c) (dst8 m ρ c) (args_8 m ρ c main_arg2 (List.Mem.head _)) (recip8 m ρ c))

/-- Stretch 4 does not touch layer 3's output. -/
theorem prev4_at : W9 m ρ c (Proc.devRef .tc main_v68) = layer3 (arr0 m c) (arr1 m c) (arr2 m c) (arr3 m c) (arr4 m c) (arr5 m c) (arr6 m c) (arr7 m c) (arr8 m c) (arr9 m c) (arr10 m c) (arr11 m c) (arr12 m c) (arr13 m c) :=
  (keep_host4 (W8 m ρ c) main_v68 (by decide)).trans (out3 m ρ c)

theorem biasrow4_at : W9 m ρ c (Proc.devRef .tc main_v85) = shapeCast S1x64 (arr16 m c) shapeCasts_S64_S1x64 :=
  (host4_bias (W8 m ρ c)).trans (congrArg (fun v => shapeCast S1x64 v shapeCasts_S64_S1x64) (args_8 m ρ c main_arg16 (List.Mem.tail _ (List.Mem.tail _ (List.Mem.tail _ (List.Mem.head _))))))

set_option maxHeartbeats 1000000 in
/-- Region 4's output array holds layer 4. -/
theorem out4 : W10 m ρ c (Proc.devRef .tc main_v86) = layer4 (arr0 m c) (arr1 m c) (arr2 m c) (arr3 m c) (arr4 m c) (arr5 m c) (arr6 m c) (arr7 m c) (arr8 m c) (arr9 m c) (arr10 m c) (arr11 m c) (arr12 m c) (arr13 m c) (arr14 m c) (arr15 m c) (arr16 m c) :=
  (W10_arr m ρ c 5).trans ((Cert.KernelIdeal.Regions.region4 (V9 m ρ) c).trans (sageRelu_congr
    (mean4_at m ρ c) (prev4_at m ρ c) (args_9 m ρ c main_arg14 (List.Mem.head _)) (args_9 m ρ c main_arg15 (List.Mem.tail _ (List.Mem.head _))) (biasrow4_at m ρ c)))

/-! ## Stretch 5 and region 5 -/

/-- Stretch 5 leaves layer 5's aggregated input. -/
theorem mean5_at : W11 m ρ c (Proc.devRef .tc main_v102) = mean5 (arr0 m c) (arr1 m c) (arr2 m c) (arr3 m c) (arr4 m c) (arr5 m c) (arr6 m c) (arr7 m c) (arr8 m c) (arr9 m c) (arr10 m c) (arr11 m c) (arr12 m c) (arr13 m c) (arr14 m c) (arr15 m c) (arr16 m c) :=
  (host5_agg (W10 m ρ c)).trans (mean64_congr (out4 m ρ c) (src10 m ρ c) (dst10 m ρ c) (ones10 m ρ c) (recip10 m ρ c))

/-- Stretch 5 does not touch layer 4's output. -/
theorem prev5_at : W11 m ρ c (Proc.devRef .tc main_v86) = layer4 (arr0 m c) (arr1 m c) (arr2 m c) (arr3 m c) (arr4 m c) (arr5 m c) (arr6 m c) (arr7 m c) (arr8 m c) (arr9 m c) (arr10 m c) (arr11 m c) (arr12 m c) (arr13 m c) (arr14 m c) (arr15 m c) (arr16 m c) :=
  (keep_host5 (W10 m ρ c) main_v86 (by decide)).trans (out4 m ρ c)

theorem biasrow5_at : W11 m ρ c (Proc.devRef .tc main_v103) = shapeCast S1x18 (arr19 m c) shapeCasts_S18_S1x18 :=
  (host5_bias (W10 m ρ c)).trans (congrArg (fun v => shapeCast S1x18 v shapeCasts_S18_S1x18) (args_10 m ρ c main_arg19 (List.Mem.tail _ (List.Mem.tail _ (List.Mem.head _)))))

set_option maxHeartbeats 1000000 in
/-- Region 5's output array holds layer 5. -/
theorem out5 : W12 m ρ c (Proc.devRef .tc main_v104) = layer5 (arr0 m c) (arr1 m c) (arr2 m c) (arr3 m c) (arr4 m c) (arr5 m c) (arr6 m c) (arr7 m c) (arr8 m c) (arr9 m c) (arr10 m c) (arr11 m c) (arr12 m c) (arr13 m c) (arr14 m c) (arr15 m c) (arr16 m c) (arr17 m c) (arr18 m c) (arr19 m c) :=
  (W12_arr m ρ c 5).trans ((Cert.KernelIdeal.Regions.region5 (V11 m ρ) c).trans (sage_congr
    (mean5_at m ρ c) (prev5_at m ρ c) (args_11 m ρ c main_arg17 (List.Mem.head _)) (args_11 m ρ c main_arg18 (List.Mem.tail _ (List.Mem.head _))) (biasrow5_at m ρ c)))

end Cert.KernelIdeal.Chain

end
-- ==== Proof.RefStretch.lean ====
/-
  What each stretch of the reference's @main computes, as functions of the buffers it reads.

  The reference is 245 host operations in a row.  They fall into six stretches: the first cuts the edge list into its
  two rows and computes the embedding; each of the next five computes one layer from the previous layer's output —
  for every edge the source node's row (row numbers below zero counted from the end) times the edge's weight, these
  rows summed into the destination node's row, every row of the sum divided by the node's degree clamped below by one;
  then the two matrix products, the bias row, each row divided by its Euclidean length clamped below by ε, and (all
  layers but the last) the maximum with zero.  The statements hold for ANY contents `W` before the stretch.
-/
import proofs.«105689_j90512140795978_1_alg».proof.Proof.RefRun

set_option maxRecDepth 16384

noncomputable section

namespace Cert.ReferenceIdeal.RefStretch

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

/-! ## The six stretches, and @main's operations as their concatenation -/

/-- Stretch 0: 11 operations. -/
abbrev seg0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg3 main_v4 ((fun l r => Host.dotGeneral dot_S100000x100_S100x80_S100000x80_1_0_0_1_n_n none l r) : (⟨S100000x100, .f32⟩ : BufTy).Contents (Elt F) → (⟨S100x80, .f32⟩ : BufTy).Contents (Elt F) → (⟨S100000x80, .f32⟩ : BufTy).Contents (Elt F)),
    unary main_arg4 main_v5 (broadcastInDim S1x80 ![1] bcast_S80_S1x80_1 : (⟨S80, .f32⟩ : BufTy).Contents (Elt F) → (⟨S1x80, .f32⟩ : BufTy).Contents (Elt F)),
    unary main_v5 main_v6 (broadcastInDim S100000x80 ![0, 1] bcast_S1x80_S100000x80_0_1 : (⟨S1x80, .f32⟩ : BufTy).Contents (Elt F) → (⟨S100000x80, .f32⟩ : BufTy).Contents (Elt F)),
    binary main_v4 main_v6 main_v7 (addf : (⟨S100000x80, .f32⟩ : BufTy).Contents (Elt F) → (⟨S100000x80, .f32⟩ : BufTy).Contents (Elt F) → (⟨S100000x80, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x80, .f32⟩) main_call0_v0) (broadcastInDim S100000x80 ![] bcast_S_S100000x80),
    TRef.binary (TRef.of (T := ⟨S100000x80, .f32⟩) main_v7) (TRef.of (T := ⟨S100000x80, .f32⟩) main_call0_v0) (TRef.of (T := ⟨S100000x80, .f32⟩) main_v8) maximumf ]

/-- Stretch 1: 49 operations. -/
abbrev seg1 : List (HloOp τ sig (Elt F)) :=
  [ nullary main_cst (constant S_ .f32 0x3F800000#32),
    unary main_cst main_v9 (broadcastInDim S1600000 ![] bcast_S_S1600000 : (⟨S_, .f32⟩ : BufTy).Contents (Elt F) → (⟨S1600000, .f32⟩ : BufTy).Contents (Elt F)),
    nullary main_c (constantI S_ 32 0#32),
    unary main_c main_v10 (broadcastInDim S1600000 ![] bcast_S_S1600000 : (⟨S_, .i32⟩ : BufTy).Contents (Elt F) → (⟨S1600000, .i32⟩ : BufTy).Contents (Elt F)),
    binary main_v1 main_v10 main_v11 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v12 (broadcastInDim S1600000 ![] bcast_S_S1600000 : (⟨S_, .i32⟩ : BufTy).Contents (Elt F) → (⟨S1600000, .i32⟩ : BufTy).Contents (Elt F)),
    binary main_v1 main_v12 main_v13 (addi : (⟨S1600000, .i32⟩ : BufTy).Contents (Elt F) → (⟨S1600000, .i32⟩ : BufTy).Contents (Elt F) → (⟨S1600000, .i32⟩ : BufTy).Contents (Elt F)),
    ternary main_v11 main_v13 main_v1 main_v14 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v14 main_v15 (broadcastInDim S1600000x1 ![0] bcast_S1600000_S1600000x1_0 : (⟨S1600000, .i32⟩ : BufTy).Contents (Elt F) → (⟨S1600000x1, .i32⟩ : BufTy).Contents (Elt F)),
    binary main_v8 main_v15 main_v16 ((fun x i => Host.gather gather_S100000x80_S1600000x1_S1600000x80_1_0_n_n_0_1_180 x i) : (⟨S100000x80, .f32⟩ : BufTy).Contents (Elt F) → (⟨S1600000x1, .i32⟩ : BufTy).Contents (Elt F) → (⟨S1600000x80, .f32⟩ : BufTy).Contents (Elt F)),
    unary main_arg2 main_v17 (broadcastInDim S1600000x1 ![0] bcast_S1600000_S1600000x1_0 : (⟨S1600000, .f32⟩ : BufTy).Contents (Elt F) → (⟨S1600000x1, .f32⟩ : BufTy).Contents (Elt F)),
    unary main_v17 main_v18 (broadcastInDim S1600000x80 ![0, 1] bcast_S1600000x1_S1600000x80_0_1 : (⟨S1600000x1, .f32⟩ : BufTy).Contents (Elt F) → (⟨S1600000x80, .f32⟩ : BufTy).Contents (Elt F)),
    binary main_v16 main_v18 main_v19 (mulf : (⟨S1600000x80, .f32⟩ : BufTy).Contents (Elt F) → (⟨S1600000x80, .f32⟩ : BufTy).Contents (Elt F) → (⟨S1600000x80, .f32⟩ : BufTy).Contents (Elt F)),
    nullary main_cst_1 (constant S_ .f32 0x00000000#32),
    unary main_cst_1 main_v20 (broadcastInDim S100000x80 ![] bcast_S_S100000x80 : (⟨S_, .f32⟩ : BufTy).Contents (Elt F) → (⟨S100000x80, .f32⟩ : BufTy).Contents (Elt F)),
    unary main_v3 main_v21 (broadcastInDim S1600000x1 ![0] bcast_S1600000_S1600000x1_0 : (⟨S1600000, .i32⟩ : BufTy).Contents (Elt F) → (⟨S1600000x1, .i32⟩ : BufTy).Contents (Elt F)),
    ternary main_v20 main_v21 main_v19 main_v22 ((fun x i u => Host.scatterAdd scatter_S100000x80_S1600000x1_S1600000x80_1_0_0_1 x i u) : (⟨S100000x80, .f32⟩ : BufTy).Contents (Elt F) → (⟨S1600000x1, .i32⟩ : BufTy).Contents (Elt F) → (⟨S1600000x80, .f32⟩ : BufTy).Contents (Elt F) → (⟨S100000x80, .f32⟩ : BufTy).Contents (Elt F)),
    nullary main_cst_2 (constant S_ .f32 0x3F800000#32),
    unary main_cst_2 main_v23 (broadcastInDim S1600000 ![] bcast_S_S1600000 : (⟨S_, .f32⟩ : BufTy).Contents (Elt F) → (⟨S1600000, .f32⟩ : BufTy).Contents (Elt F)),
    nullary main_cst_3 (constant S_ .f32 0x00000000#32),
    unary main_cst_3 main_v24 (broadcastInDim S100000 ![] bcast_S_S100000 : (⟨S_, .f32⟩ : BufTy).Contents (Elt F) → (⟨S100000, .f32⟩ : BufTy).Contents (Elt F)),
    unary main_v3 main_v25 (broadcastInDim S1600000x1 ![0] bcast_S1600000_S1600000x1_0 : (⟨S1600000, .i32⟩ : BufTy).Contents (Elt F) → (⟨S1600000x1, .i32⟩ : BufTy).Contents (Elt F)),
    ternary main_v24 main_v25 main_v23 main_v26 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_4 (constant S_ .f32 0x3F800000#32),
    unary main_cst_4 main_v27 (broadcastInDim S100000 ![] bcast_S_S100000 : (⟨S_, .f32⟩ : BufTy).Contents (Elt F) → (⟨S100000, .f32⟩ : BufTy).Contents (Elt F)),
    binary main_v26 main_v27 main_v28 (maximumf : (⟨S100000, .f32⟩ : BufTy).Contents (Elt F) → (⟨S100000, .f32⟩ : BufTy).Contents (Elt F) → (⟨S100000, .f32⟩ : BufTy).Contents (Elt F)),
    unary main_v28 main_v29 (broadcastInDim S100000x1 ![0] bcast_S100000_S100000x1_0 : (⟨S100000, .f32⟩ : BufTy).Contents (Elt F) → (⟨S100000x1, .f32⟩ : BufTy).Contents (Elt F)),
    unary main_v29 main_v30 (broadcastInDim S100000x80 ![0, 1] bcast_S100000x1_S100000x80_0_1 : (⟨S100000x1, .f32⟩ : BufTy).Contents (Elt F) → (⟨S100000x80, .f32⟩ : BufTy).Contents (Elt F)),
    binary main_v22 main_v30 main_v31 (Host.divf : (⟨S100000x80, .f32⟩ : BufTy).Contents (Elt F) → (⟨S100000x80, .f32⟩ : BufTy).Contents (Elt F) → (⟨S100000x80, .f32⟩ : BufTy).Contents (Elt F)),
    binary main_v31 main_arg5 main_v32 ((fun l r => Host.dotGeneral dot_S100000x80_S80x64_S100000x64_1_0_0_1_n_n none l r) : (⟨S100000x80, .f32⟩ : BufTy).Contents (Elt F) → (⟨S80x64, .f32⟩ : BufTy).Contents (Elt F) → (⟨S100000x64, .f32⟩ : BufTy).Contents (Elt F)),
    binary main_v8 main_arg6 main_v33 ((fun l r => Host.dotGeneral dot_S100000x80_S80x64_S100000x64_1_0_0_1_n_n none l r) : (⟨S100000x80, .f32⟩ : BufTy).Contents (Elt F) → (⟨S80x64, .f32⟩ : BufTy).Contents (Elt F) → (⟨S100000x64, .f32⟩ : BufTy).Contents (Elt F)),
    binary main_v32 main_v33 main_v34 (addf : (⟨S100000x64, .f32⟩ : BufTy).Contents (Elt F) → (⟨S100000x64, .f32⟩ : BufTy).Contents (Elt F) → (⟨S100000x64, .f32⟩ : BufTy).Contents (Elt F)),
    unary main_arg7 main_v35 (broadcastInDim S1x64 ![1] bcast_S64_S1x64_1 : (⟨S64, .f32⟩ : BufTy).Contents (Elt F) → (⟨S1x64, .f32⟩ : BufTy).Contents (Elt F)),
    unary main_v35 main_v36 (broadcastInDim S100000x64 ![0, 1] bcast_S1x64_S100000x64_0_1 : (⟨S1x64, .f32⟩ : BufTy).Contents (Elt F) → (⟨S100000x64, .f32⟩ : BufTy).Contents (Elt F)),
    binary main_v34 main_v36 main_v37 (addf : (⟨S100000x64, .f32⟩ : BufTy).Contents (Elt F) → (⟨S100000x64, .f32⟩ : BufTy).Contents (Elt F) → (⟨S100000x64, .f32⟩ : BufTy).Contents (Elt F)),
    TRef.binary (TRef.of (T := ⟨S100000x64, .f32⟩) main_v37) (TRef.of (T := ⟨S100000x64, .f32⟩) main_v37) (TRef.of (T := ⟨S100000x64, .f32⟩) main_call1_v0) mulf,
    TRef.nullary (TRef.of (T := ⟨S_, .f32⟩) main_call1_cst) (constant S_ .f32 0x00000000#32),
    TRef.binary (TRef.of (T := ⟨S100000x64, .f32⟩) main_call1_v0) (TRef.of (T := ⟨S_, .f32⟩) main_call1_cst) (TRef.of (T := ⟨S100000, .f32⟩) main_call1_v1) (fun x v => Host.reduceAdd x v reducesTo_S100000x64_S100000_d1 h_S_),
    TRef.unary (TRef.of (T := ⟨S100000, .f32⟩) main_call1_v1) (TRef.of (T := ⟨S100000x1, .f32⟩) main_call1_v2) (broadcastInDim S100000x1 ![0] bcast_S100000_S100000x1_0),
    TRef.unary (TRef.of (T := ⟨S100000x1, .f32⟩) main_call1_v2) (TRef.of (T := ⟨S100000x1, .f32⟩) main_v38) Host.sqrt,
    nullary main_cst_5 (constant S_ .f32 0x2B8CBCCC#32),
    unary main_cst_5 main_v39 (broadcastInDim S100000x1 ![] bcast_S_S100000x1 : (⟨S_, .f32⟩ : BufTy).Contents (Elt F) → (⟨S100000x1, .f32⟩ : BufTy).Contents (Elt F)),
    binary main_v38 main_v39 main_v40 (maximumf : (⟨S100000x1, .f32⟩ : BufTy).Contents (Elt F) → (⟨S100000x1, .f32⟩ : BufTy).Contents (Elt F) → (⟨S100000x1, .f32⟩ : BufTy).Contents (Elt F)),
    unary main_v40 main_v41 (broadcastInDim S100000x64 ![0, 1] bcast_S100000x1_S100000x64_0_1 : (⟨S100000x1, .f32⟩ : BufTy).Contents (Elt F) → (⟨S100000x64, .f32⟩ : BufTy).Contents (Elt F)),
    binary main_v37 main_v41 main_v42 (Host.divf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v42) (TRef.of (T := ⟨S100000x64, .f32⟩) main_call2_v0) (TRef.of (T := ⟨S100000x64, .f32⟩) main_v43) maximumf ]

/-- Stretch 2: 47 operations. -/
abbrev seg2 : List (HloOp τ sig (Elt F)) :=
  [ nullary main_c_6 (constantI S_ 32 0#32),
    unary main_c_6 main_v44 (broadcastInDim S1600000 ![] bcast_S_S1600000 : (⟨S_, .i32⟩ : BufTy).Contents (Elt F) → (⟨S1600000, .i32⟩ : BufTy).Contents (Elt F)),
    binary main_v1 main_v44 main_v45 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v46 (broadcastInDim S1600000 ![] bcast_S_S1600000 : (⟨S_, .i32⟩ : BufTy).Contents (Elt F) → (⟨S1600000, .i32⟩ : BufTy).Contents (Elt F)),
    binary main_v1 main_v46 main_v47 (addi : (⟨S1600000, .i32⟩ : BufTy).Contents (Elt F) → (⟨S1600000, .i32⟩ : BufTy).Contents (Elt F) → (⟨S1600000, .i32⟩ : BufTy).Contents (Elt F)),
    ternary main_v45 main_v47 main_v1 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v48 main_v49 (broadcastInDim S1600000x1 ![0] bcast_S1600000_S1600000x1_0 : (⟨S1600000, .i32⟩ : BufTy).Contents (Elt F) → (⟨S1600000x1, .i32⟩ : BufTy).Contents (Elt F)),
    binary main_v43 main_v49 main_v50 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg2 main_v51 (broadcastInDim S1600000x1 ![0] bcast_S1600000_S1600000x1_0 : (⟨S1600000, .f32⟩ : BufTy).Contents (Elt F) → (⟨S1600000x1, .f32⟩ : BufTy).Contents (Elt F)),
    unary main_v51 main_v52 (broadcastInDim S1600000x64 ![0, 1] bcast_S1600000x1_S1600000x64_0_1 : (⟨S1600000x1, .f32⟩ : BufTy).Contents (Elt F) → (⟨S1600000x64, .f32⟩ : BufTy).Contents (Elt F)),
    binary main_v50 main_v52 main_v53 (mulf : (⟨S1600000x64, .f32⟩ : BufTy).Contents (Elt F) → (⟨S1600000x64, .f32⟩ : BufTy).Contents (Elt F) → (⟨S1600000x64, .f32⟩ : BufTy).Contents (Elt F)),
    nullary main_cst_8 (constant S_ .f32 0x00000000#32),
    unary main_cst_8 main_v54 (broadcastInDim S100000x64 ![] bcast_S_S100000x64 : (⟨S_, .f32⟩ : BufTy).Contents (Elt F) → (⟨S100000x64, .f32⟩ : BufTy).Contents (Elt F)),
    unary main_v3 main_v55 (broadcastInDim S1600000x1 ![0] bcast_S1600000_S1600000x1_0 : (⟨S1600000, .i32⟩ : BufTy).Contents (Elt F) → (⟨S1600000x1, .i32⟩ : BufTy).Contents (Elt F)),
    ternary main_v54 main_v55 main_v53 main_v56 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_9 (constant S_ .f32 0x3F800000#32),
    unary main_cst_9 main_v57 (broadcastInDim S1600000 ![] bcast_S_S1600000 : (⟨S_, .f32⟩ : BufTy).Contents (Elt F) → (⟨S1600000, .f32⟩ : BufTy).Contents (Elt F)),
    nullary main_cst_10 (constant S_ .f32 0x00000000#32),
    unary main_cst_10 main_v58 (broadcastInDim S100000 ![] bcast_S_S100000 : (⟨S_, .f32⟩ : BufTy).Contents (Elt F) → (⟨S100000, .f32⟩ : BufTy).Contents (Elt F)),
    unary main_v3 main_v59 (broadcastInDim S1600000x1 ![0] bcast_S1600000_S1600000x1_0 : (⟨S1600000, .i32⟩ : BufTy).Contents (Elt F) → (⟨S1600000x1, .i32⟩ : BufTy).Contents (Elt F)),
    ternary main_v58 main_v59 main_v57 main_v60 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_11 (constant S_ .f32 0x3F800000#32),
    unary main_cst_11 main_v61 (broadcastInDim S100000 ![] bcast_S_S100000 : (⟨S_, .f32⟩ : BufTy).Contents (Elt F) → (⟨S100000, .f32⟩ : BufTy).Contents (Elt F)),
    binary main_v60 main_v61 main_v62 (maximumf : (⟨S100000, .f32⟩ : BufTy).Contents (Elt F) → (⟨S100000, .f32⟩ : BufTy).Contents (Elt F) → (⟨S100000, .f32⟩ : BufTy).Contents (Elt F)),
    unary main_v62 main_v63 (broadcastInDim S100000x1 ![0] bcast_S100000_S100000x1_0 : (⟨S100000, .f32⟩ : BufTy).Contents (Elt F) → (⟨S100000x1, .f32⟩ : BufTy).Contents (Elt F)),
    unary main_v63 main_v64 (broadcastInDim S100000x64 ![0, 1] bcast_S100000x1_S100000x64_0_1 : (⟨S100000x1, .f32⟩ : BufTy).Contents (Elt F) → (⟨S100000x64, .f32⟩ : BufTy).Contents (Elt F)),
    binary main_v56 main_v64 main_v65 (Host.divf : (⟨S100000x64, .f32⟩ : BufTy).Contents (Elt F) → (⟨S100000x64, .f32⟩ : BufTy).Contents (Elt F) → (⟨S100000x64, .f32⟩ : BufTy).Contents (Elt F)),
    binary main_v65 main_arg8 main_v66 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v43 main_arg9 main_v67 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v66 main_v67 main_v68 (addf : (⟨S100000x64, .f32⟩ : BufTy).Contents (Elt F) → (⟨S100000x64, .f32⟩ : BufTy).Contents (Elt F) → (⟨S100000x64, .f32⟩ : BufTy).Contents (Elt F)),
    unary main_arg10 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v68 main_v70 main_v71 (addf : (⟨S100000x64, .f32⟩ : BufTy).Contents (Elt F) → (⟨S100000x64, .f32⟩ : BufTy).Contents (Elt F) → (⟨S100000x64, .f32⟩ : BufTy).Contents (Elt F)),
    TRef.binary (TRef.of (T := ⟨S100000x64, .f32⟩) main_v71) (TRef.of (T := ⟨S100000x64, .f32⟩) main_v71) (TRef.of (T := ⟨S100000x64, .f32⟩) main_call3_v0) mulf,
    TRef.nullary (TRef.of (T := ⟨S_, .f32⟩) main_call3_cst) (constant S_ .f32 0x00000000#32),
    TRef.binary (TRef.of (T := ⟨S100000x64, .f32⟩) main_call3_v0) (TRef.of (T := ⟨S_, .f32⟩) main_call3_cst) (TRef.of (T := ⟨S100000, .f32⟩) main_call3_v1) (fun x v => Host.reduceAdd x v reducesTo_S100000x64_S100000_d1 h_S_),
    TRef.unary (TRef.of (T := ⟨S100000, .f32⟩) main_call3_v1) (TRef.of (T := ⟨S100000x1, .f32⟩) main_call3_v2) (broadcastInDim S100000x1 ![0] bcast_S100000_S100000x1_0),
    TRef.unary (TRef.of (T := ⟨S100000x1, .f32⟩) main_call3_v2) (TRef.of (T := ⟨S100000x1, .f32⟩) main_v72) Host.sqrt,
    nullary main_cst_12 (constant S_ .f32 0x2B8CBCCC#32),
    unary main_cst_12 main_v73 (broadcastInDim S100000x1 ![] bcast_S_S100000x1 : (⟨S_, .f32⟩ : BufTy).Contents (Elt F) → (⟨S100000x1, .f32⟩ : BufTy).Contents (Elt F)),
    binary main_v72 main_v73 main_v74 (maximumf : (⟨S100000x1, .f32⟩ : BufTy).Contents (Elt F) → (⟨S100000x1, .f32⟩ : BufTy).Contents (Elt F) → (⟨S100000x1, .f32⟩ : BufTy).Contents (Elt F)),
    unary main_v74 main_v75 (broadcastInDim S100000x64 ![0, 1] bcast_S100000x1_S100000x64_0_1 : (⟨S100000x1, .f32⟩ : BufTy).Contents (Elt F) → (⟨S100000x64, .f32⟩ : BufTy).Contents (Elt F)),
    binary main_v71 main_v75 main_v76 (Host.divf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v76) (TRef.of (T := ⟨S100000x64, .f32⟩) main_call4_v0) (TRef.of (T := ⟨S100000x64, .f32⟩) main_v77) maximumf ]

/-- Stretch 3: 47 operations. -/
abbrev seg3 : List (HloOp τ sig (Elt F)) :=
  [ nullary main_c_13 (constantI S_ 32 0#32),
    unary main_c_13 main_v78 (broadcastInDim S1600000 ![] bcast_S_S1600000 : (⟨S_, .i32⟩ : BufTy).Contents (Elt F) → (⟨S1600000, .i32⟩ : BufTy).Contents (Elt F)),
    binary main_v1 main_v78 main_v79 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v80 (broadcastInDim S1600000 ![] bcast_S_S1600000 : (⟨S_, .i32⟩ : BufTy).Contents (Elt F) → (⟨S1600000, .i32⟩ : BufTy).Contents (Elt F)),
    binary main_v1 main_v80 main_v81 (addi : (⟨S1600000, .i32⟩ : BufTy).Contents (Elt F) → (⟨S1600000, .i32⟩ : BufTy).Contents (Elt F) → (⟨S1600000, .i32⟩ : BufTy).Contents (Elt F)),
    ternary main_v79 main_v81 main_v1 main_v82 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v82 main_v83 (broadcastInDim S1600000x1 ![0] bcast_S1600000_S1600000x1_0 : (⟨S1600000, .i32⟩ : BufTy).Contents (Elt F) → (⟨S1600000x1, .i32⟩ : BufTy).Contents (Elt F)),
    binary main_v77 main_v83 main_v84 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg2 main_v85 (broadcastInDim S1600000x1 ![0] bcast_S1600000_S1600000x1_0 : (⟨S1600000, .f32⟩ : BufTy).Contents (Elt F) → (⟨S1600000x1, .f32⟩ : BufTy).Contents (Elt F)),
    unary main_v85 main_v86 (broadcastInDim S1600000x64 ![0, 1] bcast_S1600000x1_S1600000x64_0_1 : (⟨S1600000x1, .f32⟩ : BufTy).Contents (Elt F) → (⟨S1600000x64, .f32⟩ : BufTy).Contents (Elt F)),
    binary main_v84 main_v86 main_v87 (mulf : (⟨S1600000x64, .f32⟩ : BufTy).Contents (Elt F) → (⟨S1600000x64, .f32⟩ : BufTy).Contents (Elt F) → (⟨S1600000x64, .f32⟩ : BufTy).Contents (Elt F)),
    nullary main_cst_15 (constant S_ .f32 0x00000000#32),
    unary main_cst_15 main_v88 (broadcastInDim S100000x64 ![] bcast_S_S100000x64 : (⟨S_, .f32⟩ : BufTy).Contents (Elt F) → (⟨S100000x64, .f32⟩ : BufTy).Contents (Elt F)),
    unary main_v3 main_v89 (broadcastInDim S1600000x1 ![0] bcast_S1600000_S1600000x1_0 : (⟨S1600000, .i32⟩ : BufTy).Contents (Elt F) → (⟨S1600000x1, .i32⟩ : BufTy).Contents (Elt F)),
    ternary main_v88 main_v89 main_v87 main_v90 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_16 (constant S_ .f32 0x3F800000#32),
    unary main_cst_16 main_v91 (broadcastInDim S1600000 ![] bcast_S_S1600000 : (⟨S_, .f32⟩ : BufTy).Contents (Elt F) → (⟨S1600000, .f32⟩ : BufTy).Contents (Elt F)),
    nullary main_cst_17 (constant S_ .f32 0x00000000#32),
    unary main_cst_17 main_v92 (broadcastInDim S100000 ![] bcast_S_S100000 : (⟨S_, .f32⟩ : BufTy).Contents (Elt F) → (⟨S100000, .f32⟩ : BufTy).Contents (Elt F)),
    unary main_v3 main_v93 (broadcastInDim S1600000x1 ![0] bcast_S1600000_S1600000x1_0 : (⟨S1600000, .i32⟩ : BufTy).Contents (Elt F) → (⟨S1600000x1, .i32⟩ : BufTy).Contents (Elt F)),
    ternary main_v92 main_v93 main_v91 main_v94 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_18 (constant S_ .f32 0x3F800000#32),
    unary main_cst_18 main_v95 (broadcastInDim S100000 ![] bcast_S_S100000 : (⟨S_, .f32⟩ : BufTy).Contents (Elt F) → (⟨S100000, .f32⟩ : BufTy).Contents (Elt F)),
    binary main_v94 main_v95 main_v96 (maximumf : (⟨S100000, .f32⟩ : BufTy).Contents (Elt F) → (⟨S100000, .f32⟩ : BufTy).Contents (Elt F) → (⟨S100000, .f32⟩ : BufTy).Contents (Elt F)),
    unary main_v96 main_v97 (broadcastInDim S100000x1 ![0] bcast_S100000_S100000x1_0 : (⟨S100000, .f32⟩ : BufTy).Contents (Elt F) → (⟨S100000x1, .f32⟩ : BufTy).Contents (Elt F)),
    unary main_v97 main_v98 (broadcastInDim S100000x64 ![0, 1] bcast_S100000x1_S100000x64_0_1 : (⟨S100000x1, .f32⟩ : BufTy).Contents (Elt F) → (⟨S100000x64, .f32⟩ : BufTy).Contents (Elt F)),
    binary main_v90 main_v98 main_v99 (Host.divf : (⟨S100000x64, .f32⟩ : BufTy).Contents (Elt F) → (⟨S100000x64, .f32⟩ : BufTy).Contents (Elt F) → (⟨S100000x64, .f32⟩ : BufTy).Contents (Elt F)),
    binary main_v99 main_arg11 main_v100 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v77 main_arg12 main_v101 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v100 main_v101 main_v102 (addf : (⟨S100000x64, .f32⟩ : BufTy).Contents (Elt F) → (⟨S100000x64, .f32⟩ : BufTy).Contents (Elt F) → (⟨S100000x64, .f32⟩ : BufTy).Contents (Elt F)),
    unary main_arg13 main_v103 (broadcastInDim S1x64 ![1] bcast_S64_S1x64_1 : (⟨S64, .f32⟩ : BufTy).Contents (Elt F) → (⟨S1x64, .f32⟩ : BufTy).Contents (Elt F)),
    unary main_v103 main_v104 (broadcastInDim S100000x64 ![0, 1] bcast_S1x64_S100000x64_0_1 : (⟨S1x64, .f32⟩ : BufTy).Contents (Elt F) → (⟨S100000x64, .f32⟩ : BufTy).Contents (Elt F)),
    binary main_v102 main_v104 main_v105 (addf : (⟨S100000x64, .f32⟩ : BufTy).Contents (Elt F) → (⟨S100000x64, .f32⟩ : BufTy).Contents (Elt F) → (⟨S100000x64, .f32⟩ : BufTy).Contents (Elt F)),
    TRef.binary (TRef.of (T := ⟨S100000x64, .f32⟩) main_v105) (TRef.of (T := ⟨S100000x64, .f32⟩) main_v105) (TRef.of (T := ⟨S100000x64, .f32⟩) main_call5_v0) mulf,
    TRef.nullary (TRef.of (T := ⟨S_, .f32⟩) main_call5_cst) (constant S_ .f32 0x00000000#32),
    TRef.binary (TRef.of (T := ⟨S100000x64, .f32⟩) main_call5_v0) (TRef.of (T := ⟨S_, .f32⟩) main_call5_cst) (TRef.of (T := ⟨S100000, .f32⟩) main_call5_v1) (fun x v => Host.reduceAdd x v reducesTo_S100000x64_S100000_d1 h_S_),
    TRef.unary (TRef.of (T := ⟨S100000, .f32⟩) main_call5_v1) (TRef.of (T := ⟨S100000x1, .f32⟩) main_call5_v2) (broadcastInDim S100000x1 ![0] bcast_S100000_S100000x1_0),
    TRef.unary (TRef.of (T := ⟨S100000x1, .f32⟩) main_call5_v2) (TRef.of (T := ⟨S100000x1, .f32⟩) main_v106) Host.sqrt,
    nullary main_cst_19 (constant S_ .f32 0x2B8CBCCC#32),
    unary main_cst_19 main_v107 (broadcastInDim S100000x1 ![] bcast_S_S100000x1 : (⟨S_, .f32⟩ : BufTy).Contents (Elt F) → (⟨S100000x1, .f32⟩ : BufTy).Contents (Elt F)),
    binary main_v106 main_v107 main_v108 (maximumf : (⟨S100000x1, .f32⟩ : BufTy).Contents (Elt F) → (⟨S100000x1, .f32⟩ : BufTy).Contents (Elt F) → (⟨S100000x1, .f32⟩ : BufTy).Contents (Elt F)),
    unary main_v108 main_v109 (broadcastInDim S100000x64 ![0, 1] bcast_S100000x1_S100000x64_0_1 : (⟨S100000x1, .f32⟩ : BufTy).Contents (Elt F) → (⟨S100000x64, .f32⟩ : BufTy).Contents (Elt F)),
    binary main_v105 main_v109 main_v110 (Host.divf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x64, .f32⟩) main_call6_v0) (broadcastInDim S100000x64 ![] bcast_S_S100000x64),
    TRef.binary (TRef.of (T := ⟨S100000x64, .f32⟩) main_v110) (TRef.of (T := ⟨S100000x64, .f32⟩) main_call6_v0) (TRef.of (T := ⟨S100000x64, .f32⟩) main_v111) maximumf ]

/-- Stretch 4: 47 operations. -/
abbrev seg4 : List (HloOp τ sig (Elt F)) :=
  [ nullary main_c_20 (constantI S_ 32 0#32),
    unary main_c_20 main_v112 (broadcastInDim S1600000 ![] bcast_S_S1600000 : (⟨S_, .i32⟩ : BufTy).Contents (Elt F) → (⟨S1600000, .i32⟩ : BufTy).Contents (Elt F)),
    binary main_v1 main_v112 main_v113 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v114 (broadcastInDim S1600000 ![] bcast_S_S1600000 : (⟨S_, .i32⟩ : BufTy).Contents (Elt F) → (⟨S1600000, .i32⟩ : BufTy).Contents (Elt F)),
    binary main_v1 main_v114 main_v115 (addi : (⟨S1600000, .i32⟩ : BufTy).Contents (Elt F) → (⟨S1600000, .i32⟩ : BufTy).Contents (Elt F) → (⟨S1600000, .i32⟩ : BufTy).Contents (Elt F)),
    ternary main_v113 main_v115 main_v1 main_v116 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v116 main_v117 (broadcastInDim S1600000x1 ![0] bcast_S1600000_S1600000x1_0 : (⟨S1600000, .i32⟩ : BufTy).Contents (Elt F) → (⟨S1600000x1, .i32⟩ : BufTy).Contents (Elt F)),
    binary main_v111 main_v117 main_v118 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg2 main_v119 (broadcastInDim S1600000x1 ![0] bcast_S1600000_S1600000x1_0 : (⟨S1600000, .f32⟩ : BufTy).Contents (Elt F) → (⟨S1600000x1, .f32⟩ : BufTy).Contents (Elt F)),
    unary main_v119 main_v120 (broadcastInDim S1600000x64 ![0, 1] bcast_S1600000x1_S1600000x64_0_1 : (⟨S1600000x1, .f32⟩ : BufTy).Contents (Elt F) → (⟨S1600000x64, .f32⟩ : BufTy).Contents (Elt F)),
    binary main_v118 main_v120 main_v121 (mulf : (⟨S1600000x64, .f32⟩ : BufTy).Contents (Elt F) → (⟨S1600000x64, .f32⟩ : BufTy).Contents (Elt F) → (⟨S1600000x64, .f32⟩ : BufTy).Contents (Elt F)),
    nullary main_cst_22 (constant S_ .f32 0x00000000#32),
    unary main_cst_22 main_v122 (broadcastInDim S100000x64 ![] bcast_S_S100000x64 : (⟨S_, .f32⟩ : BufTy).Contents (Elt F) → (⟨S100000x64, .f32⟩ : BufTy).Contents (Elt F)),
    unary main_v3 main_v123 (broadcastInDim S1600000x1 ![0] bcast_S1600000_S1600000x1_0 : (⟨S1600000, .i32⟩ : BufTy).Contents (Elt F) → (⟨S1600000x1, .i32⟩ : BufTy).Contents (Elt F)),
    ternary main_v122 main_v123 main_v121 main_v124 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_23 (constant S_ .f32 0x3F800000#32),
    unary main_cst_23 main_v125 (broadcastInDim S1600000 ![] bcast_S_S1600000 : (⟨S_, .f32⟩ : BufTy).Contents (Elt F) → (⟨S1600000, .f32⟩ : BufTy).Contents (Elt F)),
    nullary main_cst_24 (constant S_ .f32 0x00000000#32),
    unary main_cst_24 main_v126 (broadcastInDim S100000 ![] bcast_S_S100000 : (⟨S_, .f32⟩ : BufTy).Contents (Elt F) → (⟨S100000, .f32⟩ : BufTy).Contents (Elt F)),
    unary main_v3 main_v127 (broadcastInDim S1600000x1 ![0] bcast_S1600000_S1600000x1_0 : (⟨S1600000, .i32⟩ : BufTy).Contents (Elt F) → (⟨S1600000x1, .i32⟩ : BufTy).Contents (Elt F)),
    ternary main_v126 main_v127 main_v125 main_v128 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_25 (constant S_ .f32 0x3F800000#32),
    unary main_cst_25 main_v129 (broadcastInDim S100000 ![] bcast_S_S100000 : (⟨S_, .f32⟩ : BufTy).Contents (Elt F) → (⟨S100000, .f32⟩ : BufTy).Contents (Elt F)),
    binary main_v128 main_v129 main_v130 (maximumf : (⟨S100000, .f32⟩ : BufTy).Contents (Elt F) → (⟨S100000, .f32⟩ : BufTy).Contents (Elt F) → (⟨S100000, .f32⟩ : BufTy).Contents (Elt F)),
    unary main_v130 main_v131 (broadcastInDim S100000x1 ![0] bcast_S100000_S100000x1_0 : (⟨S100000, .f32⟩ : BufTy).Contents (Elt F) → (⟨S100000x1, .f32⟩ : BufTy).Contents (Elt F)),
    unary main_v131 main_v132 (broadcastInDim S100000x64 ![0, 1] bcast_S100000x1_S100000x64_0_1 : (⟨S100000x1, .f32⟩ : BufTy).Contents (Elt F) → (⟨S100000x64, .f32⟩ : BufTy).Contents (Elt F)),
    binary main_v124 main_v132 main_v133 (Host.divf : (⟨S100000x64, .f32⟩ : BufTy).Contents (Elt F) → (⟨S100000x64, .f32⟩ : BufTy).Contents (Elt F) → (⟨S100000x64, .f32⟩ : BufTy).Contents (Elt F)),
    binary main_v133 main_arg14 main_v134 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v111 main_arg15 main_v135 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v134 main_v135 main_v136 (addf : (⟨S100000x64, .f32⟩ : BufTy).Contents (Elt F) → (⟨S100000x64, .f32⟩ : BufTy).Contents (Elt F) → (⟨S100000x64, .f32⟩ : BufTy).Contents (Elt F)),
    unary main_arg16 main_v137 (broadcastInDim S1x64 ![1] bcast_S64_S1x64_1 : (⟨S64, .f32⟩ : BufTy).Contents (Elt F) → (⟨S1x64, .f32⟩ : BufTy).Contents (Elt F)),
    unary main_v137 main_v138 (broadcastInDim S100000x64 ![0, 1] bcast_S1x64_S100000x64_0_1 : (⟨S1x64, .f32⟩ : BufTy).Contents (Elt F) → (⟨S100000x64, .f32⟩ : BufTy).Contents (Elt F)),
    binary main_v136 main_v138 main_v139 (addf : (⟨S100000x64, .f32⟩ : BufTy).Contents (Elt F) → (⟨S100000x64, .f32⟩ : BufTy).Contents (Elt F) → (⟨S100000x64, .f32⟩ : BufTy).Contents (Elt F)),
    TRef.binary (TRef.of (T := ⟨S100000x64, .f32⟩) main_v139) (TRef.of (T := ⟨S100000x64, .f32⟩) main_v139) (TRef.of (T := ⟨S100000x64, .f32⟩) main_call7_v0) mulf,
    TRef.nullary (TRef.of (T := ⟨S_, .f32⟩) main_call7_cst) (constant S_ .f32 0x00000000#32),
    TRef.binary (TRef.of (T := ⟨S100000x64, .f32⟩) main_call7_v0) (TRef.of (T := ⟨S_, .f32⟩) main_call7_cst) (TRef.of (T := ⟨S100000, .f32⟩) main_call7_v1) (fun x v => Host.reduceAdd x v reducesTo_S100000x64_S100000_d1 h_S_),
    TRef.unary (TRef.of (T := ⟨S100000, .f32⟩) main_call7_v1) (TRef.of (T := ⟨S100000x1, .f32⟩) main_call7_v2) (broadcastInDim S100000x1 ![0] bcast_S100000_S100000x1_0),
    TRef.unary (TRef.of (T := ⟨S100000x1, .f32⟩) main_call7_v2) (TRef.of (T := ⟨S100000x1, .f32⟩) main_v140) Host.sqrt,
    nullary main_cst_26 (constant S_ .f32 0x2B8CBCCC#32),
    unary main_cst_26 main_v141 (broadcastInDim S100000x1 ![] bcast_S_S100000x1 : (⟨S_, .f32⟩ : BufTy).Contents (Elt F) → (⟨S100000x1, .f32⟩ : BufTy).Contents (Elt F)),
    binary main_v140 main_v141 main_v142 (maximumf : (⟨S100000x1, .f32⟩ : BufTy).Contents (Elt F) → (⟨S100000x1, .f32⟩ : BufTy).Contents (Elt F) → (⟨S100000x1, .f32⟩ : BufTy).Contents (Elt F)),
    unary main_v142 main_v143 (broadcastInDim S100000x64 ![0, 1] bcast_S100000x1_S100000x64_0_1 : (⟨S100000x1, .f32⟩ : BufTy).Contents (Elt F) → (⟨S100000x64, .f32⟩ : BufTy).Contents (Elt F)),
    binary main_v139 main_v143 main_v144 (Host.divf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x64, .f32⟩) main_call8_v0) (broadcastInDim S100000x64 ![] bcast_S_S100000x64),
    TRef.binary (TRef.of (T := ⟨S100000x64, .f32⟩) main_v144) (TRef.of (T := ⟨S100000x64, .f32⟩) main_call8_v0) (TRef.of (T := ⟨S100000x64, .f32⟩) main_v145) maximumf ]

/-- Stretch 5: 44 operations. -/
abbrev seg5 : List (HloOp τ sig (Elt F)) :=
  [ nullary main_c_27 (constantI S_ 32 0#32),
    unary main_c_27 main_v146 (broadcastInDim S1600000 ![] bcast_S_S1600000 : (⟨S_, .i32⟩ : BufTy).Contents (Elt F) → (⟨S1600000, .i32⟩ : BufTy).Contents (Elt F)),
    binary main_v1 main_v146 main_v147 (cmpi .slt : (⟨S1600000, .i32⟩ : BufTy).Contents (Elt F) → (⟨S1600000, .i32⟩ : BufTy).Contents (Elt F) → (⟨S1600000, .i1⟩ : BufTy).Contents (Elt F)),
    nullary main_c_28 (constantI S_ 32 100000#32),
    unary main_c_28 main_v148 (broadcastInDim S1600000 ![] bcast_S_S1600000 : (⟨S_, .i32⟩ : BufTy).Contents (Elt F) → (⟨S1600000, .i32⟩ : BufTy).Contents (Elt F)),
    binary main_v1 main_v148 main_v149 (addi : (⟨S1600000, .i32⟩ : BufTy).Contents (Elt F) → (⟨S1600000, .i32⟩ : BufTy).Contents (Elt F) → (⟨S1600000, .i32⟩ : BufTy).Contents (Elt F)),
    ternary main_v147 main_v149 main_v1 main_v150 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v150 main_v151 (broadcastInDim S1600000x1 ![0] bcast_S1600000_S1600000x1_0 : (⟨S1600000, .i32⟩ : BufTy).Contents (Elt F) → (⟨S1600000x1, .i32⟩ : BufTy).Contents (Elt F)),
    binary main_v145 main_v151 main_v152 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v9 main_v153 (broadcastInDim S1600000x1 ![0] bcast_S1600000_S1600000x1_0 : (⟨S1600000, .f32⟩ : BufTy).Contents (Elt F) → (⟨S1600000x1, .f32⟩ : BufTy).Contents (Elt F)),
    unary main_v153 main_v154 (broadcastInDim S1600000x64 ![0, 1] bcast_S1600000x1_S1600000x64_0_1 : (⟨S1600000x1, .f32⟩ : BufTy).Contents (Elt F) → (⟨S1600000x64, .f32⟩ : BufTy).Contents (Elt F)),
    binary main_v152 main_v154 main_v155 (mulf : (⟨S1600000x64, .f32⟩ : BufTy).Contents (Elt F) → (⟨S1600000x64, .f32⟩ : BufTy).Contents (Elt F) → (⟨S1600000x64, .f32⟩ : BufTy).Contents (Elt F)),
    nullary main_cst_29 (constant S_ .f32 0x00000000#32),
    unary main_cst_29 main_v156 (broadcastInDim S100000x64 ![] bcast_S_S100000x64 : (⟨S_, .f32⟩ : BufTy).Contents (Elt F) → (⟨S100000x64, .f32⟩ : BufTy).Contents (Elt F)),
    unary main_v3 main_v157 (broadcastInDim S1600000x1 ![0] bcast_S1600000_S1600000x1_0 : (⟨S1600000, .i32⟩ : BufTy).Contents (Elt F) → (⟨S1600000x1, .i32⟩ : BufTy).Contents (Elt F)),
    ternary main_v156 main_v157 main_v155 main_v158 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_30 (constant S_ .f32 0x3F800000#32),
    unary main_cst_30 main_v159 (broadcastInDim S1600000 ![] bcast_S_S1600000 : (⟨S_, .f32⟩ : BufTy).Contents (Elt F) → (⟨S1600000, .f32⟩ : BufTy).Contents (Elt F)),
    nullary main_cst_31 (constant S_ .f32 0x00000000#32),
    unary main_cst_31 main_v160 (broadcastInDim S100000 ![] bcast_S_S100000 : (⟨S_, .f32⟩ : BufTy).Contents (Elt F) → (⟨S100000, .f32⟩ : BufTy).Contents (Elt F)),
    unary main_v3 main_v161 (broadcastInDim S1600000x1 ![0] bcast_S1600000_S1600000x1_0 : (⟨S1600000, .i32⟩ : BufTy).Contents (Elt F) → (⟨S1600000x1, .i32⟩ : BufTy).Contents (Elt F)),
    ternary main_v160 main_v161 main_v159 main_v162 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_32 (constant S_ .f32 0x3F800000#32),
    unary main_cst_32 main_v163 (broadcastInDim S100000 ![] bcast_S_S100000 : (⟨S_, .f32⟩ : BufTy).Contents (Elt F) → (⟨S100000, .f32⟩ : BufTy).Contents (Elt F)),
    binary main_v162 main_v163 main_v164 (maximumf : (⟨S100000, .f32⟩ : BufTy).Contents (Elt F) → (⟨S100000, .f32⟩ : BufTy).Contents (Elt F) → (⟨S100000, .f32⟩ : BufTy).Contents (Elt F)),
    unary main_v164 main_v165 (broadcastInDim S100000x1 ![0] bcast_S100000_S100000x1_0 : (⟨S100000, .f32⟩ : BufTy).Contents (Elt F) → (⟨S100000x1, .f32⟩ : BufTy).Contents (Elt F)),
    unary main_v165 main_v166 (broadcastInDim S100000x64 ![0, 1] bcast_S100000x1_S100000x64_0_1 : (⟨S100000x1, .f32⟩ : BufTy).Contents (Elt F) → (⟨S100000x64, .f32⟩ : BufTy).Contents (Elt F)),
    binary main_v158 main_v166 main_v167 (Host.divf : (⟨S100000x64, .f32⟩ : BufTy).Contents (Elt F) → (⟨S100000x64, .f32⟩ : BufTy).Contents (Elt F) → (⟨S100000x64, .f32⟩ : BufTy).Contents (Elt F)),
    binary main_v167 main_arg17 main_v168 ((fun l r => Host.dotGeneral dot_S100000x64_S64x18_S100000x18_1_0_0_1_n_n none l r) : (⟨S100000x64, .f32⟩ : BufTy).Contents (Elt F) → (⟨S64x18, .f32⟩ : BufTy).Contents (Elt F) → (⟨S100000x18, .f32⟩ : BufTy).Contents (Elt F)),
    binary main_v145 main_arg18 main_v169 ((fun l r => Host.dotGeneral dot_S100000x64_S64x18_S100000x18_1_0_0_1_n_n none l r) : (⟨S100000x64, .f32⟩ : BufTy).Contents (Elt F) → (⟨S64x18, .f32⟩ : BufTy).Contents (Elt F) → (⟨S100000x18, .f32⟩ : BufTy).Contents (Elt F)),
    binary main_v168 main_v169 main_v170 (addf : (⟨S100000x18, .f32⟩ : BufTy).Contents (Elt F) → (⟨S100000x18, .f32⟩ : BufTy).Contents (Elt F) → (⟨S100000x18, .f32⟩ : BufTy).Contents (Elt F)),
    unary main_arg19 main_v171 (broadcastInDim S1x18 ![1] bcast_S18_S1x18_1 : (⟨S18, .f32⟩ : BufTy).Contents (Elt F) → (⟨S1x18, .f32⟩ : BufTy).Contents (Elt F)),
    unary main_v171 main_v172 (broadcastInDim S100000x18 ![0, 1] bcast_S1x18_S100000x18_0_1 : (⟨S1x18, .f32⟩ : BufTy).Contents (Elt F) → (⟨S100000x18, .f32⟩ : BufTy).Contents (Elt F)),
    binary main_v170 main_v172 main_v173 (addf : (⟨S100000x18, .f32⟩ : BufTy).Contents (Elt F) → (⟨S100000x18, .f32⟩ : BufTy).Contents (Elt F) → (⟨S100000x18, .f32⟩ : BufTy).Contents (Elt F)),
    TRef.binary (TRef.of (T := ⟨S100000x18, .f32⟩) main_v173) (TRef.of (T := ⟨S100000x18, .f32⟩) main_v173) (TRef.of (T := ⟨S100000x18, .f32⟩) main_call9_v0) mulf,
    TRef.nullary (TRef.of (T := ⟨S_, .f32⟩) main_call9_cst) (constant S_ .f32 0x00000000#32),
    TRef.binary (TRef.of (T := ⟨S100000x18, .f32⟩) main_call9_v0) (TRef.of (T := ⟨S_, .f32⟩) main_call9_cst) (TRef.of (T := ⟨S100000, .f32⟩) main_call9_v1) (fun x v => Host.reduceAdd x v reducesTo_S100000x18_S100000_d1 h_S_),
    TRef.unary (TRef.of (T := ⟨S100000, .f32⟩) main_call9_v1) (TRef.of (T := ⟨S100000x1, .f32⟩) main_call9_v2) (broadcastInDim S100000x1 ![0] bcast_S100000_S100000x1_0),
    TRef.unary (TRef.of (T := ⟨S100000x1, .f32⟩) main_call9_v2) (TRef.of (T := ⟨S100000x1, .f32⟩) main_v174) Host.sqrt,
    nullary main_cst_33 (constant S_ .f32 0x2B8CBCCC#32),
    unary main_cst_33 main_v175 (broadcastInDim S100000x1 ![] bcast_S_S100000x1 : (⟨S_, .f32⟩ : BufTy).Contents (Elt F) → (⟨S100000x1, .f32⟩ : BufTy).Contents (Elt F)),
    binary main_v174 main_v175 main_v176 (maximumf : (⟨S100000x1, .f32⟩ : BufTy).Contents (Elt F) → (⟨S100000x1, .f32⟩ : BufTy).Contents (Elt F) → (⟨S100000x1, .f32⟩ : BufTy).Contents (Elt F)),
    unary main_v176 main_v177 (broadcastInDim S100000x18 ![0, 1] bcast_S100000x1_S100000x18_0_1 : (⟨S100000x1, .f32⟩ : BufTy).Contents (Elt F) → (⟨S100000x18, .f32⟩ : BufTy).Contents (Elt F)),
    binary main_v173 main_v177 main_v178 (Host.divf : (⟨S100000x18, .f32⟩ : BufTy).Contents (Elt F) → (⟨S100000x18, .f32⟩ : BufTy).Contents (Elt F) → (⟨S100000x18, .f32⟩ : BufTy).Contents (Elt F)) ]

set_option maxRecDepth 65536 in
theorem ops_split : (ops : List (HloOp τ sig (Elt F))) = seg0 ++ (seg1 ++ (seg2 ++ (seg3 ++ (seg4 ++ seg5)))) := rfl

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem after_ops (V : Valuation τ sig (Elt F)) :
    after (ops (F := F)) V = after seg5 (after seg4 (after seg3 (after seg2 (after seg1 (after seg0 V))))) := by
  rw [ops_split, after_append, after_append, after_append, after_append, after_append]

/-! ## The pieces -/

def edgeRow0 (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000
def edgeRow1 (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The number of edges arriving at each node, as a float. -/
def degree (dst : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- The degree clamped below by one. -/
def clampedDegree (dst : (⟨S1600000, .i32⟩ : BufTy).Contents (Elt F)) : (⟨S100000, .f32⟩ : BufTy).Contents (Elt F) :=
  maximumf (degree dst) (broadcastInDim S100000 ![] bcast_S_S100000 (constant S_ .f32 0x3F800000#32))

def wrapRows (src : (⟨S1600000, .i32⟩ : BufTy).Contents (Elt F)) : (⟨S1600000, .i32⟩ : BufTy).Contents (Elt F) :=
  select (cmpi .slt src (broadcastInDim S1600000 ![] bcast_S_S1600000 (constantI S_ 32 0#32)))
    (addi src (broadcastInDim S1600000 ![] bcast_S_S1600000 (constantI S_ 32 100000#32))) src

def onesE : (⟨S1600000, .f32⟩ : BufTy).Contents (Elt F) := broadcastInDim S1600000 ![] bcast_S_S1600000 (constant S_ .f32 0x3F800000#32)

def nbrSum80 (h : (⟨S100000x80, .f32⟩ : BufTy).Contents (Elt F)) (src dst : (⟨S1600000, .i32⟩ : BufTy).Contents (Elt F)) (w : (⟨S1600000, .f32⟩ : BufTy).Contents (Elt F)) : (⟨S100000x80, .f32⟩ : BufTy).Contents (Elt F) :=
  Host.scatterAdd scatter_S100000x80_S1600000x1_S1600000x80_1_0_0_1
    (broadcastInDim S100000x80 ![] bcast_S_S100000x80 (constant S_ .f32 0x00000000#32))
    (broadcastInDim S1600000x1 ![0] bcast_S1600000_S1600000x1_0 dst)
    (mulf (Host.gather gather_S100000x80_S1600000x1_S1600000x80_1_0_n_n_0_1_180 h
        (broadcastInDim S1600000x1 ![0] bcast_S1600000_S1600000x1_0 (wrapRows src)))
      (broadcastInDim S1600000x80 ![0, 1] bcast_S1600000x1_S1600000x80_0_1 (broadcastInDim S1600000x1 ![0] bcast_S1600000_S1600000x1_0 w)))

def nbrSum64 (h : (⟨S100000x64, .f32⟩ : BufTy).Contents (Elt F)) (src dst : (⟨S1600000, .i32⟩ : BufTy).Contents (Elt F)) (w : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf (Host.gather gather_S100000x64_S1600000x1_S1600000x64_1_0_n_n_0_1_164 h
        (broadcastInDim S1600000x1 ![0] bcast_S1600000_S1600000x1_0 (wrapRows src)))
      (broadcastInDim S1600000x64 ![0, 1] bcast_S1600000x1_S1600000x64_0_1 (broadcastInDim S1600000x1 ![0] bcast_S1600000_S1600000x1_0 w)))

/-- Every row divided by the node's clamped degree. -/
def divRows80 (s : (⟨S100000x80, .f32⟩ : BufTy).Contents (Elt F)) (d : (⟨S100000, .f32⟩ : BufTy).Contents (Elt F)) : (⟨S100000x80, .f32⟩ : BufTy).Contents (Elt F) :=
  Host.divf s (broadcastInDim S100000x80 ![0, 1] bcast_S100000x1_S100000x80_0_1 (broadcastInDim S100000x1 ![0] bcast_S100000_S100000x1_0 d))
def divRows64 (s : (⟨S100000x64, .f32⟩ : BufTy).Contents (Elt F)) (d : (⟨S100000, .f32⟩ : BufTy).Contents (Elt F)) : (⟨S100000x64, .f32⟩ : BufTy).Contents (Elt F) :=
  Host.divf s (broadcastInDim S100000x64 ![0, 1] bcast_S100000x1_S100000x64_0_1 (broadcastInDim S100000x1 ![0] bcast_S100000_S100000x1_0 d))

/-- The embedding, as the program spells it. -/
def embedHost (x : (⟨S100000x100, .f32⟩ : BufTy).Contents (Elt F)) (w : (⟨S100x80, .f32⟩ : BufTy).Contents (Elt F)) (b : (⟨S80, .f32⟩ : BufTy).Contents (Elt F)) : (⟨S100000x80, .f32⟩ : BufTy).Contents (Elt F) :=
  maximumf (addf (Host.dotGeneral dot_S100000x100_S100x80_S100000x80_1_0_0_1_n_n none x w)
      (broadcastInDim S100000x80 ![0, 1] bcast_S1x80_S100000x80_0_1 (broadcastInDim S1x80 ![1] bcast_S80_S1x80_1 b)))
    (broadcastInDim S100000x80 ![] bcast_S_S100000x80 (constant S_ .f32 0x00000000#32))

/-- Two products and the bias row; 80 to 64 features. -/
def dense80 (a h : (⟨S100000x80, .f32⟩ : BufTy).Contents (Elt F)) (wl wr : (⟨S80x64, .f32⟩ : BufTy).Contents (Elt F)) (b : (⟨S64, .f32⟩ : BufTy).Contents (Elt F)) : (⟨S100000x64, .f32⟩ : BufTy).Contents (Elt F) :=
  addf (addf (Host.dotGeneral dot_S100000x80_S80x64_S100000x64_1_0_0_1_n_n none a wl)
      (Host.dotGeneral dot_S100000x80_S80x64_S100000x64_1_0_0_1_n_n none h wr))
    (broadcastInDim S100000x64 ![0, 1] bcast_S1x64_S100000x64_0_1 (broadcastInDim S1x64 ![1] bcast_S64_S1x64_1 b))
/-- 64 to 64 features. -/
def dense64 (a h : (⟨S100000x64, .f32⟩ : BufTy).Contents (Elt F)) (wl wr : (⟨S64x64, .f32⟩ : BufTy).Contents (Elt F)) (b : (⟨S64, .f32⟩ : BufTy).Contents (Elt F)) : (⟨S100000x64, .f32⟩ : BufTy).Contents (Elt F) :=
  addf (addf (Host.dotGeneral dot_S100000x64_S64x64_S100000x64_1_0_0_1_n_n none a wl)
      (Host.dotGeneral dot_S100000x64_S64x64_S100000x64_1_0_0_1_n_n none h wr))
    (broadcastInDim S100000x64 ![0, 1] bcast_S1x64_S100000x64_0_1 (broadcastInDim S1x64 ![1] bcast_S64_S1x64_1 b))
/-- 64 to 18 features. -/
def dense18 (a h : (⟨S100000x64, .f32⟩ : BufTy).Contents (Elt F)) (wl wr : (⟨S64x18, .f32⟩ : BufTy).Contents (Elt F)) (b : (⟨S18, .f32⟩ : BufTy).Contents (Elt F)) : (⟨S100000x18, .f32⟩ : BufTy).Contents (Elt F) :=
  addf (addf (Host.dotGeneral dot_S100000x64_S64x18_S100000x18_1_0_0_1_n_n none a wl)
      (Host.dotGeneral dot_S100000x64_S64x18_S100000x18_1_0_0_1_n_n none h wr))
    (broadcastInDim S100000x18 ![0, 1] bcast_S1x18_S100000x18_0_1 (broadcastInDim S1x18 ![1] bcast_S18_S1x18_1 b))

/-- Each row divided by its Euclidean length clamped below by ε; 64 columns. -/
def normRows64 (t : (⟨S100000x64, .f32⟩ : BufTy).Contents (Elt F)) : (⟨S100000x64, .f32⟩ : BufTy).Contents (Elt F) :=
  Host.divf t (broadcastInDim S100000x64 ![0, 1] bcast_S100000x1_S100000x64_0_1
    (maximumf (Host.sqrt (broadcastInDim S100000x1 ![0] bcast_S100000_S100000x1_0
        (Host.reduceAdd (mulf t t) (constant S_ .f32 0x00000000#32) reducesTo_S100000x64_S100000_d1 h_S_)))
      (broadcastInDim S100000x1 ![] bcast_S_S100000x1 (constant S_ .f32 0x2B8CBCCC#32))))
/-- 18 columns. -/
def normRows18 (t : (⟨S100000x18, .f32⟩ : BufTy).Contents (Elt F)) : (⟨S100000x18, .f32⟩ : BufTy).Contents (Elt F) :=
  Host.divf t (broadcastInDim S100000x18 ![0, 1] bcast_S100000x1_S100000x18_0_1
    (maximumf (Host.sqrt (broadcastInDim S100000x1 ![0] bcast_S100000_S100000x1_0
        (Host.reduceAdd (mulf t t) (constant S_ .f32 0x00000000#32) reducesTo_S100000x18_S100000_d1 h_S_)))
      (broadcastInDim S100000x1 ![] bcast_S_S100000x1 (constant S_ .f32 0x2B8CBCCC#32))))

/-- The maximum with zero. -/
def relu64 (y : (⟨S100000x64, .f32⟩ : BufTy).Contents (Elt F)) : (⟨S100000x64, .f32⟩ : BufTy).Contents (Elt F) :=
  maximumf y (broadcastInDim S100000x64 ![] bcast_S_S100000x64 (constant S_ .f32 0x00000000#32))

/-- Layer 1 (80 to 64 features, rectified). -/
def layerA (h : (⟨S100000x80, .f32⟩ : BufTy).Contents (Elt F)) (src dst : (⟨S1600000, .i32⟩ : BufTy).Contents (Elt F)) (w : (⟨S1600000, .f32⟩ : BufTy).Contents (Elt F))
    (wl wr : (⟨S80x64, .f32⟩ : BufTy).Contents (Elt F)) (b : (⟨S64, .f32⟩ : BufTy).Contents (Elt F)) : (⟨S100000x64, .f32⟩ : BufTy).Contents (Elt F) :=
  relu64 (normRows64 (dense80 (divRows80 (nbrSum80 h src dst w) (clampedDegree dst)) h wl wr b))
/-- Layers 2 to 4 (64 to 64 features, rectified). -/
def layerB (h : (⟨S100000x64, .f32⟩ : BufTy).Contents (Elt F)) (src dst : (⟨S1600000, .i32⟩ : BufTy).Contents (Elt F)) (w : (⟨S1600000, .f32⟩ : BufTy).Contents (Elt F))
    (wl wr : (⟨S64x64, .f32⟩ : BufTy).Contents (Elt F)) (b : (⟨S64, .f32⟩ : BufTy).Contents (Elt F)) : (⟨S100000x64, .f32⟩ : BufTy).Contents (Elt F) :=
  relu64 (normRows64 (dense64 (divRows64 (nbrSum64 h src dst w) (clampedDegree dst)) h wl wr b))
/-- Layer 5 (64 to 18 features, not rectified). -/
def layerC (h : (⟨S100000x64, .f32⟩ : BufTy).Contents (Elt F)) (src dst : (⟨S1600000, .i32⟩ : BufTy).Contents (Elt F)) (w : (⟨S1600000, .f32⟩ : BufTy).Contents (Elt F))
    (wl wr : (⟨S64x18, .f32⟩ : BufTy).Contents (Elt F)) (b : (⟨S18, .f32⟩ : BufTy).Contents (Elt F)) : (⟨S100000x18, .f32⟩ : BufTy).Contents (Elt F) :=
  normRows18 (dense18 (divRows64 (nbrSum64 h src dst w) (clampedDegree dst)) h wl wr b)

variable (W : Valuation τ sig (Elt F))

/-! ## What each stretch leaves -/

theorem seg0_src : after (seg0 (F := F)) W (Proc.devRef .tc main_v1) = edgeRow0 (W (Proc.devRef .tc main_arg1)) := by
  after_results_simp; rfl
theorem seg0_dst : after (seg0 (F := F)) W (Proc.devRef .tc main_v3) = edgeRow1 (W (Proc.devRef .tc main_arg1)) := by
  after_results_simp; rfl
theorem seg0_out : after (seg0 (F := F)) W (Proc.devRef .tc main_v8)
    = embedHost (W (Proc.devRef .tc main_arg0)) (W (Proc.devRef .tc main_arg3)) (W (Proc.devRef .tc main_arg4)) := by
  after_results_simp; rfl
theorem seg1_ones : after (seg1 (F := F)) W (Proc.devRef .tc main_v9) = onesE := by
  after_results_simp; rfl
theorem seg1_out : after (seg1 (F := F)) W (Proc.devRef .tc main_v43)
    = layerA (W (Proc.devRef .tc main_v8)) (W (Proc.devRef .tc main_v1)) (W (Proc.devRef .tc main_v3)) (W (Proc.devRef .tc main_arg2))
        (W (Proc.devRef .tc main_arg5)) (W (Proc.devRef .tc main_arg6)) (W (Proc.devRef .tc main_arg7)) := by
  after_results_simp; rfl
theorem seg2_out : after (seg2 (F := F)) W (Proc.devRef .tc main_v77)
    = layerB (W (Proc.devRef .tc main_v43)) (W (Proc.devRef .tc main_v1)) (W (Proc.devRef .tc main_v3)) (W (Proc.devRef .tc main_arg2))
        (W (Proc.devRef .tc main_arg8)) (W (Proc.devRef .tc main_arg9)) (W (Proc.devRef .tc main_arg10)) := by
  after_results_simp; rfl
theorem seg3_out : after (seg3 (F := F)) W (Proc.devRef .tc main_v111)
    = layerB (W (Proc.devRef .tc main_v77)) (W (Proc.devRef .tc main_v1)) (W (Proc.devRef .tc main_v3)) (W (Proc.devRef .tc main_arg2))
        (W (Proc.devRef .tc main_arg11)) (W (Proc.devRef .tc main_arg12)) (W (Proc.devRef .tc main_arg13)) := by
  after_results_simp; rfl
theorem seg4_out : after (seg4 (F := F)) W (Proc.devRef .tc main_v145)
    = layerB (W (Proc.devRef .tc main_v111)) (W (Proc.devRef .tc main_v1)) (W (Proc.devRef .tc main_v3)) (W (Proc.devRef .tc main_arg2))
        (W (Proc.devRef .tc main_arg14)) (W (Proc.devRef .tc main_arg15)) (W (Proc.devRef .tc main_arg16)) := by
  after_results_simp; rfl
theorem seg5_out : after (seg5 (F := F)) W (Proc.devRef .tc main_v178)
    = layerC (W (Proc.devRef .tc main_v145)) (W (Proc.devRef .tc main_v1)) (W (Proc.devRef .tc main_v3)) (W (Proc.devRef .tc main_v9))
        (W (Proc.devRef .tc main_arg17)) (W (Proc.devRef .tc main_arg18)) (W (Proc.devRef .tc main_arg19)) := by
  after_results_simp; rfl

end Cert.ReferenceIdeal.RefStretch

end
-- ==== Proof.RefChain.lean ====
/-
  Which buffers each stretch of the reference's @main leaves alone, and the reference's result as a function of its
  arguments.

  A stretch of host operations writes exactly the result buffers of its operations; any other buffer holds after it
  what it held before.  The arguments are never written; the two rows of the edge list are written by the first
  stretch only, the vector of ones by the second only.  So each stretch reads its operands where they were produced,
  and the output of stretch k is layer k of the network applied to the arguments.
-/
import proofs.«105689_j90512140795978_1_alg».proof.Proof.RefStretch

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.RefStretch

variable {F : FTy → Type} [FloatOps F]

/-! ## The buffers each stretch writes -/

/-- The result buffers of stretch 0's operations. -/
abbrev written0 : List (Ref sig .tc) := [main_v0, main_v1, main_v2, main_v3, main_v4, main_v5, main_v6, main_v7, main_call0_cst, main_call0_v0, main_v8]

/-- A buffer stretch 0 does not write holds after it what it held before. -/
theorem keep_seg0 (W : Valuation τ sig (Elt F)) (b : Ref sig .tc) (hb : ∀ r ∈ written0, b ≠ r) :
    after (seg0 (F := F)) W (Proc.devRef .tc b) = W (Proc.devRef .tc b) :=
  after_of_forall_not_mem (b := Proc.devRef .tc b) _ _ (List.forall_iff_forall_mem.mp (by
    simp only [seg0, List.Forall, TRef.nullary, TRef.unary, TRef.binary, TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (hb _ (by decide))))

/-- The result buffers of stretch 1's operations. -/
abbrev written1 : List (Ref sig .tc) := [main_cst, main_v9, main_c, main_v10, main_v11, main_c_0, main_v12, main_v13, main_v14, main_v15, main_v16, main_v17, main_v18, main_v19, main_cst_1, main_v20, main_v21, main_v22, main_cst_2, main_v23, main_cst_3, main_v24, main_v25, main_v26, main_cst_4, main_v27, main_v28, main_v29, main_v30, main_v31, main_v32, main_v33, main_v34, main_v35, main_v36, main_v37, main_call1_v0, main_call1_cst, main_call1_v1, main_call1_v2, main_v38, main_cst_5, main_v39, main_v40, main_v41, main_v42, main_call2_cst, main_call2_v0, main_v43]

/-- A buffer stretch 1 does not write holds after it what it held before. -/
theorem keep_seg1 (W : Valuation τ sig (Elt F)) (b : Ref sig .tc) (hb : ∀ r ∈ written1, b ≠ r) :
    after (seg1 (F := F)) W (Proc.devRef .tc b) = W (Proc.devRef .tc b) :=
  after_of_forall_not_mem (b := Proc.devRef .tc b) _ _ (List.forall_iff_forall_mem.mp (by
    simp only [seg1, List.Forall, TRef.nullary, TRef.unary, TRef.binary, TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (hb _ (by decide))))

/-- The result buffers of stretch 2's operations. -/
abbrev written2 : List (Ref sig .tc) := [main_c_6, main_v44, main_v45, main_c_7, main_v46, main_v47, main_v48, main_v49, main_v50, main_v51, main_v52, main_v53, main_cst_8, main_v54, main_v55, main_v56, main_cst_9, main_v57, main_cst_10, main_v58, main_v59, main_v60, main_cst_11, main_v61, main_v62, main_v63, main_v64, main_v65, main_v66, main_v67, main_v68, main_v69, main_v70, main_v71, main_call3_v0, main_call3_cst, main_call3_v1, main_call3_v2, main_v72, main_cst_12, main_v73, main_v74, main_v75, main_v76, main_call4_cst, main_call4_v0, main_v77]

/-- A buffer stretch 2 does not write holds after it what it held before. -/
theorem keep_seg2 (W : Valuation τ sig (Elt F)) (b : Ref sig .tc) (hb : ∀ r ∈ written2, b ≠ r) :
    after (seg2 (F := F)) W (Proc.devRef .tc b) = W (Proc.devRef .tc b) :=
  after_of_forall_not_mem (b := Proc.devRef .tc b) _ _ (List.forall_iff_forall_mem.mp (by
    simp only [seg2, List.Forall, TRef.nullary, TRef.unary, TRef.binary, TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (hb _ (by decide))))

/-- The result buffers of stretch 3's operations. -/
abbrev written3 : List (Ref sig .tc) := [main_c_13, main_v78, main_v79, main_c_14, main_v80, main_v81, main_v82, main_v83, main_v84, main_v85, main_v86, main_v87, main_cst_15, main_v88, main_v89, main_v90, main_cst_16, main_v91, main_cst_17, main_v92, main_v93, main_v94, main_cst_18, main_v95, main_v96, main_v97, main_v98, main_v99, main_v100, main_v101, main_v102, main_v103, main_v104, main_v105, main_call5_v0, main_call5_cst, main_call5_v1, main_call5_v2, main_v106, main_cst_19, main_v107, main_v108, main_v109, main_v110, main_call6_cst, main_call6_v0, main_v111]

/-- A buffer stretch 3 does not write holds after it what it held before. -/
theorem keep_seg3 (W : Valuation τ sig (Elt F)) (b : Ref sig .tc) (hb : ∀ r ∈ written3, b ≠ r) :
    after (seg3 (F := F)) W (Proc.devRef .tc b) = W (Proc.devRef .tc b) :=
  after_of_forall_not_mem (b := Proc.devRef .tc b) _ _ (List.forall_iff_forall_mem.mp (by
    simp only [seg3, List.Forall, TRef.nullary, TRef.unary, TRef.binary, TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (hb _ (by decide))))

/-- The result buffers of stretch 4's operations. -/
abbrev written4 : List (Ref sig .tc) := [main_c_20, main_v112, main_v113, main_c_21, main_v114, main_v115, main_v116, main_v117, main_v118, main_v119, main_v120, main_v121, main_cst_22, main_v122, main_v123, main_v124, main_cst_23, main_v125, main_cst_24, main_v126, main_v127, main_v128, main_cst_25, main_v129, main_v130, main_v131, main_v132, main_v133, main_v134, main_v135, main_v136, main_v137, main_v138, main_v139, main_call7_v0, main_call7_cst, main_call7_v1, main_call7_v2, main_v140, main_cst_26, main_v141, main_v142, main_v143, main_v144, main_call8_cst, main_call8_v0, main_v145]

/-- A buffer stretch 4 does not write holds after it what it held before. -/
theorem keep_seg4 (W : Valuation τ sig (Elt F)) (b : Ref sig .tc) (hb : ∀ r ∈ written4, b ≠ r) :
    after (seg4 (F := F)) W (Proc.devRef .tc b) = W (Proc.devRef .tc b) :=
  after_of_forall_not_mem (b := Proc.devRef .tc b) _ _ (List.forall_iff_forall_mem.mp (by
    simp only [seg4, List.Forall, TRef.nullary, TRef.unary, TRef.binary, TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (hb _ (by decide))))

/-- The result buffers of stretch 5's operations. -/
abbrev written5 : List (Ref sig .tc) := [main_c_27, main_v146, main_v147, main_c_28, main_v148, main_v149, main_v150, main_v151, main_v152, main_v153, main_v154, main_v155, main_cst_29, main_v156, main_v157, main_v158, main_cst_30, main_v159, main_cst_31, main_v160, main_v161, main_v162, main_cst_32, main_v163, main_v164, main_v165, main_v166, main_v167, main_v168, main_v169, main_v170, main_v171, main_v172, main_v173, main_call9_v0, main_call9_cst, main_call9_v1, main_call9_v2, main_v174, main_cst_33, main_v175, main_v176, main_v177, main_v178]

/-- A buffer stretch 5 does not write holds after it what it held before. -/
theorem keep_seg5 (W : Valuation τ sig (Elt F)) (b : Ref sig .tc) (hb : ∀ r ∈ written5, b ≠ r) :
    after (seg5 (F := F)) W (Proc.devRef .tc b) = W (Proc.devRef .tc b) :=
  after_of_forall_not_mem (b := Proc.devRef .tc b) _ _ (List.forall_iff_forall_mem.mp (by
    simp only [seg5, List.Forall, TRef.nullary, TRef.unary, TRef.binary, TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (hb _ (by decide))))

/-! ## The contents at the stretches' boundaries -/

variable (m : (ℓ : Loc nD τ sig) → Buf (Elt F) ℓ) (d : Dev nD)

/-- Core `d`'s argument arrays at launch, each named once. -/
def arr0 : (⟨S100000x100, .f32⟩ : BufTy).Contents (Elt F) := m ((d.tc : Thread nD τ).loc main_arg0)
def arr1 : (⟨S2x1600000, .i32⟩ : BufTy).Contents (Elt F) := m ((d.tc : Thread nD τ).loc main_arg1)
def arr2 : (⟨S1600000, .f32⟩ : BufTy).Contents (Elt F) := m ((d.tc : Thread nD τ).loc main_arg2)
def arr3 : (⟨S100x80, .f32⟩ : BufTy).Contents (Elt F) := m ((d.tc : Thread nD τ).loc main_arg3)
def arr4 : (⟨S80, .f32⟩ : BufTy).Contents (Elt F) := m ((d.tc : Thread nD τ).loc main_arg4)
def arr5 : (⟨S80x64, .f32⟩ : BufTy).Contents (Elt F) := m ((d.tc : Thread nD τ).loc main_arg5)
def arr6 : (⟨S80x64, .f32⟩ : BufTy).Contents (Elt F) := m ((d.tc : Thread nD τ).loc main_arg6)
def arr7 : (⟨S64, .f32⟩ : BufTy).Contents (Elt F) := m ((d.tc : Thread nD τ).loc main_arg7)
def arr8 : (⟨S64x64, .f32⟩ : BufTy).Contents (Elt F) := m ((d.tc : Thread nD τ).loc main_arg8)
def arr9 : (⟨S64x64, .f32⟩ : BufTy).Contents (Elt F) := m ((d.tc : Thread nD τ).loc main_arg9)
def arr10 : (⟨S64, .f32⟩ : BufTy).Contents (Elt F) := m ((d.tc : Thread nD τ).loc main_arg10)
def arr11 : (⟨S64x64, .f32⟩ : BufTy).Contents (Elt F) := m ((d.tc : Thread nD τ).loc main_arg11)
def arr12 : (⟨S64x64, .f32⟩ : BufTy).Contents (Elt F) := m ((d.tc : Thread nD τ).loc main_arg12)
def arr13 : (⟨S64, .f32⟩ : BufTy).Contents (Elt F) := m ((d.tc : Thread nD τ).loc main_arg13)
def arr14 : (⟨S64x64, .f32⟩ : BufTy).Contents (Elt F) := m ((d.tc : Thread nD τ).loc main_arg14)
def arr15 : (⟨S64x64, .f32⟩ : BufTy).Contents (Elt F) := m ((d.tc : Thread nD τ).loc main_arg15)
def arr16 : (⟨S64, .f32⟩ : BufTy).Contents (Elt F) := m ((d.tc : Thread nD τ).loc main_arg16)
def arr17 : (⟨S64x18, .f32⟩ : BufTy).Contents (Elt F) := m ((d.tc : Thread nD τ).loc main_arg17)
def arr18 : (⟨S64x18, .f32⟩ : BufTy).Contents (Elt F) := m ((d.tc : Thread nD τ).loc main_arg18)
def arr19 : (⟨S18, .f32⟩ : BufTy).Contents (Elt F) := m ((d.tc : Thread nD τ).loc main_arg19)

/-- At launch. -/
abbrev Q0 : Valuation τ sig (Elt F) := launchContents m d
/-- After stretch 0. -/
abbrev Q1 : Valuation τ sig (Elt F) := after (seg0 (F := F)) (Q0 m d)
/-- After stretch 1. -/
abbrev Q2 : Valuation τ sig (Elt F) := after (seg1 (F := F)) (Q1 m d)
/-- After stretch 2. -/
abbrev Q3 : Valuation τ sig (Elt F) := after (seg2 (F := F)) (Q2 m d)
/-- After stretch 3. -/
abbrev Q4 : Valuation τ sig (Elt F) := after (seg3 (F := F)) (Q3 m d)
/-- After stretch 4. -/
abbrev Q5 : Valuation τ sig (Elt F) := after (seg4 (F := F)) (Q4 m d)
/-- After stretch 5. -/
abbrev Q6 : Valuation τ sig (Elt F) := after (seg5 (F := F)) (Q5 m d)

theorem after_ops_eq : after (ops (F := F)) (launchContents m d) = Q6 m d := after_ops (launchContents m d)

/-! ## The arguments, the edge rows and the ones at every boundary -/

/-- The arguments the stretches read. -/
abbrev argRefs : List (Ref sig .tc) := [main_arg0, main_arg2, main_arg3, main_arg4, main_arg5, main_arg6, main_arg7, main_arg8, main_arg9, main_arg10, main_arg11, main_arg12, main_arg13, main_arg14, main_arg15, main_arg16, main_arg17, main_arg18, main_arg19]

theorem args_1 : ∀ b ∈ argRefs, Q1 m d (Proc.devRef .tc b) = m ((d.tc : Thread nD τ).loc b) :=
  fun b hb => (keep_seg0 (Q0 m d) b ((by decide : ∀ b ∈ argRefs, ∀ r ∈ written0, b ≠ r) b hb)).trans rfl
theorem args_2 : ∀ b ∈ argRefs, Q2 m d (Proc.devRef .tc b) = m ((d.tc : Thread nD τ).loc b) :=
  fun b hb => (keep_seg1 (Q1 m d) b ((by decide : ∀ b ∈ argRefs, ∀ r ∈ written1, b ≠ r) b hb)).trans (args_1 m d b hb)
theorem args_3 : ∀ b ∈ argRefs, Q3 m d (Proc.devRef .tc b) = m ((d.tc : Thread nD τ).loc b) :=
  fun b hb => (keep_seg2 (Q2 m d) b ((by decide : ∀ b ∈ argRefs, ∀ r ∈ written2, b ≠ r) b hb)).trans (args_2 m d b hb)
theorem args_4 : ∀ b ∈ argRefs, Q4 m d (Proc.devRef .tc b) = m ((d.tc : Thread nD τ).loc b) :=
  fun b hb => (keep_seg3 (Q3 m d) b ((by decide : ∀ b ∈ argRefs, ∀ r ∈ written3, b ≠ r) b hb)).trans (args_3 m d b hb)
theorem args_5 : ∀ b ∈ argRefs, Q5 m d (Proc.devRef .tc b) = m ((d.tc : Thread nD τ).loc b) :=
  fun b hb => (keep_seg4 (Q4 m d) b ((by decide : ∀ b ∈ argRefs, ∀ r ∈ written4, b ≠ r) b hb)).trans (args_4 m d b hb)

/-- The two rows of the edge list. -/
abbrev rowRefs : List (Ref sig .tc) := [main_v1, main_v3]

theorem rows_2 : ∀ b ∈ rowRefs, Q2 m d (Proc.devRef .tc b) = Q1 m d (Proc.devRef .tc b) :=
  fun b hb => (keep_seg1 (Q1 m d) b ((by decide : ∀ b ∈ rowRefs, ∀ r ∈ written1, b ≠ r) b hb)).trans rfl
theorem rows_3 : ∀ b ∈ rowRefs, Q3 m d (Proc.devRef .tc b) = Q1 m d (Proc.devRef .tc b) :=
  fun b hb => (keep_seg2 (Q2 m d) b ((by decide : ∀ b ∈ rowRefs, ∀ r ∈ written2, b ≠ r) b hb)).trans (rows_2 m d b hb)
theorem rows_4 : ∀ b ∈ rowRefs, Q4 m d (Proc.devRef .tc b) = Q1 m d (Proc.devRef .tc b) :=
  fun b hb => (keep_seg3 (Q3 m d) b ((by decide : ∀ b ∈ rowRefs, ∀ r ∈ written3, b ≠ r) b hb)).trans (rows_3 m d b hb)
theorem rows_5 : ∀ b ∈ rowRefs, Q5 m d (Proc.devRef .tc b) = Q1 m d (Proc.devRef .tc b) :=
  fun b hb => (keep_seg4 (Q4 m d) b ((by decide : ∀ b ∈ rowRefs, ∀ r ∈ written4, b ≠ r) b hb)).trans (rows_4 m d b hb)

theorem src1 : Q1 m d (Proc.devRef .tc main_v1) = edgeRow0 (arr1 m d) := seg0_src (Q0 m d)
theorem dst1 : Q1 m d (Proc.devRef .tc main_v3) = edgeRow1 (arr1 m d) := seg0_dst (Q0 m d)
theorem src2 : Q2 m d (Proc.devRef .tc main_v1) = edgeRow0 (arr1 m d) := (rows_2 m d main_v1 (List.Mem.head _)).trans (src1 m d)
theorem dst2 : Q2 m d (Proc.devRef .tc main_v3) = edgeRow1 (arr1 m d) := (rows_2 m d main_v3 (List.Mem.tail _ (List.Mem.head _))).trans (dst1 m d)
theorem src3 : Q3 m d (Proc.devRef .tc main_v1) = edgeRow0 (arr1 m d) := (rows_3 m d main_v1 (List.Mem.head _)).trans (src1 m d)
theorem dst3 : Q3 m d (Proc.devRef .tc main_v3) = edgeRow1 (arr1 m d) := (rows_3 m d main_v3 (List.Mem.tail _ (List.Mem.head _))).trans (dst1 m d)
theorem src4 : Q4 m d (Proc.devRef .tc main_v1) = edgeRow0 (arr1 m d) := (rows_4 m d main_v1 (List.Mem.head _)).trans (src1 m d)
theorem dst4 : Q4 m d (Proc.devRef .tc main_v3) = edgeRow1 (arr1 m d) := (rows_4 m d main_v3 (List.Mem.tail _ (List.Mem.head _))).trans (dst1 m d)
theorem src5 : Q5 m d (Proc.devRef .tc main_v1) = edgeRow0 (arr1 m d) := (rows_5 m d main_v1 (List.Mem.head _)).trans (src1 m d)
theorem dst5 : Q5 m d (Proc.devRef .tc main_v3) = edgeRow1 (arr1 m d) := (rows_5 m d main_v3 (List.Mem.tail _ (List.Mem.head _))).trans (dst1 m d)

theorem ones5 : Q5 m d (Proc.devRef .tc main_v9) = onesE :=
  (keep_seg4 (Q4 m d) main_v9 (by decide)).trans ((keep_seg3 (Q3 m d) main_v9 (by decide)).trans
    ((keep_seg2 (Q2 m d) main_v9 (by decide)).trans (seg1_ones (Q1 m d))))

/-! ## The network -/

section Net
variable (x0 : (⟨S100000x100, .f32⟩ : BufTy).Contents (Elt F)) (x1 : (⟨S2x1600000, .i32⟩ : BufTy).Contents (Elt F)) (x2 : (⟨S1600000, .f32⟩ : BufTy).Contents (Elt F))
  (x3 : (⟨S100x80, .f32⟩ : BufTy).Contents (Elt F)) (x4 : (⟨S80, .f32⟩ : BufTy).Contents (Elt F)) (x5 x6 : (⟨S80x64, .f32⟩ : BufTy).Contents (Elt F)) (x7 : (⟨S64, .f32⟩ : BufTy).Contents (Elt F))
  (x8 x9 : (⟨S64x64, .f32⟩ : BufTy).Contents (Elt F)) (x10 : (⟨S64, .f32⟩ : BufTy).Contents (Elt F)) (x11 x12 : (⟨S64x64, .f32⟩ : BufTy).Contents (Elt F)) (x13 : (⟨S64, .f32⟩ : BufTy).Contents (Elt F))
  (x14 x15 : (⟨S64x64, .f32⟩ : BufTy).Contents (Elt F)) (x16 : (⟨S64, .f32⟩ : BufTy).Contents (Elt F)) (x17 x18 : (⟨S64x18, .f32⟩ : BufTy).Contents (Elt F)) (x19 : (⟨S18, .f32⟩ : BufTy).Contents (Elt F))

/-- The embedding. -/
def rlayer0 : (⟨S100000x80, .f32⟩ : BufTy).Contents (Elt F) := embedHost x0 x3 x4
def rlayer1 : (⟨S100000x64, .f32⟩ : BufTy).Contents (Elt F) := layerA (rlayer0 x0 x3 x4) (edgeRow0 x1) (edgeRow1 x1) x2 x5 x6 x7
def rlayer2 : (⟨S100000x64, .f32⟩ : BufTy).Contents (Elt F) := layerB (rlayer1 x0 x1 x2 x3 x4 x5 x6 x7) (edgeRow0 x1) (edgeRow1 x1) x2 x8 x9 x10
def rlayer3 : (⟨S100000x64, .f32⟩ : BufTy).Contents (Elt F) := layerB (rlayer2 x0 x1 x2 x3 x4 x5 x6 x7 x8 x9 x10) (edgeRow0 x1) (edgeRow1 x1) x2 x11 x12 x13
def rlayer4 : (⟨S100000x64, .f32⟩ : BufTy).Contents (Elt F) :=
  layerB (rlayer3 x0 x1 x2 x3 x4 x5 x6 x7 x8 x9 x10 x11 x12 x13) (edgeRow0 x1) (edgeRow1 x1) x2 x14 x15 x16
/-- The network's output: the last layer, every edge weighing one, no rectifier. -/
def rlayer5 : (⟨S100000x18, .f32⟩ : BufTy).Contents (Elt F) :=
  layerC (rlayer4 x0 x1 x2 x3 x4 x5 x6 x7 x8 x9 x10 x11 x12 x13 x14 x15 x16) (edgeRow0 x1) (edgeRow1 x1) onesE x17 x18 x19
end Net

/-! ## Each stretch's output is its layer -/

theorem layerA_congr {h h' : (⟨S100000x80, .f32⟩ : BufTy).Contents (Elt F)} {s s' t t' : (⟨S1600000, .i32⟩ : BufTy).Contents (Elt F)} {w w' : (⟨S1600000, .f32⟩ : BufTy).Contents (Elt F)}
    {wl wl' wr wr' : (⟨S80x64, .f32⟩ : BufTy).Contents (Elt F)} {b b' : (⟨S64, .f32⟩ : BufTy).Contents (Elt F)} (e1 : h = h') (e2 : s = s') (e3 : t = t') (e4 : w = w')
    (e5 : wl = wl') (e6 : wr = wr') (e7 : b = b') : layerA h s t w wl wr b = layerA h' s' t' w' wl' wr' b' := by
  subst e1 e2 e3 e4 e5 e6 e7; rfl
theorem layerB_congr {h h' : (⟨S100000x64, .f32⟩ : BufTy).Contents (Elt F)} {s s' t t' : (⟨S1600000, .i32⟩ : BufTy).Contents (Elt F)} {w w' : (⟨S1600000, .f32⟩ : BufTy).Contents (Elt F)}
    {wl wl' wr wr' : (⟨S64x64, .f32⟩ : BufTy).Contents (Elt F)} {b b' : (⟨S64, .f32⟩ : BufTy).Contents (Elt F)} (e1 : h = h') (e2 : s = s') (e3 : t = t') (e4 : w = w')
    (e5 : wl = wl') (e6 : wr = wr') (e7 : b = b') : layerB h s t w wl wr b = layerB h' s' t' w' wl' wr' b' := by
  subst e1 e2 e3 e4 e5 e6 e7; rfl
theorem layerC_congr {h h' : (⟨S100000x64, .f32⟩ : BufTy).Contents (Elt F)} {s s' t t' : (⟨S1600000, .i32⟩ : BufTy).Contents (Elt F)} {w w' : (⟨S1600000, .f32⟩ : BufTy).Contents (Elt F)}
    {wl wl' wr wr' : (⟨S64x18, .f32⟩ : BufTy).Contents (Elt F)} {b b' : (⟨S18, .f32⟩ : BufTy).Contents (Elt F)} (e1 : h = h') (e2 : s = s') (e3 : t = t') (e4 : w = w')
    (e5 : wl = wl') (e6 : wr = wr') (e7 : b = b') : layerC h s t w wl wr b = layerC h' s' t' w' wl' wr' b' := by
  subst e1 e2 e3 e4 e5 e6 e7; rfl
theorem embedHost_congr {x x' : (⟨S100000x100, .f32⟩ : BufTy).Contents (Elt F)} {w w' : (⟨S100x80, .f32⟩ : BufTy).Contents (Elt F)} {b b' : (⟨S80, .f32⟩ : BufTy).Contents (Elt F)}
    (e1 : x = x') (e2 : w = w') (e3 : b = b') : embedHost x w b = embedHost x' w' b' := by
  subst e1 e2 e3; rfl

set_option maxHeartbeats 1000000 in
theorem out0 : Q1 m d (Proc.devRef .tc main_v8) = rlayer0 (arr0 m d) (arr3 m d) (arr4 m d) := seg0_out (Q0 m d)
set_option maxHeartbeats 1000000 in
theorem out1 : Q2 m d (Proc.devRef .tc main_v43) = rlayer1 (arr0 m d) (arr1 m d) (arr2 m d) (arr3 m d) (arr4 m d) (arr5 m d) (arr6 m d) (arr7 m d) :=
  (seg1_out (Q1 m d)).trans (layerA_congr (out0 m d) (src1 m d) (dst1 m d) (args_1 m d main_arg2 (List.Mem.tail _ (List.Mem.head _)))
    (args_1 m d main_arg5 (List.Mem.tail _ (List.Mem.tail _ (List.Mem.tail _ (List.Mem.tail _ (List.Mem.head _)))))) (args_1 m d main_arg6 (List.Mem.tail _ (List.Mem.tail _ (List.Mem.tail _ (List.Mem.tail _ (List.Mem.tail _ (List.Mem.head _))))))) (args_1 m d main_arg7 (List.Mem.tail _ (List.Mem.tail _ (List.Mem.tail _ (List.Mem.tail _ (List.Mem.tail _ (List.Mem.tail _ (List.Mem.head _)))))))))
set_option maxHeartbeats 1000000 in
theorem out2 : Q3 m d (Proc.devRef .tc main_v77) = rlayer2 (arr0 m d) (arr1 m d) (arr2 m d) (arr3 m d) (arr4 m d) (arr5 m d) (arr6 m d) (arr7 m d) (arr8 m d) (arr9 m d) (arr10 m d) :=
  (seg2_out (Q2 m d)).trans (layerB_congr (out1 m d) (src2 m d) (dst2 m d) (args_2 m d main_arg2 (List.Mem.tail _ (List.Mem.head _)))
    (args_2 m d main_arg8 (List.Mem.tail _ (List.Mem.tail _ (List.Mem.tail _ (List.Mem.tail _ (List.Mem.tail _ (List.Mem.tail _ (List.Mem.tail _ (List.Mem.head _))))))))) (args_2 m d main_arg9 (List.Mem.tail _ (List.Mem.tail _ (List.Mem.tail _ (List.Mem.tail _ (List.Mem.tail _ (List.Mem.tail _ (List.Mem.tail _ (List.Mem.tail _ (List.Mem.head _)))))))))) (args_2 m d main_arg10 (List.Mem.tail _ (List.Mem.tail _ (List.Mem.tail _ (List.Mem.tail _ (List.Mem.tail _ (List.Mem.tail _ (List.Mem.tail _ (List.Mem.tail _ (List.Mem.tail _ (List.Mem.head _))))))))))))
set_option maxHeartbeats 1000000 in
theorem out3 : Q4 m d (Proc.devRef .tc main_v111) = rlayer3 (arr0 m d) (arr1 m d) (arr2 m d) (arr3 m d) (arr4 m d) (arr5 m d) (arr6 m d) (arr7 m d) (arr8 m d) (arr9 m d) (arr10 m d) (arr11 m d) (arr12 m d) (arr13 m d) :=
  (seg3_out (Q3 m d)).trans (layerB_congr (out2 m d) (src3 m d) (dst3 m d) (args_3 m d main_arg2 (List.Mem.tail _ (List.Mem.head _)))
    (args_3 m d main_arg11 (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))) (args_3 m d main_arg12 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))) (args_3 m d main_arg13 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))
set_option maxHeartbeats 1000000 in
theorem out4 : Q5 m d (Proc.devRef .tc main_v145) = rlayer4 (arr0 m d) (arr1 m d) (arr2 m d) (arr3 m d) (arr4 m d) (arr5 m d) (arr6 m d) (arr7 m d) (arr8 m d) (arr9 m d) (arr10 m d) (arr11 m d) (arr12 m d) (arr13 m d) (arr14 m d) (arr15 m d) (arr16 m d) :=
  (seg4_out (Q4 m d)).trans (layerB_congr (out3 m d) (src4 m d) (dst4 m d) (args_4 m d main_arg2 (List.Mem.tail _ (List.Mem.head _)))
    (args_4 m d main_arg14 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))) (args_4 m d main_arg15 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))) (args_4 m d main_arg16 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))
set_option maxHeartbeats 1000000 in
theorem out5 : Q6 m d (Proc.devRef .tc main_v178) = rlayer5 (arr0 m d) (arr1 m d) (arr2 m d) (arr3 m d) (arr4 m d) (arr5 m d) (arr6 m d) (arr7 m d) (arr8 m d) (arr9 m d) (arr10 m d) (arr11 m d) (arr12 m d) (arr13 m d) (arr14 m d) (arr15 m d) (arr16 m d) (arr17 m d) (arr18 m d) (arr19 m d) :=
  (seg5_out (Q5 m d)).trans (layerC_congr (out4 m d) (src5 m d) (dst5 m d) (ones5 m d)
    (args_5 m d main_arg17 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))) (args_5 m d main_arg18 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))) (args_5 m d main_arg19 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))

/-- The reference's result buffer after all 245 operations holds the network's output. -/
theorem result : after (ops (F := F)) (launchContents m d) (Proc.devRef .tc main_v178) = rlayer5 (arr0 m d) (arr1 m d) (arr2 m d) (arr3 m d) (arr4 m d) (arr5 m d) (arr6 m d) (arr7 m d) (arr8 m d) (arr9 m d) (arr10 m d) (arr11 m d) (arr12 m d) (arr13 m d) (arr14 m d) (arr15 m d) (arr16 m d) (arr17 m d) (arr18 m d) (arr19 m d) :=
  (congrFun (after_ops_eq m d) _).trans (out5 m d)

/-- All twenty arguments. -/
abbrev allArgs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

theorem fresh0 : ∀ b ∈ allArgs, ∀ r ∈ written0, b ≠ r := by decide
theorem fresh1 : ∀ b ∈ allArgs, ∀ r ∈ written1, b ≠ r := by decide
theorem fresh2 : ∀ b ∈ allArgs, ∀ r ∈ written2, b ≠ r := by decide
theorem fresh3 : ∀ b ∈ allArgs, ∀ r ∈ written3, b ≠ r := by decide
theorem fresh4 : ∀ b ∈ allArgs, ∀ r ∈ written4, b ≠ r := by decide
theorem fresh5 : ∀ b ∈ allArgs, ∀ r ∈ written5, b ≠ r := by decide

/-- The arguments are never written: each holds at the end what it held at launch. -/
theorem arg_kept (b : Ref sig .tc) (hb : b ∈ allArgs) :
    after (ops (F := F)) (launchContents m d) (Proc.devRef .tc b) = m ((d.tc : Thread nD τ).loc b) :=
  (congrFun (after_ops_eq m d) _).trans
    ((keep_seg5 (Q5 m d) b (fresh5 b hb)).trans ((keep_seg4 (Q4 m d) b (fresh4 b hb)).trans ((keep_seg3 (Q3 m d) b (fresh3 b hb)).trans
      ((keep_seg2 (Q2 m d) b (fresh2 b hb)).trans ((keep_seg1 (Q1 m d) b (fresh1 b hb)).trans (keep_seg0 (Q0 m d) b (fresh0 b hb)))))))

end Cert.ReferenceIdeal.RefChain

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibSageHost.lean ====
/-
  One layer of the network, and its embedding, in the spelling a plain array program uses, shown equal — as whole
  arrays over the extended reals — to the entry-by-entry specification; generic in the number of rows N and the
  feature widths K (in) and D (out).

  A plain array program writes a layer as a chain of whole-array operations:

    o  = (a · Wl + x · Wr) + (the bias vector, laid out as a one-row array and repeated down the N rows),
    s  = the sum along each row of o ∘ o, started from the scalar constant zero            (a vector of N sums),
    r  = max( sqrt(s made a column [N, 1]),  the scalar constant ε spread over [N, 1] ),
    o' = o / (r spread across the D columns),     and, on all layers but the last,  max(o', 0 spread over [N, D]).

  Read at entry (n, j): both products are plain sums over k; every broadcast reads the one entry it repeats; the row
  sum started from the zero constant is 0 + Σ_j' o(n, j')², and 0 + t = t on the extended reals with no finiteness
  needed.  What is left is, symbol for symbol, `sage` (resp. `sageRelu`, `embed`) of the specification, with the
  bias vector viewed as a one-row array.  No algebraic law beyond 0 + t = t is used, so nothing here asks the entries
  to be finite.
-/
import Idealize.ShloMosaic.PureOps.Ideal.Laws
import Idealize.ShloMosaic.Lib.ValueIdx
import Idealize.ShloMosaic.Lib.Pipeline.Value
import proofs.«105689_j90512140795978_1_alg».proof.Proof.Spec
import proofs.«105689_j90512140795978_1_alg».proof.Proof.LibRowBcast
import proofs.«105689_j90512140795978_1_alg».proof.Proof.LibJoinedRows

noncomputable section

open scoped BigOperators

namespace Cert.LibSageHost

open Idealize.ShloMosaic Idealize.ShloMosaic.ValueIdx Cert.LibPlainDot Cert.LibDenseLayer Cert.SageSpec

variable {N K D : ℕ}

/-! ## The host spellings, named -/

/-- The dense layer as the host writes it: the two products added, then the bias vector, laid out as a row and
    repeated down the rows, added. -/
abbrev hostDense (Dd : DotDims ⟨2, ![N, K]⟩ ⟨2, ![K, D]⟩ ⟨2, ![N, D]⟩)
    (a x : FVec Ideal ⟨2, ![N, K]⟩ .f32) (wl wr : FVec Ideal ⟨2, ![K, D]⟩ .f32) (b : FVec Ideal ⟨1, ![D]⟩ .f32)
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2)) :
    FVec Ideal ⟨2, ![N, D]⟩ .f32 :=
  addf (addf (Host.dotGeneral Dd none a wl) (Host.dotGeneral Dd none x wr))
    (broadcastInDim ⟨2, ![N, D]⟩ ![0, 1] h2 (broadcastInDim ⟨2, ![1, D]⟩ ![1] h1 b))

/-- Row normalisation as the host writes it: the squares summed along each row from the zero constant, the sums made
    a column, its square root clamped below by the ε constant, the column spread across the row, the quotient. -/
abbrev hostNormalize (o : FVec Ideal ⟨2, ![N, D]⟩ .f32)
    (hred : (⟨2, ![N, D]⟩ : Shape).ReducesTo [1] ⟨1, ![N]⟩) (hS : 0 < (⟨0, ![]⟩ : Shape).numel)
    (h3 : (⟨1, ![N]⟩ : Shape).BroadcastsInDim ⟨2, ![N, 1]⟩ (![0] : Fin 1 → Fin 2))
    (h5 : (⟨0, ![]⟩ : Shape).BroadcastsInDim ⟨2, ![N, 1]⟩ (![] : Fin 0 → Fin 2))
    (h4 : (⟨2, ![N, 1]⟩ : Shape).BroadcastsInDim ⟨2, ![N, D]⟩ (![0, 1] : Fin 2 → Fin 2)) :
    FVec Ideal ⟨2, ![N, D]⟩ .f32 :=
  Host.divf o
    (broadcastInDim ⟨2, ![N, D]⟩ ![0, 1] h4
      (maximumf
        (Host.sqrt (broadcastInDim ⟨2, ![N, 1]⟩ ![0] h3
          (Host.reduceAdd (mulf o o) (constant (F := Ideal) ⟨0, ![]⟩ .f32 0x00000000#32) hred hS)))
        (broadcastInDim ⟨2, ![N, 1]⟩ ![] h5 (constant (F := Ideal) ⟨0, ![]⟩ .f32 0x2B8CBCCC#32))))

/-- The rectifier as the host writes it: the maximum with the zero constant spread over the whole shape. -/
abbrev hostRelu (o : FVec Ideal ⟨2, ![N, D]⟩ .f32)
    (h0 : (⟨0, ![]⟩ : Shape).BroadcastsInDim ⟨2, ![N, D]⟩ (![] : Fin 0 → Fin 2)) : FVec Ideal ⟨2, ![N, D]⟩ .f32 :=
  maximumf o (broadcastInDim ⟨2, ![N, D]⟩ ![] h0 (constant (F := Ideal) ⟨0, ![]⟩ .f32 0x00000000#32))

/-! ## Each spelling read entry by entry -/

/-- The host's dense layer is `dense`: at entry (n, j) both contractions are plain sums over k and the doubly
    broadcast bias reads its entry j; the grouping (product + product) + bias is the one `dense` is written in. -/
theorem host_dense_sum {Dd : DotDims ⟨2, ![N, K]⟩ ⟨2, ![K, D]⟩ ⟨2, ![N, D]⟩} (hD : Plain Dd)
    (a x : FVec Ideal ⟨2, ![N, K]⟩ .f32) (wl wr : FVec Ideal ⟨2, ![K, D]⟩ .f32) (b : FVec Ideal ⟨1, ![D]⟩ .f32)
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (hc : (⟨1, ![D]⟩ : Shape).ShapeCasts ⟨2, ![1, D]⟩) :
    hostDense Dd a x wl wr b h1 h2 = dense a x wl wr (shapeCast ⟨2, ![1, D]⟩ b hc) := by
  funext i
  obtain ⟨n, j, rfl⟩ : ∃ (n : Fin N) (j : Fin D), i = ix2 n j := ⟨i 0, i 1, eq_ix2 i⟩
  show (FloatOps.dotGeneral Dd none .single a wl (ix2 n j) + FloatOps.dotGeneral Dd none .single x wr (ix2 n j))
      + broadcastInDim ⟨2, ![N, D]⟩ ![0, 1] h2 (broadcastInDim ⟨2, ![1, D]⟩ ![1] h1 b) (ix2 n j) = _
  rw [hD.dotGeneral_apply, hD.dotGeneral_apply, Cert.LibRowBcast.bcast_vec_rows_apply, dense_ix2,
    Cert.LibRowLayout.shapeCast_b_1b_apply]

/-- The host's row normalisation is `normalize`: the host sum along a row from the zero constant is the plain sum of
    the row's squares (0 + Σ), the column and its spreading read the row's own entry, and the ε constant reads ε. -/
theorem host_normalize (o : FVec Ideal ⟨2, ![N, D]⟩ .f32)
    (hred : (⟨2, ![N, D]⟩ : Shape).ReducesTo [1] ⟨1, ![N]⟩) (hR : (⟨2, ![N, D]⟩ : Shape).Reduces [1] ⟨1, ![N]⟩)
    (hS : 0 < (⟨0, ![]⟩ : Shape).numel)
    (h3 : (⟨1, ![N]⟩ : Shape).BroadcastsInDim ⟨2, ![N, 1]⟩ (![0] : Fin 1 → Fin 2))
    (h5 : (⟨0, ![]⟩ : Shape).BroadcastsInDim ⟨2, ![N, 1]⟩ (![] : Fin 0 → Fin 2))
    (h4 : (⟨2, ![N, 1]⟩ : Shape).BroadcastsInDim ⟨2, ![N, D]⟩ (![0, 1] : Fin 2 → Fin 2)) :
    hostNormalize o hred hS h3 h5 h4 = normalize o := by
  funext i
  obtain ⟨n, j, rfl⟩ : ∃ (n : Fin N) (j : Fin D), i = ix2 n j := ⟨i 0, i 1, eq_ix2 i⟩
  rw [normalize_ix2]
  show Ideal.div (o (ix2 n j)) _ = _
  refine congrArg (Ideal.div (o (ix2 n j))) ?_
  refine (Cert.LibJoinedRows.bcast_col_rows_apply h4 _ n j).trans ?_
  show max _ _ = max _ _
  refine congrArg₂ max ?_ ?_
  · show Ideal.sqrt _ = _
    refine congrArg Ideal.sqrt ?_
    refine (Cert.LibJoinedRows.bcast_vec_col_apply h3 _ n 0).trans ?_
    show Ideal.hostReduceAdd hred (mulf o o) (Ideal.ofBits .f32 0x00000000#32) (ix1 n) = _
    rw [Ideal.hostReduceAdd_single hred hR, Ideal.ofBits_zero_f32, zero_add]
    unfold rowSq
    refine Finset.sum_congr rfl fun k _ => ?_
    have e : hR.lift (ix1 n) k = ix2 n k := funext fun ax => Fin.ext (by
      match ax with
      | ⟨0, _⟩ => rfl
      | ⟨1, _⟩ => rfl)
    rw [e]
    rfl
  · exact (Cert.LibJoinedRows.bcast_scalar_apply h5 _ _).trans (constant_apply _ _)

/-- The host's rectifier is the entrywise maximum with zero. -/
theorem host_relu (o : FVec Ideal ⟨2, ![N, D]⟩ .f32)
    (h0 : (⟨0, ![]⟩ : Shape).BroadcastsInDim ⟨2, ![N, D]⟩ (![] : Fin 0 → Fin 2)) :
    hostRelu o h0 = fun i => max (o i) zerov := by
  funext i
  show max (o i) _ = _
  refine congrArg (max (o i)) ?_
  exact (Cert.LibJoinedRows.bcast_scalar_apply h0 _ _).trans (constant_apply _ _)

/-! ## The layers -/

/-- One layer without rectifier, host spelling: the specification's `sage` over the bias laid out as a row. -/
theorem host_sage_named {Dd : DotDims ⟨2, ![N, K]⟩ ⟨2, ![K, D]⟩ ⟨2, ![N, D]⟩} (hD : Plain Dd)
    (a x : FVec Ideal ⟨2, ![N, K]⟩ .f32) (wl wr : FVec Ideal ⟨2, ![K, D]⟩ .f32) (b : FVec Ideal ⟨1, ![D]⟩ .f32)
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (hc : (⟨1, ![D]⟩ : Shape).ShapeCasts ⟨2, ![1, D]⟩)
    (hred : (⟨2, ![N, D]⟩ : Shape).ReducesTo [1] ⟨1, ![N]⟩) (hR : (⟨2, ![N, D]⟩ : Shape).Reduces [1] ⟨1, ![N]⟩)
    (hS : 0 < (⟨0, ![]⟩ : Shape).numel)
    (h3 : (⟨1, ![N]⟩ : Shape).BroadcastsInDim ⟨2, ![N, 1]⟩ (![0] : Fin 1 → Fin 2))
    (h5 : (⟨0, ![]⟩ : Shape).BroadcastsInDim ⟨2, ![N, 1]⟩ (![] : Fin 0 → Fin 2))
    (h4 : (⟨2, ![N, 1]⟩ : Shape).BroadcastsInDim ⟨2, ![N, D]⟩ (![0, 1] : Fin 2 → Fin 2)) :
    hostNormalize (hostDense Dd a x wl wr b h1 h2) hred hS h3 h5 h4
      = sage a x wl wr (shapeCast ⟨2, ![1, D]⟩ b hc) :=
  (congrArg (fun o => hostNormalize o hred hS h3 h5 h4) (host_dense_sum hD a x wl wr b h1 h2 hc)).trans
    (host_normalize (dense a x wl wr (shapeCast ⟨2, ![1, D]⟩ b hc)) hred hR hS h3 h5 h4)

/-- One layer with rectifier, host spelling: the specification's `sageRelu`. -/
theorem host_sageRelu_named {Dd : DotDims ⟨2, ![N, K]⟩ ⟨2, ![K, D]⟩ ⟨2, ![N, D]⟩} (hD : Plain Dd)
    (a x : FVec Ideal ⟨2, ![N, K]⟩ .f32) (wl wr : FVec Ideal ⟨2, ![K, D]⟩ .f32) (b : FVec Ideal ⟨1, ![D]⟩ .f32)
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (hc : (⟨1, ![D]⟩ : Shape).ShapeCasts ⟨2, ![1, D]⟩)
    (hred : (⟨2, ![N, D]⟩ : Shape).ReducesTo [1] ⟨1, ![N]⟩) (hR : (⟨2, ![N, D]⟩ : Shape).Reduces [1] ⟨1, ![N]⟩)
    (hS : 0 < (⟨0, ![]⟩ : Shape).numel)
    (h3 : (⟨1, ![N]⟩ : Shape).BroadcastsInDim ⟨2, ![N, 1]⟩ (![0] : Fin 1 → Fin 2))
    (h5 : (⟨0, ![]⟩ : Shape).BroadcastsInDim ⟨2, ![N, 1]⟩ (![] : Fin 0 → Fin 2))
    (h4 : (⟨2, ![N, 1]⟩ : Shape).BroadcastsInDim ⟨2, ![N, D]⟩ (![0, 1] : Fin 2 → Fin 2))
    (h0 : (⟨0, ![]⟩ : Shape).BroadcastsInDim ⟨2, ![N, D]⟩ (![] : Fin 0 → Fin 2)) :
    hostRelu (hostNormalize (hostDense Dd a x wl wr b h1 h2) hred hS h3 h5 h4) h0
      = sageRelu a x wl wr (shapeCast ⟨2, ![1, D]⟩ b hc) :=
  (congrArg (fun o => hostRelu o h0) (host_sage_named hD a x wl wr b h1 h2 hc hred hR hS h3 h5 h4)).trans
    (host_relu (sage a x wl wr (shapeCast ⟨2, ![1, D]⟩ b hc)) h0)

/-- The embedding, host spelling — product, the bias row added, rectifier — is the specification's `embed`. -/
theorem host_embed_named {Dd : DotDims ⟨2, ![N, K]⟩ ⟨2, ![K, D]⟩ ⟨2, ![N, D]⟩} (hD : Plain Dd)
    (x : FVec Ideal ⟨2, ![N, K]⟩ .f32) (w : FVec Ideal ⟨2, ![K, D]⟩ .f32) (b : FVec Ideal ⟨1, ![D]⟩ .f32)
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (hc : (⟨1, ![D]⟩ : Shape).ShapeCasts ⟨2, ![1, D]⟩)
    (h0 : (⟨0, ![]⟩ : Shape).BroadcastsInDim ⟨2, ![N, D]⟩ (![] : Fin 0 → Fin 2)) :
    hostRelu (addf (Host.dotGeneral Dd none x w)
        (broadcastInDim ⟨2, ![N, D]⟩ ![0, 1] h2 (broadcastInDim ⟨2, ![1, D]⟩ ![1] h1 b))) h0
      = embed x w (shapeCast ⟨2, ![1, D]⟩ b hc) := by
  rw [host_relu]
  funext i
  obtain ⟨n, j, rfl⟩ : ∃ (n : Fin N) (j : Fin D), i = ix2 n j := ⟨i 0, i 1, eq_ix2 i⟩
  rw [embed_ix2]
  show max (FloatOps.dotGeneral Dd none .single x w (ix2 n j)
      + broadcastInDim ⟨2, ![N, D]⟩ ![0, 1] h2 (broadcastInDim ⟨2, ![1, D]⟩ ![1] h1 b) (ix2 n j)) zerov = _
  rw [hD.dotGeneral_apply, Cert.LibRowBcast.bcast_vec_rows_apply, Cert.LibRowLayout.shapeCast_b_1b_apply]

/-! ## The same three statements over the bare operations

  The named spellings above are abbreviations; written out, the statements read as the operation chain itself, which
  is the form that meets a program's operation list term for term. -/

/-- One layer without rectifier, every operation written out. -/
theorem host_sage {Dd : DotDims ⟨2, ![N, K]⟩ ⟨2, ![K, D]⟩ ⟨2, ![N, D]⟩} (hD : Plain Dd)
    (a x : FVec Ideal ⟨2, ![N, K]⟩ .f32) (wl wr : FVec Ideal ⟨2, ![K, D]⟩ .f32) (b : FVec Ideal ⟨1, ![D]⟩ .f32)
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (hc : (⟨1, ![D]⟩ : Shape).ShapeCasts ⟨2, ![1, D]⟩)
    (hred : (⟨2, ![N, D]⟩ : Shape).ReducesTo [1] ⟨1, ![N]⟩) (hR : (⟨2, ![N, D]⟩ : Shape).Reduces [1] ⟨1, ![N]⟩)
    (hS : 0 < (⟨0, ![]⟩ : Shape).numel)
    (h3 : (⟨1, ![N]⟩ : Shape).BroadcastsInDim ⟨2, ![N, 1]⟩ (![0] : Fin 1 → Fin 2))
    (h5 : (⟨0, ![]⟩ : Shape).BroadcastsInDim ⟨2, ![N, 1]⟩ (![] : Fin 0 → Fin 2))
    (h4 : (⟨2, ![N, 1]⟩ : Shape).BroadcastsInDim ⟨2, ![N, D]⟩ (![0, 1] : Fin 2 → Fin 2)) :
    Host.divf
          (addf (addf (Host.dotGeneral Dd none a wl) (Host.dotGeneral Dd none x wr))
            (broadcastInDim ⟨2, ![N, D]⟩ ![0, 1] h2 (broadcastInDim ⟨2, ![1, D]⟩ ![1] h1 b)))
          (broadcastInDim ⟨2, ![N, D]⟩ ![0, 1] h4
            (maximumf
              (Host.sqrt (broadcastInDim ⟨2, ![N, 1]⟩ ![0] h3
                (Host.reduceAdd
                  (mulf
          (addf (addf (Host.dotGeneral Dd none a wl) (Host.dotGeneral Dd none x wr))
            (broadcastInDim ⟨2, ![N, D]⟩ ![0, 1] h2 (broadcastInDim ⟨2, ![1, D]⟩ ![1] h1 b)))
          (addf (addf (Host.dotGeneral Dd none a wl) (Host.dotGeneral Dd none x wr))
            (broadcastInDim ⟨2, ![N, D]⟩ ![0, 1] h2 (broadcastInDim ⟨2, ![1, D]⟩ ![1] h1 b))))
                  (constant (F := Ideal) ⟨0, ![]⟩ .f32 0x00000000#32) hred hS)))
              (broadcastInDim ⟨2, ![N, 1]⟩ ![] h5 (constant (F := Ideal) ⟨0, ![]⟩ .f32 0x2B8CBCCC#32))))
      = sage a x wl wr (shapeCast ⟨2, ![1, D]⟩ b hc) :=
  host_sage_named hD a x wl wr b h1 h2 hc hred hR hS h3 h5 h4

/-- One layer with rectifier, every operation written out. -/
theorem host_sageRelu {Dd : DotDims ⟨2, ![N, K]⟩ ⟨2, ![K, D]⟩ ⟨2, ![N, D]⟩} (hD : Plain Dd)
    (a x : FVec Ideal ⟨2, ![N, K]⟩ .f32) (wl wr : FVec Ideal ⟨2, ![K, D]⟩ .f32) (b : FVec Ideal ⟨1, ![D]⟩ .f32)
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (hc : (⟨1, ![D]⟩ : Shape).ShapeCasts ⟨2, ![1, D]⟩)
    (hred : (⟨2, ![N, D]⟩ : Shape).ReducesTo [1] ⟨1, ![N]⟩) (hR : (⟨2, ![N, D]⟩ : Shape).Reduces [1] ⟨1, ![N]⟩)
    (hS : 0 < (⟨0, ![]⟩ : Shape).numel)
    (h3 : (⟨1, ![N]⟩ : Shape).BroadcastsInDim ⟨2, ![N, 1]⟩ (![0] : Fin 1 → Fin 2))
    (h5 : (⟨0, ![]⟩ : Shape).BroadcastsInDim ⟨2, ![N, 1]⟩ (![] : Fin 0 → Fin 2))
    (h4 : (⟨2, ![N, 1]⟩ : Shape).BroadcastsInDim ⟨2, ![N, D]⟩ (![0, 1] : Fin 2 → Fin 2))
    (h0 : (⟨0, ![]⟩ : Shape).BroadcastsInDim ⟨2, ![N, D]⟩ (![] : Fin 0 → Fin 2)) :
    maximumf
        (Host.divf
          (addf (addf (Host.dotGeneral Dd none a wl) (Host.dotGeneral Dd none x wr))
            (broadcastInDim ⟨2, ![N, D]⟩ ![0, 1] h2 (broadcastInDim ⟨2, ![1, D]⟩ ![1] h1 b)))
          (broadcastInDim ⟨2, ![N, D]⟩ ![0, 1] h4
            (maximumf
              (Host.sqrt (broadcastInDim ⟨2, ![N, 1]⟩ ![0] h3
                (Host.reduceAdd
                  (mulf
          (addf (addf (Host.dotGeneral Dd none a wl) (Host.dotGeneral Dd none x wr))
            (broadcastInDim ⟨2, ![N, D]⟩ ![0, 1] h2 (broadcastInDim ⟨2, ![1, D]⟩ ![1] h1 b)))
          (addf (addf (Host.dotGeneral Dd none a wl) (Host.dotGeneral Dd none x wr))
            (broadcastInDim ⟨2, ![N, D]⟩ ![0, 1] h2 (broadcastInDim ⟨2, ![1, D]⟩ ![1] h1 b))))
                  (constant (F := Ideal) ⟨0, ![]⟩ .f32 0x00000000#32) hred hS)))
              (broadcastInDim ⟨2, ![N, 1]⟩ ![] h5 (constant (F := Ideal) ⟨0, ![]⟩ .f32 0x2B8CBCCC#32)))))
        (broadcastInDim ⟨2, ![N, D]⟩ ![] h0 (constant (F := Ideal) ⟨0, ![]⟩ .f32 0x00000000#32))
      = sageRelu a x wl wr (shapeCast ⟨2, ![1, D]⟩ b hc) :=
  host_sageRelu_named hD a x wl wr b h1 h2 hc hred hR hS h3 h5 h4 h0

/-- The embedding, every operation written out. -/
theorem host_embed {Dd : DotDims ⟨2, ![N, K]⟩ ⟨2, ![K, D]⟩ ⟨2, ![N, D]⟩} (hD : Plain Dd)
    (x : FVec Ideal ⟨2, ![N, K]⟩ .f32) (w : FVec Ideal ⟨2, ![K, D]⟩ .f32) (b : FVec Ideal ⟨1, ![D]⟩ .f32)
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (hc : (⟨1, ![D]⟩ : Shape).ShapeCasts ⟨2, ![1, D]⟩)
    (h0 : (⟨0, ![]⟩ : Shape).BroadcastsInDim ⟨2, ![N, D]⟩ (![] : Fin 0 → Fin 2)) :
    maximumf
        (addf (Host.dotGeneral Dd none x w)
          (broadcastInDim ⟨2, ![N, D]⟩ ![0, 1] h2 (broadcastInDim ⟨2, ![1, D]⟩ ![1] h1 b)))
        (broadcastInDim ⟨2, ![N, D]⟩ ![] h0 (constant (F := Ideal) ⟨0, ![]⟩ .f32 0x00000000#32))
      = embed x w (shapeCast ⟨2, ![1, D]⟩ b hc) :=
  host_embed_named hD x w b h1 h2 hc h0

end Cert.LibSageHost

end
-- ==== Proof.LibRecipMean.lean ====
/-
  Small facts about extended-real arithmetic and identity conversions that a mean over a clamped count needs; none
  mentions a program.

  * a product with the reciprocal of a NONZERO divisor is the quotient, at the infinities too (the quotient by d ≠ 0 is
    by definition the product with d⁻¹, and 1 / d = 1 · d⁻¹);
  * something clamped below by one is not zero; the f32 word 0x3F800000 denotes one;
  * the host quotient of two arrays read at an index; and rounding a table to bf16 before a gather, widening after,
    is the plain gather (both conversions are the identity on extended reals).
-/
import Idealize.ShloMosaic.Lib.ValueIdx
import Idealize.ShloMosaic.PureOps.Ideal.Laws

noncomputable section

namespace Cert.LibRecipMean

open Idealize.ShloMosaic Idealize.ShloMosaic.ValueIdx

/-- A product with the reciprocal of a nonzero divisor is the quotient. -/
theorem mul_recip_eq_div (s d : EReal) (hd : d ≠ 0) : s * Ideal.div 1 d = Ideal.div s d := by
  unfold Ideal.div
  rw [if_neg hd, if_neg hd, one_mul]

/-- The f32 word of one denotes one. -/
theorem ofBits_one_f32 : Ideal.ofBits .f32 0x3F800000#32 = 1 := by
  simp [Ideal.ofBits, Ideal.ieee]
  norm_cast
  norm_num

/-- Something clamped below by one is not zero. -/
theorem clamp_ne_zero (y : EReal) : max y 1 ≠ 0 := by
  intro h
  have h1 : (1 : EReal) ≤ max y 1 := le_max_right _ _
  rw [h] at h1
  exact absurd h1 (not_le.mpr (by exact_mod_cast (zero_lt_one : (0 : ℝ) < 1)))

/-- The host quotient of two arrays reads, at an index, the quotient of the entries. -/
theorem hostDivf_apply {s : Shape} {φ : FTy} (a b : FVec Ideal s φ) (i : s.Idx) : Host.divf a b i = Ideal.div (a i) (b i) := rfl

/-- Rounding a table before a gather and widening the gathered rows is the plain gather. -/
theorem gather_rounded {s si t : Shape} {w : Nat} (D : GatherDims s si t) (x : FVec Ideal s .f32) (idx : IVec si w)
    (h : FTy.bits .bf16 < FTy.bits .f32) :
    extf .f32 (Host.gather D (truncf .bf16 x h) idx) h = Host.gather D x idx := rfl

end Cert.LibRecipMean

end
-- ==== Proof.LibMeanLaw.lean ====
/-
  A mean taken two ways.

  Dividing every row of an array of sums by the row's count clamped below by one, and multiplying every row by the
  reciprocal of that clamped count, give the same array: over the extended reals the quotient by a nonzero d is the
  product with d⁻¹, and 1 / d is d⁻¹; a count clamped below by one is never zero.  No entry needs to be finite.
  Generic in the number of rows N and of columns K.
-/
import Idealize.ShloMosaic.PureOps.Ideal.Laws
import Idealize.ShloMosaic.Lib.ValueIdx
import Idealize.ShloMosaic.Lib.Pipeline.Value
import proofs.«105689_j90512140795978_1_alg».proof.Proof.LibJoinedRows
import proofs.«105689_j90512140795978_1_alg».proof.Proof.LibRecipMean

noncomputable section

namespace Cert.LibMeanLaw

open Idealize.ShloMosaic Idealize.ShloMosaic.ValueIdx

variable {N K : ℕ}

/-- Rows scaled by the reciprocal of the clamped count are rows divided by the clamped count. -/
theorem scale_by_recip_eq_div
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2))
    (s : FVec Ideal ⟨2, ![N, K]⟩ .f32) (d : FVec Ideal ⟨1, ![N]⟩ .f32) :
    mulf s (broadcastInDim ⟨2, ![N, K]⟩ ![0, 1] h2 (broadcastInDim ⟨2, ![N, 1]⟩ ![0] h1
        (Host.divf (broadcastInDim ⟨1, ![N]⟩ ![] h0 (constant (F := Ideal) ⟨0, ![]⟩ .f32 0x3F800000#32))
          (maximumf d (broadcastInDim ⟨1, ![N]⟩ ![] h0 (constant (F := Ideal) ⟨0, ![]⟩ .f32 0x3F800000#32))))))
      = Host.divf s (broadcastInDim ⟨2, ![N, K]⟩ ![0, 1] h2 (broadcastInDim ⟨2, ![N, 1]⟩ ![0] h1
          (maximumf d (broadcastInDim ⟨1, ![N]⟩ ![] h0 (constant (F := Ideal) ⟨0, ![]⟩ .f32 0x3F800000#32))))) := by
  funext i
  obtain ⟨n, j, rfl⟩ : ∃ (n : Fin N) (j : Fin K), i = ix2 n j := ⟨i 0, i 1, eq_ix2 i⟩
  rw [mulf_apply, Cert.LibRecipMean.hostDivf_apply, Cert.LibJoinedRows.bcast_col_rows_apply,
    Cert.LibJoinedRows.bcast_vec_col_apply, Cert.LibJoinedRows.bcast_col_rows_apply, Cert.LibJoinedRows.bcast_vec_col_apply,
    Cert.LibRecipMean.hostDivf_apply, maximumf_apply, Cert.LibJoinedRows.bcast_scalar_apply, constant_apply]
  simp only [Ideal.mulf_def, Ideal.maximumf_def, Ideal.ofBits_def, Cert.LibRecipMean.ofBits_one_f32]
  exact Cert.LibRecipMean.mul_recip_eq_div _ _ (Cert.LibRecipMean.clamp_ne_zero _)

end Cert.LibMeanLaw

end
-- ==== Proof.Bridge.lean ====
/-
  The two programs' layers meet in the specification.

  The plain array program computes a layer from the previous layer's output h, the edge list's two rows and the edge
  weights as

      rectify( normalise( (m · Wl + h · Wr) + bias ) ),      m = (Σ over incoming edges of h[source] · weight) / max(degree, 1),

  while the tiled program is handed the aggregated input already formed as

      m' = (Σ over incoming edges of h[source] · weight) · (1 / max(degree, 1)).

  Three facts join them.
  * The neighbour sums, the degrees, the edge rows and the all-ones weights are the same compositions of the same
    operations in both programs: each program names its shapes, dimension records and side conditions anew, with equal
    definitions, so the two spellings denote one function.
  * m = m': dividing a row by its clamped degree is multiplying it by the reciprocal of the clamped degree — over the
    extended reals the quotient by a nonzero d is the product with d⁻¹, and a degree clamped below by one is not zero.
    This is the only algebraic law between the two programs, and it needs no entry to be finite.
  * Given its aggregated input, the plain program's chain of whole-array operations is the specification's layer
    function (`embed`, `sageRelu`, `sage`) entry by entry.
-/
import proofs.«105689_j90512140795978_1_alg».proof.Proof.KernelStretch
import proofs.«105689_j90512140795978_1_alg».proof.Proof.RefStretch
import proofs.«105689_j90512140795978_1_alg».proof.Proof.LibSageHost
import proofs.«105689_j90512140795978_1_alg».proof.Proof.LibMeanLaw

set_option maxRecDepth 16384

noncomputable section

namespace Cert.Bridge

open Idealize.ShloMosaic Idealize.ShloMosaic.ValueIdx Cert.LibPlainDot Cert.SageSpec

/-! ## Congruence of the layer functions -/

theorem embed_congr {N K D : ℕ} {x x' : (⟨2, ![N, K]⟩ : Shape).Idx → EReal} {w w' : (⟨2, ![K, D]⟩ : Shape).Idx → EReal}
    {b b' : (⟨2, ![1, D]⟩ : Shape).Idx → EReal} (hx : x = x') (hw : w = w') (hb : b = b') : embed x w b = embed x' w' b' := by
  subst hx hw hb; rfl

theorem sageRelu_congr {N K D : ℕ} {a a' x x' : (⟨2, ![N, K]⟩ : Shape).Idx → EReal} {wl wl' wr wr' : (⟨2, ![K, D]⟩ : Shape).Idx → EReal}
    {b b' : (⟨2, ![1, D]⟩ : Shape).Idx → EReal} (ha : a = a') (hx : x = x') (hwl : wl = wl') (hwr : wr = wr') (hb : b = b') :
    sageRelu a x wl wr b = sageRelu a' x' wl' wr' b' := by
  subst ha hx hwl hwr hb; rfl

theorem sage_congr {N K D : ℕ} {a a' x x' : (⟨2, ![N, K]⟩ : Shape).Idx → EReal} {wl wl' wr wr' : (⟨2, ![K, D]⟩ : Shape).Idx → EReal}
    {b b' : (⟨2, ![1, D]⟩ : Shape).Idx → EReal} (ha : a = a') (hx : x = x') (hwl : wl = wl') (hwr : wr = wr') (hb : b = b') :
    sage a x wl wr b = sage a' x' wl' wr' b' := by
  subst ha hx hwl hwr hb; rfl

/-! ## The pieces both programs spell alike

  The two printed programs carry their own copies of the shape names, the dimension records and the side conditions;
  the copies have the same definitions, so the same composition of operations over them is the same function. -/

/-- The edge list's first row (the sources). -/
theorem rows0 (e : (⟨Cert.ReferenceIdeal.S2x1600000, .i32⟩ : BufTy).Contents (Elt Ideal)) : Cert.ReferenceIdeal.RefStretch.edgeRow0 (F := Ideal) e = Cert.KernelIdeal.Stretch.edgeRow0 (F := Ideal) e := rfl
/-- Its second row (the destinations). -/
theorem rows1 (e : (⟨Cert.ReferenceIdeal.S2x1600000, .i32⟩ : BufTy).Contents (Elt Ideal)) : Cert.ReferenceIdeal.RefStretch.edgeRow1 (F := Ideal) e = Cert.KernelIdeal.Stretch.edgeRow1 (F := Ideal) e := rfl
/-- The all-ones edge weights. -/
theorem ones : Cert.ReferenceIdeal.RefStretch.onesE (F := Ideal) = Cert.KernelIdeal.Stretch.onesE (F := Ideal) := rfl
/-- Row numbers with the negative ones counted from the end. -/
theorem wrap (s : (⟨Cert.ReferenceIdeal.S1600000, .i32⟩ : BufTy).Contents (Elt Ideal)) : Cert.ReferenceIdeal.RefStretch.wrapRows (F := Ideal) s = Cert.KernelIdeal.Stretch.wrapRows (F := Ideal) s := rfl
/-- The in-degrees. -/
theorem deg (d : (⟨Cert.ReferenceIdeal.S1600000, .i32⟩ : BufTy).Contents (Elt Ideal)) : Cert.ReferenceIdeal.RefStretch.degree (F := Ideal) d = Cert.KernelIdeal.Stretch.degree (F := Ideal) d := rfl

/-- The weighted neighbour sums, 80 features. -/
theorem nbr80 (h : (⟨Cert.ReferenceIdeal.S100000x80, .f32⟩ : BufTy).Contents (Elt Ideal)) (s d : (⟨Cert.ReferenceIdeal.S1600000, .i32⟩ : BufTy).Contents (Elt Ideal)) (w : (⟨Cert.ReferenceIdeal.S1600000, .f32⟩ : BufTy).Contents (Elt Ideal)) :
    Cert.ReferenceIdeal.RefStretch.nbrSum80 (F := Ideal) h s d w = Cert.KernelIdeal.Stretch.nbrSum80 (F := Ideal) h s d w := by
  unfold Cert.ReferenceIdeal.RefStretch.nbrSum80 Cert.KernelIdeal.Stretch.nbrSum80
  rw [wrap s]
  rfl
/-- The weighted neighbour sums, 64 features. -/
theorem nbr64 (h : (⟨Cert.ReferenceIdeal.S100000x64, .f32⟩ : BufTy).Contents (Elt Ideal)) (s d : (⟨Cert.ReferenceIdeal.S1600000, .i32⟩ : BufTy).Contents (Elt Ideal)) (w : (⟨Cert.ReferenceIdeal.S1600000, .f32⟩ : BufTy).Contents (Elt Ideal)) :
    Cert.ReferenceIdeal.RefStretch.nbrSum64 (F := Ideal) h s d w = Cert.KernelIdeal.Stretch.nbrSum64 (F := Ideal) h s d w := by
  unfold Cert.ReferenceIdeal.RefStretch.nbrSum64 Cert.KernelIdeal.Stretch.nbrSum64
  rw [wrap s]
  rfl

/-! ## The one law between the programs: a mean by division is a mean by the reciprocal -/

/-- 80 features: neighbour sums divided by the clamped degrees are neighbour sums times the reciprocal clamped degrees. -/
theorem mean80_eq (h : (⟨Cert.ReferenceIdeal.S100000x80, .f32⟩ : BufTy).Contents (Elt Ideal)) (s d : (⟨Cert.ReferenceIdeal.S1600000, .i32⟩ : BufTy).Contents (Elt Ideal)) (w : (⟨Cert.ReferenceIdeal.S1600000, .f32⟩ : BufTy).Contents (Elt Ideal)) :
    Cert.ReferenceIdeal.RefStretch.divRows80 (F := Ideal) (Cert.ReferenceIdeal.RefStretch.nbrSum80 (F := Ideal) h s d w) (Cert.ReferenceIdeal.RefStretch.clampedDegree (F := Ideal) d)
      = Cert.KernelIdeal.Stretch.scaleRows80 (F := Ideal) (Cert.KernelIdeal.Stretch.nbrSum80 (F := Ideal) h s d w) (Cert.KernelIdeal.Stretch.recipDegree (F := Ideal) d) := by
  rw [nbr80 h s d w]
  generalize Cert.KernelIdeal.Stretch.nbrSum80 (F := Ideal) h s d w = S
  unfold Cert.ReferenceIdeal.RefStretch.divRows80 Cert.ReferenceIdeal.RefStretch.clampedDegree Cert.KernelIdeal.Stretch.scaleRows80 Cert.KernelIdeal.Stretch.recipDegree
  rw [deg d]
  generalize Cert.KernelIdeal.Stretch.degree (F := Ideal) d = D
  exact (Cert.LibMeanLaw.scale_by_recip_eq_div (N := 100000) (K := 80) Cert.KernelIdeal.Gen.bcast_S_S100000
    Cert.KernelIdeal.Gen.bcast_S100000_S100000x1_0 Cert.KernelIdeal.Gen.bcast_S100000x1_S100000x80_0_1 S D).symm

/-- 64 features. -/
theorem mean64_eq (h : (⟨Cert.ReferenceIdeal.S100000x64, .f32⟩ : BufTy).Contents (Elt Ideal)) (s d : (⟨Cert.ReferenceIdeal.S1600000, .i32⟩ : BufTy).Contents (Elt Ideal)) (w : (⟨Cert.ReferenceIdeal.S1600000, .f32⟩ : BufTy).Contents (Elt Ideal)) :
    Cert.ReferenceIdeal.RefStretch.divRows64 (F := Ideal) (Cert.ReferenceIdeal.RefStretch.nbrSum64 (F := Ideal) h s d w) (Cert.ReferenceIdeal.RefStretch.clampedDegree (F := Ideal) d)
      = Cert.KernelIdeal.Stretch.scaleRows64 (F := Ideal) (Cert.KernelIdeal.Stretch.nbrSum64 (F := Ideal) h s d w) (Cert.KernelIdeal.Stretch.recipDegree (F := Ideal) d) := by
  rw [nbr64 h s d w]
  generalize Cert.KernelIdeal.Stretch.nbrSum64 (F := Ideal) h s d w = S
  unfold Cert.ReferenceIdeal.RefStretch.divRows64 Cert.ReferenceIdeal.RefStretch.clampedDegree Cert.KernelIdeal.Stretch.scaleRows64 Cert.KernelIdeal.Stretch.recipDegree
  rw [deg d]
  generalize Cert.KernelIdeal.Stretch.degree (F := Ideal) d = D
  exact (Cert.LibMeanLaw.scale_by_recip_eq_div (N := 100000) (K := 64) Cert.KernelIdeal.Gen.bcast_S_S100000
    Cert.KernelIdeal.Gen.bcast_S100000_S100000x1_0 Cert.KernelIdeal.Gen.bcast_S100000x1_S100000x64_0_1 S D).symm

/-! ## The layers -/

/-- The plain program's embedding is the specification's. -/
theorem embed_eq (x : (⟨Cert.ReferenceIdeal.S100000x100, .f32⟩ : BufTy).Contents (Elt Ideal)) (w : (⟨Cert.ReferenceIdeal.S100x80, .f32⟩ : BufTy).Contents (Elt Ideal)) (b : (⟨Cert.ReferenceIdeal.S80, .f32⟩ : BufTy).Contents (Elt Ideal)) :
    Cert.ReferenceIdeal.RefStretch.embedHost (F := Ideal) x w b
      = embed (N := 100000) (K := 100) (D := 80) x w (shapeCast Cert.KernelIdeal.S1x80 b Cert.KernelIdeal.Gen.shapeCasts_S80_S1x80) := by
  unfold Cert.ReferenceIdeal.RefStretch.embedHost
  exact Cert.LibSageHost.host_embed (Dd := Cert.ReferenceIdeal.dot_S100000x100_S100x80_S100000x80_1_0_0_1_n_n) ⟨rfl, rfl, rfl, rfl, rfl, rfl⟩
    x w b Cert.ReferenceIdeal.Gen.bcast_S80_S1x80_1 Cert.ReferenceIdeal.Gen.bcast_S1x80_S100000x80_0_1 Cert.KernelIdeal.Gen.shapeCasts_S80_S1x80 Cert.ReferenceIdeal.Gen.bcast_S_S100000x80

/-- The plain program's first layer is `sageRelu` over the tiled program's aggregated input. -/
theorem layerA_eq (h : (⟨Cert.ReferenceIdeal.S100000x80, .f32⟩ : BufTy).Contents (Elt Ideal)) (s d : (⟨Cert.ReferenceIdeal.S1600000, .i32⟩ : BufTy).Contents (Elt Ideal)) (w : (⟨Cert.ReferenceIdeal.S1600000, .f32⟩ : BufTy).Contents (Elt Ideal))
    (wl wr : (⟨Cert.ReferenceIdeal.S80x64, .f32⟩ : BufTy).Contents (Elt Ideal)) (b : (⟨Cert.ReferenceIdeal.S64, .f32⟩ : BufTy).Contents (Elt Ideal)) :
    Cert.ReferenceIdeal.RefStretch.layerA (F := Ideal) h s d w wl wr b
      = sageRelu (N := 100000) (K := 80) (D := 64)
          (Cert.KernelIdeal.Stretch.scaleRows80 (F := Ideal) (Cert.KernelIdeal.Stretch.nbrSum80 (F := Ideal) h s d w) (Cert.KernelIdeal.Stretch.recipDegree (F := Ideal) d)) h wl wr
          (shapeCast Cert.KernelIdeal.S1x64 b Cert.KernelIdeal.Gen.shapeCasts_S64_S1x64) := by
  unfold Cert.ReferenceIdeal.RefStretch.layerA
  rw [mean80_eq h s d w]
  generalize Cert.KernelIdeal.Stretch.scaleRows80 (F := Ideal) (Cert.KernelIdeal.Stretch.nbrSum80 (F := Ideal) h s d w) (Cert.KernelIdeal.Stretch.recipDegree (F := Ideal) d) = a
  unfold Cert.ReferenceIdeal.RefStretch.relu64 Cert.ReferenceIdeal.RefStretch.normRows64 Cert.ReferenceIdeal.RefStretch.dense80
  exact Cert.LibSageHost.host_sageRelu (Dd := Cert.ReferenceIdeal.dot_S100000x80_S80x64_S100000x64_1_0_0_1_n_n) ⟨rfl, rfl, rfl, rfl, rfl, rfl⟩
    a h wl wr b Cert.ReferenceIdeal.Gen.bcast_S64_S1x64_1 Cert.ReferenceIdeal.Gen.bcast_S1x64_S100000x64_0_1 Cert.KernelIdeal.Gen.shapeCasts_S64_S1x64
    Cert.ReferenceIdeal.Gen.reducesTo_S100000x64_S100000_d1 (by decide) Cert.ReferenceIdeal.Gen.h_S_ Cert.ReferenceIdeal.Gen.bcast_S100000_S100000x1_0 Cert.ReferenceIdeal.Gen.bcast_S_S100000x1
    Cert.ReferenceIdeal.Gen.bcast_S100000x1_S100000x64_0_1 Cert.ReferenceIdeal.Gen.bcast_S_S100000x64

/-- Layers two to four likewise, 64 features in and out. -/
theorem layerB_eq (h : (⟨Cert.ReferenceIdeal.S100000x64, .f32⟩ : BufTy).Contents (Elt Ideal)) (s d : (⟨Cert.ReferenceIdeal.S1600000, .i32⟩ : BufTy).Contents (Elt Ideal)) (w : (⟨Cert.ReferenceIdeal.S1600000, .f32⟩ : BufTy).Contents (Elt Ideal))
    (wl wr : (⟨Cert.ReferenceIdeal.S64x64, .f32⟩ : BufTy).Contents (Elt Ideal)) (b : (⟨Cert.ReferenceIdeal.S64, .f32⟩ : BufTy).Contents (Elt Ideal)) :
    Cert.ReferenceIdeal.RefStretch.layerB (F := Ideal) h s d w wl wr b
      = sageRelu (N := 100000) (K := 64) (D := 64)
          (Cert.KernelIdeal.Stretch.scaleRows64 (F := Ideal) (Cert.KernelIdeal.Stretch.nbrSum64 (F := Ideal) h s d w) (Cert.KernelIdeal.Stretch.recipDegree (F := Ideal) d)) h wl wr
          (shapeCast Cert.KernelIdeal.S1x64 b Cert.KernelIdeal.Gen.shapeCasts_S64_S1x64) := by
  unfold Cert.ReferenceIdeal.RefStretch.layerB
  rw [mean64_eq h s d w]
  generalize Cert.KernelIdeal.Stretch.scaleRows64 (F := Ideal) (Cert.KernelIdeal.Stretch.nbrSum64 (F := Ideal) h s d w) (Cert.KernelIdeal.Stretch.recipDegree (F := Ideal) d) = a
  unfold Cert.ReferenceIdeal.RefStretch.relu64 Cert.ReferenceIdeal.RefStretch.normRows64 Cert.ReferenceIdeal.RefStretch.dense64
  exact Cert.LibSageHost.host_sageRelu (Dd := Cert.ReferenceIdeal.dot_S100000x64_S64x64_S100000x64_1_0_0_1_n_n) ⟨rfl, rfl, rfl, rfl, rfl, rfl⟩
    a h wl wr b Cert.ReferenceIdeal.Gen.bcast_S64_S1x64_1 Cert.ReferenceIdeal.Gen.bcast_S1x64_S100000x64_0_1 Cert.KernelIdeal.Gen.shapeCasts_S64_S1x64
    Cert.ReferenceIdeal.Gen.reducesTo_S100000x64_S100000_d1 (by decide) Cert.ReferenceIdeal.Gen.h_S_ Cert.ReferenceIdeal.Gen.bcast_S100000_S100000x1_0 Cert.ReferenceIdeal.Gen.bcast_S_S100000x1
    Cert.ReferenceIdeal.Gen.bcast_S100000x1_S100000x64_0_1 Cert.ReferenceIdeal.Gen.bcast_S_S100000x64

/-- The last layer, 64 features to 18, without rectifier. -/
theorem layerC_eq (h : (⟨Cert.ReferenceIdeal.S100000x64, .f32⟩ : BufTy).Contents (Elt Ideal)) (s d : (⟨Cert.ReferenceIdeal.S1600000, .i32⟩ : BufTy).Contents (Elt Ideal)) (w : (⟨Cert.ReferenceIdeal.S1600000, .f32⟩ : BufTy).Contents (Elt Ideal))
    (wl wr : (⟨Cert.ReferenceIdeal.S64x18, .f32⟩ : BufTy).Contents (Elt Ideal)) (b : (⟨Cert.ReferenceIdeal.S18, .f32⟩ : BufTy).Contents (Elt Ideal)) :
    Cert.ReferenceIdeal.RefStretch.layerC (F := Ideal) h s d w wl wr b
      = sage (N := 100000) (K := 64) (D := 18)
          (Cert.KernelIdeal.Stretch.scaleRows64 (F := Ideal) (Cert.KernelIdeal.Stretch.nbrSum64 (F := Ideal) h s d w) (Cert.KernelIdeal.Stretch.recipDegree (F := Ideal) d)) h wl wr
          (shapeCast Cert.KernelIdeal.S1x18 b Cert.KernelIdeal.Gen.shapeCasts_S18_S1x18) := by
  unfold Cert.ReferenceIdeal.RefStretch.layerC
  rw [mean64_eq h s d w]
  generalize Cert.KernelIdeal.Stretch.scaleRows64 (F := Ideal) (Cert.KernelIdeal.Stretch.nbrSum64 (F := Ideal) h s d w) (Cert.KernelIdeal.Stretch.recipDegree (F := Ideal) d) = a
  unfold Cert.ReferenceIdeal.RefStretch.normRows18 Cert.ReferenceIdeal.RefStretch.dense18
  exact Cert.LibSageHost.host_sage (Dd := Cert.ReferenceIdeal.dot_S100000x64_S64x18_S100000x18_1_0_0_1_n_n) ⟨rfl, rfl, rfl, rfl, rfl, rfl⟩
    a h wl wr b Cert.ReferenceIdeal.Gen.bcast_S18_S1x18_1 Cert.ReferenceIdeal.Gen.bcast_S1x18_S100000x18_0_1 Cert.KernelIdeal.Gen.shapeCasts_S18_S1x18
    Cert.ReferenceIdeal.Gen.reducesTo_S100000x18_S100000_d1 (by decide) Cert.ReferenceIdeal.Gen.h_S_ Cert.ReferenceIdeal.Gen.bcast_S100000_S100000x1_0 Cert.ReferenceIdeal.Gen.bcast_S_S100000x1
    Cert.ReferenceIdeal.Gen.bcast_S100000x1_S100000x18_0_1

end Cert.Bridge

end
-- ==== Proof.NetEq.lean ====
/-
  The two programs compute the same network.

  Layer by layer: the embeddings agree (the reference's host spelling is the specification's `embed`); if layer k agrees
  then so does layer k + 1, because the reference's layer over its own spelling of the neighbour sums, divided by the
  clamped degrees, is the specification's layer over the kernel's spelling of the same sums times the reciprocal
  clamped degrees — the quotient by a nonzero count is the product with its reciprocal.
-/
import proofs.«105689_j90512140795978_1_alg».proof.Proof.KernelNet
import proofs.«105689_j90512140795978_1_alg».proof.Proof.RefChain
import proofs.«105689_j90512140795978_1_alg».proof.Proof.Bridge

noncomputable section

namespace Cert.NetEq

open Cert.KernelIdeal Cert.KernelIdeal.Gen Cert.KernelIdeal.Net
open Idealize.ShloMosaic Idealize.ShloMosaic.TcCoe

variable (x0 : (⟨S100000x100, .f32⟩ : BufTy).Contents (Elt Ideal)) (x1 : (⟨S2x1600000, .i32⟩ : BufTy).Contents (Elt Ideal)) (x2 : (⟨S1600000, .f32⟩ : BufTy).Contents (Elt Ideal))
  (x3 : (⟨S100x80, .f32⟩ : BufTy).Contents (Elt Ideal)) (x4 : (⟨S80, .f32⟩ : BufTy).Contents (Elt Ideal)) (x5 x6 : (⟨S80x64, .f32⟩ : BufTy).Contents (Elt Ideal)) (x7 : (⟨S64, .f32⟩ : BufTy).Contents (Elt Ideal))
  (x8 x9 : (⟨S64x64, .f32⟩ : BufTy).Contents (Elt Ideal)) (x10 : (⟨S64, .f32⟩ : BufTy).Contents (Elt Ideal)) (x11 x12 : (⟨S64x64, .f32⟩ : BufTy).Contents (Elt Ideal)) (x13 : (⟨S64, .f32⟩ : BufTy).Contents (Elt Ideal))
  (x14 x15 : (⟨S64x64, .f32⟩ : BufTy).Contents (Elt Ideal)) (x16 : (⟨S64, .f32⟩ : BufTy).Contents (Elt Ideal)) (x17 x18 : (⟨S64x18, .f32⟩ : BufTy).Contents (Elt Ideal)) (x19 : (⟨S18, .f32⟩ : BufTy).Contents (Elt Ideal))

theorem layer0_eq : layer0 x0 x3 x4 = Cert.ReferenceIdeal.RefChain.rlayer0 (F := Ideal) x0 x3 x4 := by
  unfold layer0 Cert.ReferenceIdeal.RefChain.rlayer0
  exact (Cert.Bridge.embed_eq x0 x3 x4).symm

theorem layer1_eq : layer1 x0 x1 x2 x3 x4 x5 x6 x7 = Cert.ReferenceIdeal.RefChain.rlayer1 (F := Ideal) x0 x1 x2 x3 x4 x5 x6 x7 := by
  unfold layer1 mean1 Cert.ReferenceIdeal.RefChain.rlayer1
  rw [layer0_eq x0 x3 x4, Cert.Bridge.rows0, Cert.Bridge.rows1]
  exact (Cert.Bridge.layerA_eq _ _ _ _ _ _ _).symm

theorem layer2_eq : layer2 x0 x1 x2 x3 x4 x5 x6 x7 x8 x9 x10 = Cert.ReferenceIdeal.RefChain.rlayer2 (F := Ideal) x0 x1 x2 x3 x4 x5 x6 x7 x8 x9 x10 := by
  unfold layer2 mean2 Cert.ReferenceIdeal.RefChain.rlayer2
  rw [layer1_eq x0 x1 x2 x3 x4 x5 x6 x7, Cert.Bridge.rows0, Cert.Bridge.rows1]
  exact (Cert.Bridge.layerB_eq _ _ _ _ _ _ _).symm

theorem layer3_eq : layer3 x0 x1 x2 x3 x4 x5 x6 x7 x8 x9 x10 x11 x12 x13 = Cert.ReferenceIdeal.RefChain.rlayer3 (F := Ideal) x0 x1 x2 x3 x4 x5 x6 x7 x8 x9 x10 x11 x12 x13 := by
  unfold layer3 mean3 Cert.ReferenceIdeal.RefChain.rlayer3
  rw [layer2_eq x0 x1 x2 x3 x4 x5 x6 x7 x8 x9 x10, Cert.Bridge.rows0, Cert.Bridge.rows1]
  exact (Cert.Bridge.layerB_eq _ _ _ _ _ _ _).symm

theorem layer4_eq : layer4 x0 x1 x2 x3 x4 x5 x6 x7 x8 x9 x10 x11 x12 x13 x14 x15 x16 = Cert.ReferenceIdeal.RefChain.rlayer4 (F := Ideal) x0 x1 x2 x3 x4 x5 x6 x7 x8 x9 x10 x11 x12 x13 x14 x15 x16 := by
  unfold layer4 mean4 Cert.ReferenceIdeal.RefChain.rlayer4
  rw [layer3_eq x0 x1 x2 x3 x4 x5 x6 x7 x8 x9 x10 x11 x12 x13, Cert.Bridge.rows0, Cert.Bridge.rows1]
  exact (Cert.Bridge.layerB_eq _ _ _ _ _ _ _).symm

/-- The kernel's network is the reference's. -/
theorem net_eq : layer5 x0 x1 x2 x3 x4 x5 x6 x7 x8 x9 x10 x11 x12 x13 x14 x15 x16 x17 x18 x19 = Cert.ReferenceIdeal.RefChain.rlayer5 (F := Ideal) x0 x1 x2 x3 x4 x5 x6 x7 x8 x9 x10 x11 x12 x13 x14 x15 x16 x17 x18 x19 := by
  unfold layer5 mean5 Cert.ReferenceIdeal.RefChain.rlayer5
  rw [layer4_eq x0 x1 x2 x3 x4 x5 x6 x7 x8 x9 x10 x11 x12 x13 x14 x15 x16, Cert.Bridge.rows0, Cert.Bridge.rows1, Cert.Bridge.ones]
  exact (Cert.Bridge.layerC_eq _ _ _ _ _ _ _).symm

end Cert.NetEq

end
-- ==== Proof.lean ====
/-
  A GraphSAGE forward pass: the tiled kernel against its plain reference.

  Both programs compute, from node features x, an edge list (rows src, dst), edge weights w and the layers' weights,
      h0 = max(x·W + b, 0),
      h(k+1) = N( mean_k · Wl + h_k · Wr + b )   (k = 0 … 4; followed by max(·, 0) for k < 4; the last layer with w = 1),
  where mean_k row n is the sum over the edges into n of h_k[src]·w, over the number of edges into n clamped below by
  one, and N divides each row by its Euclidean length clamped below by ε.  The kernel computes each dense layer in a
  tiled region of 20 blocks of 5000 rows (its products in bf16 operands, the identity on extended reals), forms the mean
  by MULTIPLYING the row sums by the reciprocal clamped count, and counts the edges once; the reference DIVIDES by the
  clamped count and counts the edges anew in every layer.  On the extended reals s · (1/d) = s / d for every d ≠ 0, and
  a count clamped below by one is not zero: that is the one law between the two programs, and it needs no entry to be
  finite.  A layer's row depends on one row of its row-indexed operands, so the layer computed block by block is the
  layer of the whole arrays.

  The frames of the two kernel programs are the generated ones.  The kernel's value is read off its run: the contents
  of every buffer at each of the twelve segment boundaries, followed from the launch to the return (KernelRun,
  KernelStretch, KernelKeep, KernelChain, the six Region modules).  The reference's 245 operations are followed the same
  way in six stretches (RefRun, RefStretch, RefChain).  Bridge and NetEq identify the two networks layer by layer.
-/
import proofs.«105689_j90512140795978_1_alg».proof.Defs
import proofs.«105689_j90512140795978_1_alg».proof.Proof.Gen.Kernel
import proofs.«105689_j90512140795978_1_alg».proof.Proof.Gen.Kernel.Frame
import proofs.«105689_j90512140795978_1_alg».proof.Proof.Gen.KernelIdeal
import proofs.«105689_j90512140795978_1_alg».proof.Proof.Gen.KernelIdeal.Frame
import proofs.«105689_j90512140795978_1_alg».proof.Proof.Gen.ReferenceIdeal
import proofs.«105689_j90512140795978_1_alg».proof.Proof.Gen.Pre_finite_inputs
import proofs.«105689_j90512140795978_1_alg».proof.Proof.KernelRun
import proofs.«105689_j90512140795978_1_alg».proof.Proof.KernelChain
import proofs.«105689_j90512140795978_1_alg».proof.Proof.RefChain
import proofs.«105689_j90512140795978_1_alg».proof.Proof.NetEq
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs, and no operation of it writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefChain.arg_kept m c Cert.ReferenceIdeal.main_arg0 (List.Mem.head _)),
      (h c Cert.ReferenceIdeal.main_arg1).trans (Cert.ReferenceIdeal.RefChain.arg_kept m c Cert.ReferenceIdeal.main_arg1 (List.Mem.tail _ (List.Mem.head _))),
      (h c Cert.ReferenceIdeal.main_arg2).trans (Cert.ReferenceIdeal.RefChain.arg_kept m c Cert.ReferenceIdeal.main_arg2 (List.Mem.tail _ (List.Mem.tail _ (List.Mem.head _)))),
      (h c Cert.ReferenceIdeal.main_arg3).trans (Cert.ReferenceIdeal.RefChain.arg_kept m c Cert.ReferenceIdeal.main_arg3 (List.Mem.tail _ (List.Mem.tail _ (List.Mem.tail _ (List.Mem.head _))))),
      (h c Cert.ReferenceIdeal.main_arg4).trans (Cert.ReferenceIdeal.RefChain.arg_kept m c Cert.ReferenceIdeal.main_arg4 (List.Mem.tail _ (List.Mem.tail _ (List.Mem.tail _ (List.Mem.tail _ (List.Mem.head _)))))),
      (h c Cert.ReferenceIdeal.main_arg5).trans (Cert.ReferenceIdeal.RefChain.arg_kept m c Cert.ReferenceIdeal.main_arg5 (List.Mem.tail _ (List.Mem.tail _ (List.Mem.tail _ (List.Mem.tail _ (List.Mem.tail _ (List.Mem.head _))))))),
      (h c Cert.ReferenceIdeal.main_arg6).trans (Cert.ReferenceIdeal.RefChain.arg_kept m c Cert.ReferenceIdeal.main_arg6 (List.Mem.tail _ (List.Mem.tail _ (List.Mem.tail _ (List.Mem.tail _ (List.Mem.tail _ (List.Mem.tail _ (List.Mem.head _)))))))),
      (h c Cert.ReferenceIdeal.main_arg7).trans (Cert.ReferenceIdeal.RefChain.arg_kept m c Cert.ReferenceIdeal.main_arg7 (List.Mem.tail _ (List.Mem.tail _ (List.Mem.tail _ (List.Mem.tail _ (List.Mem.tail _ (List.Mem.tail _ (List.Mem.tail _ (List.Mem.head _))))))))),
      (h c Cert.ReferenceIdeal.main_arg8).trans (Cert.ReferenceIdeal.RefChain.arg_kept m c Cert.ReferenceIdeal.main_arg8 (List.Mem.tail _ (List.Mem.tail _ (List.Mem.tail _ (List.Mem.tail _ (List.Mem.tail _ (List.Mem.tail _ (List.Mem.tail _ (List.Mem.tail _ (List.Mem.head _)))))))))),
      (h c Cert.ReferenceIdeal.main_arg9).trans (Cert.ReferenceIdeal.RefChain.arg_kept m c Cert.ReferenceIdeal.main_arg9 (List.Mem.tail _ (List.Mem.tail _ (List.Mem.tail _ (List.Mem.tail _ (List.Mem.tail _ (List.Mem.tail _ (List.Mem.tail _ (List.Mem.tail _ (List.Mem.tail _ (List.Mem.head _))))))))))),
      (h c Cert.ReferenceIdeal.main_arg10).trans (Cert.ReferenceIdeal.RefChain.arg_kept m c Cert.ReferenceIdeal.main_arg10 (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))),
      (h c Cert.ReferenceIdeal.main_arg11).trans (Cert.ReferenceIdeal.RefChain.arg_kept m c Cert.ReferenceIdeal.main_arg11 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))),
      (h c Cert.ReferenceIdeal.main_arg12).trans (Cert.ReferenceIdeal.RefChain.arg_kept m c Cert.ReferenceIdeal.main_arg12 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))),
      (h c Cert.ReferenceIdeal.main_arg13).trans (Cert.ReferenceIdeal.RefChain.arg_kept m c Cert.ReferenceIdeal.main_arg13 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))),
      (h c Cert.ReferenceIdeal.main_arg14).trans (Cert.ReferenceIdeal.RefChain.arg_kept m c Cert.ReferenceIdeal.main_arg14 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))),
      (h c Cert.ReferenceIdeal.main_arg15).trans (Cert.ReferenceIdeal.RefChain.arg_kept m c Cert.ReferenceIdeal.main_arg15 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))),
      (h c Cert.ReferenceIdeal.main_arg16).trans (Cert.ReferenceIdeal.RefChain.arg_kept m c Cert.ReferenceIdeal.main_arg16 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))),
      (h c Cert.ReferenceIdeal.main_arg17).trans (Cert.ReferenceIdeal.RefChain.arg_kept m c Cert.ReferenceIdeal.main_arg17 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))),
      (h c Cert.ReferenceIdeal.main_arg18).trans (Cert.ReferenceIdeal.RefChain.arg_kept m c Cert.ReferenceIdeal.main_arg18 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))),
      (h c Cert.ReferenceIdeal.main_arg19).trans (Cert.ReferenceIdeal.RefChain.arg_kept m c Cert.ReferenceIdeal.main_arg19 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))⟩)
    (Cert.ReferenceIdeal.ValueP.run (F := Ideal) m ρ)

/-- The kernel's result buffer ends holding the network's last layer of the arguments. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W12 m ρ c (Proc.devRef .tc Cert.KernelIdeal.main_v104)
      = Cert.KernelIdeal.Net.layer5 (Cert.KernelIdeal.Net.arr0 m c) (Cert.KernelIdeal.Net.arr1 m c) (Cert.KernelIdeal.Net.arr2 m c) (Cert.KernelIdeal.Net.arr3 m c) (Cert.KernelIdeal.Net.arr4 m c) (Cert.KernelIdeal.Net.arr5 m c) (Cert.KernelIdeal.Net.arr6 m c) (Cert.KernelIdeal.Net.arr7 m c) (Cert.KernelIdeal.Net.arr8 m c) (Cert.KernelIdeal.Net.arr9 m c) (Cert.KernelIdeal.Net.arr10 m c) (Cert.KernelIdeal.Net.arr11 m c) (Cert.KernelIdeal.Net.arr12 m c) (Cert.KernelIdeal.Net.arr13 m c) (Cert.KernelIdeal.Net.arr14 m c) (Cert.KernelIdeal.Net.arr15 m c) (Cert.KernelIdeal.Net.arr16 m c) (Cert.KernelIdeal.Net.arr17 m c) (Cert.KernelIdeal.Net.arr18 m c) (Cert.KernelIdeal.Net.arr19 m c) :=
  Cert.KernelIdeal.Chain.out5 m ρ c

/-- From memories agreeing on the arguments both programs end with the network's last layer in their result buffers:
    the kernel's read off its twelve segments, the reference's off its six stretches, the two networks equal layer by
    layer. -/
theorem algebraic : Cert.algebraic_KernelIdeal_ReferenceIdeal := by
  intro m ρ m' ρ' _ hagree
  refine ⟨fun c => Cert.KernelIdeal.Net.layer5 (Cert.KernelIdeal.Net.arr0 m c) (Cert.KernelIdeal.Net.arr1 m c) (Cert.KernelIdeal.Net.arr2 m c) (Cert.KernelIdeal.Net.arr3 m c) (Cert.KernelIdeal.Net.arr4 m c) (Cert.KernelIdeal.Net.arr5 m c) (Cert.KernelIdeal.Net.arr6 m c) (Cert.KernelIdeal.Net.arr7 m c) (Cert.KernelIdeal.Net.arr8 m c) (Cert.KernelIdeal.Net.arr9 m c) (Cert.KernelIdeal.Net.arr10 m c) (Cert.KernelIdeal.Net.arr11 m c) (Cert.KernelIdeal.Net.arr12 m c) (Cert.KernelIdeal.Net.arr13 m c) (Cert.KernelIdeal.Net.arr14 m c) (Cert.KernelIdeal.Net.arr15 m c) (Cert.KernelIdeal.Net.arr16 m c) (Cert.KernelIdeal.Net.arr17 m c) (Cert.KernelIdeal.Net.arr18 m c) (Cert.KernelIdeal.Net.arr19 m c), ?_, ?_⟩
  · exact (θ_run Cert.KernelIdeal.defs _ _).mono (fun r h c => ⟨(h c).1.trans (kernel_value m ρ c), (h c).2⟩)
      (Cert.KernelIdeal.RunValue.run (F := Ideal) m ρ)
  · refine (θ_run Cert.ReferenceIdeal.defs _ _).mono (fun r h c => ⟨?_,
        (h c Cert.ReferenceIdeal.main_arg0).trans (Cert.ReferenceIdeal.RefChain.arg_kept m' c Cert.ReferenceIdeal.main_arg0 (List.Mem.head _)),
        (h c Cert.ReferenceIdeal.main_arg1).trans (Cert.ReferenceIdeal.RefChain.arg_kept m' c Cert.ReferenceIdeal.main_arg1 (List.Mem.tail _ (List.Mem.head _))),
        (h c Cert.ReferenceIdeal.main_arg2).trans (Cert.ReferenceIdeal.RefChain.arg_kept m' c Cert.ReferenceIdeal.main_arg2 (List.Mem.tail _ (List.Mem.tail _ (List.Mem.head _)))),
        (h c Cert.ReferenceIdeal.main_arg3).trans (Cert.ReferenceIdeal.RefChain.arg_kept m' c Cert.ReferenceIdeal.main_arg3 (List.Mem.tail _ (List.Mem.tail _ (List.Mem.tail _ (List.Mem.head _))))),
        (h c Cert.ReferenceIdeal.main_arg4).trans (Cert.ReferenceIdeal.RefChain.arg_kept m' c Cert.ReferenceIdeal.main_arg4 (List.Mem.tail _ (List.Mem.tail _ (List.Mem.tail _ (List.Mem.tail _ (List.Mem.head _)))))),
        (h c Cert.ReferenceIdeal.main_arg5).trans (Cert.ReferenceIdeal.RefChain.arg_kept m' c Cert.ReferenceIdeal.main_arg5 (List.Mem.tail _ (List.Mem.tail _ (List.Mem.tail _ (List.Mem.tail _ (List.Mem.tail _ (List.Mem.head _))))))),
        (h c Cert.ReferenceIdeal.main_arg6).trans (Cert.ReferenceIdeal.RefChain.arg_kept m' c Cert.ReferenceIdeal.main_arg6 (List.Mem.tail _ (List.Mem.tail _ (List.Mem.tail _ (List.Mem.tail _ (List.Mem.tail _ (List.Mem.tail _ (List.Mem.head _)))))))),
        (h c Cert.ReferenceIdeal.main_arg7).trans (Cert.ReferenceIdeal.RefChain.arg_kept m' c Cert.ReferenceIdeal.main_arg7 (List.Mem.tail _ (List.Mem.tail _ (List.Mem.tail _ (List.Mem.tail _ (List.Mem.tail _ (List.Mem.tail _ (List.Mem.tail _ (List.Mem.head _))))))))),
        (h c Cert.ReferenceIdeal.main_arg8).trans (Cert.ReferenceIdeal.RefChain.arg_kept m' c Cert.ReferenceIdeal.main_arg8 (List.Mem.tail _ (List.Mem.tail _ (List.Mem.tail _ (List.Mem.tail _ (List.Mem.tail _ (List.Mem.tail _ (List.Mem.tail _ (List.Mem.tail _ (List.Mem.head _)))))))))),
        (h c Cert.ReferenceIdeal.main_arg9).trans (Cert.ReferenceIdeal.RefChain.arg_kept m' c Cert.ReferenceIdeal.main_arg9 (List.Mem.tail _ (List.Mem.tail _ (List.Mem.tail _ (List.Mem.tail _ (List.Mem.tail _ (List.Mem.tail _ (List.Mem.tail _ (List.Mem.tail _ (List.Mem.tail _ (List.Mem.head _))))))))))),
        (h c Cert.ReferenceIdeal.main_arg10).trans (Cert.ReferenceIdeal.RefChain.arg_kept m' c Cert.ReferenceIdeal.main_arg10 (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))),
        (h c Cert.ReferenceIdeal.main_arg11).trans (Cert.ReferenceIdeal.RefChain.arg_kept m' c Cert.ReferenceIdeal.main_arg11 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))),
        (h c Cert.ReferenceIdeal.main_arg12).trans (Cert.ReferenceIdeal.RefChain.arg_kept m' c Cert.ReferenceIdeal.main_arg12 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))),
        (h c Cert.ReferenceIdeal.main_arg13).trans (Cert.ReferenceIdeal.RefChain.arg_kept m' c Cert.ReferenceIdeal.main_arg13 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))),
        (h c Cert.ReferenceIdeal.main_arg14).trans (Cert.ReferenceIdeal.RefChain.arg_kept m' c Cert.ReferenceIdeal.main_arg14 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))),
        (h c Cert.ReferenceIdeal.main_arg15).trans (Cert.ReferenceIdeal.RefChain.arg_kept m' c Cert.ReferenceIdeal.main_arg15 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))),
        (h c Cert.ReferenceIdeal.main_arg16).trans (Cert.ReferenceIdeal.RefChain.arg_kept m' c Cert.ReferenceIdeal.main_arg16 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))),
        (h c Cert.ReferenceIdeal.main_arg17).trans (Cert.ReferenceIdeal.RefChain.arg_kept m' c Cert.ReferenceIdeal.main_arg17 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))),
        (h c Cert.ReferenceIdeal.main_arg18).trans (Cert.ReferenceIdeal.RefChain.arg_kept m' c Cert.ReferenceIdeal.main_arg18 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))),
        (h c Cert.ReferenceIdeal.main_arg19).trans (Cert.ReferenceIdeal.RefChain.arg_kept m' c Cert.ReferenceIdeal.main_arg19 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))⟩)
      (Cert.ReferenceIdeal.ValueP.run (F := Ideal) m' ρ')
    refine (h c Cert.ReferenceIdeal.main_v178).trans ((Cert.ReferenceIdeal.RefChain.result m' c).trans ?_)
    have e0 : Cert.ReferenceIdeal.RefChain.arr0 (F := Ideal) m' c = Cert.KernelIdeal.Net.arr0 m c := (hagree c).1
    have e1 : Cert.ReferenceIdeal.RefChain.arr1 (F := Ideal) m' c = Cert.KernelIdeal.Net.arr1 m c := (hagree c).2.1
    have e2 : Cert.ReferenceIdeal.RefChain.arr2 (F := Ideal) m' c = Cert.KernelIdeal.Net.arr2 m c := (hagree c).2.2.1
    have e3 : Cert.ReferenceIdeal.RefChain.arr3 (F := Ideal) m' c = Cert.KernelIdeal.Net.arr3 m c := (hagree c).2.2.2.1
    have e4 : Cert.ReferenceIdeal.RefChain.arr4 (F := Ideal) m' c = Cert.KernelIdeal.Net.arr4 m c := (hagree c).2.2.2.2.1
    have e5 : Cert.ReferenceIdeal.RefChain.arr5 (F := Ideal) m' c = Cert.KernelIdeal.Net.arr5 m c := (hagree c).2.2.2.2.2.1
    have e6 : Cert.ReferenceIdeal.RefChain.arr6 (F := Ideal) m' c = Cert.KernelIdeal.Net.arr6 m c := (hagree c).2.2.2.2.2.2.1
    have e7 : Cert.ReferenceIdeal.RefChain.arr7 (F := Ideal) m' c = Cert.KernelIdeal.Net.arr7 m c := (hagree c).2.2.2.2.2.2.2.1
    have e8 : Cert.ReferenceIdeal.RefChain.arr8 (F := Ideal) m' c = Cert.KernelIdeal.Net.arr8 m c := (hagree c).2.2.2.2.2.2.2.2.1
    have e9 : Cert.ReferenceIdeal.RefChain.arr9 (F := Ideal) m' c = Cert.KernelIdeal.Net.arr9 m c := (hagree c).2.2.2.2.2.2.2.2.2.1
    have e10 : Cert.ReferenceIdeal.RefChain.arr10 (F := Ideal) m' c = Cert.KernelIdeal.Net.arr10 m c := (hagree c).2.2.2.2.2.2.2.2.2.2.1
    have e11 : Cert.ReferenceIdeal.RefChain.arr11 (F := Ideal) m' c = Cert.KernelIdeal.Net.arr11 m c := (hagree c).2.2.2.2.2.2.2.2.2.2.2.1
    have e12 : Cert.ReferenceIdeal.RefChain.arr12 (F := Ideal) m' c = Cert.KernelIdeal.Net.arr12 m c := (hagree c).2.2.2.2.2.2.2.2.2.2.2.2.1
    have e13 : Cert.ReferenceIdeal.RefChain.arr13 (F := Ideal) m' c = Cert.KernelIdeal.Net.arr13 m c := (hagree c).2.2.2.2.2.2.2.2.2.2.2.2.2.1
    have e14 : Cert.ReferenceIdeal.RefChain.arr14 (F := Ideal) m' c = Cert.KernelIdeal.Net.arr14 m c := (hagree c).2.2.2.2.2.2.2.2.2.2.2.2.2.2.1
    have e15 : Cert.ReferenceIdeal.RefChain.arr15 (F := Ideal) m' c = Cert.KernelIdeal.Net.arr15 m c := (hagree c).2.2.2.2.2.2.2.2.2.2.2.2.2.2.2.1
    have e16 : Cert.ReferenceIdeal.RefChain.arr16 (F := Ideal) m' c = Cert.KernelIdeal.Net.arr16 m c := (hagree c).2.2.2.2.2.2.2.2.2.2.2.2.2.2.2.2.1
    have e17 : Cert.ReferenceIdeal.RefChain.arr17 (F := Ideal) m' c = Cert.KernelIdeal.Net.arr17 m c := (hagree c).2.2.2.2.2.2.2.2.2.2.2.2.2.2.2.2.2.1
    have e18 : Cert.ReferenceIdeal.RefChain.arr18 (F := Ideal) m' c = Cert.KernelIdeal.Net.arr18 m c := (hagree c).2.2.2.2.2.2.2.2.2.2.2.2.2.2.2.2.2.2.1
    have e19 : Cert.ReferenceIdeal.RefChain.arr19 (F := Ideal) m' c = Cert.KernelIdeal.Net.arr19 m c := (hagree c).2.2.2.2.2.2.2.2.2.2.2.2.2.2.2.2.2.2.2
    rw [e0, e1, e2, e3, e4, e5, e6, e7, e8, e9, e10, e11, e12, e13, e14, e15, e16, e17, e18, e19]
    exact (Cert.NetEq.net_eq _ _ _ _ _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
